-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S32x1 : Shape := ⟨2, ![32, 1]⟩
abbrev S35x64 : Shape := ⟨2, ![35, 64]⟩
abbrev S64 : Shape := ⟨1, ![64]⟩
abbrev S64x64 : Shape := ⟨2, ![64, 64]⟩
abbrev S99x64 : Shape := ⟨2, ![99, 64]⟩
abbrev S64x4 : Shape := ⟨2, ![64, 4]⟩
abbrev S4 : Shape := ⟨1, ![4]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel
  bcast_S_S32x1 : S_.BroadcastsInDim S32x1 (![] : Fin 0 → Fin S32x1.rank)
  reducesTo_S32x1_S_d0_1 : S32x1.ReducesTo [0, 1] S_
  bcast_S_S35x64 : S_.BroadcastsInDim S35x64 (![] : Fin 0 → Fin S35x64.rank)
  reducesTo_S35x64_S_d0_1 : S35x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S99x64 : S_.BroadcastsInDim S99x64 (![] : Fin 0 → Fin S99x64.rank)
  reducesTo_S99x64_S_d0_1 : S99x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg11 : FVec F S4 .f32) (main_v48 : IVec S_ 1) (main_v49 : FVec F S64x4 .f32) (main_v50 : FVec F S64x4 .f32) : IVec S_ 1 :=
  let main_v51 : IVec S64x4 1 := cmpf .olt main_v49 main_v50
  let main_c_19 : IVec S_ 1 := constantI S_ 1 1#1
  let main_v52 : IVec S_ 1 := (fun x v => Host.reduce IntOp.andi x v reducesTo_S64x4_S_d0_1 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x4 .f32) (main_arg11 : FVec F S4 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x4 .f32 := Host.absf main_arg10
  let main_cst_18 : FVec F S_ .f32 := constant S_ .f32 0x7F800000#32
  let main_v50 : FVec F S64x4 .f32 := broadcastInDim S64x4 ![] bcast_S_S64x4 main_cst_18
  fn_part3 (F := F) main_arg11 main_v48 main_v49 main_v50

def fn_part1 {F : FTy → Type} [FloatOps F] (main_arg4 : FVec F S64x64 .f32) (main_arg5 : FVec F S64 .f32) (main_arg6 : FVec F S99x64 .f32) (main_arg7 : FVec F S64 .f32) (main_arg8 : FVec F S64x64 .f32) (main_arg9 : FVec F S64 .f32) (main_arg10 : FVec F S64x4 .f32) (main_arg11 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S99x64 .f32 := Host.absf main_arg6
  let main_cst_10 : FVec F S_ .f32 := constant S_ .f32 0x7F800000#32
  let main_v30 : FVec F S99x64 .f32 := broadcastInDim S99x64 ![] bcast_S_S99x64 main_cst_10
  let main_v31 : IVec S99x64 1 := cmpf .olt main_v29 main_v30
  let main_c_11 : IVec S_ 1 := constantI S_ 1 1#1
  let main_v32 : IVec S_ 1 := (fun x v => Host.reduce IntOp.andi x v reducesTo_S99x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1x1024x1024 .f32) (main_arg1 : FVec F S32x1 .f32) (main_arg2 : FVec F S35x64 .f32) (main_arg3 : FVec F S64 .f32) (main_arg4 : FVec F S64x64 .f32) (main_arg5 : FVec F S64 .f32) (main_arg6 : FVec F S99x64 .f32) (main_arg7 : FVec F S64 .f32) (main_arg8 : FVec F S64x64 .f32) (main_arg9 : FVec F S64 .f32) (main_arg10 : FVec F S64x4 .f32) (main_arg11 : FVec F S4 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1 .f32 := Host.absf main_arg1
  let main_cst_0 : FVec F S_ .f32 := constant S_ .f32 0x7F800000#32
  let main_v5 : FVec F S32x1 .f32 := broadcastInDim S32x1 ![] bcast_S_S32x1 main_cst_0
  let main_v6 : IVec S32x1 1 := cmpf .olt main_v4 main_v5
  let main_c_1 : IVec S_ 1 := constantI S_ 1 1#1
  let main_v7 : IVec S_ 1 := (fun x v => Host.reduce IntOp.andi x v reducesTo_S32x1_S_d0_1 h_S_) main_v6 main_c_1
  let main_v8 : IVec S_ 1 := andi main_v3 main_v7
  let main_v9 : FVec F S35x64 .f32 := Host.absf main_arg2
  let main_cst_2 : FVec F S_ .f32 := constant S_ .f32 0x7F800000#32
  let main_v10 : FVec F S35x64 .f32 := broadcastInDim S35x64 ![] bcast_S_S35x64 main_cst_2
  let main_v11 : IVec S35x64 1 := cmpf .olt main_v9 main_v10
  let main_c_3 : IVec S_ 1 := constantI S_ 1 1#1
  let main_v12 : IVec S_ 1 := (fun x v => Host.reduce IntOp.andi x v reducesTo_S35x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S32x1x1024x1024 : Shape := ⟨4, ![32, 1, 1024, 1024]⟩
abbrev S32x1 : Shape := ⟨2, ![32, 1]⟩
abbrev S35x64 : Shape := ⟨2, ![35, 64]⟩
abbrev S64 : Shape := ⟨1, ![64]⟩
abbrev S64x64 : Shape := ⟨2, ![64, 64]⟩
abbrev S99x64 : Shape := ⟨2, ![99, 64]⟩
abbrev S64x4 : Shape := ⟨2, ![64, 4]⟩
abbrev S4 : Shape := ⟨1, ![4]⟩
abbrev S32x1024x1024 : Shape := ⟨3, ![32, 1024, 1024]⟩
abbrev S16x64x1024 : Shape := ⟨3, ![16, 64, 1024]⟩
abbrev S16x1 : Shape := ⟨2, ![16, 1]⟩
abbrev S16x64 : Shape := ⟨2, ![16, 64]⟩
abbrev S16 : Shape := ⟨1, ![16]⟩
abbrev S32x32 : Shape := ⟨2, ![32, 32]⟩
abbrev S16x32x1024 : Shape := ⟨3, ![16, 32, 1024]⟩
abbrev S16x32 : Shape := ⟨2, ![16, 32]⟩
abbrev S16x1x1 : Shape := ⟨3, ![16, 1, 1]⟩
abbrev S_ : Shape := ⟨0, ![]⟩
abbrev S32 : Shape := ⟨1, ![32]⟩
abbrev S32x34 : Shape := ⟨2, ![32, 34]⟩
abbrev S32x35 : Shape := ⟨2, ![32, 35]⟩
abbrev S32x64 : Shape := ⟨2, ![32, 64]⟩
abbrev S1x64 : Shape := ⟨2, ![1, 64]⟩
abbrev S32x99 : Shape := ⟨2, ![32, 99]⟩
abbrev S32x4 : Shape := ⟨2, ![32, 4]⟩
abbrev S1x4 : Shape := ⟨2, ![1, 4]⟩
abbrev S32x32x1024 : Shape := ⟨3, ![32, 32, 1024]⟩
abbrev S32x1x1 : Shape := ⟨3, ![32, 1, 1]⟩

abbrev nBuf : Space → Nat
  | .hbm => 86
  | .vmem => 17
  | .smem => 0
  | _ => 0

abbrev bufTy : (tb : Table) → Fin (tcTables nBuf tb) → BufTy
  | .hbm, ⟨0, _⟩ => ⟨S32x1x1024x1024, .f32⟩
  | .hbm, ⟨1, _⟩ => ⟨S32x1, .f32⟩
  | .hbm, ⟨2, _⟩ => ⟨S35x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S99x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x4, .f32⟩
  | .hbm, ⟨11, _⟩ => ⟨S4, .f32⟩
  | .hbm, ⟨12, _⟩ => ⟨S32x1024x1024, .f32⟩
  | .hbm, ⟨13, _⟩ => ⟨S32x1, .f32⟩
  | .hbm, ⟨14, _⟩ => ⟨S32x1, .f32⟩
  | .hbm, ⟨15, _⟩ => ⟨S32x32, .f32⟩
  | .hbm, ⟨16, _⟩ => ⟨S_, .f32⟩
  | .hbm, ⟨17, _⟩ => ⟨S32, .f32⟩
  | .hbm, ⟨18, _⟩ => ⟨S32x1, .f32⟩
  | .hbm, ⟨19, _⟩ => ⟨S32x32, .f32⟩
  | .hbm, ⟨20, _⟩ => ⟨S32x32, .f32⟩
  | .hbm, ⟨21, _⟩ => ⟨S32x34, .f32⟩
  | .hbm, ⟨22, _⟩ => ⟨S32x35, .f32⟩
  | .hbm, ⟨23, _⟩ => ⟨S32x64, .f32⟩
  | .hbm, ⟨24, _⟩ => ⟨S1x64, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S_, .f32⟩
  | .hbm, ⟨29, _⟩ => ⟨S32x64, .f32⟩
  | .hbm, ⟨30, _⟩ => ⟨S32x64, .i1⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S1x64, .f32⟩
  | .hbm, ⟨37, _⟩ => ⟨S32x64, .f32⟩
  | .hbm, ⟨38, _⟩ => ⟨S32x64, .f32⟩
  | .hbm, ⟨39, _⟩ => ⟨S_, .f32⟩
  | .hbm, ⟨40, _⟩ => ⟨S_, .f32⟩
  | .hbm, ⟨41, _⟩ => ⟨S32x64, .f32⟩
  | .hbm, ⟨42, _⟩ => ⟨S32x64, .i1⟩
  | .hbm, ⟨43, _⟩ => ⟨S_, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x99, .f32⟩
  | .hbm, ⟨48, _⟩ => ⟨S32x64, .f32⟩
  | .hbm, ⟨49, _⟩ => ⟨S1x64, .f32⟩
  | .hbm, ⟨50, _⟩ => ⟨S32x64, .f32⟩
  | .hbm, ⟨51, _⟩ => ⟨S32x64, .f32⟩
  | .hbm, ⟨52, _⟩ => ⟨S_, .f32⟩
  | .hbm, ⟨53, _⟩ => ⟨S_, .f32⟩
  | .hbm, ⟨54, _⟩ => ⟨S32x64, .f32⟩
  | .hbm, ⟨55, _⟩ => ⟨S32x64, .i1⟩
  | .hbm, ⟨56, _⟩ => ⟨S_, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x64, .f32⟩
  | .hbm, ⟨61, _⟩ => ⟨S1x64, .f32⟩
  | .hbm, ⟨62, _⟩ => ⟨S32x64, .f32⟩
  | .hbm, ⟨63, _⟩ => ⟨S32x64, .f32⟩
  | .hbm, ⟨64, _⟩ => ⟨S_, .f32⟩
  | .hbm, ⟨65, _⟩ => ⟨S_, .f32⟩
  | .hbm, ⟨66, _⟩ => ⟨S32x64, .f32⟩
  | .hbm, ⟨67, _⟩ => ⟨S32x64, .i1⟩
  | .hbm, ⟨68, _⟩ => ⟨S_, .f32⟩
  | .hbm, ⟨69, _⟩ => ⟨S32x64, .f32⟩
  | .hbm, ⟨70, _⟩ => ⟨S32x64, .f32⟩
  | .hbm, ⟨71, _⟩ => ⟨S32x64, .f32⟩
  | .hbm, ⟨72, _⟩ => ⟨S32x4, .f32⟩
  | .hbm, ⟨73, _⟩ => ⟨S1x4, .f32⟩
  | .hbm, ⟨74, _⟩ => ⟨S32x4, .f32⟩
  | .hbm, ⟨75, _⟩ => ⟨S32x4, .f32⟩
  | .hbm, ⟨76, _⟩ => ⟨S_, .f32⟩
  | .hbm, ⟨77, _⟩ => ⟨S_, .f32⟩
  | .hbm, ⟨78, _⟩ => ⟨S32x4, .f32⟩
  | .hbm, ⟨79, _⟩ => ⟨S32x4, .i1⟩
  | .hbm, ⟨80, _⟩ => ⟨S_, .f32⟩
  | .hbm, ⟨81, _⟩ => ⟨S32x4, .f32⟩
  | .hbm, ⟨82, _⟩ => ⟨S32x4, .f32⟩
  | .hbm, ⟨83, _⟩ => ⟨S32x4, .f32⟩
  | .hbm, ⟨84, _⟩ => ⟨S32x1024x1024, .f32⟩
  | .hbm, ⟨85, _⟩ => ⟨S32x1x1024x1024, .f32⟩
  | .local _ .vmem, ⟨0, _⟩ => ⟨S16x64x1024, .f32⟩
  | .local _ .vmem, ⟨1, _⟩ => ⟨S16x64x1024, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S16x32x1024, .f32⟩
  | .local _ .vmem, ⟨7, _⟩ => ⟨S16x32x1024, .f32⟩
  | .local _ .vmem, ⟨8, _⟩ => ⟨S16x1, .f32⟩
  | .local _ .vmem, ⟨9, _⟩ => ⟨S16x1, .f32⟩
  | .local _ .vmem, ⟨10, _⟩ => ⟨S16x32, .f32⟩
  | .local _ .vmem, ⟨11, _⟩ => ⟨S16x32, .f32⟩
  | .local _ .vmem, ⟨12, _⟩ => ⟨S32x32x1024, .f32⟩
  | .local _ .vmem, ⟨13, _⟩ => ⟨S32x32x1024, .f32⟩
  | .local _ .vmem, ⟨14, _⟩ => ⟨S32x4, .f32⟩
  | .local _ .vmem, ⟨15, _⟩ => ⟨S32x32x1024, .f32⟩
  | .local _ .vmem, ⟨16, _⟩ => ⟨S32x32x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_4 : Ref sig .tc := ⟨.hbm, 76, rfl⟩
abbrev main_call4_cst : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S16x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S32x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x32x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S32x1x1024x1024_S32x1024x1024 : S32x1x1024x1024.ShapeCasts S32x1024x1024
  inb_S16x1_S16x1_0_0 : ∀ a, (![0, 0] : Fin 2 → Nat) a + S16x1.size a ≤ S16x1.size a
  h_S16x1 : 0 < S16x1.numel
  inb_S16x64x1024_S16x64x1024_0_0_0 : ∀ a, (![0, 0, 0] : Fin 3 → Nat) a + S16x64x1024.size a ≤ S16x64x1024.size a
  h_S16x64x1024 : 0 < S16x64x1024.numel
  shapeCasts_S16x64x1024_S16x64x1024 : S16x64x1024.ShapeCasts S16x64x1024
  reduces_S16x64x1024_S16x64 : S16x64x1024.Reduces [2] S16x64
  reduces_S16x64_S16 : S16x64.Reduces [1] S16
  shapeCasts_S16x1_S16x1 : S16x1.ShapeCasts S16x1
  shapeCasts_S16_S16x1 : S16.ShapeCasts S16x1
  inb_S16x32_S16x32_0_0 : ∀ a, (![0, 0] : Fin 2 → Nat) a + S16x32.size a ≤ S16x32.size a
  h_S16x32 : 0 < S16x32.numel
  inb_S16x32x1024_S16x32x1024_0_0_0 : ∀ a, (![0, 0, 0] : Fin 3 → Nat) a + S16x32x1024.size a ≤ S16x32x1024.size a
  h_S16x32x1024 : 0 < S16x32x1024.numel
  shapeCasts_S16x32x1024_S16x32x1024 : S16x32x1024.ShapeCasts S16x32x1024
  shapeCasts_S16x1_S16x1x1 : S16x1.ShapeCasts S16x1x1
  broadcasts_S16x1x1_S16x32x1024 : S16x1x1.Broadcasts S16x32x1024
  natLt_1_32 : 1 < 32
  reduces_S16x32x1024_S16x32 : S16x32x1024.Reduces [2] S16x32
  reduces_S16x32_S16 : S16x32.Reduces [1] S16
  concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x32_d1 : Shape.Concatenates [S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1] S16x32 1
  shapeCasts_S16x32_S16x32 : S16x32.ShapeCasts S16x32
  reducesTo_S32x32_S32_d1 : S32x32.ReducesTo [1] S32
  h_S_ : 0 < S_.numel
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  concatenates_S32x32_S32x1_S32x1_S32x34_d1 : Shape.Concatenates [S32x32, S32x1, S32x1] S32x34 1
  concatenates_S32x34_S32x1_S32x35_d1 : Shape.Concatenates [S32x34, S32x1] S32x35 1
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  concatenates_S32x64_S32x35_S32x99_d1 : Shape.Concatenates [S32x64, S32x35] S32x99 1
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)
  inb_S32x32x1024_S32x32x1024_0_0_0 : ∀ a, (![0, 0, 0] : Fin 3 → Nat) a + S32x32x1024.size a ≤ S32x32x1024.size a
  h_S32x32x1024 : 0 < S32x32x1024.numel
  shapeCasts_S32x32x1024_S32x32x1024 : S32x32x1024.ShapeCasts S32x32x1024
  inb_S32x4_S32x4_0_0 : ∀ a, (![0, 0] : Fin 2 → Nat) a + S32x4.size a ≤ S32x4.size a
  h_S32x4 : 0 < S32x4.numel
  shapeCasts_S32x4_S32x4 : S32x4.ShapeCasts S32x4
  slices_S32x4_o0_0_S32x1 : S32x4.Slices ![0, 0] S32x1
  shapeCasts_S32x1_S32 : S32x1.ShapeCasts S32
  shapeCasts_S32_S32x1x1 : S32.ShapeCasts S32x1x1
  broadcasts_S32x1x1_S32x32x1024 : S32x1x1.Broadcasts S32x32x1024
  slices_S32x4_o0_1_S32x1 : S32x4.Slices ![0, 1] S32x1
  slices_S32x4_o0_2_S32x1 : S32x4.Slices ![0, 2] S32x1
  slices_S32x4_o0_3_S32x1 : S32x4.Slices ![0, 3] S32x1
  shapeCasts_S32x1024x1024_S32x1x1024x1024 : S32x1024x1024.ShapeCasts S32x1x1024x1024
  dot_S32x35_S35x64_S32x64_1_0_0_1_n_n_wf : DotDims.WF S32x35 S35x64 S32x64 [1] [0] [0] [1] [] []
  dot_S32x64_S64x64_S32x64_1_0_0_1_n_n_wf : DotDims.WF S32x64 S64x64 S32x64 [1] [0] [0] [1] [] []
  dot_S32x99_S99x64_S32x64_1_0_0_1_n_n_wf : DotDims.WF S32x99 S99x64 S32x64 [1] [0] [0] [1] [] []
  dot_S32x64_S64x4_S32x4_1_0_0_1_n_n_wf : DotDims.WF S32x64 S64x4 S32x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x1024.size a ≤ S32x1024x1024.size a
  hwx0_0 : ∀ i : grid0.Coords, EltTy.bits .f32 = 32 ∨ (Rect.block (s := S32x1024x1024) S16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S32x1.size a
  hwx0_1 : ∀ i : grid0.Coords, EltTy.bits .f32 = 32 ∨ (Rect.block (s := S32x1) S16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S32x1.size a
  hwx0_2 : ∀ i : grid0.Coords, EltTy.bits .f32 = 32 ∨ (Rect.block (s := S32x1) S16x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32x1024.size a ≤ S32x1024x1024.size a
  hwx1_0 : ∀ i : grid1.Coords, EltTy.bits .f32 = 32 ∨ (Rect.block (s := S32x1024x1024) S16x32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S32x1.size a
  hwx1_1 : ∀ i : grid1.Coords, EltTy.bits .f32 = 32 ∨ (Rect.block (s := S32x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S32x1.size a
  hwx1_2 : ∀ i : grid1.Coords, EltTy.bits .f32 = 32 ∨ (Rect.block (s := S32x1) S16x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x32.size a ≤ S32x32.size a
  hwx1_3 : ∀ i : grid1.Coords, EltTy.bits .f32 = 32 ∨ (Rect.block (s := S32x32) S16x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x32x1024.size a ≤ S32x1024x1024.size a
  hwx2_0 : ∀ i : grid2.Coords, EltTy.bits .f32 = 32 ∨ (Rect.block (s := S32x1024x1024) S32x32x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x4.size a ≤ S32x4.size a
  hwx2_1 : ∀ i : grid2.Coords, EltTy.bits .f32 = 32 ∨ (Rect.block (s := S32x4) S32x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x32x1024.size a ≤ S32x1024x1024.size a
  hwx2_2 : ∀ i : grid2.Coords, EltTy.bits .f32 = 32 ∨ (Rect.block (s := S32x1024x1024) S32x32x1024.size (cc2_transform_2 i) (hinb2_2 i)).WholeWords (EltTy.packing .f32)

variable [Facts₀]

def dot_S32x35_S35x64_S32x64_1_0_0_1_n_n : DotDims S32x35 S35x64 S32x64 where
  lhsContracting := [1]
  rhsContracting := [0]
  lhsNonContracting := [0]
  rhsNonContracting := [1]
  lhsBatch := []
  rhsBatch := []
  wf := dot_S32x35_S35x64_S32x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x99_S99x64_S32x64_1_0_0_1_n_n : DotDims S32x99 S99x64 S32x64 where
  lhsContracting := [1]
  rhsContracting := [0]
  lhsNonContracting := [0]
  rhsNonContracting := [1]
  lhsBatch := []
  rhsBatch := []
  wf := dot_S32x99_S99x64_S32x64_1_0_0_1_n_n_wf
def dot_S32x64_S64x4_S32x4_1_0_0_1_n_n : DotDims S32x64 S64x4 S32x4 where
  lhsContracting := [1]
  rhsContracting := [0]
  lhsNonContracting := [0]
  rhsNonContracting := [1]
  lhsBatch := []
  rhsBatch := []
  wf := dot_S32x64_S64x4_S32x4_1_0_0_1_n_n_wf

abbrev win0_0 : Pipeline.Window sig grid0 :=
  Pipeline.Window.ofSpec (Memref.whole main_v0) S16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S16x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S16x32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S16x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S32x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S32x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S32x32x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  halias2_2 : Pipeline.Aliased win2 0 2

variable [Facts]
-- ==== ReferenceIdeal.lean ====
abbrev S32x1x1024x1024 : Shape := ⟨4, ![32, 1, 1024, 1024]⟩
abbrev S32x1 : Shape := ⟨2, ![32, 1]⟩
abbrev S35x64 : Shape := ⟨2, ![35, 64]⟩
abbrev S64 : Shape := ⟨1, ![64]⟩
abbrev S64x64 : Shape := ⟨2, ![64, 64]⟩
abbrev S99x64 : Shape := ⟨2, ![99, 64]⟩
abbrev S64x4 : Shape := ⟨2, ![64, 4]⟩
abbrev S4 : Shape := ⟨1, ![4]⟩
abbrev S32x1048576 : Shape := ⟨2, ![32, 1048576]⟩
abbrev S_ : Shape := ⟨0, ![]⟩
abbrev S32 : Shape := ⟨1, ![32]⟩
abbrev S33554432 : Shape := ⟨1, ![33554432]⟩
abbrev S1024 : Shape := ⟨1, ![1024]⟩
abbrev S33554432x1 : Shape := ⟨2, ![33554432, 1]⟩
abbrev S32x32 : Shape := ⟨2, ![32, 32]⟩
abbrev S32x34 : Shape := ⟨2, ![32, 34]⟩
abbrev S32x35 : Shape := ⟨2, ![32, 35]⟩
abbrev S32x64 : Shape := ⟨2, ![32, 64]⟩
abbrev S1x64 : Shape := ⟨2, ![1, 64]⟩
abbrev S32x99 : Shape := ⟨2, ![32, 99]⟩
abbrev S32x4 : Shape := ⟨2, ![32, 4]⟩
abbrev S1x4 : Shape := ⟨2, ![1, 4]⟩
abbrev S32x1x1x1 : Shape := ⟨4, ![32, 1, 1, 1]⟩

abbrev nBuf : Space → Nat
  | .hbm => 165
  | .vmem => 0
  | .smem => 0
  | _ => 0

abbrev hbmTy0_0 (i : Nat) : BufTy := match i % 128 with
  | 0 => ⟨S32x1x1024x1024, .f32⟩
  | 1 => ⟨S32x1, .f32⟩
  | 2 => ⟨S35x64, .f32⟩
  | 3 => ⟨S64, .f32⟩
  | 4 => ⟨S64x64, .f32⟩
  | 5 => ⟨S64, .f32⟩
  | 6 => ⟨S99x64, .f32⟩
  | 7 => ⟨S64, .f32⟩
  | 8 => ⟨S64x64, .f32⟩
  | 9 => ⟨S64, .f32⟩
  | 10 => ⟨S64x4, .f32⟩
  | 11 => ⟨S4, .f32⟩
  | 12 => ⟨S32x1048576, .f32⟩
  | 13 => ⟨S_, .f32⟩
  | 14 => ⟨S32, .f32⟩
  | 15 => ⟨S32x1, .f32⟩
  | 16 => ⟨S_, .f32⟩
  | 17 => ⟨S32, .f32⟩
  | 18 => ⟨S32x1, .f32⟩
  | 19 => ⟨S32x1, .f32⟩
  | 20 => ⟨S_, .f32⟩
  | 21 => ⟨S32x1, .f32⟩
  | 22 => ⟨S32x1, .i1⟩
  | 23 => ⟨S_, .f32⟩
  | 24 => ⟨S32x1, .f32⟩
  | 25 => ⟨S32x1, .f32⟩
  | 26 => ⟨S32x1048576, .f32⟩
  | 27 => ⟨S32x1048576, .f32⟩
  | 28 => ⟨S32x1048576, .f32⟩
  | 29 => ⟨S32x1048576, .f32⟩
  | 30 => ⟨S_, .f32⟩
  | 31 => ⟨S32x1048576, .f32⟩
  | 32 => ⟨S32x1048576, .f32⟩
  | 33 => ⟨S32x1048576, .f32⟩
  | 34 => ⟨S32x1048576, .i32⟩
  | 35 => ⟨S_, .i32⟩
  | 36 => ⟨S_, .i32⟩
  | 37 => ⟨S_, .i32⟩
  | 38 => ⟨S32x1048576, .i32⟩
  | 39 => ⟨S32x1048576, .i32⟩
  | 40 => ⟨S_, .i32⟩
  | 41 => ⟨S32x1048576, .i32⟩
  | 42 => ⟨S32x1048576, .i32⟩
  | 43 => ⟨S32, .i32⟩
  | 44 => ⟨S32x1, .i32⟩
  | 45 => ⟨S_, .i32⟩
  | 46 => ⟨S32x1, .i32⟩
  | 47 => ⟨S32x1, .i32⟩
  | 48 => ⟨S32x1048576, .i32⟩
  | 49 => ⟨S32x1048576, .i32⟩
  | 50 => ⟨S33554432, .i32⟩
  | 51 => ⟨S_, .f32⟩
  | 52 => ⟨S1024, .f32⟩
  | 53 => ⟨S_, .i32⟩
  | 54 => ⟨S33554432, .i32⟩
  | 55 => ⟨S33554432, .i1⟩
  | 56 => ⟨S_, .i32⟩
  | 57 => ⟨S33554432, .i32⟩
  | 58 => ⟨S33554432, .i32⟩
  | 59 => ⟨S33554432, .i32⟩
  | 60 => ⟨S33554432x1, .i32⟩
  | 61 => ⟨S_, .f32⟩
  | 62 => ⟨S33554432, .f32⟩
  | 63 => ⟨S1024, .f32⟩
  | 64 => ⟨S32x32, .f32⟩
  | 65 => ⟨S_, .f32⟩
  | 66 => ⟨S32, .f32⟩
  | 67 => ⟨S32x1, .f32⟩
  | 68 => ⟨S32x32, .f32⟩
  | 69 => ⟨S32x32, .f32⟩
  | 70 => ⟨S32x34, .f32⟩
  | 71 => ⟨S32x35, .f32⟩
  | 72 => ⟨S32x64, .f32⟩
  | 73 => ⟨S1x64, .f32⟩
  | 74 => ⟨S32x64, .f32⟩
  | 75 => ⟨S32x64, .f32⟩
  | 76 => ⟨S_, .f32⟩
  | 77 => ⟨S_, .f32⟩
  | 78 => ⟨S32x64, .f32⟩
  | 79 => ⟨S32x64, .i1⟩
  | 80 => ⟨S_, .f32⟩
  | 81 => ⟨S32x64, .f32⟩
  | 82 => ⟨S32x64, .f32⟩
  | 83 => ⟨S32x64, .f32⟩
  | 84 => ⟨S32x64, .f32⟩
  | 85 => ⟨S1x64, .f32⟩
  | 86 => ⟨S32x64, .f32⟩
  | 87 => ⟨S32x64, .f32⟩
  | 88 => ⟨S_, .f32⟩
  | 89 => ⟨S_, .f32⟩
  | 90 => ⟨S32x64, .f32⟩
  | 91 => ⟨S32x64, .i1⟩
  | 92 => ⟨S_, .f32⟩
  | 93 => ⟨S32x64, .f32⟩
  | 94 => ⟨S32x64, .f32⟩
  | 95 => ⟨S32x64, .f32⟩
  | 96 => ⟨S32x99, .f32⟩
  | 97 => ⟨S32x64, .f32⟩
  | 98 => ⟨S1x64, .f32⟩
  | 99 => ⟨S32x64, .f32⟩
  | 100 => ⟨S32x64, .f32⟩
  | 101 => ⟨S_, .f32⟩
  | 102 => ⟨S_, .f32⟩
  | 103 => ⟨S32x64, .f32⟩
  | 104 => ⟨S32x64, .i1⟩
  | 105 => ⟨S_, .f32⟩
  | 106 => ⟨S32x64, .f32⟩
  | 107 => ⟨S32x64, .f32⟩
  | 108 => ⟨S32x64, .f32⟩
  | 109 => ⟨S32x64, .f32⟩
  | 110 => ⟨S1x64, .f32⟩
  | 111 => ⟨S32x64, .f32⟩
  | 112 => ⟨S32x64, .f32⟩
  | 113 => ⟨S_, .f32⟩
  | 114 => ⟨S_, .f32⟩
  | 115 => ⟨S32x64, .f32⟩
  | 116 => ⟨S32x64, .i1⟩
  | 117 => ⟨S_, .f32⟩
  | 118 => ⟨S32x64, .f32⟩
  | 119 => ⟨S32x64, .f32⟩
  | 120 => ⟨S32x64, .f32⟩
  | 121 => ⟨S32x4, .f32⟩
  | 122 => ⟨S1x4, .f32⟩
  | 123 => ⟨S32x4, .f32⟩
  | 124 => ⟨S32x4, .f32⟩
  | 125 => ⟨S_, .f32⟩
  | 126 => ⟨S_, .f32⟩
  | 127 => ⟨S32x4, .f32⟩
  | _ => ⟨S32x1x1024x1024, .f32⟩

abbrev hbmTy0_1 (i : Nat) : BufTy := match i % 128 with
  | 0 => ⟨S32x4, .i1⟩
  | 1 => ⟨S_, .f32⟩
  | 2 => ⟨S32x4, .f32⟩
  | 3 => ⟨S32x4, .f32⟩
  | 4 => ⟨S32x4, .f32⟩
  | 5 => ⟨S32x1, .f32⟩
  | 6 => ⟨S32, .f32⟩
  | 7 => ⟨S32x1x1x1, .f32⟩
  | 8 => ⟨S32x1x1024x1024, .f32⟩
  | 9 => ⟨S32x1x1024x1024, .f32⟩
  | 10 => ⟨S32x1x1024x1024, .f32⟩
  | 11 => ⟨S32x1x1024x1024, .f32⟩
  | 12 => ⟨S32x1x1024x1024, .f32⟩
  | 13 => ⟨S32x1, .f32⟩
  | 14 => ⟨S32, .f32⟩
  | 15 => ⟨S32x1x1x1, .f32⟩
  | 16 => ⟨S32x1x1024x1024, .f32⟩
  | 17 => ⟨S32x1x1024x1024, .f32⟩
  | 18 => ⟨S32x1x1024x1024, .f32⟩
  | 19 => ⟨S32x1x1024x1024, .f32⟩
  | 20 => ⟨S32x1x1024x1024, .f32⟩
  | 21 => ⟨S32x1, .f32⟩
  | 22 => ⟨S32, .f32⟩
  | 23 => ⟨S32x1x1x1, .f32⟩
  | 24 => ⟨S32x1x1024x1024, .f32⟩
  | 25 => ⟨S32x1x1024x1024, .f32⟩
  | 26 => ⟨S32x1x1024x1024, .f32⟩
  | 27 => ⟨S32x1x1024x1024, .f32⟩
  | 28 => ⟨S32x1x1024x1024, .f32⟩
  | 29 => ⟨S32x1, .f32⟩
  | 30 => ⟨S32, .f32⟩
  | 31 => ⟨S32x1x1x1, .f32⟩
  | 32 => ⟨S32x1x1024x1024, .f32⟩
  | 33 => ⟨S32x1x1024x1024, .f32⟩
  | 34 => ⟨S32x1x1024x1024, .f32⟩
  | 35 => ⟨S32x1x1024x1024, .f32⟩
  | 36 => ⟨S32x1x1024x1024, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_10 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_12 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_13 : Ref sig .tc := ⟨.hbm, 101, rfl⟩
abbrev main_call4_cst : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_14 : Ref sig .tc := ⟨.hbm, 113, rfl⟩
abbrev main_call5_cst : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_15 : Ref sig .tc := ⟨.hbm, 125, rfl⟩
abbrev main_call6_cst : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩

abbrev nD : Nat := 1
abbrev τ : Topo := Topo.v7x

variable {F : FTy → Type} [FloatOps F]

class Facts₀ : Prop where
  shapeCasts_S32x1x1024x1024_S32x1048576 : S32x1x1024x1024.ShapeCasts S32x1048576
  reducesTo_S32x1048576_S32_d1 : S32x1048576.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1048576_0_1 : S32x1.BroadcastsInDim S32x1048576 (![0, 1] : Fin 2 → Fin S32x1048576.rank)
  bcast_S_S32x1048576 : S_.BroadcastsInDim S32x1048576 (![] : Fin 0 → Fin S32x1048576.rank)
  shapeCasts_S32x1048576_S33554432 : S32x1048576.ShapeCasts S33554432
  bcast_S_S1024 : S_.BroadcastsInDim S1024 (![] : Fin 0 → Fin S1024.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S1024_S32x32 : S1024.ShapeCasts S32x32
  reducesTo_S32x32_S32_d1 : S32x32.ReducesTo [1] S32
  bcast_S32x1_S32x32_0_1 : S32x1.BroadcastsInDim S32x32 (![0, 1] : Fin 2 → Fin S32x32.rank)
  concatenates_S32x32_S32x1_S32x1_S32x34_d1 : Shape.Concatenates [S32x32, S32x1, S32x1] S32x34 1
  concatenates_S32x34_S32x1_S32x35_d1 : Shape.Concatenates [S32x34, S32x1] S32x35 1
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  concatenates_S32x64_S32x35_S32x99_d1 : Shape.Concatenates [S32x64, S32x35] S32x99 1
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)
  slices_S32x4_S32x1_0_0 : S32x4.Slices ![0, 0] S32x1
  shapeCasts_S32x1_S32 : S32x1.ShapeCasts S32
  bcast_S32_S32x1x1x1_0 : S32.BroadcastsInDim S32x1x1x1 (![0] : Fin 1 → Fin S32x1x1x1.rank)
  bcast_S32x1x1x1_S32x1x1024x1024_0_1_2_3 : S32x1x1x1.BroadcastsInDim S32x1x1024x1024 (![0, 1, 2, 3] : Fin 4 → Fin S32x1x1024x1024.rank)
  slices_S32x4_S32x1_0_1 : S32x4.Slices ![0, 1] S32x1
  slices_S32x4_S32x1_0_2 : S32x4.Slices ![0, 2] S32x1
  slices_S32x4_S32x1_0_3 : S32x4.Slices ![0, 3] S32x1
  scatter_S1024_S33554432x1_S33554432_n_0_0_1_wf : ScatterDims.WF S1024 S33554432x1 S33554432 [] [0] [0] 1
  dot_S32x35_S35x64_S32x64_1_0_0_1_n_n_wf : DotDims.WF S32x35 S35x64 S32x64 [1] [0] [0] [1] [] []
  dot_S32x64_S64x64_S32x64_1_0_0_1_n_n_wf : DotDims.WF S32x64 S64x64 S32x64 [1] [0] [0] [1] [] []
  dot_S32x99_S99x64_S32x64_1_0_0_1_n_n_wf : DotDims.WF S32x99 S99x64 S32x64 [1] [0] [0] [1] [] []
  dot_S32x64_S64x4_S32x4_1_0_0_1_n_n_wf : DotDims.WF S32x64 S64x4 S32x4 [1] [0] [0] [1] [] []

variable [Facts₀]

def scatter_S1024_S33554432x1_S33554432_n_0_0_1 : ScatterDims S1024 S33554432x1 S33554432 where
  updateWindowDims := []
  insertedWindowDims := [0]
  scatterDimsToOperandDims := [0]
  indexVectorDim := 1
  wf := scatter_S1024_S33554432x1_S33554432_n_0_0_1_wf
def dot_S32x35_S35x64_S32x64_1_0_0_1_n_n : DotDims S32x35 S35x64 S32x64 where
  lhsContracting := [1]
  rhsContracting := [0]
  lhsNonContracting := [0]
  rhsNonContracting := [1]
  lhsBatch := []
  rhsBatch := []
  wf := dot_S32x35_S35x64_S32x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x99_S99x64_S32x64_1_0_0_1_n_n : DotDims S32x99 S99x64 S32x64 where
  lhsContracting := [1]
  rhsContracting := [0]
  lhsNonContracting := [0]
  rhsNonContracting := [1]
  lhsBatch := []
  rhsBatch := []
  wf := dot_S32x99_S99x64_S32x64_1_0_0_1_n_n_wf
def dot_S32x64_S64x4_S32x4_1_0_0_1_n_n : DotDims S32x64 S64x4 S32x4 where
  lhsContracting := [1]
  rhsContracting := [0]
  lhsNonContracting := [0]
  rhsNonContracting := [1]
  lhsBatch := []
  rhsBatch := []
  wf := dot_S32x64_S64x4_S32x4_1_0_0_1_n_n_wf

class Facts : Prop extends Facts₀ where

variable [Facts]
-- ==== Proof.Kernel.R0Runs.lean ====
import proofs.«122725_j16939351016189_2_alg».proof.Proof.Gen.Kernel.Launch
import proofs.«122725_j16939351016189_2_alg».proof.Proof.Gen.Kernel.Skeleton
import proofs.«122725_j16939351016189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The min/max region (pipeline 0): its body run on any staging buffers

The body has one branch, taken exactly at the first row tile of a batch half: there it first sets the running minima to +inf and the
running maxima to -inf. Either way it then meets the minima with the tile's row minima and joins the maxima with the tile's row maxima. -/

/-- The branch's condition, from the grid coordinates. -/
abbrev cond0_0 (i : grid0.Coords) : Prop := (Scalar.cmpi .ne (Scalar.extui (Scalar.cmpi .eq (BitVec.ofNat 32 (i 1).val) 0#32)) 0#32) = 1#1
/-- It holds at the points 0 and 16 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of each output window, through which its contents are stated. -/
abbrev VO0_1 : View sig .tc .vmem S16x1 .f32 := (Memref.whole cc0_stg1_0 : Memref sig .tc .vmem S16x1 .f32).view
abbrev VO0_2 : View sig .tc .vmem S16x1 .f32 := (Memref.whole cc0_stg2_0 : Memref sig .tc .vmem S16x1 .f32).view
abbrev ms0_0 (t : Fin cfg0.N) : Memref sig .tc .vmem S16x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)

/-- The stores a run leaves in the two output buffers: the minima's, then the maxima's. -/
abbrev Pieces2 (F : FTy → Type) : Type := List (View.Piece (Elt F) S16x1 .f32) × List (View.Piece (Elt F) S16x1 .f32)

set_option maxHeartbeats 1000000 in
/-- The stores the body leaves AT A FIRST TILE, with the proof that the body runs, the input coming back as it was. -/
noncomputable def kernelRun0_A (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : cond0_0 i) (x0 : Vec F S16x64x1024 .f32) :
    { L : Pieces2 F //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc0__minmax_kernel i arg2 harg2 arg3 harg3 arg4 harg4) K } := by
  refine ⟨(?_, ?_), fun E K => ?run⟩
  case run =>
    simp only [cc0__minmax_kernel_eq_skeleton]; unfold cc0__minmax_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 1000000 in
/-- The stores the body leaves AT A LATER TILE, over the running minima `xo1` and maxima `xo2`, with the proof that the body runs,
    the input coming back as it was. -/
noncomputable def kernelRun0_B (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : ¬cond0_0 i) (x0 : Vec F S16x64x1024 .f32) (xo1 : Vec F S16x1 .f32) (xo2 : Vec F S16x1 .f32) :
    { L : Pieces2 F //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc0__minmax_kernel i arg2 harg2 arg3 harg3 arg4 harg4) K } := by
  refine ⟨(?_, ?_), fun E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

end Cert.Kernel.Hand

end
-- ==== Proof.Kernel.R0.lean ====
import proofs.«122725_j16939351016189_2_alg».proof.Proof.Kernel.R0Runs
import proofs.«122725_j16939351016189_2_alg».proof.Proof.Gen.Kernel.Launch
import proofs.«122725_j16939351016189_2_alg».proof.Proof.Gen.Kernel.Skeleton
import proofs.«122725_j16939351016189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The min/max region (pipeline 0) at the buffer contents `V` it is entered from

Point `t` of its 32 takes row tile `t % 16` (64 rows) of batch half `t / 16` (16 samples) and the half's running minima and maxima,
which stay in their staging buffers from the half's first tile to its last and are written back only then. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The image tile's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

section A
variable (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : cond0_0 i) (x0 : Vec F S16x64x1024 .f32)

/-- At a first tile the body's stores fill each output buffer. -/
theorem cover0_A_1 (y : S16x1.Idx) : ∃ pc ∈ (kernelRun0_A c i arg2 harg2 arg3 harg3 arg4 harg4 hc0 x0).1.1, y ∈ pc.1.set :=
  View.cover_of_tiledL (kernelRun0_A c i arg2 harg2 arg3 harg3 arg4 harg4 hc0 x0).1.1 S16x1.size (by sl_kernel_rfl) y
theorem cover0_A_2 (y : S16x1.Idx) : ∃ pc ∈ (kernelRun0_A c i arg2 harg2 arg3 harg3 arg4 harg4 hc0 x0).1.2, y ∈ pc.1.set :=
  View.cover_of_tiledL (kernelRun0_A c i arg2 harg2 arg3 harg3 arg4 harg4 hc0 x0).1.2 S16x1.size (by sl_kernel_rfl) y
/-- What a first tile leaves in the minima's and in the maxima's buffer. -/
def out0_A_1 : Vec F S16x1 .f32 :=
  VO0_1.read (Elt F) (VO0_1.writes (Elt F) VO0_1.junk (kernelRun0_A c i arg2 harg2 arg3 harg3 arg4 harg4 hc0 x0).1.1)
def out0_A_2 : Vec F S16x1 .f32 :=
  VO0_2.read (Elt F) (VO0_2.writes (Elt F) VO0_2.junk (kernelRun0_A c i arg2 harg2 arg3 harg3 arg4 harg4 hc0 x0).1.2)
end A

section B
variable (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : ¬cond0_0 i) (x0 : Vec F S16x64x1024 .f32) (xo1 : Vec F S16x1 .f32) (xo2 : Vec F S16x1 .f32)

/-- At a later tile the body's store fills each output buffer. -/
theorem cover0_B_1 (y : S16x1.Idx) : ∃ pc ∈ (kernelRun0_B c i arg2 harg2 arg3 harg3 arg4 harg4 hc0 x0 xo1 xo2).1.1, y ∈ pc.1.set :=
  View.cover_of_tiledL (kernelRun0_B c i arg2 harg2 arg3 harg3 arg4 harg4 hc0 x0 xo1 xo2).1.1 S16x1.size (by sl_kernel_rfl) y
theorem cover0_B_2 (y : S16x1.Idx) : ∃ pc ∈ (kernelRun0_B c i arg2 harg2 arg3 harg3 arg4 harg4 hc0 x0 xo1 xo2).1.2, y ∈ pc.1.set :=
  View.cover_of_tiledL (kernelRun0_B c i arg2 harg2 arg3 harg3 arg4 harg4 hc0 x0 xo1 xo2).1.2 S16x1.size (by sl_kernel_rfl) y
/-- What a later tile leaves in the minima's and in the maxima's buffer, over the running values. -/
def out0_B_1 : Vec F S16x1 .f32 :=
  VO0_1.read (Elt F) (VO0_1.writes (Elt F) VO0_1.junk (kernelRun0_B c i arg2 harg2 arg3 harg3 arg4 harg4 hc0 x0 xo1 xo2).1.1)
def out0_B_2 : Vec F S16x1 .f32 :=
  VO0_2.read (Elt F) (VO0_2.writes (Elt F) VO0_2.junk (kernelRun0_B c i arg2 harg2 arg3 harg3 arg4 harg4 hc0 x0 xo1 xo2).1.2)
end B

/-- THE ACCUMULATION. What the two output buffers hold after the body at position `n` (minima, maxima): a first tile's contents, or
    a later tile's over what position `n - 1` left. -/
def outsAt0 (c : Dev nD) : (n : ℕ) → n < cfg0.N → Vec F S16x1 .f32 × Vec F S16x1 .f32
  | 0, hn =>
    (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
        ((hcond0_0 ⟨0, hn⟩).mpr (Nat.zero_mod _)) (iblk0 V c 0 ⟨0, hn⟩),
     out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
        ((hcond0_0 ⟨0, hn⟩).mpr (Nat.zero_mod _)) (iblk0 V c 0 ⟨0, hn⟩))
  | n + 1, hn =>
    if h0 : (n + 1) % 16 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          (fun h => h0 ((hcond0_0 ⟨n + 1, hn⟩).mp h)) (iblk0 V c 0 ⟨n + 1, hn⟩) (outsAt0 c n (Nat.lt_of_succ_lt hn)).1 (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          (fun h => h0 ((hcond0_0 ⟨n + 1, hn⟩).mp h)) (iblk0 V c 0 ⟨n + 1, hn⟩) (outsAt0 c n (Nat.lt_of_succ_lt hn)).1 (outsAt0 c n (Nat.lt_of_succ_lt hn)).2)

theorem outsAt0_A (c : Dev nD) (t : Fin cfg0.N) (h0 : t.val % 16 = 0) :
    outsAt0 V c t.val t.isLt =
      (out0_A_1 c (grid0.coords t) (ms0_0 t) (hs0_0 t) (ms0_1 t) (hs0_1 t) (ms0_2 t) (hs0_2 t) ((hcond0_0 t).mpr h0) (iblk0 V c 0 t),
       out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt =
      (out0_B_1 c (grid0.coords t) (ms0_0 t) (hs0_0 t) (ms0_1 t) (hs0_1 t) (ms0_2 t) (hs0_2 t) (fun h => h0 ((hcond0_0 t).mp h)) (iblk0 V c 0 t)
          (outsAt0 V c (t.val - 1) (Nat.lt_of_le_of_lt (Nat.sub_le _ _) t.isLt)).1 (outsAt0 V c (t.val - 1) (Nat.lt_of_le_of_lt (Nat.sub_le _ _) t.isLt)).2,
       out0_B_2 c (grid0.coords t) (ms0_0 t) (hs0_0 t) (ms0_1 t) (hs0_1 t) (ms0_2 t) (hs0_2 t) (fun h => h0 ((hcond0_0 t).mp h)) (iblk0 V c 0 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
/-- At a later tile each output buffer holds what the tile before left: they are written back only after a half's last tile. -/
theorem before0_1_B (c : Dev nD) (t : Fin cfg0.N) (h0 : ¬t.val % 16 = 0) (d) :
    (dat0 V c).before 1 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_B (c : Dev nD) (t : Fin cfg0.N) (h0 : ¬t.val % 16 = 0) (d) :
    (dat0 V c).before 2 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the input's buffer holds its tile; at a first tile the first run applies, at a later tile the second, the
    output buffers holding what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 32 := lt_of_lt_of_eq t.isLt (show cfg0.N = 32 from N_0)
  by_cases h0 : t.val % 16 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0, before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _ _).2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    unfold owns; iexists _; isplitr
    swap; · iexact H2
    ipureintro; exact View.read_writes_of_cover _ _ _ _ _ (cover0_B_2 c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.R1Runs.lean ====
import proofs.«122725_j16939351016189_2_alg».proof.Proof.Gen.Kernel.Launch
import proofs.«122725_j16939351016189_2_alg».proof.Proof.Gen.Kernel.Skeleton
import proofs.«122725_j16939351016189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The histogram region (pipeline 1): its body run on any staging buffers

The body has one branch, taken exactly at the first row tile of a batch half (grid coordinate 1 is 0): there it first clears the
counts' buffer. Either way it then adds to that buffer the tile's 32 bin counts. -/

/-- The branch's condition, from the grid coordinates. -/
abbrev cond1_0 (i : grid1.Coords) : Prop := (Scalar.cmpi .ne (Scalar.extui (Scalar.cmpi .eq (BitVec.ofNat 32 (i 1).val) 0#32)) 0#32) = 1#1
/-- It holds at the points 0 and 32 only. -/
theorem hcond1_0 : ∀ t : Fin cfg1.N, cond1_0 (grid1.coords t) ↔ t.val % 32 = 0 :=
  (by decide +kernel : ∀ t : Fin grid1.N, cond1_0 (grid1.coords t) ↔ t.val % 32 = 0)

/-- One staging buffer of the counts' window, through which its contents are stated. -/
abbrev VO1_3 : View sig .tc .vmem S16x32 .f32 := (Memref.whole cc1_stg3_0 : Memref sig .tc .vmem S16x32 .f32).view
abbrev ms1_0 (t : Fin cfg1.N) : Memref sig .tc .vmem S16x32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x32 .f32 := win1_3.stage (cfg1.slots t 3)
abbrev hs1_3 (t : Fin cfg1.N) : (ms1_3 t).IsWhole := hstage1_3 ((cfg1.slots t 3).cast nbuf1_3)

set_option maxHeartbeats 1000000 in
/-- The stores the body leaves in the counts' buffer AT A FIRST TILE (the buffer cleared, then the tile's counts added), with the proof
    that the body runs, the three inputs coming back as they were. -/
noncomputable def kernelRun1_A (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) :
    { L3 : List (View.Piece (Elt F) S16x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__hist_kernel i arg2 harg2 arg3 harg3 arg4 harg4 arg5 harg5) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The stores the body leaves in the counts' buffer AT A LATER TILE (the tile's counts added to the running counts `xo3`), with the
    proof that the body runs, the three inputs coming back as they were. -/
noncomputable def kernelRun1_B (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) :
    { L3 : List (View.Piece (Elt F) S16x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__hist_kernel i arg2 harg2 arg3 harg3 arg4 harg4 arg5 harg5) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.Kernel.R1.lean ====
import proofs.«122725_j16939351016189_2_alg».proof.Proof.Kernel.R1Runs
import proofs.«122725_j16939351016189_2_alg».proof.Proof.Gen.Kernel.Launch
import proofs.«122725_j16939351016189_2_alg».proof.Proof.Gen.Kernel.Skeleton
import proofs.«122725_j16939351016189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The histogram region (pipeline 1) at the buffer contents `V` it is entered from

Point `t` of its 64 takes row tile `t % 32` (32 rows) of batch half `t / 32` (16 samples), that half's minima and maxima, and the half's
16×32 counts, which stay in their staging buffer from the half's first tile to its last and are written back only then. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (the minima and maxima are fetched at a half's
    first tile only; their block does not move within the half). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- At a first tile the body's stores fill the counts' buffer. -/
theorem cover1_A_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) (y : S16x32.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S16x32.size (by sl_kernel_rfl) y

/-- What a first tile leaves in the counts' buffer. -/
def out1_A_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) : Vec F S16x32 .f32 :=
  VO1_3.read (Elt F) (VO1_3.writes (Elt F) VO1_3.junk (kernelRun1_A c i arg2 harg2 arg3 harg3 arg4 harg4 arg5 harg5 hc0 x0 x1 x2).1)

/-- At a later tile the body's store fills the counts' buffer. -/
theorem cover1_B_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) (y : S16x32.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S16x32.size (by sl_kernel_rfl) y

/-- What a later tile leaves in the counts' buffer, over the running counts `xo3`. -/
def out1_B_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) : Vec F S16x32 .f32 :=
  VO1_3.read (Elt F) (VO1_3.writes (Elt F) VO1_3.junk (kernelRun1_B c i arg2 harg2 arg3 harg3 arg4 harg4 arg5 harg5 hc0 x0 x1 x2 xo3).1)

/-- THE ACCUMULATION. What the counts' staging buffer holds after the body at position `n`: a first tile's contents, or a later
    tile's over what position `n - 1` left. -/
def outsAt1 (c : Dev nD) : (n : ℕ) → n < cfg1.N → Vec F S16x32 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 32 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) (iblk1 V c 0 ⟨n + 1, hn⟩) (iblk1 V c 1 ⟨n + 1, hn⟩) (iblk1 V c 2 ⟨n + 1, hn⟩)
        (outsAt1 c n (Nat.lt_of_succ_lt hn))

theorem outsAt1_A (c : Dev nD) (t : Fin cfg1.N) (h0 : t.val % 32 = 0) :
    outsAt1 V c t.val t.isLt = out1_A_3 c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 32 = 0) :
    outsAt1 V c t.val t.isLt = out1_B_3 c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later tile the counts' buffer holds what the tile before left: it is written back only after a half's last tile. -/
theorem before1_3_B (c : Dev nD) (t : Fin cfg1.N) (h0 : ¬t.val % 32 = 0) (d) :
    (dat1 V c).before 3 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' buffers hold their blocks; at a first tile the first run applies, at a later tile the second,
    the counts' buffer holding what the tile before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 32 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.R2.lean ====
import proofs.«122725_j16939351016189_2_alg».proof.Proof.Gen.Kernel.Launch
import proofs.«122725_j16939351016189_2_alg».proof.Proof.Gen.Kernel.Skeleton
import proofs.«122725_j16939351016189_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The refine region (pipeline 2) at the buffer contents `V` it is entered from

Each of its 32 points takes a band of 32 image rows of every sample and the whole table of step sizes, and writes the band after
four steps `out + a · (out − out²)`. Nothing is carried from one point to the next. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The image band's staging buffer holds the band at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The step sizes' staging buffer holds the whole table at every point: it is fetched once and its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S32x32x1024 := Rect.unit (s := S32x32x1024) ![0, 0, 0] S32x32x1024.size inb_S32x32x1024_S32x32x1024_0_0_0
abbrev r2_1 : Rect S32x4 := Rect.unit (s := S32x4) ![0, 0] S32x4.size inb_S32x4_S32x4_0_0

/-- The output band after the body: its one store, of the refined band. -/
def out2_2 (x0 : Vec F S32x32x1024 .f32) (x1 : Vec F S32x4 .f32) : Vec F S32x32x1024 .f32 :=
  View.canon [⟨r2_0, k2_pay1 (View.ld x0 r2_0) (View.ld x1 r2_1)⟩]

/-- That store fills the band. -/
theorem cover2_2 (p0 : Vec F S32x32x1024 .f32) (y : S32x32x1024.Idx) :
    ∃ pc ∈ ([⟨r2_0, p0⟩] : List (View.Piece (Elt F) S32x32x1024 .f32)), y ∈ pc.1.set :=
  View.cover_of_tiled [⟨r2_0, p0⟩] S32x32x1024.size (by rfl) y

set_option maxHeartbeats 1000000 in
/-- The body on whole staging buffers: the two inputs come back as they were, the output holds `out2_2` of them. -/
theorem sound_kernel2 (c : Dev nD) (E : Set ℕ) (i : grid2.Coords) (arg1 : Memref sig .tc .vmem S32x32x1024 .f32) (harg1 : arg1.IsWhole)
    (arg2 : Memref sig .tc .vmem S32x4 .f32) (harg2 : arg2.IsWhole) (arg3 : Memref sig .tc .vmem S32x32x1024 .f32) (harg3 : arg3.IsWhole)
    (x0 : Vec F S32x32x1024 .f32) (x1 : Vec F S32x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__refine_kernel i arg1 harg1 arg2 harg2 arg3 harg3) K := by
  simp only [cc2__refine_kernel_eq_skeleton]; unfold cc2__refine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data: its arrays as entered; after the body at a point the inputs' buffers at their blocks and the output's
    at the refined band; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
import proofs.«122725_j16939351016189_2_alg».proof.Proof.Kernel.R0
import proofs.«122725_j16939351016189_2_alg».proof.Proof.Kernel.R1
import proofs.«122725_j16939351016189_2_alg».proof.Proof.Kernel.R2
import proofs.«122725_j16939351016189_2_alg».proof.Proof.Gen.Kernel.Launch
import proofs.«122725_j16939351016189_2_alg».proof.Proof.Gen.Kernel.Skeleton
import proofs.«122725_j16939351016189_2_alg».proof.Proof.Gen.Kernel.Points
import proofs.«122725_j16939351016189_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a reshape, the min/max region, the histogram region, the host's small network (eleven stretches of host
operations), the refine region, a reshape

## The buffer contents at each boundary between two of these sixteen items -/

/-- Core `c`'s buffers at launch. -/
abbrev B0 : Dev nD → Valuation τ sig (Elt F) := fun c b => (s₀ m ρ).mem ((c : Dev nD), b)
/-- After the first reshape: what the min/max region is entered from. -/
abbrev B1 : Dev nD → Valuation τ sig (Elt F) := fun c => StableHlo.after hostOps0 (B0 m ρ c)
abbrev Bv1 : (c : Dev nD) → (b : Ref sig .tc) → Buf (Elt F) ((c : Thread nD τ).loc b) := fun c b => B1 m ρ c b
/-- After the min/max region: its arrays at what its write-backs leave, every other buffer as entered. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)

/-- After the histogram region. -/
def B3 (c : Dev nD) : Valuation τ sig (Elt F) :=
  Pipeline.withArrays spec1 c (B2 m ρ c) fun w => (dat1 (Bv2 m ρ) c).arrAt w cfg1.N
theorem B3_arr (c : Dev nD) (w : Fin cfg1.W) :
    B3 m ρ c (Proc.devRef .tc (Pipeline.arrRef spec1 w)) = (dat1 (Bv2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev Bv3 : (c : Dev nD) → (b : Ref sig .tc) → Buf (Elt F) ((c : Thread nD τ).loc b) := fun c b => B3 m ρ c b
theorem hF1 (c : Dev nD) (w : Fin cfg1.W) : (dat1 (Bv2 m ρ) c).arrAt w cfg1.N = Bv3 m ρ c (Pipeline.arrRef spec1 w) :=
  (B3_arr m ρ c w).symm
theorem hrest1 (c : Dev nD) : ∀ b, b ∉ Finset.univ.image (Pipeline.arrRef spec1) → Bv3 m ρ c b = Bv2 m ρ c b :=
  fun b hb => B3_of_ne m ρ c b fun w e => hb (Finset.mem_image.mpr ⟨w, Finset.mem_univ _, e⟩)

/-- After each stretch of the host's network (counts to step sizes), in order. -/
abbrev B4 : Dev nD → Valuation τ sig (Elt F) := fun c => StableHlo.after hostOps2 (B3 m ρ c)
abbrev B5 : Dev nD → Valuation τ sig (Elt F) := fun c => StableHlo.after hostOps2_1 (B4 m ρ c)
abbrev B6 : Dev nD → Valuation τ sig (Elt F) := fun c => StableHlo.after hostOps2_2 (B5 m ρ c)
abbrev B7 : Dev nD → Valuation τ sig (Elt F) := fun c => StableHlo.after hostOps2_3 (B6 m ρ c)
abbrev B8 : Dev nD → Valuation τ sig (Elt F) := fun c => StableHlo.after hostOps2_4 (B7 m ρ c)
abbrev B9 : Dev nD → Valuation τ sig (Elt F) := fun c => StableHlo.after hostOps2_5 (B8 m ρ c)
abbrev B10 : Dev nD → Valuation τ sig (Elt F) := fun c => StableHlo.after hostOps2_6 (B9 m ρ c)
abbrev B11 : Dev nD → Valuation τ sig (Elt F) := fun c => StableHlo.after hostOps2_7 (B10 m ρ c)
abbrev B12 : Dev nD → Valuation τ sig (Elt F) := fun c => StableHlo.after hostOps2_8 (B11 m ρ c)
abbrev B13 : Dev nD → Valuation τ sig (Elt F) := fun c => StableHlo.after hostOps2_9 (B12 m ρ c)
abbrev B14 : Dev nD → Valuation τ sig (Elt F) := fun c => StableHlo.after hostOps2_10 (B13 m ρ c)
abbrev Bv14 : (c : Dev nD) → (b : Ref sig .tc) → Buf (Elt F) ((c : Thread nD τ).loc b) := fun c b => B14 m ρ c b

/-- After the refine region. -/
def B15 (c : Dev nD) : Valuation τ sig (Elt F) :=
  Pipeline.withArrays spec2 c (B14 m ρ c) fun w => (dat2 (Bv14 m ρ) c).arrAt w cfg2.N
theorem B15_arr (c : Dev nD) (w : Fin cfg2.W) :
    B15 m ρ c (Proc.devRef .tc (Pipeline.arrRef spec2 w)) = (dat2 (Bv14 m ρ) c).arrAt w cfg2.N := by
  unfold B15; exact Pipeline.withArrays_arr spec2 launch2.win.arr_inj c _ _ w
theorem B15_of_ne (c : Dev nD) (b : Ref sig .tc) (hb : ∀ w, Pipeline.arrRef spec2 w ≠ b) :
    B15 m ρ c (Proc.devRef .tc b) = B14 m ρ c (Proc.devRef .tc b) := by
  unfold B15; exact Pipeline.withArrays_of_ne spec2 c _ _ b hb
abbrev Bv15 : (c : Dev nD) → (b : Ref sig .tc) → Buf (Elt F) ((c : Thread nD τ).loc b) := fun c b => B15 m ρ c b
theorem hF2 (c : Dev nD) (w : Fin cfg2.W) : (dat2 (Bv14 m ρ) c).arrAt w cfg2.N = Bv15 m ρ c (Pipeline.arrRef spec2 w) :=
  (B15_arr m ρ c w).symm
theorem hrest2 (c : Dev nD) : ∀ b, b ∉ Finset.univ.image (Pipeline.arrRef spec2) → Bv15 m ρ c b = Bv14 m ρ c b :=
  fun b hb => B15_of_ne m ρ c b fun w e => hb (Finset.mem_image.mpr ⟨w, Finset.mem_univ _, e⟩)

/-- After the last reshape: the end. -/
abbrev B16 : Dev nD → Valuation τ sig (Elt F) := fun c => StableHlo.after hostOps3 (B15 m ρ c)

/-! ### No item writes an argument -/

theorem B16_main_arg0 (c : Dev nD) : B16 m ρ c (Proc.devRef .tc main_arg0) = m ((c : Thread nD τ).loc main_arg0) :=
  calc B16 m ρ c (Proc.devRef .tc main_arg0)
    _ = B15 m ρ c (Proc.devRef .tc main_arg0) := StableHlo.after_of_writes_sub hostOps3 _ hostOps3_writes (by decide)
    _ = B14 m ρ c (Proc.devRef .tc main_arg0) := B15_of_ne m ρ c main_arg0 (by decide)
    _ = B13 m ρ c (Proc.devRef .tc main_arg0) := StableHlo.after_of_writes_sub hostOps2_10 _ hostOps2_10_writes (by decide)
    _ = B12 m ρ c (Proc.devRef .tc main_arg0) := StableHlo.after_of_writes_sub hostOps2_9 _ hostOps2_9_writes (by decide)
    _ = B11 m ρ c (Proc.devRef .tc main_arg0) := StableHlo.after_of_writes_sub hostOps2_8 _ hostOps2_8_writes (by decide)
    _ = B10 m ρ c (Proc.devRef .tc main_arg0) := StableHlo.after_of_writes_sub hostOps2_7 _ hostOps2_7_writes (by decide)
    _ = B9 m ρ c (Proc.devRef .tc main_arg0) := StableHlo.after_of_writes_sub hostOps2_6 _ hostOps2_6_writes (by decide)
    _ = B8 m ρ c (Proc.devRef .tc main_arg0) := StableHlo.after_of_writes_sub hostOps2_5 _ hostOps2_5_writes (by decide)
    _ = B7 m ρ c (Proc.devRef .tc main_arg0) := StableHlo.after_of_writes_sub hostOps2_4 _ hostOps2_4_writes (by decide)
    _ = B6 m ρ c (Proc.devRef .tc main_arg0) := StableHlo.after_of_writes_sub hostOps2_3 _ hostOps2_3_writes (by decide)
    _ = B5 m ρ c (Proc.devRef .tc main_arg0) := StableHlo.after_of_writes_sub hostOps2_2 _ hostOps2_2_writes (by decide)
    _ = B4 m ρ c (Proc.devRef .tc main_arg0) := StableHlo.after_of_writes_sub hostOps2_1 _ hostOps2_1_writes (by decide)
    _ = B3 m ρ c (Proc.devRef .tc main_arg0) := StableHlo.after_of_writes_sub hostOps2 _ hostOps2_writes (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl
theorem B16_main_arg1 (c : Dev nD) : B16 m ρ c (Proc.devRef .tc main_arg1) = m ((c : Thread nD τ).loc main_arg1) :=
  calc B16 m ρ c (Proc.devRef .tc main_arg1)
    _ = B15 m ρ c (Proc.devRef .tc main_arg1) := StableHlo.after_of_writes_sub hostOps3 _ hostOps3_writes (by decide)
    _ = B14 m ρ c (Proc.devRef .tc main_arg1) := B15_of_ne m ρ c main_arg1 (by decide)
    _ = B13 m ρ c (Proc.devRef .tc main_arg1) := StableHlo.after_of_writes_sub hostOps2_10 _ hostOps2_10_writes (by decide)
    _ = B12 m ρ c (Proc.devRef .tc main_arg1) := StableHlo.after_of_writes_sub hostOps2_9 _ hostOps2_9_writes (by decide)
    _ = B11 m ρ c (Proc.devRef .tc main_arg1) := StableHlo.after_of_writes_sub hostOps2_8 _ hostOps2_8_writes (by decide)
    _ = B10 m ρ c (Proc.devRef .tc main_arg1) := StableHlo.after_of_writes_sub hostOps2_7 _ hostOps2_7_writes (by decide)
    _ = B9 m ρ c (Proc.devRef .tc main_arg1) := StableHlo.after_of_writes_sub hostOps2_6 _ hostOps2_6_writes (by decide)
    _ = B8 m ρ c (Proc.devRef .tc main_arg1) := StableHlo.after_of_writes_sub hostOps2_5 _ hostOps2_5_writes (by decide)
    _ = B7 m ρ c (Proc.devRef .tc main_arg1) := StableHlo.after_of_writes_sub hostOps2_4 _ hostOps2_4_writes (by decide)
    _ = B6 m ρ c (Proc.devRef .tc main_arg1) := StableHlo.after_of_writes_sub hostOps2_3 _ hostOps2_3_writes (by decide)
    _ = B5 m ρ c (Proc.devRef .tc main_arg1) := StableHlo.after_of_writes_sub hostOps2_2 _ hostOps2_2_writes (by decide)
    _ = B4 m ρ c (Proc.devRef .tc main_arg1) := StableHlo.after_of_writes_sub hostOps2_1 _ hostOps2_1_writes (by decide)
    _ = B3 m ρ c (Proc.devRef .tc main_arg1) := StableHlo.after_of_writes_sub hostOps2 _ hostOps2_writes (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B16_main_arg2 (c : Dev nD) : B16 m ρ c (Proc.devRef .tc main_arg2) = m ((c : Thread nD τ).loc main_arg2) :=
  calc B16 m ρ c (Proc.devRef .tc main_arg2)
    _ = B15 m ρ c (Proc.devRef .tc main_arg2) := StableHlo.after_of_writes_sub hostOps3 _ hostOps3_writes (by decide)
    _ = B14 m ρ c (Proc.devRef .tc main_arg2) := B15_of_ne m ρ c main_arg2 (by decide)
    _ = B13 m ρ c (Proc.devRef .tc main_arg2) := StableHlo.after_of_writes_sub hostOps2_10 _ hostOps2_10_writes (by decide)
    _ = B12 m ρ c (Proc.devRef .tc main_arg2) := StableHlo.after_of_writes_sub hostOps2_9 _ hostOps2_9_writes (by decide)
    _ = B11 m ρ c (Proc.devRef .tc main_arg2) := StableHlo.after_of_writes_sub hostOps2_8 _ hostOps2_8_writes (by decide)
    _ = B10 m ρ c (Proc.devRef .tc main_arg2) := StableHlo.after_of_writes_sub hostOps2_7 _ hostOps2_7_writes (by decide)
    _ = B9 m ρ c (Proc.devRef .tc main_arg2) := StableHlo.after_of_writes_sub hostOps2_6 _ hostOps2_6_writes (by decide)
    _ = B8 m ρ c (Proc.devRef .tc main_arg2) := StableHlo.after_of_writes_sub hostOps2_5 _ hostOps2_5_writes (by decide)
    _ = B7 m ρ c (Proc.devRef .tc main_arg2) := StableHlo.after_of_writes_sub hostOps2_4 _ hostOps2_4_writes (by decide)
    _ = B6 m ρ c (Proc.devRef .tc main_arg2) := StableHlo.after_of_writes_sub hostOps2_3 _ hostOps2_3_writes (by decide)
    _ = B5 m ρ c (Proc.devRef .tc main_arg2) := StableHlo.after_of_writes_sub hostOps2_2 _ hostOps2_2_writes (by decide)
    _ = B4 m ρ c (Proc.devRef .tc main_arg2) := StableHlo.after_of_writes_sub hostOps2_1 _ hostOps2_1_writes (by decide)
    _ = B3 m ρ c (Proc.devRef .tc main_arg2) := StableHlo.after_of_writes_sub hostOps2 _ hostOps2_writes (by decide)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B16_main_arg3 (c : Dev nD) : B16 m ρ c (Proc.devRef .tc main_arg3) = m ((c : Thread nD τ).loc main_arg3) :=
  calc B16 m ρ c (Proc.devRef .tc main_arg3)
    _ = B15 m ρ c (Proc.devRef .tc main_arg3) := StableHlo.after_of_writes_sub hostOps3 _ hostOps3_writes (by decide)
    _ = B14 m ρ c (Proc.devRef .tc main_arg3) := B15_of_ne m ρ c main_arg3 (by decide)
    _ = B13 m ρ c (Proc.devRef .tc main_arg3) := StableHlo.after_of_writes_sub hostOps2_10 _ hostOps2_10_writes (by decide)
    _ = B12 m ρ c (Proc.devRef .tc main_arg3) := StableHlo.after_of_writes_sub hostOps2_9 _ hostOps2_9_writes (by decide)
    _ = B11 m ρ c (Proc.devRef .tc main_arg3) := StableHlo.after_of_writes_sub hostOps2_8 _ hostOps2_8_writes (by decide)
    _ = B10 m ρ c (Proc.devRef .tc main_arg3) := StableHlo.after_of_writes_sub hostOps2_7 _ hostOps2_7_writes (by decide)
    _ = B9 m ρ c (Proc.devRef .tc main_arg3) := StableHlo.after_of_writes_sub hostOps2_6 _ hostOps2_6_writes (by decide)
    _ = B8 m ρ c (Proc.devRef .tc main_arg3) := StableHlo.after_of_writes_sub hostOps2_5 _ hostOps2_5_writes (by decide)
    _ = B7 m ρ c (Proc.devRef .tc main_arg3) := StableHlo.after_of_writes_sub hostOps2_4 _ hostOps2_4_writes (by decide)
    _ = B6 m ρ c (Proc.devRef .tc main_arg3) := StableHlo.after_of_writes_sub hostOps2_3 _ hostOps2_3_writes (by decide)
    _ = B5 m ρ c (Proc.devRef .tc main_arg3) := StableHlo.after_of_writes_sub hostOps2_2 _ hostOps2_2_writes (by decide)
    _ = B4 m ρ c (Proc.devRef .tc main_arg3) := StableHlo.after_of_writes_sub hostOps2_1 _ hostOps2_1_writes (by decide)
    _ = B3 m ρ c (Proc.devRef .tc main_arg3) := StableHlo.after_of_writes_sub hostOps2 _ hostOps2_writes (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B16_main_arg4 (c : Dev nD) : B16 m ρ c (Proc.devRef .tc main_arg4) = m ((c : Thread nD τ).loc main_arg4) :=
  calc B16 m ρ c (Proc.devRef .tc main_arg4)
    _ = B15 m ρ c (Proc.devRef .tc main_arg4) := StableHlo.after_of_writes_sub hostOps3 _ hostOps3_writes (by decide)
    _ = B14 m ρ c (Proc.devRef .tc main_arg4) := B15_of_ne m ρ c main_arg4 (by decide)
    _ = B13 m ρ c (Proc.devRef .tc main_arg4) := StableHlo.after_of_writes_sub hostOps2_10 _ hostOps2_10_writes (by decide)
    _ = B12 m ρ c (Proc.devRef .tc main_arg4) := StableHlo.after_of_writes_sub hostOps2_9 _ hostOps2_9_writes (by decide)
    _ = B11 m ρ c (Proc.devRef .tc main_arg4) := StableHlo.after_of_writes_sub hostOps2_8 _ hostOps2_8_writes (by decide)
    _ = B10 m ρ c (Proc.devRef .tc main_arg4) := StableHlo.after_of_writes_sub hostOps2_7 _ hostOps2_7_writes (by decide)
    _ = B9 m ρ c (Proc.devRef .tc main_arg4) := StableHlo.after_of_writes_sub hostOps2_6 _ hostOps2_6_writes (by decide)
    _ = B8 m ρ c (Proc.devRef .tc main_arg4) := StableHlo.after_of_writes_sub hostOps2_5 _ hostOps2_5_writes (by decide)
    _ = B7 m ρ c (Proc.devRef .tc main_arg4) := StableHlo.after_of_writes_sub hostOps2_4 _ hostOps2_4_writes (by decide)
    _ = B6 m ρ c (Proc.devRef .tc main_arg4) := StableHlo.after_of_writes_sub hostOps2_3 _ hostOps2_3_writes (by decide)
    _ = B5 m ρ c (Proc.devRef .tc main_arg4) := StableHlo.after_of_writes_sub hostOps2_2 _ hostOps2_2_writes (by decide)
    _ = B4 m ρ c (Proc.devRef .tc main_arg4) := StableHlo.after_of_writes_sub hostOps2_1 _ hostOps2_1_writes (by decide)
    _ = B3 m ρ c (Proc.devRef .tc main_arg4) := StableHlo.after_of_writes_sub hostOps2 _ hostOps2_writes (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B16_main_arg5 (c : Dev nD) : B16 m ρ c (Proc.devRef .tc main_arg5) = m ((c : Thread nD τ).loc main_arg5) :=
  calc B16 m ρ c (Proc.devRef .tc main_arg5)
    _ = B15 m ρ c (Proc.devRef .tc main_arg5) := StableHlo.after_of_writes_sub hostOps3 _ hostOps3_writes (by decide)
    _ = B14 m ρ c (Proc.devRef .tc main_arg5) := B15_of_ne m ρ c main_arg5 (by decide)
    _ = B13 m ρ c (Proc.devRef .tc main_arg5) := StableHlo.after_of_writes_sub hostOps2_10 _ hostOps2_10_writes (by decide)
    _ = B12 m ρ c (Proc.devRef .tc main_arg5) := StableHlo.after_of_writes_sub hostOps2_9 _ hostOps2_9_writes (by decide)
    _ = B11 m ρ c (Proc.devRef .tc main_arg5) := StableHlo.after_of_writes_sub hostOps2_8 _ hostOps2_8_writes (by decide)
    _ = B10 m ρ c (Proc.devRef .tc main_arg5) := StableHlo.after_of_writes_sub hostOps2_7 _ hostOps2_7_writes (by decide)
    _ = B9 m ρ c (Proc.devRef .tc main_arg5) := StableHlo.after_of_writes_sub hostOps2_6 _ hostOps2_6_writes (by decide)
    _ = B8 m ρ c (Proc.devRef .tc main_arg5) := StableHlo.after_of_writes_sub hostOps2_5 _ hostOps2_5_writes (by decide)
    _ = B7 m ρ c (Proc.devRef .tc main_arg5) := StableHlo.after_of_writes_sub hostOps2_4 _ hostOps2_4_writes (by decide)
    _ = B6 m ρ c (Proc.devRef .tc main_arg5) := StableHlo.after_of_writes_sub hostOps2_3 _ hostOps2_3_writes (by decide)
    _ = B5 m ρ c (Proc.devRef .tc main_arg5) := StableHlo.after_of_writes_sub hostOps2_2 _ hostOps2_2_writes (by decide)
    _ = B4 m ρ c (Proc.devRef .tc main_arg5) := StableHlo.after_of_writes_sub hostOps2_1 _ hostOps2_1_writes (by decide)
    _ = B3 m ρ c (Proc.devRef .tc main_arg5) := StableHlo.after_of_writes_sub hostOps2 _ hostOps2_writes (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl
theorem B16_main_arg6 (c : Dev nD) : B16 m ρ c (Proc.devRef .tc main_arg6) = m ((c : Thread nD τ).loc main_arg6) :=
  calc B16 m ρ c (Proc.devRef .tc main_arg6)
    _ = B15 m ρ c (Proc.devRef .tc main_arg6) := StableHlo.after_of_writes_sub hostOps3 _ hostOps3_writes (by decide)
    _ = B14 m ρ c (Proc.devRef .tc main_arg6) := B15_of_ne m ρ c main_arg6 (by decide)
    _ = B13 m ρ c (Proc.devRef .tc main_arg6) := StableHlo.after_of_writes_sub hostOps2_10 _ hostOps2_10_writes (by decide)
    _ = B12 m ρ c (Proc.devRef .tc main_arg6) := StableHlo.after_of_writes_sub hostOps2_9 _ hostOps2_9_writes (by decide)
    _ = B11 m ρ c (Proc.devRef .tc main_arg6) := StableHlo.after_of_writes_sub hostOps2_8 _ hostOps2_8_writes (by decide)
    _ = B10 m ρ c (Proc.devRef .tc main_arg6) := StableHlo.after_of_writes_sub hostOps2_7 _ hostOps2_7_writes (by decide)
    _ = B9 m ρ c (Proc.devRef .tc main_arg6) := StableHlo.after_of_writes_sub hostOps2_6 _ hostOps2_6_writes (by decide)
    _ = B8 m ρ c (Proc.devRef .tc main_arg6) := StableHlo.after_of_writes_sub hostOps2_5 _ hostOps2_5_writes (by decide)
    _ = B7 m ρ c (Proc.devRef .tc main_arg6) := StableHlo.after_of_writes_sub hostOps2_4 _ hostOps2_4_writes (by decide)
    _ = B6 m ρ c (Proc.devRef .tc main_arg6) := StableHlo.after_of_writes_sub hostOps2_3 _ hostOps2_3_writes (by decide)
    _ = B5 m ρ c (Proc.devRef .tc main_arg6) := StableHlo.after_of_writes_sub hostOps2_2 _ hostOps2_2_writes (by decide)
    _ = B4 m ρ c (Proc.devRef .tc main_arg6) := StableHlo.after_of_writes_sub hostOps2_1 _ hostOps2_1_writes (by decide)
    _ = B3 m ρ c (Proc.devRef .tc main_arg6) := StableHlo.after_of_writes_sub hostOps2 _ hostOps2_writes (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B16_main_arg7 (c : Dev nD) : B16 m ρ c (Proc.devRef .tc main_arg7) = m ((c : Thread nD τ).loc main_arg7) :=
  calc B16 m ρ c (Proc.devRef .tc main_arg7)
    _ = B15 m ρ c (Proc.devRef .tc main_arg7) := StableHlo.after_of_writes_sub hostOps3 _ hostOps3_writes (by decide)
    _ = B14 m ρ c (Proc.devRef .tc main_arg7) := B15_of_ne m ρ c main_arg7 (by decide)
    _ = B13 m ρ c (Proc.devRef .tc main_arg7) := StableHlo.after_of_writes_sub hostOps2_10 _ hostOps2_10_writes (by decide)
    _ = B12 m ρ c (Proc.devRef .tc main_arg7) := StableHlo.after_of_writes_sub hostOps2_9 _ hostOps2_9_writes (by decide)
    _ = B11 m ρ c (Proc.devRef .tc main_arg7) := StableHlo.after_of_writes_sub hostOps2_8 _ hostOps2_8_writes (by decide)
    _ = B10 m ρ c (Proc.devRef .tc main_arg7) := StableHlo.after_of_writes_sub hostOps2_7 _ hostOps2_7_writes (by decide)
    _ = B9 m ρ c (Proc.devRef .tc main_arg7) := StableHlo.after_of_writes_sub hostOps2_6 _ hostOps2_6_writes (by decide)
    _ = B8 m ρ c (Proc.devRef .tc main_arg7) := StableHlo.after_of_writes_sub hostOps2_5 _ hostOps2_5_writes (by decide)
    _ = B7 m ρ c (Proc.devRef .tc main_arg7) := StableHlo.after_of_writes_sub hostOps2_4 _ hostOps2_4_writes (by decide)
    _ = B6 m ρ c (Proc.devRef .tc main_arg7) := StableHlo.after_of_writes_sub hostOps2_3 _ hostOps2_3_writes (by decide)
    _ = B5 m ρ c (Proc.devRef .tc main_arg7) := StableHlo.after_of_writes_sub hostOps2_2 _ hostOps2_2_writes (by decide)
    _ = B4 m ρ c (Proc.devRef .tc main_arg7) := StableHlo.after_of_writes_sub hostOps2_1 _ hostOps2_1_writes (by decide)
    _ = B3 m ρ c (Proc.devRef .tc main_arg7) := StableHlo.after_of_writes_sub hostOps2 _ hostOps2_writes (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B16_main_arg8 (c : Dev nD) : B16 m ρ c (Proc.devRef .tc main_arg8) = m ((c : Thread nD τ).loc main_arg8) :=
  calc B16 m ρ c (Proc.devRef .tc main_arg8)
    _ = B15 m ρ c (Proc.devRef .tc main_arg8) := StableHlo.after_of_writes_sub hostOps3 _ hostOps3_writes (by decide)
    _ = B14 m ρ c (Proc.devRef .tc main_arg8) := B15_of_ne m ρ c main_arg8 (by decide)
    _ = B13 m ρ c (Proc.devRef .tc main_arg8) := StableHlo.after_of_writes_sub hostOps2_10 _ hostOps2_10_writes (by decide)
    _ = B12 m ρ c (Proc.devRef .tc main_arg8) := StableHlo.after_of_writes_sub hostOps2_9 _ hostOps2_9_writes (by decide)
    _ = B11 m ρ c (Proc.devRef .tc main_arg8) := StableHlo.after_of_writes_sub hostOps2_8 _ hostOps2_8_writes (by decide)
    _ = B10 m ρ c (Proc.devRef .tc main_arg8) := StableHlo.after_of_writes_sub hostOps2_7 _ hostOps2_7_writes (by decide)
    _ = B9 m ρ c (Proc.devRef .tc main_arg8) := StableHlo.after_of_writes_sub hostOps2_6 _ hostOps2_6_writes (by decide)
    _ = B8 m ρ c (Proc.devRef .tc main_arg8) := StableHlo.after_of_writes_sub hostOps2_5 _ hostOps2_5_writes (by decide)
    _ = B7 m ρ c (Proc.devRef .tc main_arg8) := StableHlo.after_of_writes_sub hostOps2_4 _ hostOps2_4_writes (by decide)
    _ = B6 m ρ c (Proc.devRef .tc main_arg8) := StableHlo.after_of_writes_sub hostOps2_3 _ hostOps2_3_writes (by decide)
    _ = B5 m ρ c (Proc.devRef .tc main_arg8) := StableHlo.after_of_writes_sub hostOps2_2 _ hostOps2_2_writes (by decide)
    _ = B4 m ρ c (Proc.devRef .tc main_arg8) := StableHlo.after_of_writes_sub hostOps2_1 _ hostOps2_1_writes (by decide)
    _ = B3 m ρ c (Proc.devRef .tc main_arg8) := StableHlo.after_of_writes_sub hostOps2 _ hostOps2_writes (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B16_main_arg9 (c : Dev nD) : B16 m ρ c (Proc.devRef .tc main_arg9) = m ((c : Thread nD τ).loc main_arg9) :=
  calc B16 m ρ c (Proc.devRef .tc main_arg9)
    _ = B15 m ρ c (Proc.devRef .tc main_arg9) := StableHlo.after_of_writes_sub hostOps3 _ hostOps3_writes (by decide)
    _ = B14 m ρ c (Proc.devRef .tc main_arg9) := B15_of_ne m ρ c main_arg9 (by decide)
    _ = B13 m ρ c (Proc.devRef .tc main_arg9) := StableHlo.after_of_writes_sub hostOps2_10 _ hostOps2_10_writes (by decide)
    _ = B12 m ρ c (Proc.devRef .tc main_arg9) := StableHlo.after_of_writes_sub hostOps2_9 _ hostOps2_9_writes (by decide)
    _ = B11 m ρ c (Proc.devRef .tc main_arg9) := StableHlo.after_of_writes_sub hostOps2_8 _ hostOps2_8_writes (by decide)
    _ = B10 m ρ c (Proc.devRef .tc main_arg9) := StableHlo.after_of_writes_sub hostOps2_7 _ hostOps2_7_writes (by decide)
    _ = B9 m ρ c (Proc.devRef .tc main_arg9) := StableHlo.after_of_writes_sub hostOps2_6 _ hostOps2_6_writes (by decide)
    _ = B8 m ρ c (Proc.devRef .tc main_arg9) := StableHlo.after_of_writes_sub hostOps2_5 _ hostOps2_5_writes (by decide)
    _ = B7 m ρ c (Proc.devRef .tc main_arg9) := StableHlo.after_of_writes_sub hostOps2_4 _ hostOps2_4_writes (by decide)
    _ = B6 m ρ c (Proc.devRef .tc main_arg9) := StableHlo.after_of_writes_sub hostOps2_3 _ hostOps2_3_writes (by decide)
    _ = B5 m ρ c (Proc.devRef .tc main_arg9) := StableHlo.after_of_writes_sub hostOps2_2 _ hostOps2_2_writes (by decide)
    _ = B4 m ρ c (Proc.devRef .tc main_arg9) := StableHlo.after_of_writes_sub hostOps2_1 _ hostOps2_1_writes (by decide)
    _ = B3 m ρ c (Proc.devRef .tc main_arg9) := StableHlo.after_of_writes_sub hostOps2 _ hostOps2_writes (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B16_main_arg10 (c : Dev nD) : B16 m ρ c (Proc.devRef .tc main_arg10) = m ((c : Thread nD τ).loc main_arg10) :=
  calc B16 m ρ c (Proc.devRef .tc main_arg10)
    _ = B15 m ρ c (Proc.devRef .tc main_arg10) := StableHlo.after_of_writes_sub hostOps3 _ hostOps3_writes (by decide)
    _ = B14 m ρ c (Proc.devRef .tc main_arg10) := B15_of_ne m ρ c main_arg10 (by decide)
    _ = B13 m ρ c (Proc.devRef .tc main_arg10) := StableHlo.after_of_writes_sub hostOps2_10 _ hostOps2_10_writes (by decide)
    _ = B12 m ρ c (Proc.devRef .tc main_arg10) := StableHlo.after_of_writes_sub hostOps2_9 _ hostOps2_9_writes (by decide)
    _ = B11 m ρ c (Proc.devRef .tc main_arg10) := StableHlo.after_of_writes_sub hostOps2_8 _ hostOps2_8_writes (by decide)
    _ = B10 m ρ c (Proc.devRef .tc main_arg10) := StableHlo.after_of_writes_sub hostOps2_7 _ hostOps2_7_writes (by decide)
    _ = B9 m ρ c (Proc.devRef .tc main_arg10) := StableHlo.after_of_writes_sub hostOps2_6 _ hostOps2_6_writes (by decide)
    _ = B8 m ρ c (Proc.devRef .tc main_arg10) := StableHlo.after_of_writes_sub hostOps2_5 _ hostOps2_5_writes (by decide)
    _ = B7 m ρ c (Proc.devRef .tc main_arg10) := StableHlo.after_of_writes_sub hostOps2_4 _ hostOps2_4_writes (by decide)
    _ = B6 m ρ c (Proc.devRef .tc main_arg10) := StableHlo.after_of_writes_sub hostOps2_3 _ hostOps2_3_writes (by decide)
    _ = B5 m ρ c (Proc.devRef .tc main_arg10) := StableHlo.after_of_writes_sub hostOps2_2 _ hostOps2_2_writes (by decide)
    _ = B4 m ρ c (Proc.devRef .tc main_arg10) := StableHlo.after_of_writes_sub hostOps2_1 _ hostOps2_1_writes (by decide)
    _ = B3 m ρ c (Proc.devRef .tc main_arg10) := StableHlo.after_of_writes_sub hostOps2 _ hostOps2_writes (by decide)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl
theorem B16_main_arg11 (c : Dev nD) : B16 m ρ c (Proc.devRef .tc main_arg11) = m ((c : Thread nD τ).loc main_arg11) :=
  calc B16 m ρ c (Proc.devRef .tc main_arg11)
    _ = B15 m ρ c (Proc.devRef .tc main_arg11) := StableHlo.after_of_writes_sub hostOps3 _ hostOps3_writes (by decide)
    _ = B14 m ρ c (Proc.devRef .tc main_arg11) := B15_of_ne m ρ c main_arg11 (by decide)
    _ = B13 m ρ c (Proc.devRef .tc main_arg11) := StableHlo.after_of_writes_sub hostOps2_10 _ hostOps2_10_writes (by decide)
    _ = B12 m ρ c (Proc.devRef .tc main_arg11) := StableHlo.after_of_writes_sub hostOps2_9 _ hostOps2_9_writes (by decide)
    _ = B11 m ρ c (Proc.devRef .tc main_arg11) := StableHlo.after_of_writes_sub hostOps2_8 _ hostOps2_8_writes (by decide)
    _ = B10 m ρ c (Proc.devRef .tc main_arg11) := StableHlo.after_of_writes_sub hostOps2_7 _ hostOps2_7_writes (by decide)
    _ = B9 m ρ c (Proc.devRef .tc main_arg11) := StableHlo.after_of_writes_sub hostOps2_6 _ hostOps2_6_writes (by decide)
    _ = B8 m ρ c (Proc.devRef .tc main_arg11) := StableHlo.after_of_writes_sub hostOps2_5 _ hostOps2_5_writes (by decide)
    _ = B7 m ρ c (Proc.devRef .tc main_arg11) := StableHlo.after_of_writes_sub hostOps2_4 _ hostOps2_4_writes (by decide)
    _ = B6 m ρ c (Proc.devRef .tc main_arg11) := StableHlo.after_of_writes_sub hostOps2_3 _ hostOps2_3_writes (by decide)
    _ = B5 m ρ c (Proc.devRef .tc main_arg11) := StableHlo.after_of_writes_sub hostOps2_2 _ hostOps2_2_writes (by decide)
    _ = B4 m ρ c (Proc.devRef .tc main_arg11) := StableHlo.after_of_writes_sub hostOps2_1 _ hostOps2_1_writes (by decide)
    _ = B3 m ρ c (Proc.devRef .tc main_arg11) := StableHlo.after_of_writes_sub hostOps2 _ hostOps2_writes (by decide)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv2 m ρ) c
  | ⟨2, _⟩ => fun c => dat2 (Bv14 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (B16 m ρ c) ∗ ∃ r, prngReg c r)

/-- The last item's thread state is the final one beside what is owed: a regrouping. -/
theorem lastLink (c : Dev nD) :
    (iprop(StableHlo.held (c : Thread nD τ) (Pipeline.ucRefs τ sig) (B16 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: its arrays are split out of the unscoped buffers at entry and put back at what its write-backs
    leave at exit; the generator register goes into the class invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv1 m ρ c) (Bv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at what its write-backs
    leave at exit; the generator register goes into the class invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv2 m ρ c) (Bv3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at entry and put back at what its write-backs
    leave at exit; the generator register goes into the class invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv14 m ρ) c).loose
  hwaits := Pipeline.hwaits_of_owed_zero _ _ _ _ L lv 2 fun _ _ => rfl
  pre c := iprop(StableHlo.held (c : Thread nD τ) (Pipeline.ucRefs τ sig) (B14 m ρ c) ∗ R c)
  post c := iprop(StableHlo.held (c : Thread nD τ) (Pipeline.ucRefs τ sig) (B15 m ρ c) ∗ R c)
  X c := iprop(∃ r, prngReg c r)
  Y c := iprop(∃ r, prngReg c r)
  Z c := Pipeline.unscopedRest (Ix := Unit) (Name := ℕ) (U := UR sig nD τ) (Lvl := ℕ) spec2 c (Bv14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Bv14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Bv14 m ρ c) (Bv15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's sixteen items in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)),
    .host (hseg hostOps2_1 hostOps2_1_sub hostOps2_1_fresh (B4 m ρ)),
    .host (hseg hostOps2_2 hostOps2_2_sub hostOps2_2_fresh (B5 m ρ)),
    .host (hseg hostOps2_3 hostOps2_3_sub hostOps2_3_fresh (B6 m ρ)),
    .host (hseg hostOps2_4 hostOps2_4_sub hostOps2_4_fresh (B7 m ρ)),
    .host (hseg hostOps2_5 hostOps2_5_sub hostOps2_5_fresh (B8 m ρ)),
    .host (hseg hostOps2_6 hostOps2_6_sub hostOps2_6_fresh (B9 m ρ)),
    .host (hseg hostOps2_7 hostOps2_7_sub hostOps2_7_fresh (B10 m ρ)),
    .host (hseg hostOps2_8 hostOps2_8_sub hostOps2_8_fresh (B11 m ρ)),
    .host (hseg hostOps2_9 hostOps2_9_sub hostOps2_9_fresh (B12 m ρ)),
    .host (hseg hostOps2_10 hostOps2_10_sub hostOps2_10_fresh (B13 m ρ)),
    .region (reg2 m ρ),
    .host (hseg hostOps3 hostOps3_sub hostOps3_fresh (B15 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with the result
    buffer at the last boundary's contents and every argument as launched. -/
theorem run : θ_run defs (onTc (τ := τ) (main (F := F))) ⟨m, fun _ => 0, ρ⟩ (fun r => ∀ c : Dev nD,
      r.2.mem ((c.tc : Thread nD τ).loc main_v36) = B16 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => lastLink m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c =>
      ⟨h c _ (mem_uc main_v36 (by decide)),
       (h c _ (mem_uc main_arg0 (by decide))).trans (B16_main_arg0 m ρ c),
       (h c _ (mem_uc main_arg1 (by decide))).trans (B16_main_arg1 m ρ c),
       (h c _ (mem_uc main_arg2 (by decide))).trans (B16_main_arg2 m ρ c),
       (h c _ (mem_uc main_arg3 (by decide))).trans (B16_main_arg3 m ρ c),
       (h c _ (mem_uc main_arg4 (by decide))).trans (B16_main_arg4 m ρ c),
       (h c _ (mem_uc main_arg5 (by decide))).trans (B16_main_arg5 m ρ c),
       (h c _ (mem_uc main_arg6 (by decide))).trans (B16_main_arg6 m ρ c),
       (h c _ (mem_uc main_arg7 (by decide))).trans (B16_main_arg7 m ρ c),
       (h c _ (mem_uc main_arg8 (by decide))).trans (B16_main_arg8 m ρ c),
       (h c _ (mem_uc main_arg9 (by decide))).trans (B16_main_arg9 m ρ c),
       (h c _ (mem_uc main_arg10 (by decide))).trans (B16_main_arg10 m ρ c),
       (h c _ (mem_uc main_arg11 (by decide))).trans (B16_main_arg11 m ρ c)⟩)

/-- THE FRAME: the run with the result's value dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.Kernel.Hand

end
-- ==== Proof.KernelIdeal.R0Runs.lean ====
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The min/max region (pipeline 0): its body run on any staging buffers

The body has one branch, taken exactly at the first row tile of a batch half: there it first sets the running minima to +inf and the
running maxima to -inf. Either way it then meets the minima with the tile's row minima and joins the maxima with the tile's row maxima. -/

/-- The branch's condition, from the grid coordinates. -/
abbrev cond0_0 (i : grid0.Coords) : Prop := (Scalar.cmpi .ne (Scalar.extui (Scalar.cmpi .eq (BitVec.ofNat 32 (i 1).val) 0#32)) 0#32) = 1#1
/-- It holds at the points 0 and 16 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of each output window, through which its contents are stated. -/
abbrev VO0_1 : View sig .tc .vmem S16x1 .f32 := (Memref.whole cc0_stg1_0 : Memref sig .tc .vmem S16x1 .f32).view
abbrev VO0_2 : View sig .tc .vmem S16x1 .f32 := (Memref.whole cc0_stg2_0 : Memref sig .tc .vmem S16x1 .f32).view
abbrev ms0_0 (t : Fin cfg0.N) : Memref sig .tc .vmem S16x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)

/-- The stores a run leaves in the two output buffers: the minima's, then the maxima's. -/
abbrev Pieces2 (F : FTy → Type) : Type := List (View.Piece (Elt F) S16x1 .f32) × List (View.Piece (Elt F) S16x1 .f32)

set_option maxHeartbeats 1000000 in
/-- The stores the body leaves AT A FIRST TILE, with the proof that the body runs, the input coming back as it was. -/
noncomputable def kernelRun0_A (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : cond0_0 i) (x0 : Vec F S16x64x1024 .f32) :
    { L : Pieces2 F //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc0__minmax_kernel i arg2 harg2 arg3 harg3 arg4 harg4) K } := by
  refine ⟨(?_, ?_), fun E K => ?run⟩
  case run =>
    simp only [cc0__minmax_kernel_eq_skeleton]; unfold cc0__minmax_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

set_option maxHeartbeats 1000000 in
/-- The stores the body leaves AT A LATER TILE, over the running minima `xo1` and maxima `xo2`, with the proof that the body runs,
    the input coming back as it was. -/
noncomputable def kernelRun0_B (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : ¬cond0_0 i) (x0 : Vec F S16x64x1024 .f32) (xo1 : Vec F S16x1 .f32) (xo2 : Vec F S16x1 .f32) :
    { L : Pieces2 F //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0
                ∗ (∃ f, arg3.view.loc (c : Thread nD τ) ↦[arg3.view.set]{fullShare} arg3.view.writes (Elt F) f L.1)
                ∗ (∃ f, arg4.view.loc (c : Thread nD τ) ↦[arg4.view.set]{fullShare} arg4.view.writes (Elt F) f L.2)) -∗ K ⟨⟩))
          ⊢ wp frame (wpE (defs₀ (F := F)) Variants.none c none) E (cc0__minmax_kernel i arg2 harg2 arg3 harg3 arg4 harg4) K } := by
  refine ⟨(?_, ?_), fun E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

end Cert.KernelIdeal.Hand

end
-- ==== Proof.KernelIdeal.R0.lean ====
import proofs.«122725_j16939351016189_2_alg».proof.Proof.KernelIdeal.R0Runs
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The min/max region (pipeline 0) at the buffer contents `V` it is entered from

Point `t` of its 32 takes row tile `t % 16` (64 rows) of batch half `t / 16` (16 samples) and the half's running minima and maxima,
which stay in their staging buffers from the half's first tile to its last and are written back only then. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The image tile's staging buffer holds the tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

section A
variable (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : cond0_0 i) (x0 : Vec F S16x64x1024 .f32)

/-- At a first tile the body's stores fill each output buffer. -/
theorem cover0_A_1 (y : S16x1.Idx) : ∃ pc ∈ (kernelRun0_A c i arg2 harg2 arg3 harg3 arg4 harg4 hc0 x0).1.1, y ∈ pc.1.set :=
  View.cover_of_tiledL (kernelRun0_A c i arg2 harg2 arg3 harg3 arg4 harg4 hc0 x0).1.1 S16x1.size (by sl_kernel_rfl) y
theorem cover0_A_2 (y : S16x1.Idx) : ∃ pc ∈ (kernelRun0_A c i arg2 harg2 arg3 harg3 arg4 harg4 hc0 x0).1.2, y ∈ pc.1.set :=
  View.cover_of_tiledL (kernelRun0_A c i arg2 harg2 arg3 harg3 arg4 harg4 hc0 x0).1.2 S16x1.size (by sl_kernel_rfl) y
/-- What a first tile leaves in the minima's and in the maxima's buffer. -/
def out0_A_1 : Vec F S16x1 .f32 :=
  VO0_1.read (Elt F) (VO0_1.writes (Elt F) VO0_1.junk (kernelRun0_A c i arg2 harg2 arg3 harg3 arg4 harg4 hc0 x0).1.1)
def out0_A_2 : Vec F S16x1 .f32 :=
  VO0_2.read (Elt F) (VO0_2.writes (Elt F) VO0_2.junk (kernelRun0_A c i arg2 harg2 arg3 harg3 arg4 harg4 hc0 x0).1.2)
end A

section B
variable (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : ¬cond0_0 i) (x0 : Vec F S16x64x1024 .f32) (xo1 : Vec F S16x1 .f32) (xo2 : Vec F S16x1 .f32)

/-- At a later tile the body's store fills each output buffer. -/
theorem cover0_B_1 (y : S16x1.Idx) : ∃ pc ∈ (kernelRun0_B c i arg2 harg2 arg3 harg3 arg4 harg4 hc0 x0 xo1 xo2).1.1, y ∈ pc.1.set :=
  View.cover_of_tiledL (kernelRun0_B c i arg2 harg2 arg3 harg3 arg4 harg4 hc0 x0 xo1 xo2).1.1 S16x1.size (by sl_kernel_rfl) y
theorem cover0_B_2 (y : S16x1.Idx) : ∃ pc ∈ (kernelRun0_B c i arg2 harg2 arg3 harg3 arg4 harg4 hc0 x0 xo1 xo2).1.2, y ∈ pc.1.set :=
  View.cover_of_tiledL (kernelRun0_B c i arg2 harg2 arg3 harg3 arg4 harg4 hc0 x0 xo1 xo2).1.2 S16x1.size (by sl_kernel_rfl) y
/-- What a later tile leaves in the minima's and in the maxima's buffer, over the running values. -/
def out0_B_1 : Vec F S16x1 .f32 :=
  VO0_1.read (Elt F) (VO0_1.writes (Elt F) VO0_1.junk (kernelRun0_B c i arg2 harg2 arg3 harg3 arg4 harg4 hc0 x0 xo1 xo2).1.1)
def out0_B_2 : Vec F S16x1 .f32 :=
  VO0_2.read (Elt F) (VO0_2.writes (Elt F) VO0_2.junk (kernelRun0_B c i arg2 harg2 arg3 harg3 arg4 harg4 hc0 x0 xo1 xo2).1.2)
end B

/-- THE ACCUMULATION. What the two output buffers hold after the body at position `n` (minima, maxima): a first tile's contents, or
    a later tile's over what position `n - 1` left. -/
def outsAt0 (c : Dev nD) : (n : ℕ) → n < cfg0.N → Vec F S16x1 .f32 × Vec F S16x1 .f32
  | 0, hn =>
    (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
        ((hcond0_0 ⟨0, hn⟩).mpr (Nat.zero_mod _)) (iblk0 V c 0 ⟨0, hn⟩),
     out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
        ((hcond0_0 ⟨0, hn⟩).mpr (Nat.zero_mod _)) (iblk0 V c 0 ⟨0, hn⟩))
  | n + 1, hn =>
    if h0 : (n + 1) % 16 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          (fun h => h0 ((hcond0_0 ⟨n + 1, hn⟩).mp h)) (iblk0 V c 0 ⟨n + 1, hn⟩) (outsAt0 c n (Nat.lt_of_succ_lt hn)).1 (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
          (fun h => h0 ((hcond0_0 ⟨n + 1, hn⟩).mp h)) (iblk0 V c 0 ⟨n + 1, hn⟩) (outsAt0 c n (Nat.lt_of_succ_lt hn)).1 (outsAt0 c n (Nat.lt_of_succ_lt hn)).2)

theorem outsAt0_A (c : Dev nD) (t : Fin cfg0.N) (h0 : t.val % 16 = 0) :
    outsAt0 V c t.val t.isLt =
      (out0_A_1 c (grid0.coords t) (ms0_0 t) (hs0_0 t) (ms0_1 t) (hs0_1 t) (ms0_2 t) (hs0_2 t) ((hcond0_0 t).mpr h0) (iblk0 V c 0 t),
       out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt =
      (out0_B_1 c (grid0.coords t) (ms0_0 t) (hs0_0 t) (ms0_1 t) (hs0_1 t) (ms0_2 t) (hs0_2 t) (fun h => h0 ((hcond0_0 t).mp h)) (iblk0 V c 0 t)
          (outsAt0 V c (t.val - 1) (Nat.lt_of_le_of_lt (Nat.sub_le _ _) t.isLt)).1 (outsAt0 V c (t.val - 1) (Nat.lt_of_le_of_lt (Nat.sub_le _ _) t.isLt)).2,
       out0_B_2 c (grid0.coords t) (ms0_0 t) (hs0_0 t) (ms0_1 t) (hs0_1 t) (ms0_2 t) (hs0_2 t) (fun h => h0 ((hcond0_0 t).mp h)) (iblk0 V c 0 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
/-- At a later tile each output buffer holds what the tile before left: they are written back only after a half's last tile. -/
theorem before0_1_B (c : Dev nD) (t : Fin cfg0.N) (h0 : ¬t.val % 16 = 0) (d) :
    (dat0 V c).before 1 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]
theorem before0_2_B (c : Dev nD) (t : Fin cfg0.N) (h0 : ¬t.val % 16 = 0) (d) :
    (dat0 V c).before 2 t d = (outsAt0 V c (t.val - 1) (Nat.lt_of_le_of_lt (Nat.sub_le _ _) t.isLt)).2 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the input's buffer holds its tile; at a first tile the first run applies, at a later tile the second, the
    output buffers holding what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 32 := lt_of_lt_of_eq t.isLt (show cfg0.N = 32 from N_0)
  by_cases h0 : t.val % 16 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    unfold owns; iexists _; isplitr
    swap; · iexact H2
    ipureintro; exact View.read_writes_of_cover _ _ _ _ _ (cover0_A_2 c _ _ _ _ _ _ _ _ _)
  · rw [outsAt0_B V c t h0]
    simp only [before0_1_B V c t h0, before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _ _).2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _)
    unfold owns; iexists _; isplitr
    swap; · iexact H2
    ipureintro; exact View.read_writes_of_cover _ _ _ _ _ (cover0_B_2 c _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.R1Runs.lean ====
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The histogram region (pipeline 1): its body run on any staging buffers

The body has one branch, taken exactly at the first row tile of a batch half (grid coordinate 1 is 0): there it first clears the
counts' buffer. Either way it then adds to that buffer the tile's 32 bin counts. -/

/-- The branch's condition, from the grid coordinates. -/
abbrev cond1_0 (i : grid1.Coords) : Prop := (Scalar.cmpi .ne (Scalar.extui (Scalar.cmpi .eq (BitVec.ofNat 32 (i 1).val) 0#32)) 0#32) = 1#1
/-- It holds at the points 0 and 32 only. -/
theorem hcond1_0 : ∀ t : Fin cfg1.N, cond1_0 (grid1.coords t) ↔ t.val % 32 = 0 :=
  (by decide +kernel : ∀ t : Fin grid1.N, cond1_0 (grid1.coords t) ↔ t.val % 32 = 0)

/-- One staging buffer of the counts' window, through which its contents are stated. -/
abbrev VO1_3 : View sig .tc .vmem S16x32 .f32 := (Memref.whole cc1_stg3_0 : Memref sig .tc .vmem S16x32 .f32).view
abbrev ms1_0 (t : Fin cfg1.N) : Memref sig .tc .vmem S16x32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x32 .f32 := win1_3.stage (cfg1.slots t 3)
abbrev hs1_3 (t : Fin cfg1.N) : (ms1_3 t).IsWhole := hstage1_3 ((cfg1.slots t 3).cast nbuf1_3)

set_option maxHeartbeats 1000000 in
/-- The stores the body leaves in the counts' buffer AT A FIRST TILE (the buffer cleared, then the tile's counts added), with the proof
    that the body runs, the three inputs coming back as they were. -/
noncomputable def kernelRun1_A (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) :
    { L3 : List (View.Piece (Elt F) S16x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__hist_kernel i arg2 harg2 arg3 harg3 arg4 harg4 arg5 harg5) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The stores the body leaves in the counts' buffer AT A LATER TILE (the tile's counts added to the running counts `xo3`), with the
    proof that the body runs, the three inputs coming back as they were. -/
noncomputable def kernelRun1_B (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) :
    { L3 : List (View.Piece (Elt F) S16x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc1__hist_kernel i arg2 harg2 arg3 harg3 arg4 harg4 arg5 harg5) K } := by
  refine ⟨?_, fun E K => ?run⟩
  case run =>
    simp only [cc1__hist_kernel_eq_skeleton]; unfold cc1__hist_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KernelIdeal.R1.lean ====
import proofs.«122725_j16939351016189_2_alg».proof.Proof.KernelIdeal.R1Runs
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The histogram region (pipeline 1) at the buffer contents `V` it is entered from

Point `t` of its 64 takes row tile `t % 32` (32 rows) of batch half `t / 32` (16 samples), that half's minima and maxima, and the half's
16×32 counts, which stay in their staging buffer from the half's first tile to its last and are written back only then. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (the minima and maxima are fetched at a half's
    first tile only; their block does not move within the half). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- At a first tile the body's stores fill the counts' buffer. -/
theorem cover1_A_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) (y : S16x32.Idx) :
    ∃ pc ∈ (kernelRun1_A c i arg2 harg2 arg3 harg3 arg4 harg4 arg5 harg5 hc0 x0 x1 x2).1, y ∈ pc.1.set :=
  View.cover_of_tiledL (kernelRun1_A c i arg2 harg2 arg3 harg3 arg4 harg4 arg5 harg5 hc0 x0 x1 x2).1 S16x32.size (by sl_kernel_rfl) y

/-- What a first tile leaves in the counts' buffer. -/
def out1_A_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) : Vec F S16x32 .f32 :=
  VO1_3.read (Elt F) (VO1_3.writes (Elt F) VO1_3.junk (kernelRun1_A c i arg2 harg2 arg3 harg3 arg4 harg4 arg5 harg5 hc0 x0 x1 x2).1)

/-- At a later tile the body's store fills the counts' buffer. -/
theorem cover1_B_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) (y : S16x32.Idx) :
    ∃ pc ∈ (kernelRun1_B c i arg2 harg2 arg3 harg3 arg4 harg4 arg5 harg5 hc0 x0 x1 x2 xo3).1, y ∈ pc.1.set :=
  View.cover_of_tiledL (kernelRun1_B c i arg2 harg2 arg3 harg3 arg4 harg4 arg5 harg5 hc0 x0 x1 x2 xo3).1 S16x32.size (by sl_kernel_rfl) y

/-- What a later tile leaves in the counts' buffer, over the running counts `xo3`. -/
def out1_B_3 (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) : Vec F S16x32 .f32 :=
  VO1_3.read (Elt F) (VO1_3.writes (Elt F) VO1_3.junk (kernelRun1_B c i arg2 harg2 arg3 harg3 arg4 harg4 arg5 harg5 hc0 x0 x1 x2 xo3).1)

/-- THE ACCUMULATION. What the counts' staging buffer holds after the body at position `n`: a first tile's contents, or a later
    tile's over what position `n - 1` left. -/
def outsAt1 (c : Dev nD) : (n : ℕ) → n < cfg1.N → Vec F S16x32 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩)
      ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 32 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩)
        (fun h => h0 ((hcond1_0 ⟨n + 1, hn⟩).mp h)) (iblk1 V c 0 ⟨n + 1, hn⟩) (iblk1 V c 1 ⟨n + 1, hn⟩) (iblk1 V c 2 ⟨n + 1, hn⟩)
        (outsAt1 c n (Nat.lt_of_succ_lt hn))

theorem outsAt1_A (c : Dev nD) (t : Fin cfg1.N) (h0 : t.val % 32 = 0) :
    outsAt1 V c t.val t.isLt = out1_A_3 c (grid1.coords t) (ms1_0 t) (hs1_0 t) (ms1_1 t) (hs1_1 t) (ms1_2 t) (hs1_2 t) (ms1_3 t) (hs1_3 t)
      ((hcond1_0 t).mpr h0) (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 32 = 0) :
    outsAt1 V c t.val t.isLt = out1_B_3 c (grid1.coords t) (ms1_0 t) (hs1_0 t) (ms1_1 t) (hs1_1 t) (ms1_2 t) (hs1_2 t) (ms1_3 t) (hs1_3 t)
      (fun h => h0 ((hcond1_0 t).mp h)) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later tile the counts' buffer holds what the tile before left: it is written back only after a half's last tile. -/
theorem before1_3_B (c : Dev nD) (t : Fin cfg1.N) (h0 : ¬t.val % 32 = 0) (d) :
    (dat1 V c).before 3 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' buffers hold their blocks; at a first tile the first run applies, at a later tile the second,
    the counts' buffer holding what the tile before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 64 := lt_of_lt_of_eq t.isLt (show cfg1.N = 64 from N_1)
  by_cases h0 : t.val % 32 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.R2.lean ====
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The refine region (pipeline 2) at the buffer contents `V` it is entered from

Each of its 32 points takes a band of 32 image rows of every sample and the whole table of step sizes, and writes the band after
four steps `out + a · (out − out²)`. Nothing is carried from one point to the next. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The image band's staging buffer holds the band at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The step sizes' staging buffer holds the whole table at every point: it is fetched once and its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S32x32x1024 := Rect.unit (s := S32x32x1024) ![0, 0, 0] S32x32x1024.size inb_S32x32x1024_S32x32x1024_0_0_0
abbrev r2_1 : Rect S32x4 := Rect.unit (s := S32x4) ![0, 0] S32x4.size inb_S32x4_S32x4_0_0

/-- The output band after the body: its one store, of the refined band. -/
def out2_2 (x0 : Vec F S32x32x1024 .f32) (x1 : Vec F S32x4 .f32) : Vec F S32x32x1024 .f32 :=
  View.canon [⟨r2_0, k2_pay1 (View.ld x0 r2_0) (View.ld x1 r2_1)⟩]

/-- That store fills the band. -/
theorem cover2_2 (p0 : Vec F S32x32x1024 .f32) (y : S32x32x1024.Idx) :
    ∃ pc ∈ ([⟨r2_0, p0⟩] : List (View.Piece (Elt F) S32x32x1024 .f32)), y ∈ pc.1.set :=
  View.cover_of_tiled [⟨r2_0, p0⟩] S32x32x1024.size (by rfl) y

set_option maxHeartbeats 1000000 in
/-- The body on whole staging buffers: the two inputs come back as they were, the output holds `out2_2` of them. -/
theorem sound_kernel2 (c : Dev nD) (E : Set ℕ) (i : grid2.Coords) (arg1 : Memref sig .tc .vmem S32x32x1024 .f32) (harg1 : arg1.IsWhole)
    (arg2 : Memref sig .tc .vmem S32x4 .f32) (harg2 : arg2.IsWhole) (arg3 : Memref sig .tc .vmem S32x32x1024 .f32) (harg3 : arg3.IsWhole)
    (x0 : Vec F S32x32x1024 .f32) (x1 : Vec F S32x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__refine_kernel i arg1 harg1 arg2 harg2 arg3 harg3) K := by
  simp only [cc2__refine_kernel_eq_skeleton]; unfold cc2__refine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The region's proof data: its arrays as entered; after the body at a point the inputs' buffers at their blocks and the output's
    at the refined band; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
import proofs.«122725_j16939351016189_2_alg».proof.Proof.KernelIdeal.R0
import proofs.«122725_j16939351016189_2_alg».proof.Proof.KernelIdeal.R1
import proofs.«122725_j16939351016189_2_alg».proof.Proof.KernelIdeal.R2
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import proofs.«122725_j16939351016189_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a reshape, the min/max region, the histogram region, the host's small network (eleven stretches of host
operations), the refine region, a reshape

## The buffer contents at each boundary between two of these sixteen items -/

/-- Core `c`'s buffers at launch. -/
abbrev B0 : Dev nD → Valuation τ sig (Elt F) := fun c b => (s₀ m ρ).mem ((c : Dev nD), b)
/-- After the first reshape: what the min/max region is entered from. -/
abbrev B1 : Dev nD → Valuation τ sig (Elt F) := fun c => StableHlo.after hostOps0 (B0 m ρ c)
abbrev Bv1 : (c : Dev nD) → (b : Ref sig .tc) → Buf (Elt F) ((c : Thread nD τ).loc b) := fun c b => B1 m ρ c b
/-- After the min/max region: its arrays at what its write-backs leave, every other buffer as entered. -/
def B2 (c : Dev nD) : Valuation τ sig (Elt F) :=
  Pipeline.withArrays spec0 c (B1 m ρ c) fun w => (dat0 (Bv1 m ρ) c).arrAt w cfg0.N
theorem B2_arr (c : Dev nD) (w : Fin cfg0.W) :
    B2 m ρ c (Proc.devRef .tc (Pipeline.arrRef spec0 w)) = (dat0 (Bv1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev Bv2 : (c : Dev nD) → (b : Ref sig .tc) → Buf (Elt F) ((c : Thread nD τ).loc b) := fun c b => B2 m ρ c b
theorem hF0 (c : Dev nD) (w : Fin cfg0.W) : (dat0 (Bv1 m ρ) c).arrAt w cfg0.N = Bv2 m ρ c (Pipeline.arrRef spec0 w) :=
  (B2_arr m ρ c w).symm
theorem hrest0 (c : Dev nD) : ∀ b, b ∉ Finset.univ.image (Pipeline.arrRef spec0) → Bv2 m ρ c b = Bv1 m ρ c b :=
  fun b hb => B2_of_ne m ρ c b fun w e => hb (Finset.mem_image.mpr ⟨w, Finset.mem_univ _, e⟩)

/-- After the histogram region. -/
def B3 (c : Dev nD) : Valuation τ sig (Elt F) :=
  Pipeline.withArrays spec1 c (B2 m ρ c) fun w => (dat1 (Bv2 m ρ) c).arrAt w cfg1.N
theorem B3_arr (c : Dev nD) (w : Fin cfg1.W) :
    B3 m ρ c (Proc.devRef .tc (Pipeline.arrRef spec1 w)) = (dat1 (Bv2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev Bv3 : (c : Dev nD) → (b : Ref sig .tc) → Buf (Elt F) ((c : Thread nD τ).loc b) := fun c b => B3 m ρ c b
theorem hF1 (c : Dev nD) (w : Fin cfg1.W) : (dat1 (Bv2 m ρ) c).arrAt w cfg1.N = Bv3 m ρ c (Pipeline.arrRef spec1 w) :=
  (B3_arr m ρ c w).symm
theorem hrest1 (c : Dev nD) : ∀ b, b ∉ Finset.univ.image (Pipeline.arrRef spec1) → Bv3 m ρ c b = Bv2 m ρ c b :=
  fun b hb => B3_of_ne m ρ c b fun w e => hb (Finset.mem_image.mpr ⟨w, Finset.mem_univ _, e⟩)

/-- After each stretch of the host's network (counts to step sizes), in order. -/
abbrev B4 : Dev nD → Valuation τ sig (Elt F) := fun c => StableHlo.after hostOps2 (B3 m ρ c)
abbrev B5 : Dev nD → Valuation τ sig (Elt F) := fun c => StableHlo.after hostOps2_1 (B4 m ρ c)
abbrev B6 : Dev nD → Valuation τ sig (Elt F) := fun c => StableHlo.after hostOps2_2 (B5 m ρ c)
abbrev B7 : Dev nD → Valuation τ sig (Elt F) := fun c => StableHlo.after hostOps2_3 (B6 m ρ c)
abbrev B8 : Dev nD → Valuation τ sig (Elt F) := fun c => StableHlo.after hostOps2_4 (B7 m ρ c)
abbrev B9 : Dev nD → Valuation τ sig (Elt F) := fun c => StableHlo.after hostOps2_5 (B8 m ρ c)
abbrev B10 : Dev nD → Valuation τ sig (Elt F) := fun c => StableHlo.after hostOps2_6 (B9 m ρ c)
abbrev B11 : Dev nD → Valuation τ sig (Elt F) := fun c => StableHlo.after hostOps2_7 (B10 m ρ c)
abbrev B12 : Dev nD → Valuation τ sig (Elt F) := fun c => StableHlo.after hostOps2_8 (B11 m ρ c)
abbrev B13 : Dev nD → Valuation τ sig (Elt F) := fun c => StableHlo.after hostOps2_9 (B12 m ρ c)
abbrev B14 : Dev nD → Valuation τ sig (Elt F) := fun c => StableHlo.after hostOps2_10 (B13 m ρ c)
abbrev Bv14 : (c : Dev nD) → (b : Ref sig .tc) → Buf (Elt F) ((c : Thread nD τ).loc b) := fun c b => B14 m ρ c b

/-- After the refine region. -/
def B15 (c : Dev nD) : Valuation τ sig (Elt F) :=
  Pipeline.withArrays spec2 c (B14 m ρ c) fun w => (dat2 (Bv14 m ρ) c).arrAt w cfg2.N
theorem B15_arr (c : Dev nD) (w : Fin cfg2.W) :
    B15 m ρ c (Proc.devRef .tc (Pipeline.arrRef spec2 w)) = (dat2 (Bv14 m ρ) c).arrAt w cfg2.N := by
  unfold B15; exact Pipeline.withArrays_arr spec2 launch2.win.arr_inj c _ _ w
theorem B15_of_ne (c : Dev nD) (b : Ref sig .tc) (hb : ∀ w, Pipeline.arrRef spec2 w ≠ b) :
    B15 m ρ c (Proc.devRef .tc b) = B14 m ρ c (Proc.devRef .tc b) := by
  unfold B15; exact Pipeline.withArrays_of_ne spec2 c _ _ b hb
abbrev Bv15 : (c : Dev nD) → (b : Ref sig .tc) → Buf (Elt F) ((c : Thread nD τ).loc b) := fun c b => B15 m ρ c b
theorem hF2 (c : Dev nD) (w : Fin cfg2.W) : (dat2 (Bv14 m ρ) c).arrAt w cfg2.N = Bv15 m ρ c (Pipeline.arrRef spec2 w) :=
  (B15_arr m ρ c w).symm
theorem hrest2 (c : Dev nD) : ∀ b, b ∉ Finset.univ.image (Pipeline.arrRef spec2) → Bv15 m ρ c b = Bv14 m ρ c b :=
  fun b hb => B15_of_ne m ρ c b fun w e => hb (Finset.mem_image.mpr ⟨w, Finset.mem_univ _, e⟩)

/-- After the last reshape: the end. -/
abbrev B16 : Dev nD → Valuation τ sig (Elt F) := fun c => StableHlo.after hostOps3 (B15 m ρ c)

/-! ### No item writes an argument -/

theorem B16_main_arg0 (c : Dev nD) : B16 m ρ c (Proc.devRef .tc main_arg0) = m ((c : Thread nD τ).loc main_arg0) :=
  calc B16 m ρ c (Proc.devRef .tc main_arg0)
    _ = B15 m ρ c (Proc.devRef .tc main_arg0) := StableHlo.after_of_writes_sub hostOps3 _ hostOps3_writes (by decide)
    _ = B14 m ρ c (Proc.devRef .tc main_arg0) := B15_of_ne m ρ c main_arg0 (by decide)
    _ = B13 m ρ c (Proc.devRef .tc main_arg0) := StableHlo.after_of_writes_sub hostOps2_10 _ hostOps2_10_writes (by decide)
    _ = B12 m ρ c (Proc.devRef .tc main_arg0) := StableHlo.after_of_writes_sub hostOps2_9 _ hostOps2_9_writes (by decide)
    _ = B11 m ρ c (Proc.devRef .tc main_arg0) := StableHlo.after_of_writes_sub hostOps2_8 _ hostOps2_8_writes (by decide)
    _ = B10 m ρ c (Proc.devRef .tc main_arg0) := StableHlo.after_of_writes_sub hostOps2_7 _ hostOps2_7_writes (by decide)
    _ = B9 m ρ c (Proc.devRef .tc main_arg0) := StableHlo.after_of_writes_sub hostOps2_6 _ hostOps2_6_writes (by decide)
    _ = B8 m ρ c (Proc.devRef .tc main_arg0) := StableHlo.after_of_writes_sub hostOps2_5 _ hostOps2_5_writes (by decide)
    _ = B7 m ρ c (Proc.devRef .tc main_arg0) := StableHlo.after_of_writes_sub hostOps2_4 _ hostOps2_4_writes (by decide)
    _ = B6 m ρ c (Proc.devRef .tc main_arg0) := StableHlo.after_of_writes_sub hostOps2_3 _ hostOps2_3_writes (by decide)
    _ = B5 m ρ c (Proc.devRef .tc main_arg0) := StableHlo.after_of_writes_sub hostOps2_2 _ hostOps2_2_writes (by decide)
    _ = B4 m ρ c (Proc.devRef .tc main_arg0) := StableHlo.after_of_writes_sub hostOps2_1 _ hostOps2_1_writes (by decide)
    _ = B3 m ρ c (Proc.devRef .tc main_arg0) := StableHlo.after_of_writes_sub hostOps2 _ hostOps2_writes (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_writes_sub hostOps0 _ hostOps0_writes (by decide)
    _ = m ((c : Thread nD τ).loc main_arg0) := rfl
theorem B16_main_arg1 (c : Dev nD) : B16 m ρ c (Proc.devRef .tc main_arg1) = m ((c : Thread nD τ).loc main_arg1) :=
  calc B16 m ρ c (Proc.devRef .tc main_arg1)
    _ = B15 m ρ c (Proc.devRef .tc main_arg1) := StableHlo.after_of_writes_sub hostOps3 _ hostOps3_writes (by decide)
    _ = B14 m ρ c (Proc.devRef .tc main_arg1) := B15_of_ne m ρ c main_arg1 (by decide)
    _ = B13 m ρ c (Proc.devRef .tc main_arg1) := StableHlo.after_of_writes_sub hostOps2_10 _ hostOps2_10_writes (by decide)
    _ = B12 m ρ c (Proc.devRef .tc main_arg1) := StableHlo.after_of_writes_sub hostOps2_9 _ hostOps2_9_writes (by decide)
    _ = B11 m ρ c (Proc.devRef .tc main_arg1) := StableHlo.after_of_writes_sub hostOps2_8 _ hostOps2_8_writes (by decide)
    _ = B10 m ρ c (Proc.devRef .tc main_arg1) := StableHlo.after_of_writes_sub hostOps2_7 _ hostOps2_7_writes (by decide)
    _ = B9 m ρ c (Proc.devRef .tc main_arg1) := StableHlo.after_of_writes_sub hostOps2_6 _ hostOps2_6_writes (by decide)
    _ = B8 m ρ c (Proc.devRef .tc main_arg1) := StableHlo.after_of_writes_sub hostOps2_5 _ hostOps2_5_writes (by decide)
    _ = B7 m ρ c (Proc.devRef .tc main_arg1) := StableHlo.after_of_writes_sub hostOps2_4 _ hostOps2_4_writes (by decide)
    _ = B6 m ρ c (Proc.devRef .tc main_arg1) := StableHlo.after_of_writes_sub hostOps2_3 _ hostOps2_3_writes (by decide)
    _ = B5 m ρ c (Proc.devRef .tc main_arg1) := StableHlo.after_of_writes_sub hostOps2_2 _ hostOps2_2_writes (by decide)
    _ = B4 m ρ c (Proc.devRef .tc main_arg1) := StableHlo.after_of_writes_sub hostOps2_1 _ hostOps2_1_writes (by decide)
    _ = B3 m ρ c (Proc.devRef .tc main_arg1) := StableHlo.after_of_writes_sub hostOps2 _ hostOps2_writes (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B16_main_arg2 (c : Dev nD) : B16 m ρ c (Proc.devRef .tc main_arg2) = m ((c : Thread nD τ).loc main_arg2) :=
  calc B16 m ρ c (Proc.devRef .tc main_arg2)
    _ = B15 m ρ c (Proc.devRef .tc main_arg2) := StableHlo.after_of_writes_sub hostOps3 _ hostOps3_writes (by decide)
    _ = B14 m ρ c (Proc.devRef .tc main_arg2) := B15_of_ne m ρ c main_arg2 (by decide)
    _ = B13 m ρ c (Proc.devRef .tc main_arg2) := StableHlo.after_of_writes_sub hostOps2_10 _ hostOps2_10_writes (by decide)
    _ = B12 m ρ c (Proc.devRef .tc main_arg2) := StableHlo.after_of_writes_sub hostOps2_9 _ hostOps2_9_writes (by decide)
    _ = B11 m ρ c (Proc.devRef .tc main_arg2) := StableHlo.after_of_writes_sub hostOps2_8 _ hostOps2_8_writes (by decide)
    _ = B10 m ρ c (Proc.devRef .tc main_arg2) := StableHlo.after_of_writes_sub hostOps2_7 _ hostOps2_7_writes (by decide)
    _ = B9 m ρ c (Proc.devRef .tc main_arg2) := StableHlo.after_of_writes_sub hostOps2_6 _ hostOps2_6_writes (by decide)
    _ = B8 m ρ c (Proc.devRef .tc main_arg2) := StableHlo.after_of_writes_sub hostOps2_5 _ hostOps2_5_writes (by decide)
    _ = B7 m ρ c (Proc.devRef .tc main_arg2) := StableHlo.after_of_writes_sub hostOps2_4 _ hostOps2_4_writes (by decide)
    _ = B6 m ρ c (Proc.devRef .tc main_arg2) := StableHlo.after_of_writes_sub hostOps2_3 _ hostOps2_3_writes (by decide)
    _ = B5 m ρ c (Proc.devRef .tc main_arg2) := StableHlo.after_of_writes_sub hostOps2_2 _ hostOps2_2_writes (by decide)
    _ = B4 m ρ c (Proc.devRef .tc main_arg2) := StableHlo.after_of_writes_sub hostOps2_1 _ hostOps2_1_writes (by decide)
    _ = B3 m ρ c (Proc.devRef .tc main_arg2) := StableHlo.after_of_writes_sub hostOps2 _ hostOps2_writes (by decide)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B16_main_arg3 (c : Dev nD) : B16 m ρ c (Proc.devRef .tc main_arg3) = m ((c : Thread nD τ).loc main_arg3) :=
  calc B16 m ρ c (Proc.devRef .tc main_arg3)
    _ = B15 m ρ c (Proc.devRef .tc main_arg3) := StableHlo.after_of_writes_sub hostOps3 _ hostOps3_writes (by decide)
    _ = B14 m ρ c (Proc.devRef .tc main_arg3) := B15_of_ne m ρ c main_arg3 (by decide)
    _ = B13 m ρ c (Proc.devRef .tc main_arg3) := StableHlo.after_of_writes_sub hostOps2_10 _ hostOps2_10_writes (by decide)
    _ = B12 m ρ c (Proc.devRef .tc main_arg3) := StableHlo.after_of_writes_sub hostOps2_9 _ hostOps2_9_writes (by decide)
    _ = B11 m ρ c (Proc.devRef .tc main_arg3) := StableHlo.after_of_writes_sub hostOps2_8 _ hostOps2_8_writes (by decide)
    _ = B10 m ρ c (Proc.devRef .tc main_arg3) := StableHlo.after_of_writes_sub hostOps2_7 _ hostOps2_7_writes (by decide)
    _ = B9 m ρ c (Proc.devRef .tc main_arg3) := StableHlo.after_of_writes_sub hostOps2_6 _ hostOps2_6_writes (by decide)
    _ = B8 m ρ c (Proc.devRef .tc main_arg3) := StableHlo.after_of_writes_sub hostOps2_5 _ hostOps2_5_writes (by decide)
    _ = B7 m ρ c (Proc.devRef .tc main_arg3) := StableHlo.after_of_writes_sub hostOps2_4 _ hostOps2_4_writes (by decide)
    _ = B6 m ρ c (Proc.devRef .tc main_arg3) := StableHlo.after_of_writes_sub hostOps2_3 _ hostOps2_3_writes (by decide)
    _ = B5 m ρ c (Proc.devRef .tc main_arg3) := StableHlo.after_of_writes_sub hostOps2_2 _ hostOps2_2_writes (by decide)
    _ = B4 m ρ c (Proc.devRef .tc main_arg3) := StableHlo.after_of_writes_sub hostOps2_1 _ hostOps2_1_writes (by decide)
    _ = B3 m ρ c (Proc.devRef .tc main_arg3) := StableHlo.after_of_writes_sub hostOps2 _ hostOps2_writes (by decide)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B16_main_arg4 (c : Dev nD) : B16 m ρ c (Proc.devRef .tc main_arg4) = m ((c : Thread nD τ).loc main_arg4) :=
  calc B16 m ρ c (Proc.devRef .tc main_arg4)
    _ = B15 m ρ c (Proc.devRef .tc main_arg4) := StableHlo.after_of_writes_sub hostOps3 _ hostOps3_writes (by decide)
    _ = B14 m ρ c (Proc.devRef .tc main_arg4) := B15_of_ne m ρ c main_arg4 (by decide)
    _ = B13 m ρ c (Proc.devRef .tc main_arg4) := StableHlo.after_of_writes_sub hostOps2_10 _ hostOps2_10_writes (by decide)
    _ = B12 m ρ c (Proc.devRef .tc main_arg4) := StableHlo.after_of_writes_sub hostOps2_9 _ hostOps2_9_writes (by decide)
    _ = B11 m ρ c (Proc.devRef .tc main_arg4) := StableHlo.after_of_writes_sub hostOps2_8 _ hostOps2_8_writes (by decide)
    _ = B10 m ρ c (Proc.devRef .tc main_arg4) := StableHlo.after_of_writes_sub hostOps2_7 _ hostOps2_7_writes (by decide)
    _ = B9 m ρ c (Proc.devRef .tc main_arg4) := StableHlo.after_of_writes_sub hostOps2_6 _ hostOps2_6_writes (by decide)
    _ = B8 m ρ c (Proc.devRef .tc main_arg4) := StableHlo.after_of_writes_sub hostOps2_5 _ hostOps2_5_writes (by decide)
    _ = B7 m ρ c (Proc.devRef .tc main_arg4) := StableHlo.after_of_writes_sub hostOps2_4 _ hostOps2_4_writes (by decide)
    _ = B6 m ρ c (Proc.devRef .tc main_arg4) := StableHlo.after_of_writes_sub hostOps2_3 _ hostOps2_3_writes (by decide)
    _ = B5 m ρ c (Proc.devRef .tc main_arg4) := StableHlo.after_of_writes_sub hostOps2_2 _ hostOps2_2_writes (by decide)
    _ = B4 m ρ c (Proc.devRef .tc main_arg4) := StableHlo.after_of_writes_sub hostOps2_1 _ hostOps2_1_writes (by decide)
    _ = B3 m ρ c (Proc.devRef .tc main_arg4) := StableHlo.after_of_writes_sub hostOps2 _ hostOps2_writes (by decide)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B16_main_arg5 (c : Dev nD) : B16 m ρ c (Proc.devRef .tc main_arg5) = m ((c : Thread nD τ).loc main_arg5) :=
  calc B16 m ρ c (Proc.devRef .tc main_arg5)
    _ = B15 m ρ c (Proc.devRef .tc main_arg5) := StableHlo.after_of_writes_sub hostOps3 _ hostOps3_writes (by decide)
    _ = B14 m ρ c (Proc.devRef .tc main_arg5) := B15_of_ne m ρ c main_arg5 (by decide)
    _ = B13 m ρ c (Proc.devRef .tc main_arg5) := StableHlo.after_of_writes_sub hostOps2_10 _ hostOps2_10_writes (by decide)
    _ = B12 m ρ c (Proc.devRef .tc main_arg5) := StableHlo.after_of_writes_sub hostOps2_9 _ hostOps2_9_writes (by decide)
    _ = B11 m ρ c (Proc.devRef .tc main_arg5) := StableHlo.after_of_writes_sub hostOps2_8 _ hostOps2_8_writes (by decide)
    _ = B10 m ρ c (Proc.devRef .tc main_arg5) := StableHlo.after_of_writes_sub hostOps2_7 _ hostOps2_7_writes (by decide)
    _ = B9 m ρ c (Proc.devRef .tc main_arg5) := StableHlo.after_of_writes_sub hostOps2_6 _ hostOps2_6_writes (by decide)
    _ = B8 m ρ c (Proc.devRef .tc main_arg5) := StableHlo.after_of_writes_sub hostOps2_5 _ hostOps2_5_writes (by decide)
    _ = B7 m ρ c (Proc.devRef .tc main_arg5) := StableHlo.after_of_writes_sub hostOps2_4 _ hostOps2_4_writes (by decide)
    _ = B6 m ρ c (Proc.devRef .tc main_arg5) := StableHlo.after_of_writes_sub hostOps2_3 _ hostOps2_3_writes (by decide)
    _ = B5 m ρ c (Proc.devRef .tc main_arg5) := StableHlo.after_of_writes_sub hostOps2_2 _ hostOps2_2_writes (by decide)
    _ = B4 m ρ c (Proc.devRef .tc main_arg5) := StableHlo.after_of_writes_sub hostOps2_1 _ hostOps2_1_writes (by decide)
    _ = B3 m ρ c (Proc.devRef .tc main_arg5) := StableHlo.after_of_writes_sub hostOps2 _ hostOps2_writes (by decide)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl
theorem B16_main_arg6 (c : Dev nD) : B16 m ρ c (Proc.devRef .tc main_arg6) = m ((c : Thread nD τ).loc main_arg6) :=
  calc B16 m ρ c (Proc.devRef .tc main_arg6)
    _ = B15 m ρ c (Proc.devRef .tc main_arg6) := StableHlo.after_of_writes_sub hostOps3 _ hostOps3_writes (by decide)
    _ = B14 m ρ c (Proc.devRef .tc main_arg6) := B15_of_ne m ρ c main_arg6 (by decide)
    _ = B13 m ρ c (Proc.devRef .tc main_arg6) := StableHlo.after_of_writes_sub hostOps2_10 _ hostOps2_10_writes (by decide)
    _ = B12 m ρ c (Proc.devRef .tc main_arg6) := StableHlo.after_of_writes_sub hostOps2_9 _ hostOps2_9_writes (by decide)
    _ = B11 m ρ c (Proc.devRef .tc main_arg6) := StableHlo.after_of_writes_sub hostOps2_8 _ hostOps2_8_writes (by decide)
    _ = B10 m ρ c (Proc.devRef .tc main_arg6) := StableHlo.after_of_writes_sub hostOps2_7 _ hostOps2_7_writes (by decide)
    _ = B9 m ρ c (Proc.devRef .tc main_arg6) := StableHlo.after_of_writes_sub hostOps2_6 _ hostOps2_6_writes (by decide)
    _ = B8 m ρ c (Proc.devRef .tc main_arg6) := StableHlo.after_of_writes_sub hostOps2_5 _ hostOps2_5_writes (by decide)
    _ = B7 m ρ c (Proc.devRef .tc main_arg6) := StableHlo.after_of_writes_sub hostOps2_4 _ hostOps2_4_writes (by decide)
    _ = B6 m ρ c (Proc.devRef .tc main_arg6) := StableHlo.after_of_writes_sub hostOps2_3 _ hostOps2_3_writes (by decide)
    _ = B5 m ρ c (Proc.devRef .tc main_arg6) := StableHlo.after_of_writes_sub hostOps2_2 _ hostOps2_2_writes (by decide)
    _ = B4 m ρ c (Proc.devRef .tc main_arg6) := StableHlo.after_of_writes_sub hostOps2_1 _ hostOps2_1_writes (by decide)
    _ = B3 m ρ c (Proc.devRef .tc main_arg6) := StableHlo.after_of_writes_sub hostOps2 _ hostOps2_writes (by decide)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B16_main_arg7 (c : Dev nD) : B16 m ρ c (Proc.devRef .tc main_arg7) = m ((c : Thread nD τ).loc main_arg7) :=
  calc B16 m ρ c (Proc.devRef .tc main_arg7)
    _ = B15 m ρ c (Proc.devRef .tc main_arg7) := StableHlo.after_of_writes_sub hostOps3 _ hostOps3_writes (by decide)
    _ = B14 m ρ c (Proc.devRef .tc main_arg7) := B15_of_ne m ρ c main_arg7 (by decide)
    _ = B13 m ρ c (Proc.devRef .tc main_arg7) := StableHlo.after_of_writes_sub hostOps2_10 _ hostOps2_10_writes (by decide)
    _ = B12 m ρ c (Proc.devRef .tc main_arg7) := StableHlo.after_of_writes_sub hostOps2_9 _ hostOps2_9_writes (by decide)
    _ = B11 m ρ c (Proc.devRef .tc main_arg7) := StableHlo.after_of_writes_sub hostOps2_8 _ hostOps2_8_writes (by decide)
    _ = B10 m ρ c (Proc.devRef .tc main_arg7) := StableHlo.after_of_writes_sub hostOps2_7 _ hostOps2_7_writes (by decide)
    _ = B9 m ρ c (Proc.devRef .tc main_arg7) := StableHlo.after_of_writes_sub hostOps2_6 _ hostOps2_6_writes (by decide)
    _ = B8 m ρ c (Proc.devRef .tc main_arg7) := StableHlo.after_of_writes_sub hostOps2_5 _ hostOps2_5_writes (by decide)
    _ = B7 m ρ c (Proc.devRef .tc main_arg7) := StableHlo.after_of_writes_sub hostOps2_4 _ hostOps2_4_writes (by decide)
    _ = B6 m ρ c (Proc.devRef .tc main_arg7) := StableHlo.after_of_writes_sub hostOps2_3 _ hostOps2_3_writes (by decide)
    _ = B5 m ρ c (Proc.devRef .tc main_arg7) := StableHlo.after_of_writes_sub hostOps2_2 _ hostOps2_2_writes (by decide)
    _ = B4 m ρ c (Proc.devRef .tc main_arg7) := StableHlo.after_of_writes_sub hostOps2_1 _ hostOps2_1_writes (by decide)
    _ = B3 m ρ c (Proc.devRef .tc main_arg7) := StableHlo.after_of_writes_sub hostOps2 _ hostOps2_writes (by decide)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B16_main_arg8 (c : Dev nD) : B16 m ρ c (Proc.devRef .tc main_arg8) = m ((c : Thread nD τ).loc main_arg8) :=
  calc B16 m ρ c (Proc.devRef .tc main_arg8)
    _ = B15 m ρ c (Proc.devRef .tc main_arg8) := StableHlo.after_of_writes_sub hostOps3 _ hostOps3_writes (by decide)
    _ = B14 m ρ c (Proc.devRef .tc main_arg8) := B15_of_ne m ρ c main_arg8 (by decide)
    _ = B13 m ρ c (Proc.devRef .tc main_arg8) := StableHlo.after_of_writes_sub hostOps2_10 _ hostOps2_10_writes (by decide)
    _ = B12 m ρ c (Proc.devRef .tc main_arg8) := StableHlo.after_of_writes_sub hostOps2_9 _ hostOps2_9_writes (by decide)
    _ = B11 m ρ c (Proc.devRef .tc main_arg8) := StableHlo.after_of_writes_sub hostOps2_8 _ hostOps2_8_writes (by decide)
    _ = B10 m ρ c (Proc.devRef .tc main_arg8) := StableHlo.after_of_writes_sub hostOps2_7 _ hostOps2_7_writes (by decide)
    _ = B9 m ρ c (Proc.devRef .tc main_arg8) := StableHlo.after_of_writes_sub hostOps2_6 _ hostOps2_6_writes (by decide)
    _ = B8 m ρ c (Proc.devRef .tc main_arg8) := StableHlo.after_of_writes_sub hostOps2_5 _ hostOps2_5_writes (by decide)
    _ = B7 m ρ c (Proc.devRef .tc main_arg8) := StableHlo.after_of_writes_sub hostOps2_4 _ hostOps2_4_writes (by decide)
    _ = B6 m ρ c (Proc.devRef .tc main_arg8) := StableHlo.after_of_writes_sub hostOps2_3 _ hostOps2_3_writes (by decide)
    _ = B5 m ρ c (Proc.devRef .tc main_arg8) := StableHlo.after_of_writes_sub hostOps2_2 _ hostOps2_2_writes (by decide)
    _ = B4 m ρ c (Proc.devRef .tc main_arg8) := StableHlo.after_of_writes_sub hostOps2_1 _ hostOps2_1_writes (by decide)
    _ = B3 m ρ c (Proc.devRef .tc main_arg8) := StableHlo.after_of_writes_sub hostOps2 _ hostOps2_writes (by decide)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B16_main_arg9 (c : Dev nD) : B16 m ρ c (Proc.devRef .tc main_arg9) = m ((c : Thread nD τ).loc main_arg9) :=
  calc B16 m ρ c (Proc.devRef .tc main_arg9)
    _ = B15 m ρ c (Proc.devRef .tc main_arg9) := StableHlo.after_of_writes_sub hostOps3 _ hostOps3_writes (by decide)
    _ = B14 m ρ c (Proc.devRef .tc main_arg9) := B15_of_ne m ρ c main_arg9 (by decide)
    _ = B13 m ρ c (Proc.devRef .tc main_arg9) := StableHlo.after_of_writes_sub hostOps2_10 _ hostOps2_10_writes (by decide)
    _ = B12 m ρ c (Proc.devRef .tc main_arg9) := StableHlo.after_of_writes_sub hostOps2_9 _ hostOps2_9_writes (by decide)
    _ = B11 m ρ c (Proc.devRef .tc main_arg9) := StableHlo.after_of_writes_sub hostOps2_8 _ hostOps2_8_writes (by decide)
    _ = B10 m ρ c (Proc.devRef .tc main_arg9) := StableHlo.after_of_writes_sub hostOps2_7 _ hostOps2_7_writes (by decide)
    _ = B9 m ρ c (Proc.devRef .tc main_arg9) := StableHlo.after_of_writes_sub hostOps2_6 _ hostOps2_6_writes (by decide)
    _ = B8 m ρ c (Proc.devRef .tc main_arg9) := StableHlo.after_of_writes_sub hostOps2_5 _ hostOps2_5_writes (by decide)
    _ = B7 m ρ c (Proc.devRef .tc main_arg9) := StableHlo.after_of_writes_sub hostOps2_4 _ hostOps2_4_writes (by decide)
    _ = B6 m ρ c (Proc.devRef .tc main_arg9) := StableHlo.after_of_writes_sub hostOps2_3 _ hostOps2_3_writes (by decide)
    _ = B5 m ρ c (Proc.devRef .tc main_arg9) := StableHlo.after_of_writes_sub hostOps2_2 _ hostOps2_2_writes (by decide)
    _ = B4 m ρ c (Proc.devRef .tc main_arg9) := StableHlo.after_of_writes_sub hostOps2_1 _ hostOps2_1_writes (by decide)
    _ = B3 m ρ c (Proc.devRef .tc main_arg9) := StableHlo.after_of_writes_sub hostOps2 _ hostOps2_writes (by decide)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B16_main_arg10 (c : Dev nD) : B16 m ρ c (Proc.devRef .tc main_arg10) = m ((c : Thread nD τ).loc main_arg10) :=
  calc B16 m ρ c (Proc.devRef .tc main_arg10)
    _ = B15 m ρ c (Proc.devRef .tc main_arg10) := StableHlo.after_of_writes_sub hostOps3 _ hostOps3_writes (by decide)
    _ = B14 m ρ c (Proc.devRef .tc main_arg10) := B15_of_ne m ρ c main_arg10 (by decide)
    _ = B13 m ρ c (Proc.devRef .tc main_arg10) := StableHlo.after_of_writes_sub hostOps2_10 _ hostOps2_10_writes (by decide)
    _ = B12 m ρ c (Proc.devRef .tc main_arg10) := StableHlo.after_of_writes_sub hostOps2_9 _ hostOps2_9_writes (by decide)
    _ = B11 m ρ c (Proc.devRef .tc main_arg10) := StableHlo.after_of_writes_sub hostOps2_8 _ hostOps2_8_writes (by decide)
    _ = B10 m ρ c (Proc.devRef .tc main_arg10) := StableHlo.after_of_writes_sub hostOps2_7 _ hostOps2_7_writes (by decide)
    _ = B9 m ρ c (Proc.devRef .tc main_arg10) := StableHlo.after_of_writes_sub hostOps2_6 _ hostOps2_6_writes (by decide)
    _ = B8 m ρ c (Proc.devRef .tc main_arg10) := StableHlo.after_of_writes_sub hostOps2_5 _ hostOps2_5_writes (by decide)
    _ = B7 m ρ c (Proc.devRef .tc main_arg10) := StableHlo.after_of_writes_sub hostOps2_4 _ hostOps2_4_writes (by decide)
    _ = B6 m ρ c (Proc.devRef .tc main_arg10) := StableHlo.after_of_writes_sub hostOps2_3 _ hostOps2_3_writes (by decide)
    _ = B5 m ρ c (Proc.devRef .tc main_arg10) := StableHlo.after_of_writes_sub hostOps2_2 _ hostOps2_2_writes (by decide)
    _ = B4 m ρ c (Proc.devRef .tc main_arg10) := StableHlo.after_of_writes_sub hostOps2_1 _ hostOps2_1_writes (by decide)
    _ = B3 m ρ c (Proc.devRef .tc main_arg10) := StableHlo.after_of_writes_sub hostOps2 _ hostOps2_writes (by decide)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl
theorem B16_main_arg11 (c : Dev nD) : B16 m ρ c (Proc.devRef .tc main_arg11) = m ((c : Thread nD τ).loc main_arg11) :=
  calc B16 m ρ c (Proc.devRef .tc main_arg11)
    _ = B15 m ρ c (Proc.devRef .tc main_arg11) := StableHlo.after_of_writes_sub hostOps3 _ hostOps3_writes (by decide)
    _ = B14 m ρ c (Proc.devRef .tc main_arg11) := B15_of_ne m ρ c main_arg11 (by decide)
    _ = B13 m ρ c (Proc.devRef .tc main_arg11) := StableHlo.after_of_writes_sub hostOps2_10 _ hostOps2_10_writes (by decide)
    _ = B12 m ρ c (Proc.devRef .tc main_arg11) := StableHlo.after_of_writes_sub hostOps2_9 _ hostOps2_9_writes (by decide)
    _ = B11 m ρ c (Proc.devRef .tc main_arg11) := StableHlo.after_of_writes_sub hostOps2_8 _ hostOps2_8_writes (by decide)
    _ = B10 m ρ c (Proc.devRef .tc main_arg11) := StableHlo.after_of_writes_sub hostOps2_7 _ hostOps2_7_writes (by decide)
    _ = B9 m ρ c (Proc.devRef .tc main_arg11) := StableHlo.after_of_writes_sub hostOps2_6 _ hostOps2_6_writes (by decide)
    _ = B8 m ρ c (Proc.devRef .tc main_arg11) := StableHlo.after_of_writes_sub hostOps2_5 _ hostOps2_5_writes (by decide)
    _ = B7 m ρ c (Proc.devRef .tc main_arg11) := StableHlo.after_of_writes_sub hostOps2_4 _ hostOps2_4_writes (by decide)
    _ = B6 m ρ c (Proc.devRef .tc main_arg11) := StableHlo.after_of_writes_sub hostOps2_3 _ hostOps2_3_writes (by decide)
    _ = B5 m ρ c (Proc.devRef .tc main_arg11) := StableHlo.after_of_writes_sub hostOps2_2 _ hostOps2_2_writes (by decide)
    _ = B4 m ρ c (Proc.devRef .tc main_arg11) := StableHlo.after_of_writes_sub hostOps2_1 _ hostOps2_1_writes (by decide)
    _ = B3 m ρ c (Proc.devRef .tc main_arg11) := StableHlo.after_of_writes_sub hostOps2 _ hostOps2_writes (by decide)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Bv1 m ρ) c
  | ⟨1, _⟩ => fun c => dat1 (Bv2 m ρ) c
  | ⟨2, _⟩ => fun c => dat2 (Bv14 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (B16 m ρ c) ∗ ∃ r, prngReg c r)

/-- The last item's thread state is the final one beside what is owed: a regrouping. -/
theorem lastLink (c : Dev nD) :
    (iprop(StableHlo.held (c : Thread nD τ) (Pipeline.ucRefs τ sig) (B16 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: its arrays are split out of the unscoped buffers at entry and put back at what its write-backs
    leave at exit; the generator register goes into the class invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Bv1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (Bv1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Bv1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Bv1 m ρ c) (Bv2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at what its write-backs
    leave at exit; the generator register goes into the class invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Bv2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (Bv2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Bv2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Bv2 m ρ c) (Bv3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at entry and put back at what its write-backs
    leave at exit; the generator register goes into the class invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Bv14 m ρ) c).loose
  hwaits := Pipeline.hwaits_of_owed_zero _ _ _ _ L lv 2 fun _ _ => rfl
  pre c := iprop(StableHlo.held (c : Thread nD τ) (Pipeline.ucRefs τ sig) (B14 m ρ c) ∗ R c)
  post c := iprop(StableHlo.held (c : Thread nD τ) (Pipeline.ucRefs τ sig) (B15 m ρ c) ∗ R c)
  X c := iprop(∃ r, prngReg c r)
  Y c := iprop(∃ r, prngReg c r)
  Z c := Pipeline.unscopedRest (Ix := Unit) (Name := ℕ) (U := UR sig nD τ) (Lvl := ℕ) spec2 c (Bv14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Bv14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Bv14 m ρ c) (Bv15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's sixteen items in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)),
    .host (hseg hostOps2_1 hostOps2_1_sub hostOps2_1_fresh (B4 m ρ)),
    .host (hseg hostOps2_2 hostOps2_2_sub hostOps2_2_fresh (B5 m ρ)),
    .host (hseg hostOps2_3 hostOps2_3_sub hostOps2_3_fresh (B6 m ρ)),
    .host (hseg hostOps2_4 hostOps2_4_sub hostOps2_4_fresh (B7 m ρ)),
    .host (hseg hostOps2_5 hostOps2_5_sub hostOps2_5_fresh (B8 m ρ)),
    .host (hseg hostOps2_6 hostOps2_6_sub hostOps2_6_fresh (B9 m ρ)),
    .host (hseg hostOps2_7 hostOps2_7_sub hostOps2_7_fresh (B10 m ρ)),
    .host (hseg hostOps2_8 hostOps2_8_sub hostOps2_8_fresh (B11 m ρ)),
    .host (hseg hostOps2_9 hostOps2_9_sub hostOps2_9_fresh (B12 m ρ)),
    .host (hseg hostOps2_10 hostOps2_10_sub hostOps2_10_fresh (B13 m ρ)),
    .region (reg2 m ρ),
    .host (hseg hostOps3 hostOps3_sub hostOps3_fresh (B15 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with the result
    buffer at the last boundary's contents and every argument as launched. -/
theorem run : θ_run defs (onTc (τ := τ) (main (F := F))) ⟨m, fun _ => 0, ρ⟩ (fun r => ∀ c : Dev nD,
      r.2.mem ((c.tc : Thread nD τ).loc main_v36) = B16 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => lastLink m ρ c⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c =>
      ⟨h c _ (mem_uc main_v36 (by decide)),
       (h c _ (mem_uc main_arg0 (by decide))).trans (B16_main_arg0 m ρ c),
       (h c _ (mem_uc main_arg1 (by decide))).trans (B16_main_arg1 m ρ c),
       (h c _ (mem_uc main_arg2 (by decide))).trans (B16_main_arg2 m ρ c),
       (h c _ (mem_uc main_arg3 (by decide))).trans (B16_main_arg3 m ρ c),
       (h c _ (mem_uc main_arg4 (by decide))).trans (B16_main_arg4 m ρ c),
       (h c _ (mem_uc main_arg5 (by decide))).trans (B16_main_arg5 m ρ c),
       (h c _ (mem_uc main_arg6 (by decide))).trans (B16_main_arg6 m ρ c),
       (h c _ (mem_uc main_arg7 (by decide))).trans (B16_main_arg7 m ρ c),
       (h c _ (mem_uc main_arg8 (by decide))).trans (B16_main_arg8 m ρ c),
       (h c _ (mem_uc main_arg9 (by decide))).trans (B16_main_arg9 m ρ c),
       (h c _ (mem_uc main_arg10 (by decide))).trans (B16_main_arg10 m ρ c),
       (h c _ (mem_uc main_arg11 (by decide))).trans (B16_main_arg11 m ρ c)⟩)

/-- THE FRAME: the run with the result's value dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.KernelIdeal.Hand

end
-- ==== Proof.KernelIdeal.Carry.lean ====
import proofs.«122725_j16939351016189_2_alg».proof.Proof.KernelIdeal.Run
import proofs.«122725_j16939351016189_2_alg».proof.Proof.Gen.KernelIdeal.Launch
import proofs.«122725_j16939351016189_2_alg».proof.Proof.Gen.KernelIdeal.Skeleton
import proofs.«122725_j16939351016189_2_alg».proof.Proof.Gen.KernelIdeal.Points
import proofs.«122725_j16939351016189_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What each buffer the later items read still holds when they read it

The image (as 32 × 1024 × 1024) is written once, by the first reshape, and only read afterwards; the minima and maxima are written by the
first region only; the counts by the second only; the arguments by nothing. -/

/-- The image is not touched by the min/max region (it is its input). -/
theorem B2_v0 (c : Dev nD) : B2 m ρ c (Proc.devRef .tc main_v0) = B1 m ρ c (Proc.devRef .tc main_v0) :=
  (B2_arr m ρ c 0).trans (((dat0 (Bv1 m ρ) c).arrAt_in 0 rfl _).trans (A_eq0 (Bv1 m ρ) c 0))
/-- … nor by the histogram region. -/
theorem B3_v0 (c : Dev nD) : B3 m ρ c (Proc.devRef .tc main_v0) = B1 m ρ c (Proc.devRef .tc main_v0) :=
  ((B3_arr m ρ c 0).trans (((dat1 (Bv2 m ρ) c).arrAt_in 0 rfl _).trans (A_eq1 (Bv2 m ρ) c 0))).trans (B2_v0 m ρ c)
/-- … nor by the host's network. -/
theorem B14_v0 (c : Dev nD) : B14 m ρ c (Proc.devRef .tc main_v0) = B1 m ρ c (Proc.devRef .tc main_v0) :=
  calc B14 m ρ c (Proc.devRef .tc main_v0)
    _ = B13 m ρ c (Proc.devRef .tc main_v0) := StableHlo.after_of_writes_sub hostOps2_10 _ hostOps2_10_writes (by decide)
    _ = B12 m ρ c (Proc.devRef .tc main_v0) := StableHlo.after_of_writes_sub hostOps2_9 _ hostOps2_9_writes (by decide)
    _ = B11 m ρ c (Proc.devRef .tc main_v0) := StableHlo.after_of_writes_sub hostOps2_8 _ hostOps2_8_writes (by decide)
    _ = B10 m ρ c (Proc.devRef .tc main_v0) := StableHlo.after_of_writes_sub hostOps2_7 _ hostOps2_7_writes (by decide)
    _ = B9 m ρ c (Proc.devRef .tc main_v0) := StableHlo.after_of_writes_sub hostOps2_6 _ hostOps2_6_writes (by decide)
    _ = B8 m ρ c (Proc.devRef .tc main_v0) := StableHlo.after_of_writes_sub hostOps2_5 _ hostOps2_5_writes (by decide)
    _ = B7 m ρ c (Proc.devRef .tc main_v0) := StableHlo.after_of_writes_sub hostOps2_4 _ hostOps2_4_writes (by decide)
    _ = B6 m ρ c (Proc.devRef .tc main_v0) := StableHlo.after_of_writes_sub hostOps2_3 _ hostOps2_3_writes (by decide)
    _ = B5 m ρ c (Proc.devRef .tc main_v0) := StableHlo.after_of_writes_sub hostOps2_2 _ hostOps2_2_writes (by decide)
    _ = B4 m ρ c (Proc.devRef .tc main_v0) := StableHlo.after_of_writes_sub hostOps2_1 _ hostOps2_1_writes (by decide)
    _ = B3 m ρ c (Proc.devRef .tc main_v0) := StableHlo.after_of_writes_sub hostOps2 _ hostOps2_writes (by decide)
    _ = B1 m ρ c (Proc.devRef .tc main_v0) := B3_v0 m ρ c

/-- The minima and the maxima after the min/max region are what its write-backs leave; the histogram region only reads them. -/
theorem B2_mn (c : Dev nD) : B2 m ρ c (Proc.devRef .tc main_v1_0) = (dat0 (Bv1 m ρ) c).arrAt 1 cfg0.N := B2_arr m ρ c 1
theorem B2_mx (c : Dev nD) : B2 m ρ c (Proc.devRef .tc main_v1_1) = (dat0 (Bv1 m ρ) c).arrAt 2 cfg0.N := B2_arr m ρ c 2
theorem B3_mn (c : Dev nD) : B3 m ρ c (Proc.devRef .tc main_v1_0) = B2 m ρ c (Proc.devRef .tc main_v1_0) :=
  (B3_arr m ρ c 1).trans (((dat1 (Bv2 m ρ) c).arrAt_in 1 rfl _).trans (A_eq1 (Bv2 m ρ) c 1))
theorem B3_mx (c : Dev nD) : B3 m ρ c (Proc.devRef .tc main_v1_1) = B2 m ρ c (Proc.devRef .tc main_v1_1) :=
  (B3_arr m ρ c 2).trans (((dat1 (Bv2 m ρ) c).arrAt_in 2 rfl _).trans (A_eq1 (Bv2 m ρ) c 2))
/-- The counts after the histogram region are what its write-backs leave. -/
theorem B3_cnt (c : Dev nD) : B3 m ρ c (Proc.devRef .tc main_v2) = (dat1 (Bv2 m ρ) c).arrAt 3 cfg1.N := B3_arr m ρ c 3
/-- The refined image after the refine region is what its write-backs leave. -/
theorem B15_out (c : Dev nD) : B15 m ρ c (Proc.devRef .tc main_v35) = (dat2 (Bv14 m ρ) c).arrAt 2 cfg2.N := B15_arr m ρ c 2

/-- The arguments are as launched when the host's network reads them. -/
theorem B3_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
theorem B3_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_writes_sub hostOps0 _ hostOps0_writes (by decide)
    _ = m ((c : Thread nD τ).loc main_arg2) := rfl
theorem B3_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl
theorem B3_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl
theorem B3_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl
theorem B3_arg6 (c : Dev nD) : B3 m ρ c (Proc.devRef .tc main_arg6) = m ((c : Thread nD τ).loc main_arg6) :=
  calc B3 m ρ c (Proc.devRef .tc main_arg6)
    _ = B2 m ρ c (Proc.devRef .tc main_arg6) := B3_of_ne m ρ c main_arg6 (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl
theorem B3_arg7 (c : Dev nD) : B3 m ρ c (Proc.devRef .tc main_arg7) = m ((c : Thread nD τ).loc main_arg7) :=
  calc B3 m ρ c (Proc.devRef .tc main_arg7)
    _ = B2 m ρ c (Proc.devRef .tc main_arg7) := B3_of_ne m ρ c main_arg7 (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl
theorem B3_arg8 (c : Dev nD) : B3 m ρ c (Proc.devRef .tc main_arg8) = m ((c : Thread nD τ).loc main_arg8) :=
  calc B3 m ρ c (Proc.devRef .tc main_arg8)
    _ = B2 m ρ c (Proc.devRef .tc main_arg8) := B3_of_ne m ρ c main_arg8 (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl
theorem B3_arg9 (c : Dev nD) : B3 m ρ c (Proc.devRef .tc main_arg9) = m ((c : Thread nD τ).loc main_arg9) :=
  calc B3 m ρ c (Proc.devRef .tc main_arg9)
    _ = B2 m ρ c (Proc.devRef .tc main_arg9) := B3_of_ne m ρ c main_arg9 (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl
theorem B3_arg10 (c : Dev nD) : B3 m ρ c (Proc.devRef .tc main_arg10) = m ((c : Thread nD τ).loc main_arg10) :=
  calc B3 m ρ c (Proc.devRef .tc main_arg10)
    _ = B2 m ρ c (Proc.devRef .tc main_arg10) := B3_of_ne m ρ c main_arg10 (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl
theorem B3_arg11 (c : Dev nD) : B3 m ρ c (Proc.devRef .tc main_arg11) = m ((c : Thread nD τ).loc main_arg11) :=
  calc B3 m ρ c (Proc.devRef .tc main_arg11)
    _ = B2 m ρ c (Proc.devRef .tc main_arg11) := B3_of_ne m ρ c main_arg11 (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

end Cert.KernelIdeal.Hand

end
-- ==== Proof.Spec.lean ====
import Idealize.ShloMosaic.PureOps

/-!
The reference computation, in stages.

Per sample (32 of them, each an image of 1 × 1024 × 1024 entries read as a row of 1048576): the row's minimum
`mn` and maximum `mx`; for each entry the bin index `⌊(v - mn) / safe · 32⌋` raised to at least 0 and lowered to
at most 31, with `safe = mx - mn` where that is positive and `1` elsewhere; the histogram of the indices (the
number of entries of the row in each of the 32 bins, as a scatter-add of ones into a table of 32 · 32 zeros at
`32 · row + index`); the histogram divided by its row sum and joined with `mn`, `mx` and the given `mu` to a
row of 35; five affine layers each followed by `x ↦ if x ≥ 0 then x else 0.01 · x` (the third reading the
second's result joined with the row of 35) down to four coefficients per sample; and four steps
`out ← out + aₖ · (out - out²)` over the image, `aₖ` the sample's `k`-th coefficient.

Each stage is the composition of the library's operations in the order, and with the operands, literals and
dimension numbers, the program states them.
-/

noncomputable section

namespace Cert.Spec

open Idealize.ShloMosaic

variable {F : FTy → Type} [FloatOps F]

abbrev Img : Shape := ⟨4, ![32, 1, 1024, 1024]⟩
abbrev S_ : Shape := ⟨0, ![]⟩
abbrev S4 : Shape := ⟨1, ![4]⟩
abbrev S32 : Shape := ⟨1, ![32]⟩
abbrev S64 : Shape := ⟨1, ![64]⟩
abbrev S1024 : Shape := ⟨1, ![1024]⟩
abbrev S33554432 : Shape := ⟨1, ![33554432]⟩
abbrev S1x4 : Shape := ⟨2, ![1, 4]⟩
abbrev S1x64 : Shape := ⟨2, ![1, 64]⟩
abbrev S32x1 : Shape := ⟨2, ![32, 1]⟩
abbrev S32x4 : Shape := ⟨2, ![32, 4]⟩
abbrev S32x32 : Shape := ⟨2, ![32, 32]⟩
abbrev S32x34 : Shape := ⟨2, ![32, 34]⟩
abbrev S32x35 : Shape := ⟨2, ![32, 35]⟩
abbrev S32x64 : Shape := ⟨2, ![32, 64]⟩
abbrev S32x99 : Shape := ⟨2, ![32, 99]⟩
abbrev S35x64 : Shape := ⟨2, ![35, 64]⟩
abbrev S64x64 : Shape := ⟨2, ![64, 64]⟩
abbrev S99x64 : Shape := ⟨2, ![99, 64]⟩
abbrev S64x4 : Shape := ⟨2, ![64, 4]⟩
abbrev S32x1048576 : Shape := ⟨2, ![32, 1048576]⟩
abbrev S33554432x1 : Shape := ⟨2, ![33554432, 1]⟩
abbrev S32x1x1x1 : Shape := ⟨4, ![32, 1, 1, 1]⟩

/-- The scatter's dimension numbers: an index row is one coordinate, along the table's only axis; an update is
    one element. -/
def scatterDims : ScatterDims S1024 S33554432x1 S33554432 where
  updateWindowDims := []
  insertedWindowDims := [0]
  scatterDimsToOperandDims := [0]
  indexVectorDim := 1
  wf := by decide

/-- A matrix product's dimension numbers: the left operand's columns against the right operand's rows. -/
def dot35 : DotDims S32x35 S35x64 S32x64 where
  lhsContracting := [1]
  rhsContracting := [0]
  lhsNonContracting := [0]
  rhsNonContracting := [1]
  lhsBatch := []
  rhsBatch := []
  wf := by decide

@[inherit_doc dot35] def dot64 : DotDims S32x64 S64x64 S32x64 where
  lhsContracting := [1]
  rhsContracting := [0]
  lhsNonContracting := [0]
  rhsNonContracting := [1]
  lhsBatch := []
  rhsBatch := []
  wf := by decide

@[inherit_doc dot35] def dot99 : DotDims S32x99 S99x64 S32x64 where
  lhsContracting := [1]
  rhsContracting := [0]
  lhsNonContracting := [0]
  rhsNonContracting := [1]
  lhsBatch := []
  rhsBatch := []
  wf := by decide

@[inherit_doc dot35] def dot4 : DotDims S32x64 S64x4 S32x4 where
  lhsContracting := [1]
  rhsContracting := [0]
  lhsNonContracting := [0]
  rhsNonContracting := [1]
  lhsBatch := []
  rhsBatch := []
  wf := by decide

/-- Joining along the columns: 32 + 1 + 1 = 34, 34 + 1 = 35, 64 + 35 = 99. -/
theorem cat34 : Shape.Concatenates [S32x32, S32x1, S32x1] S32x34 1 := by decide
@[inherit_doc cat34] theorem cat35 : Shape.Concatenates [S32x34, S32x1] S32x35 1 := by decide
@[inherit_doc cat34] theorem cat99 : Shape.Concatenates [S32x64, S32x35] S32x99 1 := by decide

/-- Each row's minimum, folded from +∞, as a column. -/
def mnOf (x : FVec F Img .f32) : FVec F S32x1 .f32 :=
  broadcastInDim S32x1 ![0] (by decide)
    (Host.reduce (axes := [1]) (t := S32) FloatOps.minimumf (shapeCast S32x1048576 x (by decide) : FVec F S32x1048576 .f32)
      (constant S_ .f32 0x7F800000#32 : FVec F S_ .f32) (by decide) (by decide))

/-- Each row's maximum, folded from -∞, as a column. -/
def mxOf (x : FVec F Img .f32) : FVec F S32x1 .f32 :=
  broadcastInDim S32x1 ![0] (by decide)
    (Host.reduce (axes := [1]) (t := S32) FloatOps.maximumf (shapeCast S32x1048576 x (by decide) : FVec F S32x1048576 .f32)
      (constant S_ .f32 0xFF800000#32 : FVec F S_ .f32) (by decide) (by decide))

/-- The divisor: `mx - mn` where that is positive, `1` elsewhere. -/
def safeOf (mn mx : FVec F S32x1 .f32) : FVec F S32x1 .f32 :=
  select (cmpf .ogt (subf mx mn) (broadcastInDim S32x1 ![] (by decide) (constant S_ .f32 0x00000000#32 : FVec F S_ .f32))) (subf mx mn) (broadcastInDim S32x1 ![] (by decide) (constant S_ .f32 0x3F800000#32 : FVec F S_ .f32))

/-- Each entry's bin: `⌊(v - mn) / safe · 32⌋` as a signed 32-bit integer, raised to at least 0, then lowered to at
    most 31. -/
def idxOf (x : FVec F Img .f32) (mn mx : FVec F S32x1 .f32) : IVec S32x1048576 32 :=
  minsi (broadcastInDim S32x1048576 ![] (by decide) (constantI S_ 32 31#32))
    (maxsi (broadcastInDim S32x1048576 ![] (by decide) (constantI S_ 32 0#32))
      (fptosi 32
        (Host.floor
          (mulf
            (Host.divf
              (subf (shapeCast S32x1048576 x (by decide) : FVec F S32x1048576 .f32) (broadcastInDim S32x1048576 ![0, 1] (by decide) mn))
              (broadcastInDim S32x1048576 ![0, 1] (by decide) (safeOf mn mx)))
            (broadcastInDim S32x1048576 ![] (by decide) (constant S_ .f32 0x42000000#32 : FVec F S_ .f32))))))

/-- Each entry's position in the flat table, `32 · row + index`, and `1024` more where that is negative. -/
def posOf (idx : IVec S32x1048576 32) : IVec S33554432 32 :=
  select
    (cmpi .slt (shapeCast S33554432 (addi idx (broadcastInDim S32x1048576 ![0, 1] (by decide) (muli (broadcastInDim S32x1 ![0] (by decide) (iotaInDim S32 32 0)) (broadcastInDim S32x1 ![] (by decide) (constantI S_ 32 32#32))))) (by decide)) (broadcastInDim S33554432 ![] (by decide) (constantI S_ 32 0#32)))
    (addi (shapeCast S33554432 (addi idx (broadcastInDim S32x1048576 ![0, 1] (by decide) (muli (broadcastInDim S32x1 ![0] (by decide) (iotaInDim S32 32 0)) (broadcastInDim S32x1 ![] (by decide) (constantI S_ 32 32#32))))) (by decide)) (broadcastInDim S33554432 ![] (by decide) (constantI S_ 32 1024#32)))
    (shapeCast S33554432 (addi idx (broadcastInDim S32x1048576 ![0, 1] (by decide) (muli (broadcastInDim S32x1 ![0] (by decide) (iotaInDim S32 32 0)) (broadcastInDim S32x1 ![] (by decide) (constantI S_ 32 32#32))))) (by decide))

/-- The histograms: ones added into a table of 1024 zeros at each entry's position, read as 32 rows of 32 bins. -/
def cntOf (idx : IVec S32x1048576 32) : FVec F S32x32 .f32 :=
  shapeCast S32x32
    (Host.scatterAdd scatterDims
      (broadcastInDim S1024 ![] (by decide) (constant S_ .f32 0x00000000#32 : FVec F S_ .f32))
      (broadcastInDim S33554432x1 ![0] (by decide) (posOf idx))
      (broadcastInDim S33554432 ![] (by decide) (constant S_ .f32 0x3F800000#32 : FVec F S_ .f32)))
    (by decide)

/-- The network's input row: the histogram over its row sum, then `mn`, `mx`, `mu`. -/
def vecOf (cnt : FVec F S32x32 .f32) (mn mx mu : FVec F S32x1 .f32) : FVec F S32x35 .f32 :=
  concatenate S32x35 1
    [⟨S32x34, concatenate S32x34 1
        [⟨S32x32, Host.divf cnt
            (broadcastInDim S32x32 ![0, 1] (by decide)
              (broadcastInDim S32x1 ![0] (by decide)
                (Host.reduceAdd (axes := [1]) (t := S32) cnt (constant S_ .f32 0x00000000#32 : FVec F S_ .f32) (by decide) (by decide))))⟩,
         ⟨S32x1, mn⟩, ⟨S32x1, mx⟩] cat34⟩,
     ⟨S32x1, mu⟩] cat35

/-- `x ↦ if x ≥ 0 then x else 0.01 · x`, on 32 rows of 64. -/
def lrelu64 (x : FVec F S32x64 .f32) : FVec F S32x64 .f32 :=
  select (cmpf .oge x (broadcastInDim S32x64 ![] (by decide) (constant S_ .f32 0x00000000#32 : FVec F S_ .f32))) x (mulf (broadcastInDim S32x64 ![] (by decide) (constant S_ .f32 0x3C23D70A#32 : FVec F S_ .f32)) x)

/-- The same on 32 rows of 4. -/
def lrelu4 (x : FVec F S32x4 .f32) : FVec F S32x4 .f32 :=
  select (cmpf .oge x (broadcastInDim S32x4 ![] (by decide) (constant S_ .f32 0x00000000#32 : FVec F S_ .f32))) x (mulf (broadcastInDim S32x4 ![] (by decide) (constant S_ .f32 0x3C23D70A#32 : FVec F S_ .f32)) x)

/-- The five layers, from the row of 35 to the four coefficients. -/
def alphasOf (vec : FVec F S32x35 .f32) (W1 : FVec F S35x64 .f32) (b1 : FVec F S64 .f32) (W2 : FVec F S64x64 .f32)
    (b2 : FVec F S64 .f32) (W3 : FVec F S99x64 .f32) (b3 : FVec F S64 .f32) (W4 : FVec F S64x64 .f32) (b4 : FVec F S64 .f32)
    (W5 : FVec F S64x4 .f32) (b5 : FVec F S4 .f32) : FVec F S32x4 .f32 :=
  lrelu4 (addf (Host.dotGeneral dot4 none (lrelu64 (addf (Host.dotGeneral dot64 none (lrelu64 (addf (Host.dotGeneral dot99 none (concatenate S32x99 1 [⟨S32x64, lrelu64 (addf (Host.dotGeneral dot64 none (lrelu64 (addf (Host.dotGeneral dot35 none vec W1) (broadcastInDim S32x64 ![0, 1] (by decide) (broadcastInDim S1x64 ![1] (by decide) b1)))) W2) (broadcastInDim S32x64 ![0, 1] (by decide) (broadcastInDim S1x64 ![1] (by decide) b2)))⟩, ⟨S32x35, vec⟩] cat99) W3) (broadcastInDim S32x64 ![0, 1] (by decide) (broadcastInDim S1x64 ![1] (by decide) b3)))) W4) (broadcastInDim S32x64 ![0, 1] (by decide) (broadcastInDim S1x64 ![1] (by decide) b4)))) W5) (broadcastInDim S32x4 ![0, 1] (by decide) (broadcastInDim S1x4 ![1] (by decide) b5)))

/-- Column `k`'s coefficient of each sample, spread over the sample's image. -/
def coefOf (col : FVec F S32x1 .f32) : FVec F Img .f32 :=
  broadcastInDim Img ![0, 1, 2, 3] (by decide) (broadcastInDim S32x1x1x1 ![0] (by decide) (shapeCast S32 col (by decide)))

/-- One step: `out + a · (out - out · out)`. -/
def refineStep (out : FVec F Img .f32) (col : FVec F S32x1 .f32) : FVec F Img .f32 :=
  addf out (mulf (coefOf col) (subf out (mulf out out)))

/-- The four steps, with the coefficients' columns 0, 1, 2, 3 in turn. -/
def refineOf (x : FVec F Img .f32) (al : FVec F S32x4 .f32) : FVec F Img .f32 :=
  refineStep
    (refineStep
      (refineStep
        (refineStep x (extractStridedSlice S32x1 ![0, 0] al (by decide)))
        (extractStridedSlice S32x1 ![0, 1] al (by decide)))
      (extractStridedSlice S32x1 ![0, 2] al (by decide)))
    (extractStridedSlice S32x1 ![0, 3] al (by decide))

/-- The whole computation. -/
def resultOf (x : FVec F Img .f32) (mu : FVec F S32x1 .f32) (W1 : FVec F S35x64 .f32) (b1 : FVec F S64 .f32)
    (W2 : FVec F S64x64 .f32) (b2 : FVec F S64 .f32) (W3 : FVec F S99x64 .f32) (b3 : FVec F S64 .f32)
    (W4 : FVec F S64x64 .f32) (b4 : FVec F S64 .f32) (W5 : FVec F S64x4 .f32) (b5 : FVec F S4 .f32) : FVec F Img .f32 :=
  refineOf x (alphasOf (vecOf (cntOf (idxOf x (mnOf x) (mxOf x))) (mnOf x) (mxOf x) mu) W1 b1 W2 b2 W3 b3 W4 b4 W5 b5)

end Cert.Spec

end
-- ==== Proof.KernelIdeal.Result.lean ====
import proofs.«122725_j16939351016189_2_alg».proof.Proof.KernelIdeal.Carry
import proofs.«122725_j16939351016189_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! # The kernel's result is the reference's function of the arguments

The four facts this rests on, each about one part of the program read at the extended reals: the first region leaves the per-sample
minima and maxima; the second the histogram counts of the bin indices computed from them; the host's network between the regions is the
reference's, operation by operation; the third region applies the four refine steps pointwise. With them the result follows by
substitution: no algebra is left at this level. -/

/-- The facts about the parts, each at any buffer contents `V` the part is entered from. -/
structure Legs : Prop where
  final0_1 : ∀ (V : (c : Dev nD) → (b : Ref sig .tc) → Buf (Elt Ideal) ((c : Thread nD τ).loc b)) (c : Dev nD) (x : FVec Ideal Cert.Spec.Img .f32) (hx : ∀ (b : Fin 32) (h : Fin 1024) (w : Fin 1024), V c main_v0 (ix3 b h w) = x (ix4 b 0 h w)),
      (dat0 (F := Ideal) V c).arrAt 1 cfg0.N = Cert.Spec.mnOf (F := Ideal) x
  final0_2 : ∀ (V : (c : Dev nD) → (b : Ref sig .tc) → Buf (Elt Ideal) ((c : Thread nD τ).loc b)) (c : Dev nD) (x : FVec Ideal Cert.Spec.Img .f32) (hx : ∀ (b : Fin 32) (h : Fin 1024) (w : Fin 1024), V c main_v0 (ix3 b h w) = x (ix4 b 0 h w)),
      (dat0 (F := Ideal) V c).arrAt 2 cfg0.N = Cert.Spec.mxOf (F := Ideal) x
  final1_3 : ∀ (V : (c : Dev nD) → (b : Ref sig .tc) → Buf (Elt Ideal) ((c : Thread nD τ).loc b)) (c : Dev nD) (x : FVec Ideal Cert.Spec.Img .f32) (mn mx : FVec Ideal Cert.Spec.S32x1 .f32) (hx : ∀ (b : Fin 32) (h : Fin 1024) (w : Fin 1024), V c main_v0 (ix3 b h w) = x (ix4 b 0 h w))
      (hmn : V c main_v1_0 = mn) (hmx : V c main_v1_1 = mx),
      (dat1 (F := Ideal) V c).arrAt 3 cfg1.N = Cert.Spec.cntOf (F := Ideal) (Cert.Spec.idxOf (F := Ideal) x mn mx)
  final2_2 : ∀ (V : (c : Dev nD) → (b : Ref sig .tc) → Buf (Elt Ideal) ((c : Thread nD τ).loc b)) (c : Dev nD) (x : FVec Ideal Cert.Spec.Img .f32) (al : FVec Ideal Cert.Spec.S32x4 .f32) (hx : ∀ (b : Fin 32) (h : Fin 1024) (w : Fin 1024), V c main_v0 (ix3 b h w) = x (ix4 b 0 h w))
      (hal : V c main_v34 = al) (b : Fin 32) (h w : Fin 1024),
      (dat2 (F := Ideal) V c).arrAt 2 cfg2.N (ix3 b h w) = Cert.Spec.refineOf (F := Ideal) x al (ix4 b 0 h w)
  alphas_eq : ∀ (c : Dev nD), B14 m ρ c (Proc.devRef .tc main_v34)
      = Cert.Spec.alphasOf (F := Ideal) (Cert.Spec.vecOf (F := Ideal) (B3 m ρ c (Proc.devRef .tc main_v2)) (B3 m ρ c (Proc.devRef .tc main_v1_0)) (B3 m ρ c (Proc.devRef .tc main_v1_1)) (B3 m ρ c (Proc.devRef .tc main_arg1)))
          (B3 m ρ c (Proc.devRef .tc main_arg2)) (B3 m ρ c (Proc.devRef .tc main_arg3)) (B3 m ρ c (Proc.devRef .tc main_arg4)) (B3 m ρ c (Proc.devRef .tc main_arg5)) (B3 m ρ c (Proc.devRef .tc main_arg6)) (B3 m ρ c (Proc.devRef .tc main_arg7)) (B3 m ρ c (Proc.devRef .tc main_arg8)) (B3 m ρ c (Proc.devRef .tc main_arg9)) (B3 m ρ c (Proc.devRef .tc main_arg10)) (B3 m ρ c (Proc.devRef .tc main_arg11))
  v0_eq : ∀ (c : Dev nD) (b : Fin 32) (h w : Fin 1024), B1 m ρ c (Proc.devRef .tc main_v0) (ix3 b h w) = m ((c : Thread nD τ).loc main_arg0) (ix4 b 0 h w)
  v36_eq : ∀ (c : Dev nD) (b : Fin 32) (h w : Fin 1024), B16 m ρ c (Proc.devRef .tc main_v36) (ix4 b 0 h w) = B15 m ρ c (Proc.devRef .tc main_v35) (ix3 b h w)

variable {m ρ} (L : Legs m ρ)

/-- The image, as the argument array holds it. -/
abbrev X (m : (ℓ : Loc nD τ sig) → Buf (Elt Ideal) ℓ) (c : Dev nD) : FVec Ideal Cert.Spec.Img .f32 := m ((c : Thread nD τ).loc main_arg0)

include L

/-- Every region finds the image, as 32 × 1024 × 1024, at the argument's entries. -/
theorem hx1 (c : Dev nD) (b : Fin 32) (h w : Fin 1024) : Bv1 m ρ c main_v0 (ix3 b h w) = X m c (ix4 b 0 h w) := L.v0_eq c b h w
theorem hx2 (c : Dev nD) (b : Fin 32) (h w : Fin 1024) : Bv2 m ρ c main_v0 (ix3 b h w) = X m c (ix4 b 0 h w) :=
  (congrFun (B2_v0 m ρ c) _).trans (hx1 L c b h w)
theorem hx14 (c : Dev nD) (b : Fin 32) (h w : Fin 1024) : Bv14 m ρ c main_v0 (ix3 b h w) = X m c (ix4 b 0 h w) :=
  (congrFun (B14_v0 m ρ c) _).trans (hx1 L c b h w)

/-- The minima and maxima the first region leaves are the reference's. -/
theorem mn_eq (c : Dev nD) : B2 m ρ c (Proc.devRef .tc main_v1_0) = Cert.Spec.mnOf (F := Ideal) (X m c) :=
  (B2_mn m ρ c).trans (L.final0_1 (Bv1 m ρ) c (X m c) (hx1 L c))
theorem mx_eq (c : Dev nD) : B2 m ρ c (Proc.devRef .tc main_v1_1) = Cert.Spec.mxOf (F := Ideal) (X m c) :=
  (B2_mx m ρ c).trans (L.final0_2 (Bv1 m ρ) c (X m c) (hx1 L c))

/-- The counts the second region leaves are the reference's histogram. -/
theorem cnt_eq (c : Dev nD) : B3 m ρ c (Proc.devRef .tc main_v2)
    = Cert.Spec.cntOf (F := Ideal) (Cert.Spec.idxOf (F := Ideal) (X m c) (Cert.Spec.mnOf (F := Ideal) (X m c)) (Cert.Spec.mxOf (F := Ideal) (X m c))) :=
  (B3_cnt m ρ c).trans (L.final1_3 (Bv2 m ρ) c (X m c) _ _ (hx2 L c) (mn_eq L c) (mx_eq L c))

/-- The step sizes the host's network hands the third region are the reference's. -/
theorem al_eq (c : Dev nD) : Bv14 m ρ c main_v34
    = Cert.Spec.alphasOf (F := Ideal) (Cert.Spec.vecOf (F := Ideal) (Cert.Spec.cntOf (F := Ideal) (Cert.Spec.idxOf (F := Ideal) (X m c) (Cert.Spec.mnOf (F := Ideal) (X m c)) (Cert.Spec.mxOf (F := Ideal) (X m c))))
        (Cert.Spec.mnOf (F := Ideal) (X m c)) (Cert.Spec.mxOf (F := Ideal) (X m c)) (m ((c : Thread nD τ).loc main_arg1)))
      (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h := L.alphas_eq c
  rw [cnt_eq L c, (B3_mn m ρ c).trans (mn_eq L c), (B3_mx m ρ c).trans (mx_eq L c), B3_arg1 m ρ c, B3_arg2 m ρ c, B3_arg3 m ρ c, B3_arg4 m ρ c, B3_arg5 m ρ c, B3_arg6 m ρ c, B3_arg7 m ρ c, B3_arg8 m ρ c, B3_arg9 m ρ c, B3_arg10 m ρ c, B3_arg11 m ρ c] at h
  exact h

/-- THE RESULT: what the kernel's run leaves in its result buffer is the reference's function of the arguments. -/
theorem result_eq (c : Dev nD) : B16 m ρ c (Proc.devRef .tc main_v36)
    = Cert.Spec.resultOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext j
  obtain ⟨b, z, h, w, rfl⟩ : ∃ (b : Fin 32) (z : Fin 1) (h w : Fin 1024), j = ix4 b z h w := ⟨j 0, j 1, j 2, j 3, eq_ix4 j⟩
  obtain rfl : z = 0 := Subsingleton.elim _ _
  rw [L.v36_eq c b h w, B15_out m ρ c, L.final2_2 (Bv14 m ρ) c (X m c) _ (hx14 L c) (al_eq L c) b h w]
  rfl

end Cert.KernelIdeal.Hand

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.KernelIdeal.V0b.lean ====
/-
  The min/max region's arithmetic read at a sample, over the extended reals.

  The body's value for the running minima is `min(running, row-minimum of the lane-minima of the tile)`, each reduction started
  from +inf; for the running maxima the same with max and -inf. A minimum is carried here by its universal property: a bound
  `z` is below the new running minimum of sample `bb` exactly when it is below the old one and below every entry of the
  sample's rows in the tile (and dually for the maximum).
-/
import proofs.«122725_j16939351016189_2_alg».proof.Proof.Gen.KernelIdeal.Skeleton
import proofs.«122725_j16939351016189_2_alg».proof.Proof.LibMinMaxInf
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open Cert.Lib.MinMaxInf

/-- The tile index over row (bb, r) whose lane is l. -/
theorem lift_lane (bb : Fin 16) (r : Fin 64) (l : Fin 1024) :
    reduces_S16x64x1024_S16x64.lift (ix2 bb r) l = ix3 bb r l := by
  funext c; apply Fin.ext
  match c with
  | ⟨0, _⟩ => rfl
  | ⟨1, _⟩ => rfl
  | ⟨2, _⟩ => rfl

/-- The row index over sample bb whose row is r. -/
theorem lift_row (bb : Fin 16) (r : Fin 64) : reduces_S16x64_S16.lift (ix1 bb) r = ix2 bb r := by
  funext c; apply Fin.ext
  match c with
  | ⟨0, _⟩ => rfl
  | ⟨1, _⟩ => rfl

/-- Below a row's lane minimum: below every lane of the row. -/
theorem le_laneMin_iff (src : FVec Ideal S16x64x1024 .f32) (bb : Fin 16) (r : Fin 64) (z : EReal) :
    z ≤ (multiReduction .minimumf [2] S16x64 src 0x7F800000#32 reduces_S16x64x1024_S16x64 (.inl rfl) rfl (ix2 bb r) : EReal)
      ↔ ∀ l : Fin 1024, z ≤ (src (ix3 bb r l) : EReal) := by
  refine (iff_of_eq (congrArg (z ≤ ·)
    (multiReduction_minimumf_single src 0x7F800000#32 reduces_S16x64x1024_S16x64 (.inl rfl) rfl (ix2 bb r)))).trans ?_
  rw [ofBits_posInf_f32, le_inf_iff, Finset.le_inf_iff]
  constructor
  · intro h l
    exact Eq.mp (congrArg (fun i => z ≤ (src i : EReal)) (lift_lane bb r l)) (h.2 l (Finset.mem_univ _))
  · intro h
    exact ⟨le_top, fun l _ => Eq.mpr (congrArg (fun i => z ≤ (src i : EReal)) (lift_lane bb r l)) (h l)⟩

/-- Below a sample's minimum over the rows: below every row's value. -/
theorem le_rowMin_iff (src : FVec Ideal S16x64 .f32) (bb : Fin 16) (z : EReal) :
    z ≤ (multiReduction .minimumf [1] S16 src 0x7F800000#32 reduces_S16x64_S16 (.inl rfl) rfl (ix1 bb) : EReal)
      ↔ ∀ r : Fin 64, z ≤ (src (ix2 bb r) : EReal) := by
  refine (iff_of_eq (congrArg (z ≤ ·)
    (multiReduction_minimumf_single src 0x7F800000#32 reduces_S16x64_S16 (.inl rfl) rfl (ix1 bb)))).trans ?_
  rw [ofBits_posInf_f32, le_inf_iff, Finset.le_inf_iff]
  constructor
  · intro h r
    exact Eq.mp (congrArg (fun i => z ≤ (src i : EReal)) (lift_row bb r)) (h.2 r (Finset.mem_univ _))
  · intro h
    exact ⟨le_top, fun r _ => Eq.mpr (congrArg (fun i => z ≤ (src i : EReal)) (lift_row bb r)) (h r)⟩

/-- A column [16] read as [16,1]. -/
theorem cast_col (v : FVec Ideal S16 .f32) (bb : Fin 16) :
    shapeCast S16x1 v shapeCasts_S16_S16x1 (ix2 bb (0 : Fin 1)) = v (ix1 bb) :=
  shapeCast_apply v shapeCasts_S16_S16x1 (ix2 bb (0 : Fin 1)) (ix1 bb) (by
    rw [Shape.rowMajor_val_one, Shape.rowMajor_val_two]; show bb.val = bb.val * 1 + 0; omega)

/-- THE MINIMA'S PAYLOAD AT A SAMPLE: below it means below the running value and below every entry of the sample's tile. -/
theorem le_pay4_iff (v3 : Vec Ideal S16x64x1024 .f32) (v9 : Vec Ideal S16x1 .f32) (bb : Fin 16) (z : EReal) :
    z ≤ (k0_pay4 (F := Ideal) v3 v9 (ix2 bb (0 : Fin 1)) : EReal)
      ↔ z ≤ (v9 (ix2 bb (0 : Fin 1)) : EReal) ∧ ∀ (r : Fin 64) (l : Fin 1024), z ≤ (v3 (ix3 bb r l) : EReal) := by
  unfold k0_pay4 k0_pay3
  dsimp only
  refine le_min_iff.trans (and_congr ?_ ?_)
  · rw [shapeCast_self]
  · refine (iff_of_eq (congrArg (z ≤ ·) (cast_col _ bb))).trans ?_
    refine (le_rowMin_iff _ bb z).trans (forall_congr' fun r => ?_)
    refine (le_laneMin_iff _ bb r z).trans (forall_congr' fun l => ?_)
    rw [shapeCast_self]

/-- At a first tile the running minima are +inf, the top of the extended reals. -/
theorem pay1_apply (j : S16x1.Idx) : (k0_pay1 (F := Ideal) j : EReal) = ⊤ :=
  (show (k0_pay1 (F := Ideal) j : EReal) = Ideal.ofBits .f32 0x7F800000#32 from rfl).trans ofBits_posInf_f32

/-- At a first tile the running maxima are -inf, the bottom of the extended reals. -/
theorem pay2_apply (j : S16x1.Idx) : (k0_pay2 (F := Ideal) j : EReal) = ⊥ :=
  (show (k0_pay2 (F := Ideal) j : EReal) = Ideal.ofBits .f32 0xFF800000#32 from rfl).trans ofBits_negInf_f32

/-- Above a row's lane maximum: above every lane of the row. -/
theorem laneMax_le_iff (src : FVec Ideal S16x64x1024 .f32) (bb : Fin 16) (r : Fin 64) (z : EReal) :
    (multiReduction .maximumf [2] S16x64 src 0xFF800000#32 reduces_S16x64x1024_S16x64 (.inl rfl) rfl (ix2 bb r) : EReal) ≤ z
      ↔ ∀ l : Fin 1024, (src (ix3 bb r l) : EReal) ≤ z := by
  refine (iff_of_eq (congrArg (· ≤ z)
    (multiReduction_maximumf_single src 0xFF800000#32 reduces_S16x64x1024_S16x64 (.inl rfl) rfl (ix2 bb r)))).trans ?_
  rw [ofBits_negInf_f32, sup_le_iff, Finset.sup_le_iff]
  constructor
  · intro h l
    exact Eq.mp (congrArg (fun i => (src i : EReal) ≤ z) (lift_lane bb r l)) (h.2 l (Finset.mem_univ _))
  · intro h
    exact ⟨bot_le, fun l _ => Eq.mpr (congrArg (fun i => (src i : EReal) ≤ z) (lift_lane bb r l)) (h l)⟩

/-- Above a sample's maximum over the rows: above every row's value. -/
theorem rowMax_le_iff (src : FVec Ideal S16x64 .f32) (bb : Fin 16) (z : EReal) :
    (multiReduction .maximumf [1] S16 src 0xFF800000#32 reduces_S16x64_S16 (.inl rfl) rfl (ix1 bb) : EReal) ≤ z
      ↔ ∀ r : Fin 64, (src (ix2 bb r) : EReal) ≤ z := by
  refine (iff_of_eq (congrArg (· ≤ z)
    (multiReduction_maximumf_single src 0xFF800000#32 reduces_S16x64_S16 (.inl rfl) rfl (ix1 bb)))).trans ?_
  rw [ofBits_negInf_f32, sup_le_iff, Finset.sup_le_iff]
  constructor
  · intro h r
    exact Eq.mp (congrArg (fun i => (src i : EReal) ≤ z) (lift_row bb r)) (h.2 r (Finset.mem_univ _))
  · intro h
    exact ⟨bot_le, fun r _ => Eq.mpr (congrArg (fun i => (src i : EReal) ≤ z) (lift_row bb r)) (h r)⟩

/-- THE MAXIMA'S PAYLOAD AT A SAMPLE: above it means above the running value and above every entry of the sample's tile. -/
theorem pay5_le_iff (v3 : Vec Ideal S16x64x1024 .f32) (v14 : Vec Ideal S16x1 .f32) (bb : Fin 16) (z : EReal) :
    (k0_pay5 (F := Ideal) v3 v14 (ix2 bb (0 : Fin 1)) : EReal) ≤ z
      ↔ (v14 (ix2 bb (0 : Fin 1)) : EReal) ≤ z ∧ ∀ (r : Fin 64) (l : Fin 1024), (v3 (ix3 bb r l) : EReal) ≤ z := by
  unfold k0_pay5 k0_pay3
  dsimp only
  refine max_le_iff.trans (and_congr ?_ ?_)
  · rw [shapeCast_self]
  · refine (iff_of_eq (congrArg (· ≤ z) (cast_col _ bb))).trans ?_
    refine (rowMax_le_iff _ bb z).trans (forall_congr' fun r => ?_)
    refine (laneMax_le_iff _ bb r z).trans (forall_congr' fun l => ?_)
    rw [shapeCast_self]

end Cert.KernelIdeal.Hand

end
-- ==== Proof.KernelIdeal.V0a.lean ====
/-
  The min/max region's body, read as values: what each of its two cases leaves in the running-minima buffer and in the
  running-maxima buffer, as one pure term of the image tile and of the running values.

  At a first tile of a batch half the body first stores +inf (resp. -inf) and then meets (joins) that with the tile's row
  extrema; at a later tile it meets (joins) the running values with them. Stated for every float instance.
-/
import proofs.«122725_j16939351016189_2_alg».proof.Proof.KernelIdeal.R0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A later tile leaves, in the minima's buffer, the running minima met with the tile's row minima. -/
theorem out0_B_1_eq (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : ¬cond0_0 i) (x0 : Vec F S16x64x1024 .f32) (xo1 : Vec F S16x1 .f32) (xo2 : Vec F S16x1 .f32) :
    out0_B_1 c i arg2 harg2 arg3 harg3 arg4 harg4 hc0 x0 xo1 xo2 = k0_pay4 x0 xo1 := by
  unfold out0_B_1
  rw [View.read_writes_eq_canon _ _ _ (cover0_B_1 c i arg2 harg2 arg3 harg3 arg4 harg4 hc0 x0 xo1 xo2)]
  unfold kernelRun0_B
  dsimp only
  rw [View.canon_unit_zero zeros2]
  simp only [View.readAt_eq_ld, harg2.read_unread, harg3.read_unread, View.ld_unit_zero (S := S16x64x1024) zeros3,
    View.ld_unit_zero (S := S16x1) zeros2]

/-- A later tile leaves, in the maxima's buffer, the running maxima joined with the tile's row maxima. -/
theorem out0_B_2_eq (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : ¬cond0_0 i) (x0 : Vec F S16x64x1024 .f32) (xo1 : Vec F S16x1 .f32) (xo2 : Vec F S16x1 .f32) :
    out0_B_2 c i arg2 harg2 arg3 harg3 arg4 harg4 hc0 x0 xo1 xo2 = k0_pay5 x0 xo2 := by
  unfold out0_B_2
  rw [View.read_writes_eq_canon _ _ _ (cover0_B_2 c i arg2 harg2 arg3 harg3 arg4 harg4 hc0 x0 xo1 xo2)]
  unfold kernelRun0_B
  dsimp only
  rw [View.canon_unit_zero zeros2]
  simp only [View.readAt_eq_ld, harg2.read_unread, harg4.read_unread, View.ld_unit_zero (S := S16x64x1024) zeros3,
    View.ld_unit_zero (S := S16x1) zeros2]

/-- A first tile leaves, in the minima's buffer, +inf met with the tile's row minima: the +inf it has just stored is what it
    reads back as the running value. -/
theorem out0_A_1_eq (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : cond0_0 i) (x0 : Vec F S16x64x1024 .f32) :
    out0_A_1 c i arg2 harg2 arg3 harg3 arg4 harg4 hc0 x0 = k0_pay4 x0 k0_pay1 := by
  unfold out0_A_1
  rw [View.read_writes_eq_canon _ _ _ (cover0_A_1 c i arg2 harg2 arg3 harg3 arg4 harg4 hc0 x0)]
  unfold kernelRun0_A
  dsimp only
  sl_unfold_words
  rw [View.canon_cons_unit_zero (S := S16x1) zeros2, View.readCov_unit_zero (S := S16x1) _ zeros2]
  simp only [View.readAt_eq_ld, harg2.read_unread, View.ld_unit_zero (S := S16x64x1024) zeros3]

/-- A first tile leaves, in the maxima's buffer, -inf joined with the tile's row maxima. -/
theorem out0_A_2_eq (c : Dev nD) (i : grid0.Coords) (arg2 : Memref sig .tc .vmem S16x64x1024 .f32) (harg2 : arg2.IsWhole)
    (arg3 : Memref sig .tc .vmem S16x1 .f32) (harg3 : arg3.IsWhole) (arg4 : Memref sig .tc .vmem S16x1 .f32) (harg4 : arg4.IsWhole)
    (hc0 : cond0_0 i) (x0 : Vec F S16x64x1024 .f32) :
    out0_A_2 c i arg2 harg2 arg3 harg3 arg4 harg4 hc0 x0 = k0_pay5 x0 k0_pay2 := by
  unfold out0_A_2
  rw [View.read_writes_eq_canon _ _ _ (cover0_A_2 c i arg2 harg2 arg3 harg3 arg4 harg4 hc0 x0)]
  unfold kernelRun0_A
  dsimp only
  sl_unfold_words
  rw [View.canon_cons_unit_zero (S := S16x1) zeros2, View.readCov_unit_zero (S := S16x1) _ zeros2]
  simp only [View.readAt_eq_ld, harg2.read_unread, View.ld_unit_zero (S := S16x64x1024) zeros3]

end Cert.KernelIdeal.Hand

end
-- ==== Proof.KernelIdeal.V0c.lean ====
/-
  The min/max region's two running buffers along the grid, as terms of the image.

  Point `t` of the 32 reads the tile of samples `16 (t / 16) … + 15`, rows `64 (t % 16) … + 63`, all 1024 columns, of the image as the
  region finds it (`iblk0_apply`). After a half's first tile each buffer holds the body's value over the constant it has just
  stored; after a later tile, the body's value over what the tile before left.
-/
import proofs.«122725_j16939351016189_2_alg».proof.Proof.KernelIdeal.R0
import proofs.«122725_j16939351016189_2_alg».proof.Proof.KernelIdeal.V0a
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The image window's block indices over the grid: batch half `t / 16`, row tile `t % 16`, all columns. -/
theorem tile_index : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, win0_0.index t (0 : Fin 3) = t.val / 16 ∧ win0_0.index t (1 : Fin 3) = t.val % 16
    ∧ win0_0.index t (2 : Fin 3) = 0)

/-- THE TILE AT POINT `t`: entry (bb, r, l) is the image's entry at sample `16 (t / 16) + bb`, row `64 (t % 16) + r`, column `l`. -/
theorem iblk0_apply (c : Dev nD) (t : Fin cfg0.N) (bb : Fin 16) (r : Fin 64) (l : Fin 1024) (s : Fin 32) (h : Fin 1024)
    (hs : s.val = 16 * (t.val / 16) + bb.val) (hh : h.val = 64 * (t.val % 16) + r.val) :
    (iblk0 V c 0 t : Vec F S16x64x1024 .f32) (ix3 bb r l) = (V c main_v0 : S32x1024x1024.Idx → Elt F .f32) (ix3 s h l) := by
  obtain ⟨e0, e1, e2⟩ := tile_index t
  unfold iblk0
  rw [View.read_apply]
  show V c main_v0 _ = V c main_v0 _
  congr 1
  funext a
  apply Fin.ext
  match a with
  | ⟨0, _⟩ => show win0_0.index t 0 * 16 + 1 * bb.val = s.val; rw [e0, hs]; omega
  | ⟨1, _⟩ => show win0_0.index t 1 * 64 + 1 * r.val = h.val; rw [e1, hh]; omega
  | ⟨2, _⟩ => show win0_0.index t 2 * 1024 + 1 * l.val = l.val; rw [e2]; omega

/-- After a first tile the minima's buffer holds +inf met with the tile's row minima. -/
theorem minAt_A (c : Dev nD) (t : Fin cfg0.N) (h0 : t.val % 16 = 0) :
    (outsAt0 V c t.val t.isLt).1 = k0_pay4 (iblk0 V c 0 t) k0_pay1 :=
  (congrArg Prod.fst (outsAt0_A V c t h0)).trans
    (out0_A_1_eq c (grid0.coords t) (ms0_0 t) (hs0_0 t) (ms0_1 t) (hs0_1 t) (ms0_2 t) (hs0_2 t) ((hcond0_0 t).mpr h0) (iblk0 V c 0 t))

/-- After a first tile the maxima's buffer holds -inf joined with the tile's row maxima. -/
theorem maxAt_A (c : Dev nD) (t : Fin cfg0.N) (h0 : t.val % 16 = 0) :
    (outsAt0 V c t.val t.isLt).2 = k0_pay5 (iblk0 V c 0 t) k0_pay2 :=
  (congrArg Prod.snd (outsAt0_A V c t h0)).trans
    (out0_A_2_eq c (grid0.coords t) (ms0_0 t) (hs0_0 t) (ms0_1 t) (hs0_1 t) (ms0_2 t) (hs0_2 t) ((hcond0_0 t).mpr h0) (iblk0 V c 0 t))

/-- After a later tile the minima's buffer holds what the tile before left, met with the tile's row minima. -/
theorem minAt_B (c : Dev nD) (t : Fin cfg0.N) (h0 : ¬t.val % 16 = 0) :
    (outsAt0 V c t.val t.isLt).1
      = k0_pay4 (iblk0 V c 0 t) (outsAt0 V c (t.val - 1) (Nat.lt_of_le_of_lt (Nat.sub_le _ _) t.isLt)).1 :=
  (congrArg Prod.fst (outsAt0_B V c t h0)).trans
    (out0_B_1_eq c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2)

/-- After a later tile the maxima's buffer holds what the tile before left, joined with the tile's row maxima. -/
theorem maxAt_B (c : Dev nD) (t : Fin cfg0.N) (h0 : ¬t.val % 16 = 0) :
    (outsAt0 V c t.val t.isLt).2
      = k0_pay5 (iblk0 V c 0 t) (outsAt0 V c (t.val - 1) (Nat.lt_of_le_of_lt (Nat.sub_le _ _) t.isLt)).2 :=
  (congrArg Prod.snd (outsAt0_B V c t h0)).trans
    (out0_B_2_eq c (grid0.coords t) (ms0_0 t) (hs0_0 t) (ms0_1 t) (hs0_1 t) (ms0_2 t) (hs0_2 t) (fun h => h0 ((hcond0_0 t).mp h)) (iblk0 V c 0 t)
      (outsAt0 V c (t.val - 1) (Nat.lt_of_le_of_lt (Nat.sub_le _ _) t.isLt)).1 (outsAt0 V c (t.val - 1) (Nat.lt_of_le_of_lt (Nat.sub_le _ _) t.isLt)).2)

end Cert.KernelIdeal.Hand

end
-- ==== Proof.KernelIdeal.V0d.lean ====
/-
  The min/max region's running minima and maxima along the grid, by induction on the point.

  After point `n` the minima's buffer holds, for sample `bb` of the current batch half, the greatest lower bound of the image's
  entries of sample `16 (n / 16) + bb` in the row tiles `0 … n % 16` — said by the bound's universal property, so no fold order
  is ever compared — and the maxima's buffer the least upper bound of the same entries. A half's first tile starts the bound
  from +inf (-inf), which bounds nothing; a later tile adds its rows to what the tile before left.
-/
import proofs.«122725_j16939351016189_2_alg».proof.Proof.KernelIdeal.V0b
import proofs.«122725_j16939351016189_2_alg».proof.Proof.KernelIdeal.V0c

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx

variable (V : (c : Dev nD) → (b : Ref sig .tc) → Buf (Elt Ideal) ((c : Thread nD τ).loc b))

/-- The image the region is entered with, entry by entry, as extended reals. -/
abbrev img (c : Dev nD) : S32x1024x1024.Idx → EReal := V c main_v0

/-- The tile of point `t`, entry by entry, as extended reals. -/
abbrev tile (c : Dev nD) (t : Fin cfg0.N) : S16x64x1024.Idx → EReal := iblk0 V c 0 t

/-- A bound is below every entry of sample `bb`'s rows in the tile of point `t` exactly when it is below the image's entries of
    sample `16 (t / 16) + bb` in the rows of row tile `t % 16`. -/
theorem le_tile_iff (c : Dev nD) (t : Fin cfg0.N) (n : ℕ) (hn : t.val = n) (bb : Fin 16) (z : EReal) :
    (∀ (r : Fin 64) (l : Fin 1024), z ≤ tile V c t (ix3 bb r l)) ↔
      ∀ (s : Fin 32) (h l : Fin 1024), s.val = 16 * (n / 16) + bb.val → h.val / 64 = n % 16 → z ≤ img V c (ix3 s h l) := by
  subst hn
  have hN : t.val < 32 := lt_of_lt_of_eq t.isLt (show cfg0.N = 32 from N_0)
  constructor
  · intro H s h l hs hh
    have e : tile V c t (ix3 bb ⟨h.val % 64, Nat.mod_lt _ (by decide)⟩ l) = img V c (ix3 s h l) :=
      iblk0_apply V c t bb ⟨h.val % 64, Nat.mod_lt _ (by decide)⟩ l s h hs
        (by show h.val = 64 * (t.val % 16) + h.val % 64; omega)
    exact Eq.mp (congrArg (fun v : EReal => z ≤ v) e) (H _ l)
  · intro H r l
    have e : tile V c t (ix3 bb r l)
        = img V c (ix3 (⟨16 * (t.val / 16) + bb.val, by omega⟩ : Fin 32) (⟨64 * (t.val % 16) + r.val, by omega⟩ : Fin 1024) l) :=
      iblk0_apply V c t bb r l ⟨16 * (t.val / 16) + bb.val, by omega⟩ ⟨64 * (t.val % 16) + r.val, by omega⟩ rfl rfl
    exact Eq.mpr (congrArg (fun v : EReal => z ≤ v) e) (H _ _ l rfl (by show (64 * (t.val % 16) + r.val) / 64 = t.val % 16; omega))

/-- The same for a bound above. -/
theorem tile_le_iff (c : Dev nD) (t : Fin cfg0.N) (n : ℕ) (hn : t.val = n) (bb : Fin 16) (z : EReal) :
    (∀ (r : Fin 64) (l : Fin 1024), tile V c t (ix3 bb r l) ≤ z) ↔
      ∀ (s : Fin 32) (h l : Fin 1024), s.val = 16 * (n / 16) + bb.val → h.val / 64 = n % 16 → img V c (ix3 s h l) ≤ z := by
  subst hn
  have hN : t.val < 32 := lt_of_lt_of_eq t.isLt (show cfg0.N = 32 from N_0)
  constructor
  · intro H s h l hs hh
    have e : tile V c t (ix3 bb ⟨h.val % 64, Nat.mod_lt _ (by decide)⟩ l) = img V c (ix3 s h l) :=
      iblk0_apply V c t bb ⟨h.val % 64, Nat.mod_lt _ (by decide)⟩ l s h hs
        (by show h.val = 64 * (t.val % 16) + h.val % 64; omega)
    exact Eq.mp (congrArg (fun v : EReal => v ≤ z) e) (H _ l)
  · intro H r l
    have e : tile V c t (ix3 bb r l)
        = img V c (ix3 (⟨16 * (t.val / 16) + bb.val, by omega⟩ : Fin 32) (⟨64 * (t.val % 16) + r.val, by omega⟩ : Fin 1024) l) :=
      iblk0_apply V c t bb r l ⟨16 * (t.val / 16) + bb.val, by omega⟩ ⟨64 * (t.val % 16) + r.val, by omega⟩ rfl rfl
    exact Eq.mpr (congrArg (fun v : EReal => v ≤ z) e) (H _ _ l rfl (by show (64 * (t.val % 16) + r.val) / 64 = t.val % 16; omega))

/-! ## The running minima -/

/-- After a half's first tile: below the running minimum of sample `bb` means below the sample's entries in that tile. -/
theorem le_first_iff (c : Dev nD) (n : ℕ) (hn : n < cfg0.N) (h0 : n % 16 = 0) (bb : Fin 16) (z : EReal) :
    z ≤ ((outsAt0 V c n hn).1 (ix2 bb (0 : Fin 1)) : EReal) ↔
      ∀ (s : Fin 32) (h l : Fin 1024), s.val = 16 * (n / 16) + bb.val → h.val / 64 = n % 16 → z ≤ img V c (ix3 s h l) := by
  refine (iff_of_eq (congrArg (fun f : Vec Ideal S16x1 .f32 => z ≤ (f (ix2 bb (0 : Fin 1)) : EReal)) (minAt_A V c ⟨n, hn⟩ h0))).trans ?_
  refine (le_pay4_iff (iblk0 V c 0 ⟨n, hn⟩) (k0_pay1 (F := Ideal)) bb z).trans ?_
  refine (and_iff_right (le_of_le_of_eq le_top (pay1_apply _).symm)).trans ?_
  exact le_tile_iff V c ⟨n, hn⟩ n rfl bb z

/-- After a later tile: below the running minimum means below what the tile before left and below the sample's entries in this
    tile. -/
theorem le_later_iff (c : Dev nD) (n : ℕ) (hn : n + 1 < cfg0.N) (h0 : ¬(n + 1) % 16 = 0) (bb : Fin 16) (z : EReal) :
    z ≤ ((outsAt0 V c (n + 1) hn).1 (ix2 bb (0 : Fin 1)) : EReal) ↔
      z ≤ ((outsAt0 V c n (Nat.lt_of_succ_lt hn)).1 (ix2 bb (0 : Fin 1)) : EReal) ∧
      ∀ (s : Fin 32) (h l : Fin 1024), s.val = 16 * ((n + 1) / 16) + bb.val → h.val / 64 = (n + 1) % 16 → z ≤ img V c (ix3 s h l) := by
  refine (iff_of_eq (congrArg (fun f : Vec Ideal S16x1 .f32 => z ≤ (f (ix2 bb (0 : Fin 1)) : EReal)) (minAt_B V c ⟨n + 1, hn⟩ h0))).trans ?_
  refine (le_pay4_iff (iblk0 V c 0 ⟨n + 1, hn⟩) _ bb z).trans ?_
  exact and_congr Iff.rfl (le_tile_iff V c ⟨n + 1, hn⟩ (n + 1) rfl bb z)

/-- THE RUNNING MINIMUM AFTER POINT `n`: a bound is below the value held for sample `bb` exactly when it is below every entry of
    sample `16 (n / 16) + bb` in the row tiles `0 … n % 16`. By induction on the point. -/
theorem le_minAt_iff (c : Dev nD) (n : ℕ) : ∀ (hn : n < cfg0.N) (bb : Fin 16) (z : EReal),
    z ≤ ((outsAt0 V c n hn).1 (ix2 bb (0 : Fin 1)) : EReal) ↔
      ∀ (s : Fin 32) (h l : Fin 1024), s.val = 16 * (n / 16) + bb.val → h.val / 64 ≤ n % 16 → z ≤ img V c (ix3 s h l) := by
  induction n with
  | zero =>
    intro hn bb z
    refine (le_first_iff V c 0 hn rfl bb z).trans ?_
    exact forall_congr' fun s => forall_congr' fun h => forall_congr' fun l => imp_congr_right fun _ =>
      imp_congr_left (by show h.val / 64 = 0 % 16 ↔ h.val / 64 ≤ 0 % 16; omega)
  | succ n ih =>
    intro hn bb z
    by_cases h0 : (n + 1) % 16 = 0
    · refine (le_first_iff V c (n + 1) hn h0 bb z).trans ?_
      exact forall_congr' fun s => forall_congr' fun h => forall_congr' fun l => imp_congr_right fun _ =>
        imp_congr_left (by show h.val / 64 = (n + 1) % 16 ↔ h.val / 64 ≤ (n + 1) % 16; omega)
    · refine (le_later_iff V c n hn h0 bb z).trans ?_
      refine (and_congr (ih (Nat.lt_of_succ_lt hn) bb z) Iff.rfl).trans ?_
      constructor
      · rintro ⟨H1, H2⟩ s h l hs hh
        by_cases hk : h.val / 64 = (n + 1) % 16
        · exact H2 s h l hs hk
        · exact H1 s h l (by omega) (by omega)
      · intro H
        exact ⟨fun s h l hs hh => H s h l (by omega) (by omega), fun s h l hs hh => H s h l hs (by omega)⟩

/-! ## The running maxima -/

/-- After a half's first tile: above the running maximum of sample `bb` means above the sample's entries in that tile. -/
theorem first_le_iff (c : Dev nD) (n : ℕ) (hn : n < cfg0.N) (h0 : n % 16 = 0) (bb : Fin 16) (z : EReal) :
    ((outsAt0 V c n hn).2 (ix2 bb (0 : Fin 1)) : EReal) ≤ z ↔
      ∀ (s : Fin 32) (h l : Fin 1024), s.val = 16 * (n / 16) + bb.val → h.val / 64 = n % 16 → img V c (ix3 s h l) ≤ z := by
  refine (iff_of_eq (congrArg (fun f : Vec Ideal S16x1 .f32 => (f (ix2 bb (0 : Fin 1)) : EReal) ≤ z) (maxAt_A V c ⟨n, hn⟩ h0))).trans ?_
  refine (pay5_le_iff (iblk0 V c 0 ⟨n, hn⟩) (k0_pay2 (F := Ideal)) bb z).trans ?_
  refine (and_iff_right (le_of_eq_of_le (pay2_apply _) bot_le)).trans ?_
  exact tile_le_iff V c ⟨n, hn⟩ n rfl bb z

/-- After a later tile: above the running maximum means above what the tile before left and above the sample's entries in this
    tile. -/
theorem later_le_iff (c : Dev nD) (n : ℕ) (hn : n + 1 < cfg0.N) (h0 : ¬(n + 1) % 16 = 0) (bb : Fin 16) (z : EReal) :
    ((outsAt0 V c (n + 1) hn).2 (ix2 bb (0 : Fin 1)) : EReal) ≤ z ↔
      ((outsAt0 V c n (Nat.lt_of_succ_lt hn)).2 (ix2 bb (0 : Fin 1)) : EReal) ≤ z ∧
      ∀ (s : Fin 32) (h l : Fin 1024), s.val = 16 * ((n + 1) / 16) + bb.val → h.val / 64 = (n + 1) % 16 → img V c (ix3 s h l) ≤ z := by
  refine (iff_of_eq (congrArg (fun f : Vec Ideal S16x1 .f32 => (f (ix2 bb (0 : Fin 1)) : EReal) ≤ z) (maxAt_B V c ⟨n + 1, hn⟩ h0))).trans ?_
  refine (pay5_le_iff (iblk0 V c 0 ⟨n + 1, hn⟩) _ bb z).trans ?_
  exact and_congr Iff.rfl (tile_le_iff V c ⟨n + 1, hn⟩ (n + 1) rfl bb z)

/-- THE RUNNING MAXIMUM AFTER POINT `n`: a bound is above the value held for sample `bb` exactly when it is above every entry of
    sample `16 (n / 16) + bb` in the row tiles `0 … n % 16`. -/
theorem maxAt_le_iff (c : Dev nD) (n : ℕ) : ∀ (hn : n < cfg0.N) (bb : Fin 16) (z : EReal),
    ((outsAt0 V c n hn).2 (ix2 bb (0 : Fin 1)) : EReal) ≤ z ↔
      ∀ (s : Fin 32) (h l : Fin 1024), s.val = 16 * (n / 16) + bb.val → h.val / 64 ≤ n % 16 → img V c (ix3 s h l) ≤ z := by
  induction n with
  | zero =>
    intro hn bb z
    refine (first_le_iff V c 0 hn rfl bb z).trans ?_
    exact forall_congr' fun s => forall_congr' fun h => forall_congr' fun l => imp_congr_right fun _ =>
      imp_congr_left (by show h.val / 64 = 0 % 16 ↔ h.val / 64 ≤ 0 % 16; omega)
  | succ n ih =>
    intro hn bb z
    by_cases h0 : (n + 1) % 16 = 0
    · refine (first_le_iff V c (n + 1) hn h0 bb z).trans ?_
      exact forall_congr' fun s => forall_congr' fun h => forall_congr' fun l => imp_congr_right fun _ =>
        imp_congr_left (by show h.val / 64 = (n + 1) % 16 ↔ h.val / 64 ≤ (n + 1) % 16; omega)
    · refine (later_le_iff V c n hn h0 bb z).trans ?_
      refine (and_congr (ih (Nat.lt_of_succ_lt hn) bb z) Iff.rfl).trans ?_
      constructor
      · rintro ⟨H1, H2⟩ s h l hs hh
        by_cases hk : h.val / 64 = (n + 1) % 16
        · exact H2 s h l hs hk
        · exact H1 s h l (by omega) (by omega)
      · intro H
        exact ⟨fun s h l hs hh => H s h l (by omega) (by omega), fun s h l hs hh => H s h l hs (by omega)⟩

end Cert.KernelIdeal.Hand

end
-- ==== Proof.KernelIdeal.V0r.lean ====
/-
  The reference's per-sample minimum and maximum read at a sample, over the extended reals.

  The reference flattens each sample's image to a row of 1048576 entries, reduces the row with min from +inf (max from -inf), and
  spreads the 32 results to a column. A bound is below the minimum of sample `s` exactly when it is below every entry
  (s, 0, h, w) of the sample: position `1024 h + w` of the row is that entry.
-/
import proofs.«122725_j16939351016189_2_alg».proof.Proof.Spec
import proofs.«122725_j16939351016189_2_alg».proof.Proof.LibMinMaxInf
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx
open Cert.Lib.MinMaxInf
open Cert.Spec (Img S32 S32x1 S32x1048576 S_)

/-- A row of the flattened image loses its one axis to the reduction. -/
theorem reduces_flat : S32x1048576.Reduces [1] S32 := by decide

/-- The flattened index over sample `s` at position `p`. -/
theorem lift_flat (s : Fin 32) (p : Fin 1048576) : reduces_flat.lift (ix1 s) p = ix2 s p := by
  funext c; apply Fin.ext
  match c with
  | ⟨0, _⟩ => rfl
  | ⟨1, _⟩ => rfl

/-- The image read as 32 rows of 1048576: position `1024 h + w` of row `s` is entry (s, 0, h, w). -/
theorem flat_apply (x : FVec Ideal Img .f32) (s : Fin 32) (p : Fin 1048576) (h w : Fin 1024) (hp : p.val = 1024 * h.val + w.val) :
    (shapeCast S32x1048576 x (by decide) : FVec Ideal S32x1048576 .f32) (ix2 s p) = x (ix4 s (0 : Fin 1) h w) :=
  shapeCast_apply x _ (ix2 s p) (ix4 s (0 : Fin 1) h w) (by
    rw [Shape.rowMajor_val_four, Shape.rowMajor_val_two]
    show ((s.val * 1 + 0) * 1024 + h.val) * 1024 + w.val = s.val * 1048576 + p.val
    omega)

/-- A column [32] spread to [32,1]. -/
theorem column_of_vector_apply (v : FVec Ideal S32 .f32) (s : Fin 32) :
    broadcastInDim S32x1 ![0] (by decide) v (ix2 s (0 : Fin 1)) = v (ix1 s) :=
  broadcastInDim_apply ![0] _ v (ix2 s (0 : Fin 1)) (ix1 s) (fun a => by
    match a with
    | ⟨0, _⟩ => rfl)

/-- THE REFERENCE'S MINIMUM OF SAMPLE `s`: below it means below every entry of the sample. -/
theorem le_mnOf_iff (x : FVec Ideal Img .f32) (s : Fin 32) (z : EReal) :
    z ≤ (Cert.Spec.mnOf (F := Ideal) x (ix2 s (0 : Fin 1)) : EReal) ↔ ∀ (h w : Fin 1024), z ≤ (x (ix4 s (0 : Fin 1) h w) : EReal) := by
  unfold Cert.Spec.mnOf
  refine (iff_of_eq (congrArg (z ≤ ·) (column_of_vector_apply _ s))).trans ?_
  refine (iff_of_eq (congrArg (z ≤ ·) (hostReduce_minimumf_single (shapeCast S32x1048576 x (by decide) : FVec Ideal S32x1048576 .f32)
    (constant (F := Ideal) S_ .f32 0x7F800000#32) (by decide) reduces_flat (by decide) (ix1 s)))).trans ?_
  rw [show (constant (F := Ideal) S_ .f32 0x7F800000#32 (Shape.Idx.first (by decide)) : EReal) = ⊤ from ofBits_posInf_f32,
    le_inf_iff, Finset.le_inf_iff]
  constructor
  · intro H h w
    have := H.2 ⟨1024 * h.val + w.val, by show 1024 * h.val + w.val < 1048576; omega⟩ (Finset.mem_univ _)
    exact Eq.mp (congrArg (z ≤ ·) ((congrArg _ (lift_flat s _)).trans (flat_apply x s _ h w rfl))) this
  · intro H
    refine ⟨le_top, fun p _ => ?_⟩
    have hp : p.val < 1048576 := p.isLt
    exact Eq.mpr (congrArg (z ≤ ·) ((congrArg _ (lift_flat s p)).trans
      (flat_apply x s p ⟨p.val / 1024, by omega⟩ ⟨p.val % 1024, by omega⟩ (by show p.val = 1024 * (p.val / 1024) + p.val % 1024; omega))))
      (H _ _)

/-- THE REFERENCE'S MAXIMUM OF SAMPLE `s`: above it means above every entry of the sample. -/
theorem mxOf_le_iff (x : FVec Ideal Img .f32) (s : Fin 32) (z : EReal) :
    (Cert.Spec.mxOf (F := Ideal) x (ix2 s (0 : Fin 1)) : EReal) ≤ z ↔ ∀ (h w : Fin 1024), (x (ix4 s (0 : Fin 1) h w) : EReal) ≤ z := by
  unfold Cert.Spec.mxOf
  refine (iff_of_eq (congrArg (· ≤ z) (column_of_vector_apply _ s))).trans ?_
  refine (iff_of_eq (congrArg (· ≤ z) (hostReduce_maximumf_single (shapeCast S32x1048576 x (by decide) : FVec Ideal S32x1048576 .f32)
    (constant (F := Ideal) S_ .f32 0xFF800000#32) (by decide) reduces_flat (by decide) (ix1 s)))).trans ?_
  rw [show (constant (F := Ideal) S_ .f32 0xFF800000#32 (Shape.Idx.first (by decide)) : EReal) = ⊥ from ofBits_negInf_f32,
    sup_le_iff, Finset.sup_le_iff]
  constructor
  · intro H h w
    have := H.2 ⟨1024 * h.val + w.val, by show 1024 * h.val + w.val < 1048576; omega⟩ (Finset.mem_univ _)
    exact Eq.mp (congrArg (· ≤ z) ((congrArg _ (lift_flat s _)).trans (flat_apply x s _ h w rfl))) this
  · intro H
    refine ⟨bot_le, fun p _ => ?_⟩
    have hp : p.val < 1048576 := p.isLt
    exact Eq.mpr (congrArg (· ≤ z) ((congrArg _ (lift_flat s p)).trans
      (flat_apply x s p ⟨p.val / 1024, by omega⟩ ⟨p.val % 1024, by omega⟩ (by show p.val = 1024 * (p.val / 1024) + p.val % 1024; omega))))
      (H _ _)

end Cert.KernelIdeal.Hand

end
-- ==== Proof.KernelIdeal.V0.lean ====
/-
  THE VALUE OF THE MIN/MAX REGION: after it, the two [32,1] result arrays hold the reference's per-sample minima and maxima of
  the image the region was entered with.

  A half's 16 row tiles leave, in each running buffer, the bound over all 1024 rows of the half's 16 samples; the reference's
  reduction of the flattened sample is the bound over the same 1024 × 1024 entries, so the two agree sample by sample
  (`last0_1`, `last0_2`: two elements with the same lower, resp. upper, bounds are equal). Only the half's last point writes
  back: point 15 rows 0–15 of the column, point 31 rows 16–31 (`flushed0_1`, `flushed0_2`), and these two blocks cover the
  column (`cover0_1`, `cover0_2`).
-/
import proofs.«122725_j16939351016189_2_alg».proof.Proof.KernelIdeal.V0d
import proofs.«122725_j16939351016189_2_alg».proof.Proof.KernelIdeal.V0r

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx

variable (V : (c : Dev nD) → (b : Ref sig .tc) → Buf (Elt Ideal) ((c : Thread nD τ).loc b))

/-- The two output windows' block indices over the grid: batch half `t / 16`, the one column. -/
theorem col_index_1 : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem col_index_2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- After a half's last point the minima' buffer holds, for sample `bb`, the reference's minimum of sample `16 (t / 16) + bb`: both are the
    greatest lower bound of the sample's 1024 × 1024 entries. -/
theorem last0_1 (c : Dev nD) (x : FVec Ideal Cert.Spec.Img .f32) (hx : ∀ (b : Fin 32) (h : Fin 1024) (w : Fin 1024), V c main_v0 (ix3 b h w) = x (ix4 b 0 h w))
    (t : Fin cfg0.N) (h15 : t.val % 16 = 15) (bb : Fin 16) (s : Fin 32) (hs : s.val = 16 * (t.val / 16) + bb.val) :
    ((outsAt0 V c t.val t.isLt).1 (ix2 bb (0 : Fin 1)) : EReal) = Cert.Spec.mnOf (F := Ideal) x (ix2 s (0 : Fin 1)) := by
  refine eq_of_forall_le_iff fun z => ?_
  refine (le_minAt_iff V c t.val t.isLt bb z).trans ((le_mnOf_iff x s z).trans ?_).symm
  constructor
  · intro H s' h l hs' _
    obtain rfl : s' = s := Fin.ext (hs'.trans hs.symm)
    exact le_of_le_of_eq (H h l) (hx _ h l).symm
  · intro H h l
    exact le_of_le_of_eq (H s h l hs (by have := h.isLt; omega)) (hx _ h l)

/-- What a half's last point writes back to the minima' column is rows `16 (t / 16) … + 15` of any column `G` that agrees with the
    buffer sample by sample. -/
theorem flushed0_1 (c : Dev nD) (G : Buf (Elt Ideal) ((c : Thread nD τ).loc main_v1_0))
    (hG : ∀ (t : Fin cfg0.N), t.val % 16 = 15 → ∀ (bb : Fin 16) (s : Fin 32), s.val = 16 * (t.val / 16) + bb.val →
      (outsAt0 V c t.val t.isLt).1 (ix2 bb (0 : Fin 1)) = G (ix2 s (0 : Fin 1)))
    (t : Fin cfg0.N) (hf : (cfg0.win 1).flush t = true) :
    (dat0 (F := Ideal) V c).flushed 1 t = ((cfg0.win 1).blk t).view.read (Elt Ideal) G := by
  have h15 : t.val % 16 = 15 := (flush0_1 t).mp hf
  have hN : t.val < 32 := lt_of_lt_of_eq t.isLt (show cfg0.N = 32 from N_0)
  obtain ⟨e0, e1⟩ := col_index_1 t
  show (cfg0.win 1).cut (grid0.coords t) ((dat0 (F := Ideal) V c).after 1 t) = _
  rw [after0_1]
  funext y
  have h0 : (y 0).val < 16 := (y 0).isLt
  have h1 : (y 1).val < 1 := (y 1).isLt
  have hy : (cfg0.win 1).xinj (grid0.coords t) y = (ix2 (⟨(y 0).val, h0⟩ : Fin 16) (0 : Fin 1) : S16x1.Idx) := by
    funext a; apply Fin.ext
    match a with
    | ⟨0, _⟩ => rfl
    | ⟨1, _⟩ => show (y 1).val = 0; omega
  have hemb : ((cfg0.win 1).blk t).view.emb y
      = (ix2 (⟨16 * (t.val / 16) + (y 0).val, by omega⟩ : Fin 32) (0 : Fin 1) : S32x1.Idx) := by
    funext a; apply Fin.ext
    match a with
    | ⟨0, _⟩ => show win0_1.index t 0 * 16 + 1 * (y 0).val = 16 * (t.val / 16) + (y 0).val; rw [e0]; omega
    | ⟨1, _⟩ => show win0_1.index t 1 * 1 + 1 * (y 1).val = 0; rw [e1]; omega
  show (outsAt0 V c t.val t.isLt).1 ((cfg0.win 1).xinj (grid0.coords t) y) = G (((cfg0.win 1).blk t).view.emb y)
  exact (congrArg (outsAt0 V c t.val t.isLt).1 hy).trans
    ((hG t h15 ⟨(y 0).val, h0⟩ ⟨16 * (t.val / 16) + (y 0).val, by omega⟩ rfl).trans (congrArg G hemb).symm)

/-- Every row of the minima' column is in the block of its half's last point. -/
theorem cover0_1 (i : S32x1.Idx) : ∃ t : Fin cfg0.N, (cfg0.win 1).flush t = true ∧ i ∈ ((cfg0.win 1).blk t).view.set := by
  have h0 : (i 0).val < 32 := (i 0).isLt
  have h1 : (i 1).val < 1 := (i 1).isLt
  have hN : cfg0.N = 32 := N_0
  have ht : 16 * ((i 0).val / 16) + 15 < cfg0.N := by omega
  obtain ⟨e0, e1⟩ := col_index_1 ⟨16 * ((i 0).val / 16) + 15, ht⟩
  refine ⟨⟨16 * ((i 0).val / 16) + 15, ht⟩, (flush0_1 _).mpr (by show (16 * ((i 0).val / 16) + 15) % 16 = 15; omega), ?_⟩
  show i ∈ ((View.whole main_v1_0).slice (win0_1.rect ⟨16 * ((i 0).val / 16) + 15, ht⟩)).set
  rw [View.set_slice_whole, Rect.mem_set_unit]
  intro a
  match a with
  | ⟨0, _⟩ =>
    show win0_1.index ⟨16 * ((i 0).val / 16) + 15, ht⟩ 0 * 16 ≤ (i 0).val
      ∧ (i 0).val < win0_1.index ⟨16 * ((i 0).val / 16) + 15, ht⟩ 0 * 16 + 16
    rw [e0]
    show (16 * ((i 0).val / 16) + 15) / 16 * 16 ≤ (i 0).val ∧ (i 0).val < (16 * ((i 0).val / 16) + 15) / 16 * 16 + 16
    omega
  | ⟨1, _⟩ =>
    show win0_1.index ⟨16 * ((i 0).val / 16) + 15, ht⟩ 1 * 1 ≤ (i 1).val
      ∧ (i 1).val < win0_1.index ⟨16 * ((i 0).val / 16) + 15, ht⟩ 1 * 1 + 1
    rw [e1]; omega

/-- After a half's last point the maxima' buffer holds, for sample `bb`, the reference's maximum of sample `16 (t / 16) + bb`: both are the
    least upper bound of the sample's 1024 × 1024 entries. -/
theorem last0_2 (c : Dev nD) (x : FVec Ideal Cert.Spec.Img .f32) (hx : ∀ (b : Fin 32) (h : Fin 1024) (w : Fin 1024), V c main_v0 (ix3 b h w) = x (ix4 b 0 h w))
    (t : Fin cfg0.N) (h15 : t.val % 16 = 15) (bb : Fin 16) (s : Fin 32) (hs : s.val = 16 * (t.val / 16) + bb.val) :
    ((outsAt0 V c t.val t.isLt).2 (ix2 bb (0 : Fin 1)) : EReal) = Cert.Spec.mxOf (F := Ideal) x (ix2 s (0 : Fin 1)) := by
  refine eq_of_forall_ge_iff fun z => ?_
  refine (maxAt_le_iff V c t.val t.isLt bb z).trans ((mxOf_le_iff x s z).trans ?_).symm
  constructor
  · intro H s' h l hs' _
    obtain rfl : s' = s := Fin.ext (hs'.trans hs.symm)
    exact le_of_eq_of_le (hx _ h l) (H h l)
  · intro H h l
    exact le_of_eq_of_le (hx _ h l).symm (H s h l hs (by have := h.isLt; omega))

/-- What a half's last point writes back to the maxima' column is rows `16 (t / 16) … + 15` of any column `G` that agrees with the
    buffer sample by sample. -/
theorem flushed0_2 (c : Dev nD) (G : Buf (Elt Ideal) ((c : Thread nD τ).loc main_v1_1))
    (hG : ∀ (t : Fin cfg0.N), t.val % 16 = 15 → ∀ (bb : Fin 16) (s : Fin 32), s.val = 16 * (t.val / 16) + bb.val →
      (outsAt0 V c t.val t.isLt).2 (ix2 bb (0 : Fin 1)) = G (ix2 s (0 : Fin 1)))
    (t : Fin cfg0.N) (hf : (cfg0.win 2).flush t = true) :
    (dat0 (F := Ideal) V c).flushed 2 t = ((cfg0.win 2).blk t).view.read (Elt Ideal) G := by
  have h15 : t.val % 16 = 15 := (flush0_2 t).mp hf
  have hN : t.val < 32 := lt_of_lt_of_eq t.isLt (show cfg0.N = 32 from N_0)
  obtain ⟨e0, e1⟩ := col_index_2 t
  show (cfg0.win 2).cut (grid0.coords t) ((dat0 (F := Ideal) V c).after 2 t) = _
  rw [after0_2]
  funext y
  have h0 : (y 0).val < 16 := (y 0).isLt
  have h1 : (y 1).val < 1 := (y 1).isLt
  have hy : (cfg0.win 2).xinj (grid0.coords t) y = (ix2 (⟨(y 0).val, h0⟩ : Fin 16) (0 : Fin 1) : S16x1.Idx) := by
    funext a; apply Fin.ext
    match a with
    | ⟨0, _⟩ => rfl
    | ⟨1, _⟩ => show (y 1).val = 0; omega
  have hemb : ((cfg0.win 2).blk t).view.emb y
      = (ix2 (⟨16 * (t.val / 16) + (y 0).val, by omega⟩ : Fin 32) (0 : Fin 1) : S32x1.Idx) := by
    funext a; apply Fin.ext
    match a with
    | ⟨0, _⟩ => show win0_2.index t 0 * 16 + 1 * (y 0).val = 16 * (t.val / 16) + (y 0).val; rw [e0]; omega
    | ⟨1, _⟩ => show win0_2.index t 1 * 1 + 1 * (y 1).val = 0; rw [e1]; omega
  show (outsAt0 V c t.val t.isLt).2 ((cfg0.win 2).xinj (grid0.coords t) y) = G (((cfg0.win 2).blk t).view.emb y)
  exact (congrArg (outsAt0 V c t.val t.isLt).2 hy).trans
    ((hG t h15 ⟨(y 0).val, h0⟩ ⟨16 * (t.val / 16) + (y 0).val, by omega⟩ rfl).trans (congrArg G hemb).symm)

/-- Every row of the maxima' column is in the block of its half's last point. -/
theorem cover0_2 (i : S32x1.Idx) : ∃ t : Fin cfg0.N, (cfg0.win 2).flush t = true ∧ i ∈ ((cfg0.win 2).blk t).view.set := by
  have h0 : (i 0).val < 32 := (i 0).isLt
  have h1 : (i 1).val < 1 := (i 1).isLt
  have hN : cfg0.N = 32 := N_0
  have ht : 16 * ((i 0).val / 16) + 15 < cfg0.N := by omega
  obtain ⟨e0, e1⟩ := col_index_2 ⟨16 * ((i 0).val / 16) + 15, ht⟩
  refine ⟨⟨16 * ((i 0).val / 16) + 15, ht⟩, (flush0_2 _).mpr (by show (16 * ((i 0).val / 16) + 15) % 16 = 15; omega), ?_⟩
  show i ∈ ((View.whole main_v1_1).slice (win0_2.rect ⟨16 * ((i 0).val / 16) + 15, ht⟩)).set
  rw [View.set_slice_whole, Rect.mem_set_unit]
  intro a
  match a with
  | ⟨0, _⟩ =>
    show win0_2.index ⟨16 * ((i 0).val / 16) + 15, ht⟩ 0 * 16 ≤ (i 0).val
      ∧ (i 0).val < win0_2.index ⟨16 * ((i 0).val / 16) + 15, ht⟩ 0 * 16 + 16
    rw [e0]
    show (16 * ((i 0).val / 16) + 15) / 16 * 16 ≤ (i 0).val ∧ (i 0).val < (16 * ((i 0).val / 16) + 15) / 16 * 16 + 16
    omega
  | ⟨1, _⟩ =>
    show win0_2.index ⟨16 * ((i 0).val / 16) + 15, ht⟩ 1 * 1 ≤ (i 1).val
      ∧ (i 1).val < win0_2.index ⟨16 * ((i 0).val / 16) + 15, ht⟩ 1 * 1 + 1
    rw [e1]; omega

/-- THE MINIMA after the region: the reference's per-sample minima of the image the region was entered with. -/
theorem final0_1 (c : Dev nD) (x : FVec Ideal Cert.Spec.Img .f32) (hx : ∀ (b : Fin 32) (h : Fin 1024) (w : Fin 1024), V c main_v0 (ix3 b h w) = x (ix4 b 0 h w)) :
    (dat0 (F := Ideal) V c).arrAt 1 cfg0.N = Cert.Spec.mnOf (F := Ideal) x :=
  (dat0 (F := Ideal) V c).arrAt_eq_of_cover 1 (Cert.Spec.mnOf (F := Ideal) x)
    (flushed0_1 V c (Cert.Spec.mnOf (F := Ideal) x) (last0_1 V c x hx)) cover0_1

/-- THE MAXIMA after the region: the reference's per-sample maxima. -/
theorem final0_2 (c : Dev nD) (x : FVec Ideal Cert.Spec.Img .f32) (hx : ∀ (b : Fin 32) (h : Fin 1024) (w : Fin 1024), V c main_v0 (ix3 b h w) = x (ix4 b 0 h w)) :
    (dat0 (F := Ideal) V c).arrAt 2 cfg0.N = Cert.Spec.mxOf (F := Ideal) x :=
  (dat0 (F := Ideal) V c).arrAt_eq_of_cover 2 (Cert.Spec.mxOf (F := Ideal) x)
    (flushed0_2 V c (Cert.Spec.mxOf (F := Ideal) x) (last0_2 V c x hx)) cover0_2

end Cert.KernelIdeal.Hand

end
-- ==== Proof.KernelIdeal.V1d.lean ====
import proofs.«122725_j16939351016189_2_alg».proof.Proof.Gen.KernelIdeal.Skeleton
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-! # The histogram region's body as two pure functions of its three input blocks

The bins of a tile: each pixel's bin. The counts of a tile: for each of the tile's 16 samples and each of the 32 bins, how many
of the sample's 32 × 1024 pixels in the tile fall in the bin: the 32 per-bin counts, each cast to a column, joined along the
columns. -/

/-- Each pixel's bin: the quotient (v - mn) / safe, times 32, rounded down, as an integer, held between 0 and 31. -/
def tileIdx (x0 : Vec F S16x32x1024 .f32) (x1 x2 : Vec F S16x1 .f32) : IVec S16x32x1024 32 := k1_pay4 x0 x1 x2

/-- The tile's counts, as the body joins them: column k is bin k's count. -/
def tileCounts (x0 : Vec F S16x32x1024 .f32) (x1 x2 : Vec F S16x1 .f32) : FVec F S16x32 .f32 :=
  k1_pay1 (k1_pay35 (k1_pay4 x0 x1 x2))
    (k1_pay37 (k1_pay36 (k1_pay4 x0 x1 x2)))
    (k1_pay38 (k1_pay4 x0 x1 x2))
    (k1_pay39 (k1_pay4 x0 x1 x2))
    (k1_pay40 (k1_pay4 x0 x1 x2))
    (k1_pay41 (k1_pay5 x0 x1 x2))
    (k1_pay42 (k1_pay7 (k1_pay6 x0 x1 x2)))
    (k1_pay43 (k1_pay8 (k1_pay4 x0 x1 x2)))
    (k1_pay44 (k1_pay9 (k1_pay4 x0 x1 x2)))
    (k1_pay45 (k1_pay10 (k1_pay4 x0 x1 x2)))
    (k1_pay46 (k1_pay11 (k1_pay4 x0 x1 x2)))
    (k1_pay47 (k1_pay12 (k1_pay4 x0 x1 x2)))
    (k1_pay48 (k1_pay13 (k1_pay4 x0 x1 x2)))
    (k1_pay49 (k1_pay15 (k1_pay14 (k1_pay4 x0 x1 x2))))
    (k1_pay50 (k1_pay16 (k1_pay4 x0 x1 x2)))
    (k1_pay51 (k1_pay17 (k1_pay4 x0 x1 x2)))
    (k1_pay52 (k1_pay18 (k1_pay4 x0 x1 x2)))
    (k1_pay53 (k1_pay19 (k1_pay4 x0 x1 x2)))
    (k1_pay54 (k1_pay20 (k1_pay4 x0 x1 x2)))
    (k1_pay55 (k1_pay21 (k1_pay4 x0 x1 x2)))
    (k1_pay56 (k1_pay22 (k1_pay4 x0 x1 x2)))
    (k1_pay57 (k1_pay23 (k1_pay4 x0 x1 x2)))
    (k1_pay58 (k1_pay24 (k1_pay4 x0 x1 x2)))
    (k1_pay59 (k1_pay25 (k1_pay4 x0 x1 x2)))
    (k1_pay60 (k1_pay26 (k1_pay4 x0 x1 x2)))
    (k1_pay61 (k1_pay27 (k1_pay4 x0 x1 x2)))
    (k1_pay62 (k1_pay29 (k1_pay28 (k1_pay4 x0 x1 x2))))
    (k1_pay63 (k1_pay30 (k1_pay4 x0 x1 x2)))
    (k1_pay64 (k1_pay31 (k1_pay4 x0 x1 x2)))
    (k1_pay65 (k1_pay32 (k1_pay4 x0 x1 x2)))
    (k1_pay66 (k1_pay33 (k1_pay4 x0 x1 x2)))
    (k1_pay67 (k1_pay34 (k1_pay4 x0 x1 x2)))

/-- The count of ONE bin over a tile of bins: a one where the pixel's bin is the given one, a zero elsewhere, summed along the
    columns and then along the rows. -/
def binCount (idx : IVec S16x32x1024 32) (kk : BitVec 32) : FVec F S16 .f32 :=
  multiReduction .add [1] S16
    (multiReduction .add [2] S16x32 (sitofp .f32 (extui 32 (cmpi .eq idx (broadcast S16x32x1024 kk)) natLt_1_32))
      0x00000000#32 reduces_S16x32x1024_S16x32 (.inl rfl) rfl)
    0x00000000#32 reduces_S16x32_S16 (.inl rfl) rfl

end Cert.KernelIdeal.Hand

end
-- ==== Proof.KernelIdeal.V1b.lean ====
import proofs.«122725_j16939351016189_2_alg».proof.Proof.KernelIdeal.V1d
import Idealize.ShloMosaic.Lib.Pipeline.Value
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! # The tile's counts, read at a sample and a bin

At the ideal values column k of the tile's counts at sample bb is the number of the sample's pixels in the tile whose bin is k: a
sum over the tile's rows and columns of ones and zeros. -/

/-- One pixel's contribution to a bin's count: the comparison's bit, widened and converted, is 1 where the bins agree, 0 elsewhere. -/
theorem one_or_zero (a kk : BitVec 32) :
    FloatOps.sitofp (F := Ideal) .f32 ((IntOp.cmpi .eq a kk).setWidth 32) = if a = kk then (1 : EReal) else 0 := by
  show ((((IntOp.cmpi .eq a kk).setWidth 32).toInt : ℝ) : EReal) = _
  rw [toInt_setWidth_bit]
  unfold IntOp.cmpi
  by_cases h : a = kk
  · simp [h]
  · simp [h]

/-- The index the two sums reach: sample bb, row r, column l. -/
theorem lift_lift (bb : Fin 16) (r : Fin 32) (l : Fin 1024) :
    reduces_S16x32x1024_S16x32.lift (reduces_S16x32_S16.lift (ix1 bb) r) l = ix3 bb r l :=
  funext fun a => match a with | ⟨0, _⟩ => rfl | ⟨1, _⟩ => rfl | ⟨2, _⟩ => rfl

/-- One bin's count at a sample: the double sum of the pixel contributions. -/
theorem binCount_apply (idx : IVec S16x32x1024 32) (kk : BitVec 32) (bb : Fin 16) :
    binCount (F := Ideal) idx kk (ix1 bb)
      = ∑ r : Fin 32, ∑ l : Fin 1024, if idx (ix3 bb r l) = kk then (1 : EReal) else 0 := by
  unfold binCount
  refine (Ideal.multiReduction_add_single (φ := .f32) _ _ reduces_S16x32_S16 _ _ (ix1 bb)).trans ?_
  show (∑ r : Fin 32, _) = _
  refine Finset.sum_congr rfl fun r _ => ?_
  refine (Ideal.multiReduction_add_single (φ := .f32) _ _ reduces_S16x32x1024_S16x32 _ _ _).trans ?_
  show (∑ l : Fin 1024, _) = _
  refine Finset.sum_congr rfl fun l _ => ?_
  refine (congrArg (sitofp (F := Ideal) .f32 (extui 32 (cmpi .eq idx (broadcast S16x32x1024 kk)) natLt_1_32) : FVec Ideal S16x32x1024 .f32)
    (lift_lift bb r l)).trans ?_
  exact one_or_zero _ _

/-- A vector of 16 cast to a column reads, at (bb, 0), the vector at bb. -/
theorem col_apply {α : Type} (v : S16.Idx → α) (bb : Fin 16) (u : Fin 1) :
    shapeCast S16x1 v shapeCasts_S16_S16x1 (ix2 bb u) = v (ix1 bb) :=
  shapeCast_apply v _ _ _ (by
    rw [Shape.rowMajor_val_one, Shape.rowMajor_val_two]
    show bb.val = bb.val * 1 + u.val
    omega)

/-- Thirty-two columns of 16 join along the columns to 16 rows of 32. -/
theorem cat32 (f : Fin 32 → (S16x1.Idx → EReal)) :
    Shape.Concatenates ((List.ofFn fun n : Fin 32 => (⟨S16x1, f n⟩ : (s : Shape) × (s.Idx → EReal))).map (·.1)) S16x32 1 := by
  have e : (List.ofFn fun n : Fin 32 => (⟨S16x1, f n⟩ : (s : Shape) × (s.Idx → EReal))).map (·.1) = List.replicate 32 S16x1 := by
    rw [List.map_ofFn]
    exact List.ofFn_const 32 S16x1
  rw [e]
  decide

/-- The tile's counts at sample bb and bin k. -/
theorem tileCounts_apply (x0 : Vec Ideal S16x32x1024 .f32) (x1 x2 : Vec Ideal S16x1 .f32) (bb : Fin 16) (k : Fin 32) :
    tileCounts (F := Ideal) x0 x1 x2 (ix2 bb k)
      = ∑ r : Fin 32, ∑ l : Fin 1024,
          if tileIdx x0 x1 x2 (ix3 bb r l) = BitVec.ofNat 32 k.val then (1 : EReal) else 0 := by
  have hcat := cat32 fun n : Fin 32 => shapeCast S16x1
      (binCount (F := Ideal) (tileIdx x0 x1 x2) (BitVec.ofNat 32 n.val)) shapeCasts_S16_S16x1
  have e : tileCounts (F := Ideal) x0 x1 x2 = concatenate S16x32 1 (List.ofFn fun n : Fin 32 => (⟨S16x1, shapeCast S16x1
      (binCount (F := Ideal) (tileIdx x0 x1 x2) (BitVec.ofNat 32 n.val)) shapeCasts_S16_S16x1⟩ : (s : Shape) × (s.Idx → EReal))) hcat := rfl
  rw [e]
  refine (concatenate_ofFn_unit_apply (t := S16x32) (s₁ := S16x1) (1 : Fin 2) (fun n : Fin 32 => shapeCast S16x1
      (binCount (F := Ideal) (tileIdx x0 x1 x2) (BitVec.ofNat 32 n.val)) shapeCasts_S16_S16x1) hcat rfl rfl (ix2 bb k) k rfl
      (ix2 bb (0 : Fin 1)) ?_).trans ?_
  · intro b hb
    match b with
    | ⟨0, _⟩ => rfl
    | ⟨1, _⟩ => exact absurd rfl hb
  · exact (col_apply _ bb 0).trans (binCount_apply _ _ bb)

end Cert.KernelIdeal.Hand

end
-- ==== Proof.KernelIdeal.V1c.lean ====
import proofs.«122725_j16939351016189_2_alg».proof.Proof.KernelIdeal.V1d
import proofs.«122725_j16939351016189_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! # A pixel's bin: the tile's and the reference's are one function of the pixel, its sample's minimum and its sample's maximum -/

/-- The bin of a value v of a sample whose minimum is mn and maximum mx: (v - mn) / safe, times 32, rounded down, as an integer,
    raised to at least 0 and lowered to at most 31; safe is mx - mn where that is positive and 1 elsewhere. -/
def binOf (v mn mx : Ideal .f32) : BitVec 32 :=
  IntOp.minsi 31#32 (IntOp.maxsi 0#32 (FloatOps.fptosi 32 (FloatOps.floor (FloatOps.mulf
    (FloatOps.divf (FloatOps.subf v mn)
      (Scalar.select (FloatOps.cmpf .ogt (FloatOps.subf mx mn) (FloatOps.ofBits .f32 0x00000000#32)) (FloatOps.subf mx mn)
        (FloatOps.ofBits .f32 0x3F800000#32)))
    (FloatOps.ofBits .f32 0x42000000#32)))))

/-- A column of 16 cast to 16 × 1 × 1 and spread over the tile reads, at (bb, r, l), the column at bb. -/
theorem colSpread_apply {α : Type} (v : S16x1.Idx → α) (bb : Fin 16) (r : Fin 32) (l : Fin 1024) :
    broadcastTo S16x32x1024 (shapeCast S16x1x1 v shapeCasts_S16x1_S16x1x1) broadcasts_S16x1x1_S16x32x1024 (ix3 bb r l)
      = v (ix2 bb (0 : Fin 1)) :=
  (broadcastTo_apply _ _ (ix3 bb r l) (ix3 bb (0 : Fin 1) (0 : Fin 1)) (fun a => by
    match a with
    | ⟨0, _⟩ => rfl
    | ⟨1, _⟩ => rfl
    | ⟨2, _⟩ => rfl)).trans
  (shapeCast_apply v _ _ _ (by
    rw [Shape.rowMajor_val_two, Shape.rowMajor_val_three]
    show bb.val * 1 + 0 = (bb.val * 1 + 0) * 1 + 0
    omega))

/-- The tile's bins at (bb, r, l). -/
theorem tileIdx_apply (x0 : Vec Ideal S16x32x1024 .f32) (x1 x2 : Vec Ideal S16x1 .f32) (bb : Fin 16) (r : Fin 32) (l : Fin 1024) :
    tileIdx (F := Ideal) x0 x1 x2 (ix3 bb r l) = binOf (x0 (ix3 bb r l)) (x1 (ix2 bb (0 : Fin 1))) (x2 (ix2 bb (0 : Fin 1))) := by
  unfold tileIdx k1_pay4
  simp only [shapeCast_self]
  dsimp only [Idealize.ShloMosaic.minsi, Idealize.ShloMosaic.maxsi, Idealize.ShloMosaic.fptosi, Idealize.ShloMosaic.floor,
    Idealize.ShloMosaic.mulf, Idealize.ShloMosaic.divf, Idealize.ShloMosaic.subf, Idealize.ShloMosaic.broadcast]
  rw [colSpread_apply, colSpread_apply]
  rfl

/-- The reference's bins at sample b and flattened position q = h * 1024 + w. -/
theorem idxOf_apply (x : FVec Ideal Cert.Spec.Img .f32) (mn mx : FVec Ideal Cert.Spec.S32x1 .f32) (b : Fin 32) (q : Fin 1048576)
    (h w : Fin 1024) (hq : q.val = h.val * 1024 + w.val) :
    Cert.Spec.idxOf x mn mx (ix2 b q) = binOf (x (ix4 b (0 : Fin 1) h w)) (mn (ix2 b (0 : Fin 1))) (mx (ix2 b (0 : Fin 1))) := by
  have hx : (shapeCast Cert.Spec.S32x1048576 x (by decide) : FVec Ideal Cert.Spec.S32x1048576 .f32) (ix2 b q) = x (ix4 b (0 : Fin 1) h w) :=
    shapeCast_apply x _ _ _ (by
      rw [Shape.rowMajor_val_two, Shape.rowMajor_val_four]
      show ((b.val * 1 + 0) * 1024 + h.val) * 1024 + w.val = b.val * 1048576 + q.val
      omega)
  have hc : ∀ (v : FVec Ideal Cert.Spec.S32x1 .f32),
      broadcastInDim Cert.Spec.S32x1048576 ![0, 1] (by decide) v (ix2 b q) = v (ix2 b (0 : Fin 1)) := fun v =>
    broadcastInDim_apply _ _ v (ix2 b q) (ix2 b (0 : Fin 1)) (fun a => by
      match a with
      | ⟨0, _⟩ => rfl
      | ⟨1, _⟩ => rfl)
  unfold Cert.Spec.idxOf
  show IntOp.minsi 31#32 (IntOp.maxsi 0#32 (FloatOps.fptosi 32 (FloatOps.floor (FloatOps.mulf
    (FloatOps.divf (FloatOps.subf ((shapeCast Cert.Spec.S32x1048576 x (by decide) : FVec Ideal Cert.Spec.S32x1048576 .f32) (ix2 b q))
        (broadcastInDim Cert.Spec.S32x1048576 ![0, 1] (by decide) mn (ix2 b q)))
      (broadcastInDim Cert.Spec.S32x1048576 ![0, 1] (by decide) (Cert.Spec.safeOf mn mx) (ix2 b q)))
    (FloatOps.ofBits .f32 0x42000000#32))))) = _
  rw [hx, hc, hc]
  rfl

end Cert.KernelIdeal.Hand

end
-- ==== Proof.KernelIdeal.V1a.lean ====
import proofs.«122725_j16939351016189_2_alg».proof.Proof.KernelIdeal.R1
import proofs.«122725_j16939351016189_2_alg».proof.Proof.KernelIdeal.V1d
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.ValueIdx
open Idealize.ShloMosaic.TcCoe Idealize.ShloMosaic.Tactic
open Idealize.SL.Sem

variable {F : FTy → Type} [FloatOps F]

/-! # What the histogram body leaves in the counts' buffer, in closed form

At a half's first tile: the zero block plus the tile's counts. At a later tile: the running counts plus the tile's counts. -/

theorem zero2 : (![0, 0] : Fin 2 → Nat) = fun _ => 0 := funext fun a => by fin_cases a <;> rfl
theorem zero3 : (![0, 0, 0] : Fin 3 → Nat) = fun _ => 0 := funext fun a => by fin_cases a <;> rfl

/-- The zero block a half's first tile stores before it adds. -/
abbrev zeroCounts : FVec F S16x32 .f32 := broadcast S16x32 (Scalar.ofBits .f32 0x00000000#32)

/-- A LATER tile: the one covering store's payload is the running counts plus the tile's counts, its loads reading the whole
    buffers. -/
theorem out1_B_3_eq (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : ¬cond1_0 i)
    (x0 : Vec F S16x32x1024 .f32) (x1 : Vec F S16x1 .f32) (x2 : Vec F S16x1 .f32) (xo3 : Vec F S16x32 .f32) :
    out1_B_3 c i arg2 harg2 arg3 harg3 arg4 harg4 arg5 harg5 hc0 x0 x1 x2 xo3 = addf xo3 (tileCounts x0 x1 x2) := by
  unfold out1_B_3
  rw [View.read_writes_eq_canon _ _ _ (cover1_B_3 c i arg2 harg2 arg3 harg3 arg4 harg4 arg5 harg5 hc0 x0 x1 x2 xo3)]
  unfold kernelRun1_B
  dsimp only
  sl_unfold_words
  rw [View.canon_unit_zero zero2]
  unfold k1_pay2
  simp only [View.readAt_eq_ld, harg2.read_unread, harg3.read_unread, harg4.read_unread, harg5.read_unread,
    View.ld_unit_zero (S := S16x32) zero2, View.ld_unit_zero (S := S16x1) zero2, View.ld_unit_zero (S := S16x32x1024) zero3,
    shapeCast_self]
  rfl

/-- A FIRST tile: the zero block is stored, read back, and the tile's counts added to it. -/
theorem out1_A_3_eq (c : Dev nD) (i : grid1.Coords) (arg2 : Memref sig .tc .vmem S16x32x1024 .f32) (harg2 : arg2.IsWhole)
    (arg3 : Memref sig .tc .vmem S16x1 .f32) (harg3 : arg3.IsWhole) (arg4 : Memref sig .tc .vmem S16x1 .f32) (harg4 : arg4.IsWhole)
    (arg5 : Memref sig .tc .vmem S16x32 .f32) (harg5 : arg5.IsWhole) (hc0 : cond1_0 i)
    (x0 : Vec F S16x32x1024 .f32) (x1 : Vec F S16x1 .f32) (x2 : Vec F S16x1 .f32) :
    out1_A_3 c i arg2 harg2 arg3 harg3 arg4 harg4 arg5 harg5 hc0 x0 x1 x2 = addf zeroCounts (tileCounts x0 x1 x2) := by
  unfold out1_A_3
  rw [View.read_writes_eq_canon _ _ _ (cover1_A_3 c i arg2 harg2 arg3 harg3 arg4 harg4 arg5 harg5 hc0 x0 x1 x2)]
  unfold kernelRun1_A
  dsimp only
  sl_unfold_words
  rw [View.canon_cons_unit_zero (S := S16x32) zero2, View.readCov_unit_zero (S := S16x32) _ zero2]
  unfold k1_pay2 k1_pay3
  simp only [View.readAt_eq_ld, harg2.read_unread, harg3.read_unread, harg4.read_unread,
    View.ld_unit_zero (S := S16x32) zero2, View.ld_unit_zero (S := S16x1) zero2, View.ld_unit_zero (S := S16x32x1024) zero3,
    shapeCast_self]
  rfl

end Cert.KernelIdeal.Hand

end
-- ==== Proof.KernelIdeal.V1f.lean ====
import proofs.«122725_j16939351016189_2_alg».proof.Proof.KernelIdeal.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem

variable {F : FTy → Type} [FloatOps F]
variable (V : (c : Dev nD) → (b : Ref sig .tc) → Buf (Elt F) ((c : Thread nD τ).loc b))

/-! # The histogram region's input blocks are pieces of the arrays it is entered from

Point t is batch half t / 32 and row tile t % 32: the image block is samples 16 (t / 32) + 0..15, rows 32 (t % 32) + 0..31, every
column; the minima's, maxima's and counts' blocks are the half's 16 rows. -/

/-- The windows' block indices at every point. -/
theorem index1 : ∀ t : Fin cfg1.N, win1_0.index t (0 : Fin 3) = t.val / 32 ∧ win1_0.index t (1 : Fin 3) = t.val % 32
    ∧ win1_0.index t (2 : Fin 3) = 0
    ∧ win1_1.index t (0 : Fin 2) = t.val / 32 ∧ win1_1.index t (1 : Fin 2) = 0
    ∧ win1_2.index t (0 : Fin 2) = t.val / 32 ∧ win1_2.index t (1 : Fin 2) = 0
    ∧ win1_3.index t (0 : Fin 2) = t.val / 32 ∧ win1_3.index t (1 : Fin 2) = 0 :=
  (by decide +kernel : ∀ t : Fin grid1.N, win1_0.index t (0 : Fin 3) = t.val / 32 ∧ win1_0.index t (1 : Fin 3) = t.val % 32
    ∧ win1_0.index t (2 : Fin 3) = 0
    ∧ win1_1.index t (0 : Fin 2) = t.val / 32 ∧ win1_1.index t (1 : Fin 2) = 0
    ∧ win1_2.index t (0 : Fin 2) = t.val / 32 ∧ win1_2.index t (1 : Fin 2) = 0
    ∧ win1_3.index t (0 : Fin 2) = t.val / 32 ∧ win1_3.index t (1 : Fin 2) = 0)

/-- The image block at point t, read at y, is the image at k when k is y moved by the block's offsets. -/
theorem iblk1_0_apply (c : Dev nD) (t : Fin cfg1.N) (y : S16x32x1024.Idx) (k : S32x1024x1024.Idx)
    (hk0 : (k 0).val = 16 * (t.val / 32) + (y 0).val) (hk1 : (k 1).val = 32 * (t.val % 32) + (y 1).val)
    (hk2 : (k 2).val = (y 2).val) :
    (iblk1 V c 0 t : Vec F S16x32x1024 .f32) y = (V c main_v0 : S32x1024x1024.Idx → Elt F .f32) k := by
  obtain ⟨e0, e1, e2, -⟩ := index1 t
  unfold iblk1
  rw [View.read_apply]
  show V c main_v0 _ = V c main_v0 _
  congr 1
  funext a
  apply Fin.ext
  match a with
  | ⟨0, _⟩ => show win1_0.index t 0 * 16 + 1 * (y 0).val = (k 0).val; rw [e0, hk0]; omega
  | ⟨1, _⟩ => show win1_0.index t 1 * 32 + 1 * (y 1).val = (k 1).val; rw [e1, hk1]; omega
  | ⟨2, _⟩ => show win1_0.index t 2 * 1024 + 1 * (y 2).val = (k 2).val; rw [e2, hk2]; omega

/-- The minima's block at point t. -/
theorem iblk1_1_apply (c : Dev nD) (t : Fin cfg1.N) (y : S16x1.Idx) (k : S32x1.Idx)
    (hk0 : (k 0).val = 16 * (t.val / 32) + (y 0).val) (hk1 : (k 1).val = (y 1).val) :
    (iblk1 V c 1 t : Vec F S16x1 .f32) y = (V c main_v1_0 : S32x1.Idx → Elt F .f32) k := by
  obtain ⟨-, -, -, e0, e1, -⟩ := index1 t
  unfold iblk1
  rw [View.read_apply]
  show V c main_v1_0 _ = V c main_v1_0 _
  congr 1
  funext a
  apply Fin.ext
  match a with
  | ⟨0, _⟩ => show win1_1.index t 0 * 16 + 1 * (y 0).val = (k 0).val; rw [e0, hk0]; omega
  | ⟨1, _⟩ => show win1_1.index t 1 * 1 + 1 * (y 1).val = (k 1).val; rw [e1, hk1]; omega

/-- The maxima's block at point t. -/
theorem iblk1_2_apply (c : Dev nD) (t : Fin cfg1.N) (y : S16x1.Idx) (k : S32x1.Idx)
    (hk0 : (k 0).val = 16 * (t.val / 32) + (y 0).val) (hk1 : (k 1).val = (y 1).val) :
    (iblk1 V c 2 t : Vec F S16x1 .f32) y = (V c main_v1_1 : S32x1.Idx → Elt F .f32) k := by
  obtain ⟨-, -, -, -, -, e0, e1, -⟩ := index1 t
  unfold iblk1
  rw [View.read_apply]
  show V c main_v1_1 _ = V c main_v1_1 _
  congr 1
  funext a
  apply Fin.ext
  match a with
  | ⟨0, _⟩ => show win1_2.index t 0 * 16 + 1 * (y 0).val = (k 0).val; rw [e0, hk0]; omega
  | ⟨1, _⟩ => show win1_2.index t 1 * 1 + 1 * (y 1).val = (k 1).val; rw [e1, hk1]; omega

end Cert.KernelIdeal.Hand

end
-- ==== Proof.KernelIdeal.V1e.lean ====
import proofs.«122725_j16939351016189_2_alg».proof.Proof.KernelIdeal.V1a
import proofs.«122725_j16939351016189_2_alg».proof.Proof.KernelIdeal.V1f
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem
open Idealize.ShloMosaic.Pipeline (Dat)

variable (V : (c : Dev nD) → (b : Ref sig .tc) → Buf (Elt Ideal) ((c : Thread nD τ).loc b))

/-! # The counts the histogram region leaves: each half's 32 tiles' counts added up

The counts' staging buffer after a half's first tile holds that tile's counts (the zero block plus them), after a later tile what
the tile before left plus this tile's counts: so after tile n of a half the sum of the half's tiles up to n. The half's last tile
writes the buffer back to the half's 16 rows of the array. -/

/-- The counts of the tile at point p (none past the grid). -/
def tileAt (c : Dev nD) (p : ℕ) : FVec Ideal S16x32 .f32 :=
  if h : p < cfg1.N then tileCounts (iblk1 V c 0 ⟨p, h⟩) (iblk1 V c 1 ⟨p, h⟩) (iblk1 V c 2 ⟨p, h⟩) else fun _ => 0

theorem tileAt_fin (c : Dev nD) (t : Fin cfg1.N) :
    tileAt V c t.val = tileCounts (iblk1 V c 0 t) (iblk1 V c 1 t) (iblk1 V c 2 t) := dif_pos t.isLt

/-- After a half's first tile: the tile's counts. -/
theorem first_tile (c : Dev nD) (t : Fin cfg1.N) (h0 : t.val % 32 = 0) (j : S16x32.Idx) :
    outsAt1 V c t.val t.isLt j = tileAt V c t.val j := by
  rw [outsAt1_A V c t h0, out1_A_3_eq, tileAt_fin]
  show Ideal.ofBits .f32 0x00000000#32 + _ = _
  rw [Ideal.ofBits_zero_f32, zero_add]

/-- After a later tile: what the tile before left, plus the tile's counts. -/
theorem later_tile (c : Dev nD) (t : Fin cfg1.N) (h0 : ¬t.val % 32 = 0) (j : S16x32.Idx) :
    outsAt1 V c t.val t.isLt j
      = outsAt1 V c (t.val - 1) (Nat.lt_of_le_of_lt (Nat.sub_le _ _) t.isLt) j + tileAt V c t.val j := by
  rw [outsAt1_B V c t h0, out1_B_3_eq, tileAt_fin]
  rfl

/-- After point n: the sum of the counts of its half's tiles up to it. -/
theorem outsAt1_eq (c : Dev nD) : ∀ (n : ℕ) (h : n < cfg1.N) (j : S16x32.Idx),
    outsAt1 V c n h j = ∑ q ∈ Finset.range (n % 32 + 1), tileAt V c (n - n % 32 + q) j
  | 0, h, j => by
    rw [first_tile V c ⟨0, h⟩ rfl j]
    simp
  | n + 1, h, j => by
    by_cases h0 : (n + 1) % 32 = 0
    · rw [first_tile V c ⟨n + 1, h⟩ h0 j, h0]
      simp
    · rw [later_tile V c ⟨n + 1, h⟩ h0 j]
      show outsAt1 V c n _ j + _ = _
      rw [outsAt1_eq c n _ j]
      have e1 : (n + 1) % 32 = n % 32 + 1 := by omega
      have e2 : n + 1 - (n % 32 + 1) = n - n % 32 := by omega
      have e3 : n - n % 32 + (n % 32 + 1) = n + 1 := by omega
      rw [e1, e2, Finset.sum_range_succ _ (n % 32 + 1), e3]

/-- The counts' array as the region leaves it: row i is sample i, of half i / 16, the (i % 16)-th of the half. -/
def countsOf (c : Dev nD) : FVec Ideal S32x32 .f32 := fun i =>
  ∑ q ∈ Finset.range 32, tileAt V c (32 * ((i 0).val / 16) + q) (ix2 (⟨(i 0).val % 16, Nat.mod_lt _ (by decide)⟩ : Fin 16) (i 1))

/-- What a half's last tile writes back is the half's rows of that array. -/
theorem flushed1_3_eq (c : Dev nD) (t : Fin cfg1.N) (hf : (cfg1.win 3).flush t = true) :
    (dat1 V c).flushed 3 t = ((cfg1.win 3).blk t).view.read (Elt Ideal) (countsOf V c) := by
  have h31 : t.val % 32 = 31 := (flush1_3 t).mp hf
  obtain ⟨-, -, -, -, -, -, -, e0, e1⟩ := index1 t
  show (cfg1.win 3).cut (grid1.coords t) ((dat1 V c).after 3 t) = _
  rw [after1_3]
  funext y
  show outsAt1 V c t.val t.isLt y = countsOf V c (((cfg1.win 3).blk t).view.emb y)
  rw [outsAt1_eq V c t.val t.isLt y, h31]
  have k0 : ((((cfg1.win 3).blk t).view.emb y) 0).val = 16 * (t.val / 32) + (y 0).val := by
    show win1_3.index t 0 * 16 + 1 * (y 0).val = _
    rw [e0]; omega
  have k1 : ((((cfg1.win 3).blk t).view.emb y) 1).val = (y 1).val := by
    show win1_3.index t 1 * 32 + 1 * (y 1).val = _
    rw [e1]; omega
  have hy0 : (y 0).val < 16 := (y 0).isLt
  unfold countsOf
  refine Finset.sum_congr rfl fun q _ => ?_
  have hp : t.val - 31 + q = 32 * (((((cfg1.win 3).blk t).view.emb y) 0).val / 16) + q := by rw [k0]; omega
  have hi : y = ix2 (⟨((((cfg1.win 3).blk t).view.emb y) 0).val % 16, Nat.mod_lt _ (by decide)⟩ : Fin 16)
      ((((cfg1.win 3).blk t).view.emb y) 1) := by
    funext a
    apply Fin.ext
    match a with
    | ⟨0, _⟩ => show (y 0).val = ((((cfg1.win 3).blk t).view.emb y) 0).val % 16; rw [k0]; omega
    | ⟨1, _⟩ => exact k1.symm
  rw [hp]
  exact congrArg (tileAt V c _) hi

/-- So the array ends holding it: the last tile of half 0 covers rows 0 to 15, that of half 1 rows 16 to 31. -/
theorem counts_blocks (c : Dev nD) : (dat1 V c).arrAt 3 cfg1.N = countsOf V c :=
  (dat1 V c).arrAt_eq_of_cover 3 (countsOf V c) (flushed1_3_eq V c) fun i => by
    have hN : cfg1.N = 64 := N_1
    have hi0 : (i 0 : Nat) < 32 := (i 0).isLt
    have hi1 : (i 1 : Nat) < 32 := (i 1).isLt
    have ht : 32 * ((i 0 : Nat) / 16) + 31 < cfg1.N := by rw [hN]; omega
    obtain ⟨-, -, -, -, -, -, -, e0, e1⟩ := index1 ⟨32 * ((i 0 : Nat) / 16) + 31, ht⟩
    refine ⟨⟨32 * ((i 0 : Nat) / 16) + 31, ht⟩, (flush1_3 _).mpr (by show (32 * ((i 0 : Nat) / 16) + 31) % 32 = 31; omega), ?_⟩
    show i ∈ ((View.whole main_v2).slice (win1_3.rect ⟨32 * ((i 0 : Nat) / 16) + 31, ht⟩)).set
    rw [View.set_slice_whole, Rect.mem_set_unit]
    intro a
    match a with
    | ⟨0, _⟩ =>
      show win1_3.index ⟨32 * ((i 0 : Nat) / 16) + 31, ht⟩ 0 * 16 ≤ (i 0 : Nat)
        ∧ (i 0 : Nat) < win1_3.index ⟨32 * ((i 0 : Nat) / 16) + 31, ht⟩ 0 * 16 + 16
      rw [e0]
      show (32 * ((i 0 : Nat) / 16) + 31) / 32 * 16 ≤ (i 0 : Nat) ∧ (i 0 : Nat) < (32 * ((i 0 : Nat) / 16) + 31) / 32 * 16 + 16
      omega
    | ⟨1, _⟩ =>
      show win1_3.index ⟨32 * ((i 0 : Nat) / 16) + 31, ht⟩ 1 * 32 ≤ (i 1 : Nat)
        ∧ (i 1 : Nat) < win1_3.index ⟨32 * ((i 0 : Nat) / 16) + 31, ht⟩ 1 * 32 + 32
      rw [e1]
      omega

end Cert.KernelIdeal.Hand

end
-- ==== Proof.KernelIdeal.V1.lean ====
import proofs.«122725_j16939351016189_2_alg».proof.Proof.KernelIdeal.V1b
import proofs.«122725_j16939351016189_2_alg».proof.Proof.KernelIdeal.V1c
import proofs.«122725_j16939351016189_2_alg».proof.Proof.KernelIdeal.V1e
import proofs.«122725_j16939351016189_2_alg».proof.Proof.Spec

set_option maxRecDepth 16384

noncomputable section

namespace Cert.KernelIdeal.Hand

open Cert.KernelIdeal Cert.KernelIdeal.Gen
open Idealize.ShloMosaic Idealize.ShloMosaic.ValueIdx
open Idealize.ShloMosaic.TcCoe
open Idealize.SL.Sem
open Idealize.ShloMosaic.Pipeline (Dat)

variable (V : (c : Dev nD) → (b : Ref sig .tc) → Buf (Elt Ideal) ((c : Thread nD τ).loc b))

/-! # The histogram region's counts, over the image, the minima and the maxima it is entered with

Sample b's count of bin k: over the 32 row tiles t, the 32 rows r of a tile and the 1024 columns l, the number of pixels
(row 32 t + r, column l) of the sample whose bin, as the reference computes it at the pixel's flattened position, is k. -/

theorem counts_kernel (c : Dev nD) (x : FVec Ideal Cert.Spec.Img .f32) (mn mx : FVec Ideal Cert.Spec.S32x1 .f32)
    (hx : ∀ (b : Fin 32) (h : Fin 1024) (w : Fin 1024), V c main_v0 (ix3 b h w) = x (ix4 b (0 : Fin 1) h w))
    (hmn : V c main_v1_0 = mn) (hmx : V c main_v1_1 = mx) (b : Fin 32) (k : Fin 32) :
    (dat1 (F := Ideal) V c).arrAt 3 cfg1.N (ix2 b k)
      = ∑ t : Fin 32, ∑ r : Fin 32, ∑ l : Fin 1024,
          if Cert.Spec.idxOf x mn mx (ix2 b (⟨(32 * t.val + r.val) * 1024 + l.val, by omega⟩ : Fin 1048576)) = BitVec.ofNat 32 k.val
            then (1 : EReal) else 0 := by
  refine (congrFun (counts_blocks V c) (ix2 b k)).trans ?_
  show (∑ q ∈ Finset.range 32, tileAt V c (32 * (b.val / 16) + q) (ix2 (⟨b.val % 16, Nat.mod_lt _ (by decide)⟩ : Fin 16) k) : EReal) = _
  rw [Finset.sum_range]
  refine Finset.sum_congr rfl fun t _ => ?_
  have hN : cfg1.N = 64 := N_1
  have hb : b.val < 32 := b.isLt
  have ht : t.val < 32 := t.isLt
  have hp : 32 * (b.val / 16) + t.val < cfg1.N := by rw [hN]; omega
  show tileAt V c (32 * (b.val / 16) + t.val) (ix2 (⟨b.val % 16, Nat.mod_lt _ (by decide)⟩ : Fin 16) k) = _
  rw [show 32 * (b.val / 16) + t.val = (⟨32 * (b.val / 16) + t.val, hp⟩ : Fin cfg1.N).val from rfl, tileAt_fin, tileCounts_apply]
  refine Finset.sum_congr rfl fun r _ => Finset.sum_congr rfl fun l _ => ?_
  have hr : r.val < 32 := r.isLt
  have h0 := iblk1_0_apply V c ⟨32 * (b.val / 16) + t.val, hp⟩ (ix3 (⟨b.val % 16, Nat.mod_lt _ (by decide)⟩ : Fin 16) r l)
    (ix3 b (⟨32 * t.val + r.val, by omega⟩ : Fin 1024) l)
    (by show b.val = 16 * ((32 * (b.val / 16) + t.val) / 32) + b.val % 16; omega)
    (by show 32 * t.val + r.val = 32 * ((32 * (b.val / 16) + t.val) % 32) + r.val; omega) rfl
  have h1 := iblk1_1_apply V c ⟨32 * (b.val / 16) + t.val, hp⟩ (ix2 (⟨b.val % 16, Nat.mod_lt _ (by decide)⟩ : Fin 16) (0 : Fin 1))
    (ix2 b (0 : Fin 1))
    (by show b.val = 16 * ((32 * (b.val / 16) + t.val) / 32) + b.val % 16; omega) rfl
  have h2 := iblk1_2_apply V c ⟨32 * (b.val / 16) + t.val, hp⟩ (ix2 (⟨b.val % 16, Nat.mod_lt _ (by decide)⟩ : Fin 16) (0 : Fin 1))
    (ix2 b (0 : Fin 1))
    (by show b.val = 16 * ((32 * (b.val / 16) + t.val) / 32) + b.val % 16; omega) rfl
  rw [tileIdx_apply, h0, h1, h2, hx, hmn, hmx,
    idxOf_apply x mn mx b (⟨(32 * t.val + r.val) * 1024 + l.val, by omega⟩ : Fin 1048576) (⟨32 * t.val + r.val, by omega⟩ : Fin 1024) l rfl]

end Cert.KernelIdeal.Hand

end
-- ==== Proof.LibVecScatterAdd.lean ====
/-
  A float vector scatter-add read at an entry, over the extended reals.

  `x.at[g].add(u)` for a vector `x` of length `N`, an `[E, 1]` matrix `g` of integer indices and a vector `u` of `E` updates lowers
  to a `stablehlo.scatter` with an `add` body whose dimension numbers are: no update window axis, operand axis 0 inserted,
  scatter axis 0 mapped to operand axis 0, the index vector along axis 1 of `g`. Update `e` lands on entry `g[e, 0]` (read as a
  signed integer) when that lies in `[0, N)`, and nowhere otherwise. At the ideal instance the result's entry `v` is therefore
  `x v + ∑ e, [g e = v] · u e`; with `x = 0` and `u = 1` (the histogram idiom `zeros(N).at[g].add(1)`) it counts the indices equal
  to `v`, written here as a sum of zeros and ones.

  Everything is stated for arbitrary extents `N`, `E` and any integer width of the indices; a printed record
  `scatter_S<N>_S<E>x1_S<E>_n_0_0_1` is `dims` of its own well-formedness proof by `rfl`.
-/
import Idealize.ShloMosaic.PureOps.Ideal
import Idealize.ShloMosaic.PureOps.Contract
import Idealize.ShloMosaic.Lib.ValueIdx

noncomputable section

namespace Cert.Lib.VecScatter

open Idealize.ShloMosaic Idealize.ShloMosaic.ValueIdx

variable {N E : Nat}

/-- The dimension numbers of `x.at[g].add(u)`: `x` of shape `[N]`, `g` of shape `[E, 1]`, `u` of shape `[E]`. -/
abbrev dims (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) :=
  { updateWindowDims := [], insertedWindowDims := [0], scatterDimsToOperandDims := [0], indexVectorDim := 1, wf := wf }

variable (wf : ScatterDims.WF (⟨1, ![N]⟩ : Shape) (⟨2, ![E, 1]⟩ : Shape) (⟨1, ![E]⟩ : Shape) [] [0] [0] 1)

/-- Update `e` reads its start index at row `e`, column 0 of the index matrix. -/
theorem siIdx_eq (e : Fin E) (c : Fin ([0] : List (Fin 1)).length) : (dims wf).siIdx (ix1 e) c = ix2 e 0 := by
  funext b
  match b with
  | ⟨0, _⟩ => exact Fin.ext rfl
  | ⟨1, _⟩ =>
    apply Fin.ext
    have hc : c.val < 1 := c.isLt
    show c.val = 0
    omega

/-- The window of update `e` starts, on the operand's one axis, at its index read signed. -/
theorem start_eq {w : Nat} (idx : IVec (⟨2, ![E, 1]⟩ : Shape) w) (e : Fin E) (a : Fin 1) :
    (dims wf).start (ix1 e) idx a = (idx (ix2 e 0)).toInt := by
  obtain rfl : a = 0 := Subsingleton.elim _ _
  unfold ScatterDims.start
  rw [dif_pos (List.mem_singleton.2 rfl), siIdx_eq]

/-- An update is one number: its window has no extent, so the coordinate inside it is 0. -/
theorem window_eq (e : Fin E) (a : Fin 1) : (dims wf).window (ix1 e) a = 0 := by
  obtain rfl : a = 0 := Subsingleton.elim _ _
  unfold ScatterDims.window
  have hk : (dims wf).sKept = [] := rfl
  rw [dif_neg (by rw [hk]; exact List.not_mem_nil)]

/-- Update `e` lands on entry `v` exactly when its index, read signed, is `v`. -/
theorem resultIdx?_eq_some_iff {w : Nat} (idx : IVec (⟨2, ![E, 1]⟩ : Shape) w) (e : Fin E) (v : Fin N) :
    (dims wf).resultIdx? (ix1 e) idx = some (ix1 v) ↔ (idx (ix2 e 0)).toInt = (v.val : Int) := by
  unfold ScatterDims.resultIdx?
  by_cases h : ∀ a, 0 ≤ (dims wf).start (ix1 e) idx a + (dims wf).window (ix1 e) a
      ∧ (dims wf).start (ix1 e) idx a + (dims wf).window (ix1 e) a < (⟨1, ![N]⟩ : Shape).size a
  · rw [dif_pos h]
    have h0 := h 0
    rw [start_eq, window_eq] at h0
    constructor
    · intro hs
      have := congrArg Fin.val (congrFun (Option.some.inj hs) 0)
      simp only [start_eq, window_eq] at this
      have hv : ((idx (ix2 e 0)).toInt + ((0 : ℕ) : ℤ)).toNat = v.val := this
      omega
    · intro hx
      refine congrArg some (funext fun a => ?_)
      obtain rfl : a = 0 := Subsingleton.elim _ _
      apply Fin.ext
      simp only [start_eq, window_eq]
      show ((idx (ix2 e 0)).toInt + 0).toNat = v.val
      omega
  · rw [dif_neg h]
    constructor
    · intro hs; exact absurd hs (by simp)
    · intro hx
      exfalso; apply h
      intro a
      obtain rfl : a = 0 := Subsingleton.elim _ _
      rw [start_eq, window_eq]
      have hN : (⟨1, ![N]⟩ : Shape).size 0 = N := rfl
      rw [hN, hx]
      have := v.isLt
      omega

/-- A rank-1 index is its one coordinate. -/
def idxEquiv1 {n : Nat} : (⟨1, ![n]⟩ : Shape).Idx ≃ Fin n where
  toFun j := j 0
  invFun := ix1
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

/-- `x.at[g].add(u)` read at entry `v`: the operand's entry plus the updates whose index, read signed, is `v`
    (an index outside `[0, N)` lands nowhere). No finiteness is needed: it is the definition re-indexed. -/
theorem hostScatterAdd_apply {w : Nat} (x : (⟨1, ![N]⟩ : Shape).Idx → EReal) (idx : IVec (⟨2, ![E, 1]⟩ : Shape) w)
    (upd : (⟨1, ![E]⟩ : Shape).Idx → EReal) (v : Fin N) :
    Ideal.hostScatterAdd (dims wf) x idx upd (ix1 v)
      = x (ix1 v) + ∑ e : Fin E, if (idx (ix2 e 0)).toInt = (v.val : Int) then upd (ix1 e) else 0 := by
  unfold Ideal.hostScatterAdd
  congr 1
  rw [Finset.sum_filter, sum_idx1]
  exact Finset.sum_congr rfl fun e _ => if_congr (resultIdx?_eq_some_iff wf idx e v) rfl rfl

/-- The histogram idiom `zeros(N).at[g].add(1)`: entry `v` counts the indices equal to `v`, as a sum of zeros and ones. -/
theorem hostScatterAdd_count {w : Nat} (idx : IVec (⟨2, ![E, 1]⟩ : Shape) w) (v : Fin N) :
    Ideal.hostScatterAdd (dims wf) (fun _ => (0 : EReal)) idx (fun _ => (1 : EReal)) (ix1 v)
      = ∑ e : Fin E, if (idx (ix2 e 0)).toInt = (v.val : Int) then (1 : EReal) else 0 := by
  rw [hostScatterAdd_apply, zero_add]

/-- The same two readings for the host operation as a program prints it, at the ideal instance and any float format. -/
theorem host_scatterAdd_apply {φ : FTy} {w : Nat} (x : FVec Ideal (⟨1, ![N]⟩ : Shape) φ) (idx : IVec (⟨2, ![E, 1]⟩ : Shape) w)
    (upd : FVec Ideal (⟨1, ![E]⟩ : Shape) φ) (v : Fin N) :
    Host.scatterAdd (F := Ideal) (dims wf) x idx upd (ix1 v)
      = (x (ix1 v) + ∑ e : Fin E, if (idx (ix2 e 0)).toInt = (v.val : Int) then upd (ix1 e) else (0 : EReal) : EReal) :=
  hostScatterAdd_apply wf x idx upd v

theorem host_scatterAdd_count {φ : FTy} {w : Nat} (idx : IVec (⟨2, ![E, 1]⟩ : Shape) w) (v : Fin N) :
    Host.scatterAdd (F := Ideal) (φ := φ) (dims wf) (fun _ => (0 : EReal)) idx (fun _ => (1 : EReal)) (ix1 v)
      = ∑ e : Fin E, if (idx (ix2 e 0)).toInt = (v.val : Int) then (1 : EReal) else 0 :=
  hostScatterAdd_count wf idx v

end Cert.Lib.VecScatter

end
-- ==== Proof.CountsRef.lean ====
/-
  The reference's histogram, read at a bin.

  The bin index of an entry is a signed 32-bit word raised to at least 0 and then lowered to at most 31, so it lies in [0, 31].
  The histogram is `zeros(1024).at[pos].add(1)` read as 32 rows of 32 bins, where entry `n` of row `b'` (number
  `1048576 b' + n` of the flattened 33554432 entries) has position `index + 32 b'`, with 1024 added where that is negative.
  With the index in [0, 31] the position is in [0, 1023]: the 32-bit sum does not wrap, the position is not negative, and it
  equals `32 b + k` exactly when `b' = b` and the index is `k`. So bin `k` of row `b` counts the entries of row `b` whose index is
  `k`, written as a sum of zeros and ones.
-/
import proofs.«122725_j16939351016189_2_alg».proof.Proof.Spec
import proofs.«122725_j16939351016189_2_alg».proof.Proof.LibVecScatterAdd
import Idealize.ShloMosaic.Lib.ValueIdx
import Idealize.ShloMosaic.Lib.Pipeline.Value
import Idealize.ShloMosaic.PureOps.Ideal.Laws
import Idealize.ShloMosaic.Lib.IdealHost

noncomputable section

namespace Cert.Spec

open Idealize.ShloMosaic Idealize.ShloMosaic.ValueIdx

open scoped BigOperators

/-- A signed 32-bit word raised to at least 0 and then lowered to at most 31 lies in [0, 31]. -/
theorem clamp_range (v : BitVec 32) :
    0 ≤ (IntOp.minsi 31#32 (IntOp.maxsi 0#32 v)).toInt ∧ (IntOp.minsi 31#32 (IntOp.maxsi 0#32 v)).toInt ≤ 31 := by
  unfold IntOp.minsi IntOp.maxsi
  simp only [BitVec.slt_eq_decide, decide_eq_true_eq]
  split_ifs <;> simp_all <;> omega

/-- Every bin index lies in [0, 31]. -/
theorem idxOf_range (x : FVec Ideal Cert.Spec.Img .f32) (mn mx : FVec Ideal Cert.Spec.S32x1 .f32) (b : Fin 32) (n : Fin 1048576) :
    0 ≤ (Cert.Spec.idxOf x mn mx (ix2 b n)).toInt ∧ (Cert.Spec.idxOf x mn mx (ix2 b n)).toInt ≤ 31 := by
  unfold Cert.Spec.idxOf
  exact clamp_range _

/-- A word that is in [0, 31] read signed is at most 31 read unsigned. -/
theorem toNat_of_range {v : BitVec 32} (h : 0 ≤ v.toInt ∧ v.toInt ≤ 31) : v.toNat ≤ 31 := by
  have := BitVec.toInt_eq_toNat_cond v
  split_ifs at this <;> omega

/-- The flat list of all entries: entry `n` of row `b'` is number `1048576 b' + n`. -/
def flatEquiv : Fin 32 × Fin 1048576 ≃ Fin 33554432 where
  toFun p := ⟨p.1.val * 1048576 + p.2.val, by have := p.1.isLt; have := p.2.isLt; omega⟩
  invFun e := (⟨e.val / 1048576, by have := e.isLt; omega⟩, ⟨e.val % 1048576, by omega⟩)
  left_inv p := by
    obtain ⟨⟨a, ha⟩, ⟨n, hn⟩⟩ := p
    refine Prod.ext (Fin.ext ?_) (Fin.ext ?_)
    · show (a * 1048576 + n) / 1048576 = a; omega
    · show (a * 1048576 + n) % 1048576 = n; omega
  right_inv e := by
    refine Fin.ext ?_
    show e.val / 1048576 * 1048576 + e.val % 1048576 = e.val
    omega

/-- The index plus 32 times the row number, read at entry `n` of row `b'`. -/
theorem rowOffset_apply (idx : IVec S32x1048576 32) (b' : Fin 32) (n : Fin 1048576) :
    addi idx (broadcastInDim S32x1048576 ![0, 1] (by decide) (muli (broadcastInDim S32x1 ![0] (by decide) (iotaInDim S32 32 0)) (broadcastInDim S32x1 ![] (by decide) (constantI S_ 32 32#32)))) (ix2 b' n)
      = idx (ix2 b' n) + BitVec.ofNat 32 b'.val * 32#32 := rfl

/-- The wrapped position of a flattened array of positions, read at flat entry `1048576 b' + n`. -/
theorem wrap_apply (Q : IVec S32x1048576 32) (h : S32x1048576.ShapeCasts S33554432) (h0 h1 : S_.BroadcastsInDim S33554432 ![])
    (b' : Fin 32) (n : Fin 1048576) :
    select (cmpi .slt (shapeCast S33554432 Q h) (broadcastInDim S33554432 ![] h0 (constantI S_ 32 0#32)))
        (addi (shapeCast S33554432 Q h) (broadcastInDim S33554432 ![] h1 (constantI S_ 32 1024#32)))
        (shapeCast S33554432 Q h) (ix1 (flatEquiv (b', n)))
      = Scalar.select (IntOp.cmpi .slt (Q (ix2 b' n)) 0#32) (Q (ix2 b' n) + 1024#32) (Q (ix2 b' n)) := by
  have hc : shapeCast S33554432 Q h (ix1 (flatEquiv (b', n))) = Q (ix2 b' n) :=
    shapeCast_apply Q h (ix1 (flatEquiv (b', n))) (ix2 b' n) (by
      rw [Shape.rowMajor_val_two, Shape.rowMajor_val_one]; rfl)
  show Scalar.select (IntOp.cmpi .slt (shapeCast S33554432 Q h (ix1 (flatEquiv (b', n)))) 0#32)
      (shapeCast S33554432 Q h (ix1 (flatEquiv (b', n))) + 1024#32) (shapeCast S33554432 Q h (ix1 (flatEquiv (b', n)))) = _
  rw [hc]

/-- The position of entry `n` of row `b'`: its index plus `32 b'`, and 1024 more where that is negative. -/
theorem posOf_apply (idx : IVec S32x1048576 32) (b' : Fin 32) (n : Fin 1048576) :
    posOf idx (ix1 (flatEquiv (b', n)))
      = Scalar.select (IntOp.cmpi .slt (idx (ix2 b' n) + BitVec.ofNat 32 b'.val * 32#32) 0#32)
          (idx (ix2 b' n) + BitVec.ofNat 32 b'.val * 32#32 + 1024#32) (idx (ix2 b' n) + BitVec.ofNat 32 b'.val * 32#32) := by
  unfold posOf
  rw [wrap_apply, rowOffset_apply]

/-- With the index in [0, 31] the position is `32 b' + index`, it is not negative, and it is `32 b + k` exactly when the row is `b`
    and the index `k`. -/
theorem pos_word (v : BitVec 32) (hv : v.toNat ≤ 31) (b' b k : Fin 32) :
    (Scalar.select (IntOp.cmpi .slt (v + BitVec.ofNat 32 b'.val * 32#32) 0#32)
          (v + BitVec.ofNat 32 b'.val * 32#32 + 1024#32) (v + BitVec.ofNat 32 b'.val * 32#32)).toInt = ((32 * b.val + k.val : ℕ) : ℤ)
      ↔ b' = b ∧ v = BitVec.ofNat 32 k.val := by
  have hb' := b'.isLt
  have hb := b.isLt
  have hk := k.isLt
  have hp : (v + BitVec.ofNat 32 b'.val * 32#32).toNat = v.toNat + 32 * b'.val := by
    bv_omega
  have hint : (v + BitVec.ofNat 32 b'.val * 32#32).toInt = ((v.toNat + 32 * b'.val : ℕ) : ℤ) := by
    rw [BitVec.toInt_eq_toNat_cond, hp, if_pos (by omega)]
  have hns : IntOp.cmpi .slt (v + BitVec.ofNat 32 b'.val * 32#32) 0#32 = 0#1 := by
    have h0 : (0#32 : BitVec 32).toInt = 0 := rfl
    have hnn : ¬ ((v + BitVec.ofNat 32 b'.val * 32#32).toInt < (0#32 : BitVec 32).toInt) := by
      rw [hint, h0]; omega
    unfold IntOp.cmpi
    simp only [BitVec.slt_eq_decide]
    rw [decide_eq_false hnn]
    rfl
  rw [hns, select_zero, hint]
  constructor
  · intro h
    have h' : v.toNat + 32 * b'.val = 32 * b.val + k.val := by exact_mod_cast h
    refine ⟨Fin.ext (by omega), BitVec.eq_of_toNat_eq ?_⟩
    rw [BitVec.toNat_ofNat]
    omega
  · rintro ⟨rfl, rfl⟩
    rw [BitVec.toNat_ofNat]
    have : k.val % 2 ^ 32 = k.val := by omega
    rw [this]
    push_cast
    omega

/-- Entry `n` of row `b'` lands on table entry `32 b + k` exactly when `b' = b` and its index is `k`. -/
theorem hit_iff (idx : IVec S32x1048576 32) (hidx : ∀ b n, 0 ≤ (idx (ix2 b n)).toInt ∧ (idx (ix2 b n)).toInt ≤ 31)
    (b' : Fin 32) (n : Fin 1048576) (b k : Fin 32) :
    (broadcastInDim S33554432x1 ![0] (by decide) (posOf idx) (ix2 (flatEquiv (b', n)) 0)).toInt = ((32 * b.val + k.val : ℕ) : ℤ)
      ↔ b' = b ∧ idx (ix2 b' n) = BitVec.ofNat 32 k.val := by
  have hg : broadcastInDim S33554432x1 ![0] (by decide) (posOf idx) (ix2 (flatEquiv (b', n)) 0) = posOf idx (ix1 (flatEquiv (b', n))) :=
    broadcastInDim_apply _ _ _ _ _ (fun a => by match a with | ⟨0, _⟩ => rfl)
  rw [hg, posOf_apply]
  exact pos_word _ (toNat_of_range (hidx b' n)) b' b k

/-- Bin `k` of row `b` of the histogram is the number of entries of row `b` whose index is `k`. -/
theorem cntOf_apply (idx : IVec Cert.Spec.S32x1048576 32)
    (hidx : ∀ b n, 0 ≤ (idx (ix2 b n)).toInt ∧ (idx (ix2 b n)).toInt ≤ 31) (b k : Fin 32) :
    Cert.Spec.cntOf (F := Ideal) idx (ix2 b k)
      = ∑ n : Fin 1048576, if idx (ix2 b n) = BitVec.ofNat 32 k.val then (1 : EReal) else 0 := by
  have hb := b.isLt
  have hk := k.isLt
  unfold cntOf
  refine (shapeCast_apply _ _ (ix2 b k) (ix1 (⟨32 * b.val + k.val, by omega⟩ : Fin 1024)) ?_).trans ?_
  · rw [Shape.rowMajor_val_two, Shape.rowMajor_val_one]
    show 32 * b.val + k.val = b.val * 32 + k.val
    omega
  have hz : (broadcastInDim S1024 ![] (by decide) (constant (F := Ideal) S_ .f32 0x00000000#32) : FVec Ideal S1024 .f32)
      = fun _ => (0 : EReal) := funext fun _ => Ideal.ofBits_zero_f32
  have ho : (broadcastInDim S33554432 ![] (by decide) (constant (F := Ideal) S_ .f32 0x3F800000#32) : FVec Ideal S33554432 .f32)
      = fun _ => (1 : EReal) := funext fun _ => Ideal.ofBits_one_f32
  rw [hz, ho]
  refine (Cert.Lib.VecScatter.host_scatterAdd_count (φ := .f32) scatterDims.wf _ _).trans ?_
  rw [← Equiv.sum_comp flatEquiv, Fintype.sum_prod_type, Finset.sum_eq_single b]
  · exact Finset.sum_congr rfl fun n _ => if_congr ((hit_iff idx hidx b n b k).trans (and_iff_right rfl)) rfl rfl
  · intro b' _ hne
    exact Finset.sum_eq_zero fun n _ => if_neg fun h => hne ((hit_iff idx hidx b' n b k).mp h).1
  · intro h; exact absurd (Finset.mem_univ b) h

end Cert.Spec

end
-- ==== Proof.CountsJoin.lean ====
/-
  A sum over a row of 1048576 entries, arranged as 32 tiles of 32 rows of 1024 lanes.

  Entry `n` of the row is lane `l = n mod 1024` of row `r = (n / 1024) mod 32` of tile `t = n / 32768`, that is
  `n = (32 t + r) · 1024 + l`; the map `(t, r, l) ↦ n` is a bijection, so a sum over the row is the triple sum.
-/
import Mathlib.Algebra.BigOperators.Fin
import Mathlib.Data.EReal.Basic

noncomputable section

namespace Cert.KernelIdeal.Hand

open scoped BigOperators

/-- A row of 1048576 entries as 32 tiles of 32 rows of 1024: entry `(32 t + r) · 1024 + l` from `(t, r, l)`. -/
def rowSplit : Fin 32 × Fin 32 × Fin 1024 ≃ Fin 1048576 where
  toFun p := ⟨(32 * p.1.val + p.2.1.val) * 1024 + p.2.2.val, by
    have := p.1.isLt; have := p.2.1.isLt; have := p.2.2.isLt; omega⟩
  invFun n := (⟨n.val / 32768, by have := n.isLt; omega⟩, ⟨n.val / 1024 % 32, by omega⟩, ⟨n.val % 1024, by omega⟩)
  left_inv p := by
    obtain ⟨⟨t, ht⟩, ⟨r, hr⟩, ⟨l, hl⟩⟩ := p
    refine Prod.ext (Fin.ext ?_) (Prod.ext (Fin.ext ?_) (Fin.ext ?_))
    · show ((32 * t + r) * 1024 + l) / 32768 = t; omega
    · show ((32 * t + r) * 1024 + l) / 1024 % 32 = r; omega
    · show ((32 * t + r) * 1024 + l) % 1024 = l; omega
  right_inv n := by
    refine Fin.ext ?_
    show (32 * (n.val / 32768) + n.val / 1024 % 32) * 1024 + n.val % 1024 = n.val
    omega

/-- A sum over a row of 1048576 entries, tile by tile, row by row, lane by lane. -/
theorem sum_flat (f : Fin 1048576 → EReal) :
    ∑ n : Fin 1048576, f n
      = ∑ t : Fin 32, ∑ r : Fin 32, ∑ l : Fin 1024,
          f ⟨(32 * t.val + r.val) * 1024 + l.val, by have := t.isLt; have := r.isLt; have := l.isLt; omega⟩ := by
  rw [← Equiv.sum_comp rowSplit f, Fintype.sum_prod_type]
  refine Finset.sum_congr rfl fun t _ => ?_
  rw [Fintype.sum_prod_type]
  rfl

end Cert.KernelIdeal.Hand

end
-- ==== Proof.KernelIdeal.V1Final.lean ====
/-
  The histogram region's result array is the reference's histogram.

  Bin `k` of row `b` of the region's result is, tile by tile, row by row and lane by lane, the number of entries of sample `b` whose
  bin index is `k`; the triple sum is the sum over the sample's 1048576 entries, which is the reference's scatter-add read at that bin.
-/
import proofs.«122725_j16939351016189_2_alg».proof.Proof.KernelIdeal.R1
import proofs.«122725_j16939351016189_2_alg».proof.Proof.KernelIdeal.V1
import proofs.«122725_j16939351016189_2_alg».proof.Proof.Spec
import proofs.«122725_j16939351016189_2_alg».proof.Proof.CountsRef
import proofs.«122725_j16939351016189_2_alg».proof.Proof.CountsJoin
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-- From the bins to the array: if every bin of the region's result is the tile-by-tile count, the result is the reference's histogram. -/
theorem final1_3_of (V : (c : Dev nD) → (b : Ref sig .tc) → Buf (Elt Ideal) ((c : Thread nD τ).loc b)) (c : Dev nD)
    (x : FVec Ideal Cert.Spec.Img .f32) (mn mx : FVec Ideal Cert.Spec.S32x1 .f32)
    (hcounts : ∀ (b k : Fin 32), (dat1 (F := Ideal) V c).arrAt 3 cfg1.N (ix2 b k)
      = ∑ t : Fin 32, ∑ r : Fin 32, ∑ l : Fin 1024,
          if Cert.Spec.idxOf x mn mx (ix2 b ⟨(32 * t.val + r.val) * 1024 + l.val, by
              have := t.isLt; have := r.isLt; have := l.isLt; omega⟩) = BitVec.ofNat 32 k.val then (1 : EReal) else 0) :
    (dat1 (F := Ideal) V c).arrAt 3 cfg1.N = Cert.Spec.cntOf (F := Ideal) (Cert.Spec.idxOf x mn mx) := by
  funext i
  obtain ⟨b, k, rfl⟩ : ∃ (b k : Fin 32), i = ix2 b k := ⟨i 0, i 1, eq_ix2 i⟩
  rw [hcounts b k, Cert.Spec.cntOf_apply _ (Cert.Spec.idxOf_range x mn mx) b k, sum_flat]

/-- The histogram region's result array, entered from the reshaped image and its per-sample minima and maxima, is the reference's
    histogram of the bin indices. -/
theorem final1_3 (V : (c : Dev nD) → (b : Ref sig .tc) → Buf (Elt Ideal) ((c : Thread nD τ).loc b)) (c : Dev nD)
    (x : FVec Ideal Cert.Spec.Img .f32) (mn mx : FVec Ideal Cert.Spec.S32x1 .f32)
    (hx : ∀ (b : Fin 32) (h : Fin 1024) (w : Fin 1024), V c main_v0 (ix3 b h w) = x (ix4 b (0 : Fin 1) h w))
    (hmn : V c main_v1_0 = mn) (hmx : V c main_v1_1 = mx) :
    (dat1 (F := Ideal) V c).arrAt 3 cfg1.N = Cert.Spec.cntOf (F := Ideal) (Cert.Spec.idxOf x mn mx) :=
  final1_3_of V c x mn mx fun b k => counts_kernel V c x mn mx hx hmn hmx b k

end Cert.KernelIdeal.Hand

end
-- ==== Proof.KernelIdeal.V2.lean ====
import proofs.«122725_j16939351016189_2_alg».proof.Proof.KernelIdeal.R2
import proofs.«122725_j16939351016189_2_alg».proof.Proof.Spec
import Idealize.ShloMosaic.Lib.Pipeline.Value
import Idealize.ShloMosaic.Lib.ValueIdx
import Idealize.ShloMosaic.Lib.ValueLayout

set_option maxRecDepth 16384

/-!
# The refine region's value

Each of the four steps replaces every entry v of the image by v + a · (v − v · v), a the sample's coefficient for that
step. The region's body does the four steps on a band of 32 rows of every sample; the reference does them on the
whole image. Entry by entry both are the same four-fold composition of one scalar function.
-/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- One step on one entry: v ↦ v + a · (v − v · v). -/
def step (a v : EReal) : EReal := v + a * (v - v * v)

/-- The four steps on one entry, with the coefficients a₀, a₁, a₂, a₃ in turn. -/
def step4 (a0 a1 a2 a3 v : EReal) : EReal := step a3 (step a2 (step a1 (step a0 v)))

/-! ## Layout operations on the table of coefficients, read at an index -/

section Layout
variable {α : Type}

/-- Column k of a [32,4] table as a [32,1] column reads, at (b, 0), the table at (b, k). -/
theorem sliceCol_apply (x1 : (⟨2, ![32, 4]⟩ : Shape).Idx → α) (k : Nat) (hk : k < 4)
    (hs : (⟨2, ![32, 4]⟩ : Shape).Slices ![0, k] ⟨2, ![32, 1]⟩) (b : Fin 32) :
    extractStridedSlice ⟨2, ![32, 1]⟩ ![0, k] x1 hs (ix2 b (0 : Fin 1)) = x1 (ix2 b (⟨k, hk⟩ : Fin 4)) :=
  extractStridedSlice_apply _ x1 hs (ix2 b (0 : Fin 1)) (ix2 b (⟨k, hk⟩ : Fin 4)) fun a => by
    match a with
    | ⟨0, _⟩ => show b.val = 0 + b.val; omega
    | ⟨1, _⟩ => show k = k + 0; omega

/-- A [32,1] column flattened to [32] reads, at b, the column at (b, 0). -/
theorem flattenCol_apply (v : (⟨2, ![32, 1]⟩ : Shape).Idx → α) (h : (⟨2, ![32, 1]⟩ : Shape).ShapeCasts ⟨1, ![32]⟩) (b : Fin 32) :
    shapeCast ⟨1, ![32]⟩ v h (ix1 b) = v (ix2 b (0 : Fin 1)) :=
  shapeCast_apply v h (ix1 b) (ix2 b (0 : Fin 1)) (by
    rw [Shape.rowMajor_val_two, Shape.rowMajor_val_one]
    show b.val * 1 + 0 = b.val
    omega)

/-- A [32] vector viewed [32,1,1] reads, at (b, 0, 0), the vector at b. -/
theorem unitAxes_apply (v : (⟨1, ![32]⟩ : Shape).Idx → α) (h : (⟨1, ![32]⟩ : Shape).ShapeCasts ⟨3, ![32, 1, 1]⟩) (b : Fin 32) :
    shapeCast ⟨3, ![32, 1, 1]⟩ v h (ix3 b (0 : Fin 1) (0 : Fin 1)) = v (ix1 b) :=
  shapeCast_apply v h (ix3 b (0 : Fin 1) (0 : Fin 1)) (ix1 b) (by
    rw [Shape.rowMajor_val_one, Shape.rowMajor_val_three]
    show b.val = (b.val * 1 + 0) * 1 + 0
    omega)

/-- A [32,1,1] array broadcast over a band [32,32,1024] reads, at (b, r, w), the array at (b, 0, 0). -/
theorem overBand_apply (v : (⟨3, ![32, 1, 1]⟩ : Shape).Idx → α) (h : (⟨3, ![32, 1, 1]⟩ : Shape).Broadcasts ⟨3, ![32, 32, 1024]⟩)
    (b r : Fin 32) (w : Fin 1024) :
    broadcastTo ⟨3, ![32, 32, 1024]⟩ v h (ix3 b r w) = v (ix3 b (0 : Fin 1) (0 : Fin 1)) :=
  broadcastTo_apply v h (ix3 b r w) (ix3 b (0 : Fin 1) (0 : Fin 1)) fun a => by
    match a with
    | ⟨0, _⟩ => rfl
    | ⟨1, _⟩ => rfl
    | ⟨2, _⟩ => rfl

/-- So column k of the table, flattened, viewed [32,1,1] and broadcast over the band, reads the table at (b, k) everywhere
    in sample b. -/
theorem colBand_apply (x1 : (⟨2, ![32, 4]⟩ : Shape).Idx → α) (k : Nat) (hk : k < 4)
    (hs : (⟨2, ![32, 4]⟩ : Shape).Slices ![0, k] ⟨2, ![32, 1]⟩) (h1 : (⟨2, ![32, 1]⟩ : Shape).ShapeCasts ⟨1, ![32]⟩)
    (h2 : (⟨1, ![32]⟩ : Shape).ShapeCasts ⟨3, ![32, 1, 1]⟩) (h3 : (⟨3, ![32, 1, 1]⟩ : Shape).Broadcasts ⟨3, ![32, 32, 1024]⟩)
    (b r : Fin 32) (w : Fin 1024) :
    broadcastTo ⟨3, ![32, 32, 1024]⟩
        (shapeCast ⟨3, ![32, 1, 1]⟩ (shapeCast ⟨1, ![32]⟩ (extractStridedSlice ⟨2, ![32, 1]⟩ ![0, k] x1 hs) h1) h2) h3 (ix3 b r w)
      = x1 (ix2 b (⟨k, hk⟩ : Fin 4)) :=
  (overBand_apply _ h3 b r w).trans ((unitAxes_apply _ h2 b).trans ((flattenCol_apply _ h1 b).trans (sliceCol_apply x1 k hk hs b)))

end Layout

/-! ## The body's arithmetic at an entry of the band -/

/-- One vector step at an entry is the scalar step of the entries. -/
theorem stepV_apply {s : Shape} (col v : FVec Ideal s .f32) (i : s.Idx) :
    addf v (mulf col (subf v (mulf v v))) i = step (col i) (v i) := rfl

/-- The body's result at entry (b, r, w) of the band: the four steps on the band's entry there with sample b's coefficients. -/
theorem pay_apply (x0 : FVec Ideal S32x32x1024 .f32) (x1 : FVec Ideal S32x4 .f32) (b r : Fin 32) (w : Fin 1024) :
    k2_pay1 (F := Ideal) x0 x1 (ix3 b r w)
      = step4 (x1 (ix2 b (0 : Fin 4))) (x1 (ix2 b (1 : Fin 4))) (x1 (ix2 b (2 : Fin 4))) (x1 (ix2 b (3 : Fin 4))) (x0 (ix3 b r w)) := by
  unfold k2_pay1 step4
  rw [shapeCast_self x0, shapeCast_self x1]
  refine (stepV_apply _ _ _).trans (congrArg₂ step (colBand_apply x1 3 (by omega) _ _ _ _ b r w) ?_)
  refine (stepV_apply _ _ _).trans (congrArg₂ step (colBand_apply x1 2 (by omega) _ _ _ _ b r w) ?_)
  refine (stepV_apply _ _ _).trans (congrArg₂ step (colBand_apply x1 1 (by omega) _ _ _ _ b r w) ?_)
  exact (stepV_apply _ _ _).trans (congrArg₂ step (colBand_apply x1 0 (by omega) _ _ _ _ b r w) rfl)

/-! ## The reference's four steps at an entry of the image -/

/-- A column's coefficients spread over the image read, everywhere in sample b, the column at (b, 0). -/
theorem coefOf_apply (col : FVec Ideal Cert.Spec.S32x1 .f32) (b : Fin 32) (h w : Fin 1024) :
    Cert.Spec.coefOf col (ix4 b (0 : Fin 1) h w) = col (ix2 b (0 : Fin 1)) := by
  unfold Cert.Spec.coefOf
  refine (broadcastInDim_apply _ _ _ (ix4 b (0 : Fin 1) h w) (ix4 b (0 : Fin 1) (0 : Fin 1) (0 : Fin 1)) fun a => ?_).trans ?_
  · match a with
    | ⟨0, _⟩ => rfl
    | ⟨1, _⟩ => rfl
    | ⟨2, _⟩ => rfl
    | ⟨3, _⟩ => rfl
  refine (broadcastInDim_apply _ _ _ (ix4 b (0 : Fin 1) (0 : Fin 1) (0 : Fin 1)) (ix1 b) fun a => ?_).trans ?_
  · match a with
    | ⟨0, _⟩ => rfl
  exact flattenCol_apply col _ b

/-- One step of the reference at an entry is the scalar step with the sample's coefficient. -/
theorem refineStep_apply (out : FVec Ideal Cert.Spec.Img .f32) (col : FVec Ideal Cert.Spec.S32x1 .f32) (b : Fin 32) (h w : Fin 1024) :
    Cert.Spec.refineStep out col (ix4 b (0 : Fin 1) h w) = step (col (ix2 b (0 : Fin 1))) (out (ix4 b (0 : Fin 1) h w)) :=
  (stepV_apply (Cert.Spec.coefOf col) out (ix4 b (0 : Fin 1) h w)).trans (congrArg (fun a => step a (out (ix4 b (0 : Fin 1) h w))) (coefOf_apply col b h w))

/-- The reference's four steps at entry (b, 0, h, w): the four scalar steps on the image's entry with sample b's coefficients. -/
theorem refineOf_apply (x : FVec Ideal Cert.Spec.Img .f32) (al : FVec Ideal Cert.Spec.S32x4 .f32) (b : Fin 32) (h w : Fin 1024) :
    Cert.Spec.refineOf x al (ix4 b (0 : Fin 1) h w)
      = step4 (al (ix2 b (0 : Fin 4))) (al (ix2 b (1 : Fin 4))) (al (ix2 b (2 : Fin 4))) (al (ix2 b (3 : Fin 4))) (x (ix4 b (0 : Fin 1) h w)) := by
  unfold Cert.Spec.refineOf step4
  refine (refineStep_apply _ _ b h w).trans (congrArg₂ step (sliceCol_apply al 3 (by omega) _ b) ?_)
  refine (refineStep_apply _ _ b h w).trans (congrArg₂ step (sliceCol_apply al 2 (by omega) _ b) ?_)
  refine (refineStep_apply _ _ b h w).trans (congrArg₂ step (sliceCol_apply al 1 (by omega) _ b) ?_)
  exact (refineStep_apply _ _ b h w).trans (congrArg₂ step (sliceCol_apply al 0 (by omega) _ b) rfl)

/-! ## From the bands to the array -/

/-- The array the region leaves, as one function of the image and the table it is entered with: entry (b, h, w) is the four
    steps on the image's entry there with sample b's coefficients. -/
def refined (a0 : S32x1024x1024.Idx → EReal) (a1 : S32x4.Idx → EReal) : S32x1024x1024.Idx → EReal := fun i =>
  step4 (a1 (ix2 (n0 := 32) (i 0) (0 : Fin 4))) (a1 (ix2 (n0 := 32) (i 0) (1 : Fin 4))) (a1 (ix2 (n0 := 32) (i 0) (2 : Fin 4)))
    (a1 (ix2 (n0 := 32) (i 0) (3 : Fin 4))) (a0 i)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's result at an entry j of the band is the array function at an entry i of the array, when the band's entry is the
    image's there and both lie in the same sample. -/
theorem pay_block (x0 : FVec Ideal S32x32x1024 .f32) (x1 : FVec Ideal S32x4 .f32) (a0 : S32x1024x1024.Idx → EReal)
    (j : S32x32x1024.Idx) (i : S32x1024x1024.Idx) (h0 : x0 j = a0 i) (hji : (i 0).val = (j 0).val) :
    k2_pay1 (F := Ideal) x0 x1 j = refined a0 x1 i := by
  obtain ⟨b, r, w, rfl⟩ : ∃ (b r : Fin 32) (w : Fin 1024), j = ix3 b r w := ⟨j 0, j 1, j 2, eq_ix3 j⟩
  have hb : (i 0 : Fin 32) = b := Fin.ext hji
  rw [pay_apply, h0]
  unfold refined
  rw [hb]

/-- The printed index maps over the grid: the image's and the result's bands are band t on the row axis, block 0 on the
    others; the table's block is block 0. -/
theorem idx_facts2 : ∀ t : Fin cfg2.N, win2_0.index t (0 : Fin 3) = 0 ∧ win2_0.index t (1 : Fin 3) = t.val ∧ win2_0.index t (2 : Fin 3) = 0
    ∧ win2_1.index t (0 : Fin 2) = 0 ∧ win2_1.index t (1 : Fin 2) = 0
    ∧ win2_2.index t (0 : Fin 3) = 0 ∧ win2_2.index t (1 : Fin 3) = t.val ∧ win2_2.index t (2 : Fin 3) = 0 :=
  (by decide +kernel : ∀ t : Fin grid2.N, _)

variable (V : (c : Dev nD) → (b : Ref sig .tc) → Buf (Elt Ideal) ((c : Thread nD τ).loc b))

/-- What point t writes back is band t of the array function of the image and the table as the region finds them. -/
theorem flushed2_2_eq (c : Dev nD) (t : Fin cfg2.N) :
    (dat2 (F := Ideal) V c).flushed 2 t = ((cfg2.win 2).blk t).view.read (Elt Ideal) (refined (V c main_v0) (V c main_v34)) := by
  show (cfg2.win 2).cut (grid2.coords t) ((dat2 (F := Ideal) V c).after 2 t) = _
  rw [after2_2]
  unfold out2_2
  rw [View.canon_unit_zero hz3]
  simp only [View.ld_unit_zero (S := S32x32x1024) hz3, View.ld_unit_zero (S := S32x4) hz2]
  obtain ⟨e00, e01, e02, e10, e11, e20, e21, e22⟩ := idx_facts2 t
  have e1 : (iblk2 V c 1 t : FVec Ideal S32x4 .f32) = V c main_v34 := by
    funext y
    unfold iblk2
    rw [View.read_apply]
    show V c main_v34 (((cfg2.win 1).blk t).view.emb y) = V c main_v34 y
    refine congrArg (V c main_v34) (funext fun a => Fin.ext ?_)
    match a with
    | ⟨0, _⟩ => show win2_1.index t (0 : Fin 2) * 32 + 1 * (y 0).val = (y 0).val; rw [e10]; omega
    | ⟨1, _⟩ => show win2_1.index t (1 : Fin 2) * 4 + 1 * (y 1).val = (y 1).val; rw [e11]; omega
  rw [e1]
  funext j
  show k2_pay1 (F := Ideal) (iblk2 V c 0 t) (V c main_v34) j = refined (V c main_v0) (V c main_v34) (((cfg2.win 2).blk t).view.emb j)
  refine pay_block (iblk2 V c 0 t) (V c main_v34) (V c main_v0) j (((cfg2.win 2).blk t).view.emb j) ?_ ?_
  · unfold iblk2
    rw [View.read_apply]
    show V c main_v0 (((cfg2.win 0).blk t).view.emb j) = V c main_v0 (((cfg2.win 2).blk t).view.emb j)
    refine congrArg (V c main_v0) (funext fun a => Fin.ext ?_)
    match a with
    | ⟨0, _⟩ => show win2_0.index t (0 : Fin 3) * 32 + 1 * (j 0).val = win2_2.index t (0 : Fin 3) * 32 + 1 * (j 0).val; rw [e00, e20]
    | ⟨1, _⟩ => show win2_0.index t (1 : Fin 3) * 32 + 1 * (j 1).val = win2_2.index t (1 : Fin 3) * 32 + 1 * (j 1).val; rw [e01, e21]
    | ⟨2, _⟩ => show win2_0.index t (2 : Fin 3) * 1024 + 1 * (j 2).val = win2_2.index t (2 : Fin 3) * 1024 + 1 * (j 2).val; rw [e02, e22]
  · show win2_2.index t (0 : Fin 3) * 32 + 1 * (j 0).val = (j 0).val
    rw [e20]; omega

/-- An entry of the array is in point t's band iff each coordinate is in the band's range on its axis. -/
theorem mem_blk2_2 (t : Fin cfg2.N) (i : S32x1024x1024.Idx) :
    i ∈ ((cfg2.win 2).blk t).view.set ↔ ∀ a : Fin 3, win2_2.index t a * S32x32x1024.size a ≤ (i a).val ∧ (i a).val < win2_2.index t a * S32x32x1024.size a + S32x32x1024.size a := by
  show i ∈ ((View.whole main_v35).slice (win2_2.rect t)).set ↔ _
  rw [View.set_slice_whole, Rect.mem_set_unit]
  exact Iff.rfl

/-- Row h of a sample is in the band of point h / 32, and every point writes its band back. -/
theorem covered2_2 (i : S32x1024x1024.Idx) : ∃ t : Fin cfg2.N, (cfg2.win 2).flush t = true ∧ i ∈ ((cfg2.win 2).blk t).view.set := by
  have hN : cfg2.N = 32 := N_2
  have h0 : (i 0).val < 32 := (i 0).isLt
  have h1 : (i 1).val < 1024 := (i 1).isLt
  have h2 : (i 2).val < 1024 := (i 2).isLt
  have ht : (i 1).val / 32 < cfg2.N := by omega
  obtain ⟨-, -, -, -, -, e20, e21, e22⟩ := idx_facts2 ⟨(i 1).val / 32, ht⟩
  have e21' : win2_2.index ⟨(i 1).val / 32, ht⟩ (1 : Fin 3) = (i 1).val / 32 := e21
  refine ⟨⟨(i 1).val / 32, ht⟩, flush2_2 _, ?_⟩
  rw [mem_blk2_2]
  intro a
  match a with
  | ⟨0, _⟩ => show win2_2.index ⟨(i 1).val / 32, ht⟩ (0 : Fin 3) * 32 ≤ (i 0).val ∧ (i 0).val < win2_2.index ⟨(i 1).val / 32, ht⟩ (0 : Fin 3) * 32 + 32; rw [e20]; omega
  | ⟨1, _⟩ => show win2_2.index ⟨(i 1).val / 32, ht⟩ (1 : Fin 3) * 32 ≤ (i 1).val ∧ (i 1).val < win2_2.index ⟨(i 1).val / 32, ht⟩ (1 : Fin 3) * 32 + 32; rw [e21']; omega
  | ⟨2, _⟩ => show win2_2.index ⟨(i 1).val / 32, ht⟩ (2 : Fin 3) * 1024 ≤ (i 2).val ∧ (i 2).val < win2_2.index ⟨(i 1).val / 32, ht⟩ (2 : Fin 3) * 1024 + 1024; rw [e22]; omega

/-- So the array ends holding the array function of the image and the table the region is entered with. -/
theorem final2_2_refined (c : Dev nD) : (dat2 (F := Ideal) V c).arrAt 2 cfg2.N = refined (V c main_v0) (V c main_v34) :=
  (dat2 (F := Ideal) V c).arrAt_eq_of_cover 2 (refined (V c main_v0) (V c main_v34)) (fun t _ => flushed2_2_eq V c t) covered2_2

/-- The refine region's result against the reference: when the region is entered with the image (its unit axis dropped) and the
    table of coefficients, the array it leaves is, entry by entry, the reference's four steps. -/
theorem final2_2 (c : Dev nD) (x : FVec Ideal Cert.Spec.Img .f32) (al : FVec Ideal Cert.Spec.S32x4 .f32)
    (hx : ∀ (b : Fin 32) (h : Fin 1024) (w : Fin 1024), V c main_v0 (ix3 b h w) = x (ix4 b (0 : Fin 1) h w)) (hal : V c main_v34 = al)
    (b : Fin 32) (h w : Fin 1024) :
    (dat2 (F := Ideal) V c).arrAt 2 cfg2.N (ix3 b h w) = Cert.Spec.refineOf x al (ix4 b (0 : Fin 1) h w) := by
  rw [final2_2_refined, refineOf_apply]
  show step4 (V c main_v34 (ix2 b (0 : Fin 4))) (V c main_v34 (ix2 b (1 : Fin 4))) (V c main_v34 (ix2 b (2 : Fin 4)))
    (V c main_v34 (ix2 b (3 : Fin 4))) (V c main_v0 (ix3 b h w)) = _
  rw [hx, hal]

end Cert.KernelIdeal.Hand

end
-- ==== Proof.KernelIdeal.GlueOps.lean ====
import proofs.«122725_j16939351016189_2_alg».proof.Proof.Gen.KernelIdeal.Launch
import proofs.«122725_j16939351016189_2_alg».proof.Proof.Gen.KernelIdeal.Regions
import proofs.«122725_j16939351016189_2_alg».proof.Proof.Spec
import Idealize.ShloMosaic.Lib.StableHlo.Run
import Idealize.ShloMosaic.Lib.Pipeline.Value
import Idealize.ShloMosaic.Lib.ValueIdx

set_option maxRecDepth 16384

/-!
# The host operations between the regions, from any buffer contents

Between the histogram region and the refine region the program runs the small network on the host: the counts over
their row sums joined with the minima, the maxima and the given column, then five affine layers each followed by
x ↦ if x ≥ 0 then x else 0.01 · x. Before the first region and after the last it reshapes the image. Each stretch of
host operations is read here at the one buffer a later item reads, from arbitrary contents W of the buffers before it;
the stretches in order are the reference's network of the counts, minima, maxima and arguments W holds.
-/

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo (after)

section
open Idealize.ShloMosaic.StableHlo

/-- A three-operand operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

/-- What one buffer holds after a stretch of host operations: each operation's result at its own result buffer is its
    function of its operands' contents, at any other buffer what was there. -/
macro "host_results" : tactic =>
  `(tactic| (simp (disch := decide) only [after_cons, after_nil, nary3_result',
      nullary_result', unary_result', binary_result', ternary_result', reshape_result',
      nullary_result_ne', unary_result_ne', binary_result_ne', ternary_result_ne', reshape_result_ne', nary_result_ne']))
end

variable {F : FTy → Type} [FloatOps F]
variable (W : Valuation τ sig (Elt F))

/-! ## The two reshapes -/

/-- The first reshape drops the image's unit axis: entry (b, h, w) is the argument's entry (b, 0, h, w). -/
theorem cast0 (b : Fin 32) (h w : Fin 1024) :
    after hostOps0 W (Proc.devRef .tc main_v0) (ix3 b h w) = W (Proc.devRef .tc main_arg0) (ix4 b (0 : Fin 1) h w) := by
  host_results
  show shapeCast S32x1024x1024 (W (Proc.devRef .tc main_arg0)) shapeCasts_S32x1x1024x1024_S32x1024x1024 (ix3 b h w) = _
  exact shapeCast_apply _ _ (ix3 b h w) (ix4 b (0 : Fin 1) h w) (by
    rw [Shape.rowMajor_val_four, Shape.rowMajor_val_three]
    show ((b.val * 1 + 0) * 1024 + h.val) * 1024 + w.val = (b.val * 1024 + h.val) * 1024 + w.val
    omega)

/-- The last reshape puts the unit axis back: entry (b, 0, h, w) is the refined array's entry (b, h, w). -/
theorem cast3 (b : Fin 32) (h w : Fin 1024) :
    after hostOps3 W (Proc.devRef .tc main_v36) (ix4 b (0 : Fin 1) h w) = W (Proc.devRef .tc main_v35) (ix3 b h w) := by
  host_results
  show shapeCast S32x1x1024x1024 (W (Proc.devRef .tc main_v35)) shapeCasts_S32x1024x1024_S32x1x1024x1024 (ix4 b (0 : Fin 1) h w) = _
  exact shapeCast_apply _ _ (ix4 b (0 : Fin 1) h w) (ix3 b h w) (by
    rw [Shape.rowMajor_val_four, Shape.rowMajor_val_three]
    show (b.val * 1024 + h.val) * 1024 + w.val = ((b.val * 1 + 0) * 1024 + h.val) * 1024 + w.val
    omega)

/-! ## x ↦ if x ≥ 0 then x else c · x with the factor read from a buffer -/

/-- On 32 rows of 64, the factor c a scalar buffer's contents. -/
def lreluWith64 (c : FVec F Cert.Spec.S_ .f32) (x : FVec F Cert.Spec.S32x64 .f32) : FVec F Cert.Spec.S32x64 .f32 :=
  select (cmpf .oge x (broadcastInDim Cert.Spec.S32x64 ![] (by decide) (constant Cert.Spec.S_ .f32 0x00000000#32 : FVec F Cert.Spec.S_ .f32))) x
    (mulf (broadcastInDim Cert.Spec.S32x64 ![] (by decide) c) x)

/-- With the factor 0.01 it is the reference's. -/
theorem lreluWith64_const (x : FVec F Cert.Spec.S32x64 .f32) :
    lreluWith64 (constant Cert.Spec.S_ .f32 0x3C23D70A#32 : FVec F Cert.Spec.S_ .f32) x = Cert.Spec.lrelu64 x := rfl

/-- The same on 32 rows of 4. -/
def lreluWith4 (c : FVec F Cert.Spec.S_ .f32) (x : FVec F Cert.Spec.S32x4 .f32) : FVec F Cert.Spec.S32x4 .f32 :=
  select (cmpf .oge x (broadcastInDim Cert.Spec.S32x4 ![] (by decide) (constant Cert.Spec.S_ .f32 0x00000000#32 : FVec F Cert.Spec.S_ .f32))) x
    (mulf (broadcastInDim Cert.Spec.S32x4 ![] (by decide) c) x)

theorem lreluWith4_const (x : FVec F Cert.Spec.S32x4 .f32) :
    lreluWith4 (constant Cert.Spec.S_ .f32 0x3C23D70A#32 : FVec F Cert.Spec.S_ .f32) x = Cert.Spec.lrelu4 x := rfl

/-! ## The eleven stretches, each at the buffers the later ones read -/

/-- An affine layer's bias row spread over the 32 rows of 64. -/
abbrev bias64 (b : FVec F Cert.Spec.S64 .f32) : FVec F Cert.Spec.S32x64 .f32 :=
  broadcastInDim Cert.Spec.S32x64 ![0, 1] (by decide) (broadcastInDim Cert.Spec.S1x64 ![1] (by decide) b)

/-- The network's input row. -/
theorem net0_v8 : after hostOps2 W (Proc.devRef .tc main_v8)
    = Cert.Spec.vecOf (W (Proc.devRef .tc main_v2)) (W (Proc.devRef .tc main_v1_0)) (W (Proc.devRef .tc main_v1_1)) (W (Proc.devRef .tc main_arg1)) := by
  host_results
  rfl

/-- The first layer before its activation. -/
theorem net0_v12 : after hostOps2 W (Proc.devRef .tc main_v12)
    = addf (Host.dotGeneral Cert.Spec.dot35 none (Cert.Spec.vecOf (W (Proc.devRef .tc main_v2)) (W (Proc.devRef .tc main_v1_0)) (W (Proc.devRef .tc main_v1_1)) (W (Proc.devRef .tc main_arg1))) (W (Proc.devRef .tc main_arg2)))
        (bias64 (W (Proc.devRef .tc main_arg3))) := by
  host_results
  rfl

theorem net0_cst : after hostOps2 W (Proc.devRef .tc main_cst_0) = (constant Cert.Spec.S_ .f32 0x3C23D70A#32 : FVec F Cert.Spec.S_ .f32) := by
  host_results

theorem net1_v13 : after hostOps2_1 W (Proc.devRef .tc main_v13) = lreluWith64 (W (Proc.devRef .tc main_cst_0)) (W (Proc.devRef .tc main_v12)) := by
  host_results
  rfl

theorem net2_v17 : after hostOps2_2 W (Proc.devRef .tc main_v17)
    = addf (Host.dotGeneral Cert.Spec.dot64 none (W (Proc.devRef .tc main_v13)) (W (Proc.devRef .tc main_arg4))) (bias64 (W (Proc.devRef .tc main_arg5))) := by
  host_results
  rfl

theorem net2_cst : after hostOps2_2 W (Proc.devRef .tc main_cst_1) = (constant Cert.Spec.S_ .f32 0x3C23D70A#32 : FVec F Cert.Spec.S_ .f32) := by
  host_results

theorem net3_v18 : after hostOps2_3 W (Proc.devRef .tc main_v18) = lreluWith64 (W (Proc.devRef .tc main_cst_1)) (W (Proc.devRef .tc main_v17)) := by
  host_results
  rfl

theorem net4_v23 : after hostOps2_4 W (Proc.devRef .tc main_v23)
    = addf (Host.dotGeneral Cert.Spec.dot99 none
          (concatenate Cert.Spec.S32x99 1 [⟨Cert.Spec.S32x64, W (Proc.devRef .tc main_v18)⟩, ⟨Cert.Spec.S32x35, W (Proc.devRef .tc main_v8)⟩] Cert.Spec.cat99)
          (W (Proc.devRef .tc main_arg6)))
        (bias64 (W (Proc.devRef .tc main_arg7))) := by
  host_results
  rfl

theorem net4_cst : after hostOps2_4 W (Proc.devRef .tc main_cst_2) = (constant Cert.Spec.S_ .f32 0x3C23D70A#32 : FVec F Cert.Spec.S_ .f32) := by
  host_results

theorem net5_v24 : after hostOps2_5 W (Proc.devRef .tc main_v24) = lreluWith64 (W (Proc.devRef .tc main_cst_2)) (W (Proc.devRef .tc main_v23)) := by
  host_results
  rfl

theorem net6_v28 : after hostOps2_6 W (Proc.devRef .tc main_v28)
    = addf (Host.dotGeneral Cert.Spec.dot64 none (W (Proc.devRef .tc main_v24)) (W (Proc.devRef .tc main_arg8))) (bias64 (W (Proc.devRef .tc main_arg9))) := by
  host_results
  rfl

theorem net6_cst : after hostOps2_6 W (Proc.devRef .tc main_cst_3) = (constant Cert.Spec.S_ .f32 0x3C23D70A#32 : FVec F Cert.Spec.S_ .f32) := by
  host_results

theorem net7_v29 : after hostOps2_7 W (Proc.devRef .tc main_v29) = lreluWith64 (W (Proc.devRef .tc main_cst_3)) (W (Proc.devRef .tc main_v28)) := by
  host_results
  rfl

theorem net8_v33 : after hostOps2_8 W (Proc.devRef .tc main_v33)
    = addf (Host.dotGeneral Cert.Spec.dot4 none (W (Proc.devRef .tc main_v29)) (W (Proc.devRef .tc main_arg10)))
        (broadcastInDim Cert.Spec.S32x4 ![0, 1] (by decide) (broadcastInDim Cert.Spec.S1x4 ![1] (by decide) (W (Proc.devRef .tc main_arg11)))) := by
  host_results
  rfl

theorem net8_cst : after hostOps2_8 W (Proc.devRef .tc main_cst_4) = (constant Cert.Spec.S_ .f32 0x3C23D70A#32 : FVec F Cert.Spec.S_ .f32) := by
  host_results

theorem net9_v34 : after hostOps2_9 W (Proc.devRef .tc main_v34) = lreluWith4 (W (Proc.devRef .tc main_cst_4)) (W (Proc.devRef .tc main_v33)) := by
  host_results
  rfl

/-! ## A buffer no operation of a stretch writes keeps its contents -/

theorem keep0 (r : Ref sig .tc) (h : r ∉ hostOps2_W) : after hostOps2 W (Proc.devRef .tc r) = W (Proc.devRef .tc r) :=
  StableHlo.after_of_writes_sub hostOps2 W hostOps2_writes h
theorem keep1 (r : Ref sig .tc) (h : r ∉ hostOps2_1_W) : after hostOps2_1 W (Proc.devRef .tc r) = W (Proc.devRef .tc r) :=
  StableHlo.after_of_writes_sub hostOps2_1 W hostOps2_1_writes h
theorem keep2 (r : Ref sig .tc) (h : r ∉ hostOps2_2_W) : after hostOps2_2 W (Proc.devRef .tc r) = W (Proc.devRef .tc r) :=
  StableHlo.after_of_writes_sub hostOps2_2 W hostOps2_2_writes h
theorem keep3 (r : Ref sig .tc) (h : r ∉ hostOps2_3_W) : after hostOps2_3 W (Proc.devRef .tc r) = W (Proc.devRef .tc r) :=
  StableHlo.after_of_writes_sub hostOps2_3 W hostOps2_3_writes h
theorem keep4 (r : Ref sig .tc) (h : r ∉ hostOps2_4_W) : after hostOps2_4 W (Proc.devRef .tc r) = W (Proc.devRef .tc r) :=
  StableHlo.after_of_writes_sub hostOps2_4 W hostOps2_4_writes h
theorem keep5 (r : Ref sig .tc) (h : r ∉ hostOps2_5_W) : after hostOps2_5 W (Proc.devRef .tc r) = W (Proc.devRef .tc r) :=
  StableHlo.after_of_writes_sub hostOps2_5 W hostOps2_5_writes h
theorem keep6 (r : Ref sig .tc) (h : r ∉ hostOps2_6_W) : after hostOps2_6 W (Proc.devRef .tc r) = W (Proc.devRef .tc r) :=
  StableHlo.after_of_writes_sub hostOps2_6 W hostOps2_6_writes h
theorem keep7 (r : Ref sig .tc) (h : r ∉ hostOps2_7_W) : after hostOps2_7 W (Proc.devRef .tc r) = W (Proc.devRef .tc r) :=
  StableHlo.after_of_writes_sub hostOps2_7 W hostOps2_7_writes h
theorem keep10 (r : Ref sig .tc) (h : r ∉ hostOps2_10_W) : after hostOps2_10 W (Proc.devRef .tc r) = W (Proc.devRef .tc r) :=
  StableHlo.after_of_writes_sub hostOps2_10 W hostOps2_10_writes h

/-- Through the first two stretches. -/
theorem keep01 (r : Ref sig .tc) (h0 : r ∉ hostOps2_W) (h1 : r ∉ hostOps2_1_W) :
    after hostOps2_1 (after hostOps2 W) (Proc.devRef .tc r) = W (Proc.devRef .tc r) :=
  (keep1 _ r h1).trans (keep0 W r h0)
/-- Through the first four. -/
theorem keep03 (r : Ref sig .tc) (h0 : r ∉ hostOps2_W) (h1 : r ∉ hostOps2_1_W) (h2 : r ∉ hostOps2_2_W) (h3 : r ∉ hostOps2_3_W) :
    after hostOps2_3 (after hostOps2_2 (after hostOps2_1 (after hostOps2 W))) (Proc.devRef .tc r) = W (Proc.devRef .tc r) :=
  (keep3 _ r h3).trans ((keep2 _ r h2).trans (keep01 W r h0 h1))
/-- Through the first six. -/
theorem keep05 (r : Ref sig .tc) (h0 : r ∉ hostOps2_W) (h1 : r ∉ hostOps2_1_W) (h2 : r ∉ hostOps2_2_W) (h3 : r ∉ hostOps2_3_W)
    (h4 : r ∉ hostOps2_4_W) (h5 : r ∉ hostOps2_5_W) :
    after hostOps2_5 (after hostOps2_4 (after hostOps2_3 (after hostOps2_2 (after hostOps2_1 (after hostOps2 W))))) (Proc.devRef .tc r)
      = W (Proc.devRef .tc r) :=
  (keep5 _ r h5).trans ((keep4 _ r h4).trans (keep03 W r h0 h1 h2 h3))
/-- Through the first eight. -/
theorem keep07 (r : Ref sig .tc) (h0 : r ∉ hostOps2_W) (h1 : r ∉ hostOps2_1_W) (h2 : r ∉ hostOps2_2_W) (h3 : r ∉ hostOps2_3_W)
    (h4 : r ∉ hostOps2_4_W) (h5 : r ∉ hostOps2_5_W) (h6 : r ∉ hostOps2_6_W) (h7 : r ∉ hostOps2_7_W) :
    after hostOps2_7 (after hostOps2_6 (after hostOps2_5 (after hostOps2_4 (after hostOps2_3 (after hostOps2_2 (after hostOps2_1 (after hostOps2 W)))))))
        (Proc.devRef .tc r)
      = W (Proc.devRef .tc r) :=
  (keep7 _ r h7).trans ((keep6 _ r h6).trans (keep05 W r h0 h1 h2 h3 h4 h5))

/-! ## The eleven stretches in order -/

/-- After the eleven stretches the table of step sizes is the reference's network of the counts, minima, maxima and arguments
    the buffers held before them. -/
theorem alphas_of : after hostOps2_10 (after hostOps2_9 (after hostOps2_8 (after hostOps2_7 (after hostOps2_6 (after hostOps2_5
      (after hostOps2_4 (after hostOps2_3 (after hostOps2_2 (after hostOps2_1 (after hostOps2 W)))))))))) (Proc.devRef .tc main_v34)
    = Cert.Spec.alphasOf
        (Cert.Spec.vecOf (W (Proc.devRef .tc main_v2)) (W (Proc.devRef .tc main_v1_0)) (W (Proc.devRef .tc main_v1_1)) (W (Proc.devRef .tc main_arg1)))
        (W (Proc.devRef .tc main_arg2)) (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9))
        (W (Proc.devRef .tc main_arg10)) (W (Proc.devRef .tc main_arg11)) := by
  rw [keep10 _ main_v34 (by decide)]
  rw [net9_v34, net8_cst, lreluWith4_const, net8_v33]
  rw [keep07 W main_arg10 (by decide) (by decide) (by decide) (by decide) (by decide) (by decide) (by decide) (by decide),
    keep07 W main_arg11 (by decide) (by decide) (by decide) (by decide) (by decide) (by decide) (by decide) (by decide)]
  rw [net7_v29, net6_cst, lreluWith64_const, net6_v28]
  rw [keep05 W main_arg8 (by decide) (by decide) (by decide) (by decide) (by decide) (by decide),
    keep05 W main_arg9 (by decide) (by decide) (by decide) (by decide) (by decide) (by decide)]
  rw [net5_v24, net4_cst, lreluWith64_const, net4_v23]
  rw [keep03 W main_arg6 (by decide) (by decide) (by decide) (by decide),
    keep03 W main_arg7 (by decide) (by decide) (by decide) (by decide)]
  rw [keep3 _ main_v8 (by decide), keep2 _ main_v8 (by decide), keep1 _ main_v8 (by decide), net0_v8]
  rw [net3_v18, net2_cst, lreluWith64_const, net2_v17]
  rw [keep01 W main_arg4 (by decide) (by decide), keep01 W main_arg5 (by decide) (by decide)]
  rw [net1_v13, net0_cst, lreluWith64_const, net0_v12]
  rfl

end Cert.KernelIdeal.Hand

end
-- ==== Proof.KernelIdeal.Glue.lean ====
import proofs.«122725_j16939351016189_2_alg».proof.Proof.KernelIdeal.Run
import proofs.«122725_j16939351016189_2_alg».proof.Proof.KernelIdeal.GlueOps
import proofs.«122725_j16939351016189_2_alg».proof.Proof.Spec

set_option maxRecDepth 16384

/-!
# The host operations between the regions, at the run's boundary contents

The three facts about the host's stretches, read at the buffer contents the run has at the boundaries between its items:
the first reshape hands the regions the image, the eleven stretches between the histogram region and the refine region
compute the reference's table of step sizes from what the first two regions left, and the last reshape hands back the
refined array.
-/

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (ρ : Dev nD → PrngReg)

/-- What the refine region finds as its table of step sizes is the reference's network of what the histogram region left. -/
theorem alphas_eq (c : Dev nD) : B14 m ρ c (Proc.devRef .tc main_v34)
    = Cert.Spec.alphasOf
        (Cert.Spec.vecOf (B3 m ρ c (Proc.devRef .tc main_v2)) (B3 m ρ c (Proc.devRef .tc main_v1_0)) (B3 m ρ c (Proc.devRef .tc main_v1_1))
          (B3 m ρ c (Proc.devRef .tc main_arg1)))
        (B3 m ρ c (Proc.devRef .tc main_arg2)) (B3 m ρ c (Proc.devRef .tc main_arg3)) (B3 m ρ c (Proc.devRef .tc main_arg4))
        (B3 m ρ c (Proc.devRef .tc main_arg5)) (B3 m ρ c (Proc.devRef .tc main_arg6)) (B3 m ρ c (Proc.devRef .tc main_arg7))
        (B3 m ρ c (Proc.devRef .tc main_arg8)) (B3 m ρ c (Proc.devRef .tc main_arg9)) (B3 m ρ c (Proc.devRef .tc main_arg10))
        (B3 m ρ c (Proc.devRef .tc main_arg11)) :=
  alphas_of (B3 m ρ c)

/-- What the regions find as the image is the argument with its unit axis dropped. -/
theorem v0_eq (c : Dev nD) (b : Fin 32) (h w : Fin 1024) :
    B1 m ρ c (Proc.devRef .tc main_v0) (ix3 b h w) = m ((c : Thread nD τ).loc main_arg0) (ix4 b (0 : Fin 1) h w) :=
  cast0 (B0 m ρ c) b h w

/-- The result is the refined array with the unit axis put back. -/
theorem v36_eq (c : Dev nD) (b : Fin 32) (h w : Fin 1024) :
    B16 m ρ c (Proc.devRef .tc main_v36) (ix4 b (0 : Fin 1) h w) = B15 m ρ c (Proc.devRef .tc main_v35) (ix3 b h w) :=
  cast3 (B15 m ρ c) b h w

end Cert.KernelIdeal.Hand

end
-- ==== Proof.KernelIdeal.Legs.lean ====
import proofs.«122725_j16939351016189_2_alg».proof.Proof.KernelIdeal.Result
import proofs.«122725_j16939351016189_2_alg».proof.Proof.KernelIdeal.V0
import proofs.«122725_j16939351016189_2_alg».proof.Proof.KernelIdeal.V1Final
import proofs.«122725_j16939351016189_2_alg».proof.Proof.KernelIdeal.V2
import proofs.«122725_j16939351016189_2_alg».proof.Proof.KernelIdeal.Glue

noncomputable section

namespace Cert.KernelIdeal.Hand

open Cert.KernelIdeal Cert.KernelIdeal.Gen
open Idealize.ShloMosaic Idealize.ShloMosaic.TcCoe Idealize.ShloMosaic.ValueIdx Idealize.SL.Sem

/-- The four facts about the parts, gathered: minima and maxima, counts, refine, and the host operations between the regions. -/
theorem legs (m : (ℓ : Loc nD τ sig) → Buf (Elt Ideal) ℓ) (ρ : Dev nD → PrngReg) : Legs m ρ where
  final0_1 := final0_1
  final0_2 := final0_2
  final1_3 := final1_3
  final2_2 := final2_2
  alphas_eq := alphas_eq m ρ
  v0_eq := v0_eq m ρ
  v36_eq := v36_eq m ρ

end Cert.KernelIdeal.Hand

end
-- ==== Proof.RefRun.lean ====
import proofs.«122725_j16939351016189_2_alg».proof.Proof.Gen.ReferenceIdeal
import Idealize.ShloMosaic.Lib.StableHlo.Run

/-!
The reference program's @main as the list of its host operations, each call replaced by the called function's
operations over that call's buffers, and its run: every weakly fair execution terminates with each buffer at the
fold of the operations over the launch contents.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 153 operations in order: its own, and at each call the called function's over the call's
    buffers (the select of `_where`; the two scalar conversions, two broadcasts, maximum and minimum of `clip`;
    the zero, its broadcast, the comparison, the slope's conversion and broadcast, the product and the select of
    each `leaky_relu`). -/
abbrev ops : List (HloOp τ sig (Elt F)) :=
  [
    reshape main_arg0 main_v0 rfl shapeCasts_S32x1x1024x1024_S32x1048576,
    nullary main_cst (constant S_ .f32 0x7F800000#32),
    binary main_v0 main_cst main_v1 ((fun x v => Host.reduce FloatOps.minimumf x v reducesTo_S32x1048576_S32_d1 h_S_) : (⟨S32x1048576, .f32⟩ : BufTy).Contents (Elt F) → (⟨S_, .f32⟩ : BufTy).Contents (Elt F) → (⟨S32, .f32⟩ : BufTy).Contents (Elt F)),
    unary main_v1 main_v2 (broadcastInDim S32x1 ![0] bcast_S32_S32x1_0 : (⟨S32, .f32⟩ : BufTy).Contents (Elt F) → (⟨S32x1, .f32⟩ : BufTy).Contents (Elt F)),
    nullary main_cst_0 (constant S_ .f32 0xFF800000#32),
    binary main_v0 main_cst_0 main_v3 ((fun x v => Host.reduce FloatOps.maximumf x v reducesTo_S32x1048576_S32_d1 h_S_) : (⟨S32x1048576, .f32⟩ : BufTy).Contents (Elt F) → (⟨S_, .f32⟩ : BufTy).Contents (Elt F) → (⟨S32, .f32⟩ : BufTy).Contents (Elt F)),
    unary main_v3 main_v4 (broadcastInDim S32x1 ![0] bcast_S32_S32x1_0 : (⟨S32, .f32⟩ : BufTy).Contents (Elt F) → (⟨S32x1, .f32⟩ : BufTy).Contents (Elt F)),
    binary main_v4 main_v2 main_v5 (subf : (⟨S32x1, .f32⟩ : BufTy).Contents (Elt F) → (⟨S32x1, .f32⟩ : BufTy).Contents (Elt F) → (⟨S32x1, .f32⟩ : BufTy).Contents (Elt F)),
    nullary main_cst_1 (constant S_ .f32 0x00000000#32),
    unary main_cst_1 main_v6 (broadcastInDim S32x1 ![] bcast_S_S32x1 : (⟨S_, .f32⟩ : BufTy).Contents (Elt F) → (⟨S32x1, .f32⟩ : BufTy).Contents (Elt F)),
    binary main_v5 main_v6 main_v7 (cmpf .ogt : (⟨S32x1, .f32⟩ : BufTy).Contents (Elt F) → (⟨S32x1, .f32⟩ : BufTy).Contents (Elt F) → (⟨S32x1, .i1⟩ : BufTy).Contents (Elt F)),
    nullary main_cst_2 (constant S_ .f32 0x3F800000#32),
    unary main_cst_2 main_v8 (broadcastInDim S32x1 ![] bcast_S_S32x1 : (⟨S_, .f32⟩ : BufTy).Contents (Elt F) → (⟨S32x1, .f32⟩ : BufTy).Contents (Elt F)),
    TRef.ternary (.of main_v7 : TRef sig ⟨S32x1, .i1⟩) (.of main_v5 : TRef sig ⟨S32x1, .f32⟩) (.of main_v8 : TRef sig ⟨S32x1, .f32⟩) main_call0.v0 select,
    unary main_v2 main_v10 (broadcastInDim S32x1048576 ![0, 1] bcast_S32x1_S32x1048576_0_1 : (⟨S32x1, .f32⟩ : BufTy).Contents (Elt F) → (⟨S32x1048576, .f32⟩ : BufTy).Contents (Elt F)),
    binary main_v0 main_v10 main_v11 (subf : (⟨S32x1048576, .f32⟩ : BufTy).Contents (Elt F) → (⟨S32x1048576, .f32⟩ : BufTy).Contents (Elt F) → (⟨S32x1048576, .f32⟩ : BufTy).Contents (Elt F)),
    unary main_v9 main_v12 (broadcastInDim S32x1048576 ![0, 1] bcast_S32x1_S32x1048576_0_1 : (⟨S32x1, .f32⟩ : BufTy).Contents (Elt F) → (⟨S32x1048576, .f32⟩ : BufTy).Contents (Elt F)),
    binary main_v11 main_v12 main_v13 (Host.divf : (⟨S32x1048576, .f32⟩ : BufTy).Contents (Elt F) → (⟨S32x1048576, .f32⟩ : BufTy).Contents (Elt F) → (⟨S32x1048576, .f32⟩ : BufTy).Contents (Elt F)),
    nullary main_cst_3 (constant S_ .f32 0x42000000#32),
    unary main_cst_3 main_v14 (broadcastInDim S32x1048576 ![] bcast_S_S32x1048576 : (⟨S_, .f32⟩ : BufTy).Contents (Elt F) → (⟨S32x1048576, .f32⟩ : BufTy).Contents (Elt F)),
    binary main_v13 main_v14 main_v15 (mulf : (⟨S32x1048576, .f32⟩ : BufTy).Contents (Elt F) → (⟨S32x1048576, .f32⟩ : BufTy).Contents (Elt F) → (⟨S32x1048576, .f32⟩ : BufTy).Contents (Elt F)),
    unary main_v15 main_v16 (Host.floor : (⟨S32x1048576, .f32⟩ : BufTy).Contents (Elt F) → (⟨S32x1048576, .f32⟩ : BufTy).Contents (Elt F)),
    unary main_v16 main_v17 (fptosi 32 : (⟨S32x1048576, .f32⟩ : BufTy).Contents (Elt F) → (⟨S32x1048576, .i32⟩ : BufTy).Contents (Elt F)),
    nullary main_c (constantI S_ 32 0#32),
    nullary main_c_4 (constantI S_ 32 31#32),
    TRef.unary (.of main_c : TRef sig ⟨S_, .i32⟩) main_call1.v0 id,
    TRef.unary main_call1.v0 main_call1.v1 (broadcastInDim S32x1048576 ![] bcast_S_S32x1048576),
    TRef.binary main_call1.v1 (.of main_v17 : TRef sig ⟨S32x1048576, .i32⟩) main_call1.v2 maxsi,
    TRef.unary (.of main_c_4 : TRef sig ⟨S_, .i32⟩) main_call1.v3 id,
    TRef.unary main_call1.v3 main_call1.v4 (broadcastInDim S32x1048576 ![] bcast_S_S32x1048576),
    TRef.binary main_call1.v4 main_call1.v2 main_call1.v5 minsi,
    nullary main_v19 (iotaInDim S32 32 0),
    unary main_v19 main_v20 (broadcastInDim S32x1 ![0] bcast_S32_S32x1_0 : (⟨S32, .i32⟩ : BufTy).Contents (Elt F) → (⟨S32x1, .i32⟩ : BufTy).Contents (Elt F)),
    nullary main_c_5 (constantI S_ 32 32#32),
    unary main_c_5 main_v21 (broadcastInDim S32x1 ![] bcast_S_S32x1 : (⟨S_, .i32⟩ : BufTy).Contents (Elt F) → (⟨S32x1, .i32⟩ : BufTy).Contents (Elt F)),
    binary main_v20 main_v21 main_v22 (muli : (⟨S32x1, .i32⟩ : BufTy).Contents (Elt F) → (⟨S32x1, .i32⟩ : BufTy).Contents (Elt F) → (⟨S32x1, .i32⟩ : BufTy).Contents (Elt F)),
    unary main_v22 main_v23 (broadcastInDim S32x1048576 ![0, 1] bcast_S32x1_S32x1048576_0_1 : (⟨S32x1, .i32⟩ : BufTy).Contents (Elt F) → (⟨S32x1048576, .i32⟩ : BufTy).Contents (Elt F)),
    binary main_v18 main_v23 main_v24 (addi : (⟨S32x1048576, .i32⟩ : BufTy).Contents (Elt F) → (⟨S32x1048576, .i32⟩ : BufTy).Contents (Elt F) → (⟨S32x1048576, .i32⟩ : BufTy).Contents (Elt F)),
    reshape main_v24 main_v25 rfl shapeCasts_S32x1048576_S33554432,
    nullary main_cst_6 (constant S_ .f32 0x00000000#32),
    unary main_cst_6 main_v26 (broadcastInDim S1024 ![] bcast_S_S1024 : (⟨S_, .f32⟩ : BufTy).Contents (Elt F) → (⟨S1024, .f32⟩ : BufTy).Contents (Elt F)),
    nullary main_c_7 (constantI S_ 32 0#32),
    unary main_c_7 main_v27 (broadcastInDim S33554432 ![] bcast_S_S33554432 : (⟨S_, .i32⟩ : BufTy).Contents (Elt F) → (⟨S33554432, .i32⟩ : BufTy).Contents (Elt F)),
    binary main_v25 main_v27 main_v28 (cmpi .slt : (⟨S33554432, .i32⟩ : BufTy).Contents (Elt F) → (⟨S33554432, .i32⟩ : BufTy).Contents (Elt F) → (⟨S33554432, .i1⟩ : BufTy).Contents (Elt F)),
    nullary main_c_8 (constantI S_ 32 1024#32),
    unary main_c_8 main_v29 (broadcastInDim S33554432 ![] bcast_S_S33554432 : (⟨S_, .i32⟩ : BufTy).Contents (Elt F) → (⟨S33554432, .i32⟩ : BufTy).Contents (Elt F)),
    binary main_v25 main_v29 main_v30 (addi : (⟨S33554432, .i32⟩ : BufTy).Contents (Elt F) → (⟨S33554432, .i32⟩ : BufTy).Contents (Elt F) → (⟨S33554432, .i32⟩ : BufTy).Contents (Elt F)),
    ternary main_v28 main_v30 main_v25 main_v31 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v31 main_v32 (broadcastInDim S33554432x1 ![0] bcast_S33554432_S33554432x1_0 : (⟨S33554432, .i32⟩ : BufTy).Contents (Elt F) → (⟨S33554432x1, .i32⟩ : BufTy).Contents (Elt F)),
    nullary main_cst_9 (constant S_ .f32 0x3F800000#32),
    unary main_cst_9 main_v33 (broadcastInDim S33554432 ![] bcast_S_S33554432 : (⟨S_, .f32⟩ : BufTy).Contents (Elt F) → (⟨S33554432, .f32⟩ : BufTy).Contents (Elt F)),
    ternary main_v26 main_v32 main_v33 main_v34 ((fun x i u => Host.scatterAdd scatter_S1024_S33554432x1_S33554432_n_0_0_1 x i u) : (⟨S1024, .f32⟩ : BufTy).Contents (Elt F) → (⟨S33554432x1, .i32⟩ : BufTy).Contents (Elt F) → (⟨S33554432, .f32⟩ : BufTy).Contents (Elt F) → (⟨S1024, .f32⟩ : BufTy).Contents (Elt F)),
    reshape main_v34 main_v35 rfl shapeCasts_S1024_S32x32,
    nullary main_cst_10 (constant S_ .f32 0x00000000#32),
    binary main_v35 main_cst_10 main_v36 ((fun x v => Host.reduceAdd x v reducesTo_S32x32_S32_d1 h_S_) : (⟨S32x32, .f32⟩ : BufTy).Contents (Elt F) → (⟨S_, .f32⟩ : BufTy).Contents (Elt F) → (⟨S32, .f32⟩ : BufTy).Contents (Elt F)),
    unary main_v36 main_v37 (broadcastInDim S32x1 ![0] bcast_S32_S32x1_0 : (⟨S32, .f32⟩ : BufTy).Contents (Elt F) → (⟨S32x1, .f32⟩ : BufTy).Contents (Elt F)),
    unary main_v37 main_v38 (broadcastInDim S32x32 ![0, 1] bcast_S32x1_S32x32_0_1 : (⟨S32x1, .f32⟩ : BufTy).Contents (Elt F) → (⟨S32x32, .f32⟩ : BufTy).Contents (Elt F)),
    binary main_v35 main_v38 main_v39 (Host.divf : (⟨S32x32, .f32⟩ : BufTy).Contents (Elt F) → (⟨S32x32, .f32⟩ : BufTy).Contents (Elt F) → (⟨S32x32, .f32⟩ : BufTy).Contents (Elt F)),
    nary ![main_v39, main_v2, main_v4] main_v40 (fun u => concatenate S32x34 1 [⟨S32x32, u 0⟩, ⟨S32x1, u 1⟩, ⟨S32x1, u 2⟩] concatenates_S32x32_S32x1_S32x1_S32x34_d1),
    binary main_v40 main_arg1 main_v41 ((fun a b => concatenate S32x35 1 [⟨S32x34, a⟩, ⟨S32x1, b⟩] concatenates_S32x34_S32x1_S32x35_d1) : (⟨S32x34, .f32⟩ : BufTy).Contents (Elt F) → (⟨S32x1, .f32⟩ : BufTy).Contents (Elt F) → (⟨S32x35, .f32⟩ : BufTy).Contents (Elt F)),
    binary main_v41 main_arg2 main_v42 ((fun l r => Host.dotGeneral dot_S32x35_S35x64_S32x64_1_0_0_1_n_n none l r) : (⟨S32x35, .f32⟩ : BufTy).Contents (Elt F) → (⟨S35x64, .f32⟩ : BufTy).Contents (Elt F) → (⟨S32x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S32x64 ![0, 1] bcast_S1x64_S32x64_0_1 : (⟨S1x64, .f32⟩ : BufTy).Contents (Elt F) → (⟨S32x64, .f32⟩ : BufTy).Contents (Elt F)),
    binary main_v42 main_v44 main_v45 (addf : (⟨S32x64, .f32⟩ : BufTy).Contents (Elt F) → (⟨S32x64, .f32⟩ : BufTy).Contents (Elt F) → (⟨S32x64, .f32⟩ : BufTy).Contents (Elt F)),
    nullary main_cst_11 (constant S_ .f32 0x3C23D70A#32),
    TRef.nullary main_call2.cst (constant S_ .f32 0x00000000#32),
    TRef.unary main_call2.cst main_call2.v0 (broadcastInDim S32x64 ![] bcast_S_S32x64),
    TRef.binary (.of main_v45 : TRef sig ⟨S32x64, .f32⟩) main_call2.v0 main_call2.v1 (cmpf .oge),
    TRef.unary (.of main_cst_11 : TRef sig ⟨S_, .f32⟩) main_call2.v2 id,
    TRef.unary main_call2.v2 main_call2.v3 (broadcastInDim S32x64 ![] bcast_S_S32x64),
    TRef.binary main_call2.v3 (.of main_v45 : TRef sig ⟨S32x64, .f32⟩) main_call2.v4 mulf,
    TRef.ternary main_call2.v1 (.of main_v45 : TRef sig ⟨S32x64, .f32⟩) main_call2.v4 main_call2.call0.v0 select,
    binary main_v46 main_arg4 main_v47 ((fun l r => Host.dotGeneral dot_S32x64_S64x64_S32x64_1_0_0_1_n_n none l r) : (⟨S32x64, .f32⟩ : BufTy).Contents (Elt F) → (⟨S64x64, .f32⟩ : BufTy).Contents (Elt F) → (⟨S32x64, .f32⟩ : BufTy).Contents (Elt F)),
    unary main_arg5 main_v48 (broadcastInDim S1x64 ![1] bcast_S64_S1x64_1 : (⟨S64, .f32⟩ : BufTy).Contents (Elt F) → (⟨S1x64, .f32⟩ : BufTy).Contents (Elt F)),
    unary main_v48 main_v49 (broadcastInDim S32x64 ![0, 1] bcast_S1x64_S32x64_0_1 : (⟨S1x64, .f32⟩ : BufTy).Contents (Elt F) → (⟨S32x64, .f32⟩ : BufTy).Contents (Elt F)),
    binary main_v47 main_v49 main_v50 (addf : (⟨S32x64, .f32⟩ : BufTy).Contents (Elt F) → (⟨S32x64, .f32⟩ : BufTy).Contents (Elt F) → (⟨S32x64, .f32⟩ : BufTy).Contents (Elt F)),
    nullary main_cst_12 (constant S_ .f32 0x3C23D70A#32),
    TRef.nullary main_call3.cst (constant S_ .f32 0x00000000#32),
    TRef.unary main_call3.cst main_call3.v0 (broadcastInDim S32x64 ![] bcast_S_S32x64),
    TRef.binary (.of main_v50 : TRef sig ⟨S32x64, .f32⟩) main_call3.v0 main_call3.v1 (cmpf .oge),
    TRef.unary (.of main_cst_12 : TRef sig ⟨S_, .f32⟩) main_call3.v2 id,
    TRef.unary main_call3.v2 main_call3.v3 (broadcastInDim S32x64 ![] bcast_S_S32x64),
    TRef.binary main_call3.v3 (.of main_v50 : TRef sig ⟨S32x64, .f32⟩) main_call3.v4 mulf,
    TRef.ternary main_call3.v1 (.of main_v50 : TRef sig ⟨S32x64, .f32⟩) main_call3.v4 main_call3.call0.v0 select,
    binary main_v51 main_v41 main_v52 ((fun a b => concatenate S32x99 1 [⟨S32x64, a⟩, ⟨S32x35, b⟩] concatenates_S32x64_S32x35_S32x99_d1) : (⟨S32x64, .f32⟩ : BufTy).Contents (Elt F) → (⟨S32x35, .f32⟩ : BufTy).Contents (Elt F) → (⟨S32x99, .f32⟩ : BufTy).Contents (Elt F)),
    binary main_v52 main_arg6 main_v53 ((fun l r => Host.dotGeneral dot_S32x99_S99x64_S32x64_1_0_0_1_n_n none l r) : (⟨S32x99, .f32⟩ : BufTy).Contents (Elt F) → (⟨S99x64, .f32⟩ : BufTy).Contents (Elt F) → (⟨S32x64, .f32⟩ : BufTy).Contents (Elt F)),
    unary main_arg7 main_v54 (broadcastInDim S1x64 ![1] bcast_S64_S1x64_1 : (⟨S64, .f32⟩ : BufTy).Contents (Elt F) → (⟨S1x64, .f32⟩ : BufTy).Contents (Elt F)),
    unary main_v54 main_v55 (broadcastInDim S32x64 ![0, 1] bcast_S1x64_S32x64_0_1 : (⟨S1x64, .f32⟩ : BufTy).Contents (Elt F) → (⟨S32x64, .f32⟩ : BufTy).Contents (Elt F)),
    binary main_v53 main_v55 main_v56 (addf : (⟨S32x64, .f32⟩ : BufTy).Contents (Elt F) → (⟨S32x64, .f32⟩ : BufTy).Contents (Elt F) → (⟨S32x64, .f32⟩ : BufTy).Contents (Elt F)),
    nullary main_cst_13 (constant S_ .f32 0x3C23D70A#32),
    TRef.nullary main_call4.cst (constant S_ .f32 0x00000000#32),
    TRef.unary main_call4.cst main_call4.v0 (broadcastInDim S32x64 ![] bcast_S_S32x64),
    TRef.binary (.of main_v56 : TRef sig ⟨S32x64, .f32⟩) main_call4.v0 main_call4.v1 (cmpf .oge),
    TRef.unary (.of main_cst_13 : TRef sig ⟨S_, .f32⟩) main_call4.v2 id,
    TRef.unary main_call4.v2 main_call4.v3 (broadcastInDim S32x64 ![] bcast_S_S32x64),
    TRef.binary main_call4.v3 (.of main_v56 : TRef sig ⟨S32x64, .f32⟩) main_call4.v4 mulf,
    TRef.ternary main_call4.v1 (.of main_v56 : TRef sig ⟨S32x64, .f32⟩) main_call4.v4 main_call4.call0.v0 select,
    binary main_v57 main_arg8 main_v58 ((fun l r => Host.dotGeneral dot_S32x64_S64x64_S32x64_1_0_0_1_n_n none l r) : (⟨S32x64, .f32⟩ : BufTy).Contents (Elt F) → (⟨S64x64, .f32⟩ : BufTy).Contents (Elt F) → (⟨S32x64, .f32⟩ : BufTy).Contents (Elt F)),
    unary main_arg9 main_v59 (broadcastInDim S1x64 ![1] bcast_S64_S1x64_1 : (⟨S64, .f32⟩ : BufTy).Contents (Elt F) → (⟨S1x64, .f32⟩ : BufTy).Contents (Elt F)),
    unary main_v59 main_v60 (broadcastInDim S32x64 ![0, 1] bcast_S1x64_S32x64_0_1 : (⟨S1x64, .f32⟩ : BufTy).Contents (Elt F) → (⟨S32x64, .f32⟩ : BufTy).Contents (Elt F)),
    binary main_v58 main_v60 main_v61 (addf : (⟨S32x64, .f32⟩ : BufTy).Contents (Elt F) → (⟨S32x64, .f32⟩ : BufTy).Contents (Elt F) → (⟨S32x64, .f32⟩ : BufTy).Contents (Elt F)),
    nullary main_cst_14 (constant S_ .f32 0x3C23D70A#32),
    TRef.nullary main_call5.cst (constant S_ .f32 0x00000000#32),
    TRef.unary main_call5.cst main_call5.v0 (broadcastInDim S32x64 ![] bcast_S_S32x64),
    TRef.binary (.of main_v61 : TRef sig ⟨S32x64, .f32⟩) main_call5.v0 main_call5.v1 (cmpf .oge),
    TRef.unary (.of main_cst_14 : TRef sig ⟨S_, .f32⟩) main_call5.v2 id,
    TRef.unary main_call5.v2 main_call5.v3 (broadcastInDim S32x64 ![] bcast_S_S32x64),
    TRef.binary main_call5.v3 (.of main_v61 : TRef sig ⟨S32x64, .f32⟩) main_call5.v4 mulf,
    TRef.ternary main_call5.v1 (.of main_v61 : TRef sig ⟨S32x64, .f32⟩) main_call5.v4 main_call5.call0.v0 select,
    binary main_v62 main_arg10 main_v63 ((fun l r => Host.dotGeneral dot_S32x64_S64x4_S32x4_1_0_0_1_n_n none l r) : (⟨S32x64, .f32⟩ : BufTy).Contents (Elt F) → (⟨S64x4, .f32⟩ : BufTy).Contents (Elt F) → (⟨S32x4, .f32⟩ : BufTy).Contents (Elt F)),
    unary main_arg11 main_v64 (broadcastInDim S1x4 ![1] bcast_S4_S1x4_1 : (⟨S4, .f32⟩ : BufTy).Contents (Elt F) → (⟨S1x4, .f32⟩ : BufTy).Contents (Elt F)),
    unary main_v64 main_v65 (broadcastInDim S32x4 ![0, 1] bcast_S1x4_S32x4_0_1 : (⟨S1x4, .f32⟩ : BufTy).Contents (Elt F) → (⟨S32x4, .f32⟩ : BufTy).Contents (Elt F)),
    binary main_v63 main_v65 main_v66 (addf : (⟨S32x4, .f32⟩ : BufTy).Contents (Elt F) → (⟨S32x4, .f32⟩ : BufTy).Contents (Elt F) → (⟨S32x4, .f32⟩ : BufTy).Contents (Elt F)),
    nullary main_cst_15 (constant S_ .f32 0x3C23D70A#32),
    TRef.nullary main_call6.cst (constant S_ .f32 0x00000000#32),
    TRef.unary main_call6.cst main_call6.v0 (broadcastInDim S32x4 ![] bcast_S_S32x4),
    TRef.binary (.of main_v66 : TRef sig ⟨S32x4, .f32⟩) main_call6.v0 main_call6.v1 (cmpf .oge),
    TRef.unary (.of main_cst_15 : TRef sig ⟨S_, .f32⟩) main_call6.v2 id,
    TRef.unary main_call6.v2 main_call6.v3 (broadcastInDim S32x4 ![] bcast_S_S32x4),
    TRef.binary main_call6.v3 (.of main_v66 : TRef sig ⟨S32x4, .f32⟩) main_call6.v4 mulf,
    TRef.ternary main_call6.v1 (.of main_v66 : TRef sig ⟨S32x4, .f32⟩) main_call6.v4 main_call6.call0.v0 select,
    unary main_v67 main_v68 ((extractStridedSlice S32x1 ![0, 0] · slices_S32x4_S32x1_0_0) : (⟨S32x4, .f32⟩ : BufTy).Contents (Elt F) → (⟨S32x1, .f32⟩ : BufTy).Contents (Elt F)),
    reshape main_v68 main_v69 rfl shapeCasts_S32x1_S32,
    unary main_v69 main_v70 (broadcastInDim S32x1x1x1 ![0] bcast_S32_S32x1x1x1_0 : (⟨S32, .f32⟩ : BufTy).Contents (Elt F) → (⟨S32x1x1x1, .f32⟩ : BufTy).Contents (Elt F)),
    binary main_arg0 main_arg0 main_v71 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_arg0 main_v71 main_v72 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v70 main_v73 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v73 main_v72 main_v74 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_arg0 main_v74 main_v75 (addf : (⟨S32x1x1024x1024, .f32⟩ : BufTy).Contents (Elt F) → (⟨S32x1x1024x1024, .f32⟩ : BufTy).Contents (Elt F) → (⟨S32x1x1024x1024, .f32⟩ : BufTy).Contents (Elt F)),
    unary main_v67 main_v76 ((extractStridedSlice S32x1 ![0, 1] · slices_S32x4_S32x1_0_1) : (⟨S32x4, .f32⟩ : BufTy).Contents (Elt F) → (⟨S32x1, .f32⟩ : BufTy).Contents (Elt F)),
    reshape main_v76 main_v77 rfl shapeCasts_S32x1_S32,
    unary main_v77 main_v78 (broadcastInDim S32x1x1x1 ![0] bcast_S32_S32x1x1x1_0 : (⟨S32, .f32⟩ : BufTy).Contents (Elt F) → (⟨S32x1x1x1, .f32⟩ : BufTy).Contents (Elt F)),
    binary main_v75 main_v75 main_v79 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v75 main_v79 main_v80 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v78 main_v81 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v81 main_v80 main_v82 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v75 main_v82 main_v83 (addf : (⟨S32x1x1024x1024, .f32⟩ : BufTy).Contents (Elt F) → (⟨S32x1x1024x1024, .f32⟩ : BufTy).Contents (Elt F) → (⟨S32x1x1024x1024, .f32⟩ : BufTy).Contents (Elt F)),
    unary main_v67 main_v84 ((extractStridedSlice S32x1 ![0, 2] · slices_S32x4_S32x1_0_2) : (⟨S32x4, .f32⟩ : BufTy).Contents (Elt F) → (⟨S32x1, .f32⟩ : BufTy).Contents (Elt F)),
    reshape main_v84 main_v85 rfl shapeCasts_S32x1_S32,
    unary main_v85 main_v86 (broadcastInDim S32x1x1x1 ![0] bcast_S32_S32x1x1x1_0 : (⟨S32, .f32⟩ : BufTy).Contents (Elt F) → (⟨S32x1x1x1, .f32⟩ : BufTy).Contents (Elt F)),
    binary main_v83 main_v83 main_v87 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v83 main_v87 main_v88 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v86 main_v89 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v89 main_v88 main_v90 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v83 main_v90 main_v91 (addf : (⟨S32x1x1024x1024, .f32⟩ : BufTy).Contents (Elt F) → (⟨S32x1x1024x1024, .f32⟩ : BufTy).Contents (Elt F) → (⟨S32x1x1024x1024, .f32⟩ : BufTy).Contents (Elt F)),
    unary main_v67 main_v92 ((extractStridedSlice S32x1 ![0, 3] · slices_S32x4_S32x1_0_3) : (⟨S32x4, .f32⟩ : BufTy).Contents (Elt F) → (⟨S32x1, .f32⟩ : BufTy).Contents (Elt F)),
    reshape main_v92 main_v93 rfl shapeCasts_S32x1_S32,
    unary main_v93 main_v94 (broadcastInDim S32x1x1x1 ![0] bcast_S32_S32x1x1x1_0 : (⟨S32, .f32⟩ : BufTy).Contents (Elt F) → (⟨S32x1x1x1, .f32⟩ : BufTy).Contents (Elt F)),
    binary main_v91 main_v91 main_v95 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v91 main_v95 main_v96 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v94 main_v97 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v97 main_v96 main_v98 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v91 main_v98 main_v99 (addf : (⟨S32x1x1024x1024, .f32⟩ : BufTy).Contents (Elt F) → (⟨S32x1x1024x1024, .f32⟩ : BufTy).Contents (Elt F) → (⟨S32x1x1024x1024, .f32⟩ : BufTy).Contents (Elt F)) ]

set_option maxRecDepth 4096 in
set_option maxHeartbeats 4000000 in
/-- @main is that straight line: the two windows and the functions' definitions unfolded at their calls, both
    sides are one chain of steps once sequencing is reassociated. -/
theorem main_eq (c : Dev nD) : main (F := F) c = seq ops := by
  simp only [main, main_part0, main_part1, fn_where.body, fn_clip.body, fn_where_0.body, fn_leaky_relu.body,
    fn_where_2.body, fn_leaky_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    reshape_bufs_sub .., nullary_bufs_sub .., binary_bufs_sub .., unary_bufs_sub .., nullary_bufs_sub .., binary_bufs_sub ..,
    unary_bufs_sub .., binary_bufs_sub .., nullary_bufs_sub .., unary_bufs_sub .., binary_bufs_sub .., nullary_bufs_sub ..,
    unary_bufs_sub .., ternary_bufs_sub .., unary_bufs_sub .., binary_bufs_sub .., unary_bufs_sub .., binary_bufs_sub ..,
    nullary_bufs_sub .., unary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., nullary_bufs_sub .., unary_bufs_sub .., binary_bufs_sub ..,
    unary_bufs_sub .., binary_bufs_sub .., reshape_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., reshape_bufs_sub .., nullary_bufs_sub ..,
    binary_bufs_sub .., unary_bufs_sub .., unary_bufs_sub .., binary_bufs_sub .., nary_bufs_sub .., binary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., reshape_bufs_sub .., unary_bufs_sub .., binary_bufs_sub .., binary_bufs_sub ..,
    unary_bufs_sub .., binary_bufs_sub .., binary_bufs_sub .., unary_bufs_sub .., reshape_bufs_sub .., unary_bufs_sub ..,
    binary_bufs_sub .., binary_bufs_sub .., unary_bufs_sub .., binary_bufs_sub .., binary_bufs_sub .., unary_bufs_sub ..,
    reshape_bufs_sub .., unary_bufs_sub .., binary_bufs_sub .., binary_bufs_sub .., unary_bufs_sub .., binary_bufs_sub ..,
    binary_bufs_sub .., unary_bufs_sub .., reshape_bufs_sub .., unary_bufs_sub .., binary_bufs_sub .., binary_bufs_sub ..,
    unary_bufs_sub .., binary_bufs_sub .., binary_bufs_sub ..⟩

/-- On every device, for any float values, from any memory with zero counters: every weakly fair execution of
    @main terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ

end Cert.ReferenceIdeal.Hand

end
-- ==== Proof.RefChunks.lean ====
import proofs.«122725_j16939351016189_2_alg».proof.Proof.RefRun

/-!
The reference's line of operations cut into four consecutive parts — the minima, maxima and histogram; the
network's input row; the five layers; the four refinement steps — and the fold over the line as the folds over the
parts in turn.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operations 1 … 53: through the histogram. -/
abbrev opsA : List (HloOp τ sig (Elt F)) :=
  [
    reshape main_arg0 main_v0 rfl shapeCasts_S32x1x1024x1024_S32x1048576,
    nullary main_cst (constant S_ .f32 0x7F800000#32),
    binary main_v0 main_cst main_v1 ((fun x v => Host.reduce FloatOps.minimumf x v reducesTo_S32x1048576_S32_d1 h_S_) : (⟨S32x1048576, .f32⟩ : BufTy).Contents (Elt F) → (⟨S_, .f32⟩ : BufTy).Contents (Elt F) → (⟨S32, .f32⟩ : BufTy).Contents (Elt F)),
    unary main_v1 main_v2 (broadcastInDim S32x1 ![0] bcast_S32_S32x1_0 : (⟨S32, .f32⟩ : BufTy).Contents (Elt F) → (⟨S32x1, .f32⟩ : BufTy).Contents (Elt F)),
    nullary main_cst_0 (constant S_ .f32 0xFF800000#32),
    binary main_v0 main_cst_0 main_v3 ((fun x v => Host.reduce FloatOps.maximumf x v reducesTo_S32x1048576_S32_d1 h_S_) : (⟨S32x1048576, .f32⟩ : BufTy).Contents (Elt F) → (⟨S_, .f32⟩ : BufTy).Contents (Elt F) → (⟨S32, .f32⟩ : BufTy).Contents (Elt F)),
    unary main_v3 main_v4 (broadcastInDim S32x1 ![0] bcast_S32_S32x1_0 : (⟨S32, .f32⟩ : BufTy).Contents (Elt F) → (⟨S32x1, .f32⟩ : BufTy).Contents (Elt F)),
    binary main_v4 main_v2 main_v5 (subf : (⟨S32x1, .f32⟩ : BufTy).Contents (Elt F) → (⟨S32x1, .f32⟩ : BufTy).Contents (Elt F) → (⟨S32x1, .f32⟩ : BufTy).Contents (Elt F)),
    nullary main_cst_1 (constant S_ .f32 0x00000000#32),
    unary main_cst_1 main_v6 (broadcastInDim S32x1 ![] bcast_S_S32x1 : (⟨S_, .f32⟩ : BufTy).Contents (Elt F) → (⟨S32x1, .f32⟩ : BufTy).Contents (Elt F)),
    binary main_v5 main_v6 main_v7 (cmpf .ogt : (⟨S32x1, .f32⟩ : BufTy).Contents (Elt F) → (⟨S32x1, .f32⟩ : BufTy).Contents (Elt F) → (⟨S32x1, .i1⟩ : BufTy).Contents (Elt F)),
    nullary main_cst_2 (constant S_ .f32 0x3F800000#32),
    unary main_cst_2 main_v8 (broadcastInDim S32x1 ![] bcast_S_S32x1 : (⟨S_, .f32⟩ : BufTy).Contents (Elt F) → (⟨S32x1, .f32⟩ : BufTy).Contents (Elt F)),
    TRef.ternary (.of main_v7 : TRef sig ⟨S32x1, .i1⟩) (.of main_v5 : TRef sig ⟨S32x1, .f32⟩) (.of main_v8 : TRef sig ⟨S32x1, .f32⟩) main_call0.v0 select,
    unary main_v2 main_v10 (broadcastInDim S32x1048576 ![0, 1] bcast_S32x1_S32x1048576_0_1 : (⟨S32x1, .f32⟩ : BufTy).Contents (Elt F) → (⟨S32x1048576, .f32⟩ : BufTy).Contents (Elt F)),
    binary main_v0 main_v10 main_v11 (subf : (⟨S32x1048576, .f32⟩ : BufTy).Contents (Elt F) → (⟨S32x1048576, .f32⟩ : BufTy).Contents (Elt F) → (⟨S32x1048576, .f32⟩ : BufTy).Contents (Elt F)),
    unary main_v9 main_v12 (broadcastInDim S32x1048576 ![0, 1] bcast_S32x1_S32x1048576_0_1 : (⟨S32x1, .f32⟩ : BufTy).Contents (Elt F) → (⟨S32x1048576, .f32⟩ : BufTy).Contents (Elt F)),
    binary main_v11 main_v12 main_v13 (Host.divf : (⟨S32x1048576, .f32⟩ : BufTy).Contents (Elt F) → (⟨S32x1048576, .f32⟩ : BufTy).Contents (Elt F) → (⟨S32x1048576, .f32⟩ : BufTy).Contents (Elt F)),
    nullary main_cst_3 (constant S_ .f32 0x42000000#32),
    unary main_cst_3 main_v14 (broadcastInDim S32x1048576 ![] bcast_S_S32x1048576 : (⟨S_, .f32⟩ : BufTy).Contents (Elt F) → (⟨S32x1048576, .f32⟩ : BufTy).Contents (Elt F)),
    binary main_v13 main_v14 main_v15 (mulf : (⟨S32x1048576, .f32⟩ : BufTy).Contents (Elt F) → (⟨S32x1048576, .f32⟩ : BufTy).Contents (Elt F) → (⟨S32x1048576, .f32⟩ : BufTy).Contents (Elt F)),
    unary main_v15 main_v16 (Host.floor : (⟨S32x1048576, .f32⟩ : BufTy).Contents (Elt F) → (⟨S32x1048576, .f32⟩ : BufTy).Contents (Elt F)),
    unary main_v16 main_v17 (fptosi 32 : (⟨S32x1048576, .f32⟩ : BufTy).Contents (Elt F) → (⟨S32x1048576, .i32⟩ : BufTy).Contents (Elt F)),
    nullary main_c (constantI S_ 32 0#32),
    nullary main_c_4 (constantI S_ 32 31#32),
    TRef.unary (.of main_c : TRef sig ⟨S_, .i32⟩) main_call1.v0 id,
    TRef.unary main_call1.v0 main_call1.v1 (broadcastInDim S32x1048576 ![] bcast_S_S32x1048576),
    TRef.binary main_call1.v1 (.of main_v17 : TRef sig ⟨S32x1048576, .i32⟩) main_call1.v2 maxsi,
    TRef.unary (.of main_c_4 : TRef sig ⟨S_, .i32⟩) main_call1.v3 id,
    TRef.unary main_call1.v3 main_call1.v4 (broadcastInDim S32x1048576 ![] bcast_S_S32x1048576),
    TRef.binary main_call1.v4 main_call1.v2 main_call1.v5 minsi,
    nullary main_v19 (iotaInDim S32 32 0),
    unary main_v19 main_v20 (broadcastInDim S32x1 ![0] bcast_S32_S32x1_0 : (⟨S32, .i32⟩ : BufTy).Contents (Elt F) → (⟨S32x1, .i32⟩ : BufTy).Contents (Elt F)),
    nullary main_c_5 (constantI S_ 32 32#32),
    unary main_c_5 main_v21 (broadcastInDim S32x1 ![] bcast_S_S32x1 : (⟨S_, .i32⟩ : BufTy).Contents (Elt F) → (⟨S32x1, .i32⟩ : BufTy).Contents (Elt F)),
    binary main_v20 main_v21 main_v22 (muli : (⟨S32x1, .i32⟩ : BufTy).Contents (Elt F) → (⟨S32x1, .i32⟩ : BufTy).Contents (Elt F) → (⟨S32x1, .i32⟩ : BufTy).Contents (Elt F)),
    unary main_v22 main_v23 (broadcastInDim S32x1048576 ![0, 1] bcast_S32x1_S32x1048576_0_1 : (⟨S32x1, .i32⟩ : BufTy).Contents (Elt F) → (⟨S32x1048576, .i32⟩ : BufTy).Contents (Elt F)),
    binary main_v18 main_v23 main_v24 (addi : (⟨S32x1048576, .i32⟩ : BufTy).Contents (Elt F) → (⟨S32x1048576, .i32⟩ : BufTy).Contents (Elt F) → (⟨S32x1048576, .i32⟩ : BufTy).Contents (Elt F)),
    reshape main_v24 main_v25 rfl shapeCasts_S32x1048576_S33554432,
    nullary main_cst_6 (constant S_ .f32 0x00000000#32),
    unary main_cst_6 main_v26 (broadcastInDim S1024 ![] bcast_S_S1024 : (⟨S_, .f32⟩ : BufTy).Contents (Elt F) → (⟨S1024, .f32⟩ : BufTy).Contents (Elt F)),
    nullary main_c_7 (constantI S_ 32 0#32),
    unary main_c_7 main_v27 (broadcastInDim S33554432 ![] bcast_S_S33554432 : (⟨S_, .i32⟩ : BufTy).Contents (Elt F) → (⟨S33554432, .i32⟩ : BufTy).Contents (Elt F)),
    binary main_v25 main_v27 main_v28 (cmpi .slt : (⟨S33554432, .i32⟩ : BufTy).Contents (Elt F) → (⟨S33554432, .i32⟩ : BufTy).Contents (Elt F) → (⟨S33554432, .i1⟩ : BufTy).Contents (Elt F)),
    nullary main_c_8 (constantI S_ 32 1024#32),
    unary main_c_8 main_v29 (broadcastInDim S33554432 ![] bcast_S_S33554432 : (⟨S_, .i32⟩ : BufTy).Contents (Elt F) → (⟨S33554432, .i32⟩ : BufTy).Contents (Elt F)),
    binary main_v25 main_v29 main_v30 (addi : (⟨S33554432, .i32⟩ : BufTy).Contents (Elt F) → (⟨S33554432, .i32⟩ : BufTy).Contents (Elt F) → (⟨S33554432, .i32⟩ : BufTy).Contents (Elt F)),
    ternary main_v28 main_v30 main_v25 main_v31 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v31 main_v32 (broadcastInDim S33554432x1 ![0] bcast_S33554432_S33554432x1_0 : (⟨S33554432, .i32⟩ : BufTy).Contents (Elt F) → (⟨S33554432x1, .i32⟩ : BufTy).Contents (Elt F)),
    nullary main_cst_9 (constant S_ .f32 0x3F800000#32),
    unary main_cst_9 main_v33 (broadcastInDim S33554432 ![] bcast_S_S33554432 : (⟨S_, .f32⟩ : BufTy).Contents (Elt F) → (⟨S33554432, .f32⟩ : BufTy).Contents (Elt F)),
    ternary main_v26 main_v32 main_v33 main_v34 ((fun x i u => Host.scatterAdd scatter_S1024_S33554432x1_S33554432_n_0_0_1 x i u) : (⟨S1024, .f32⟩ : BufTy).Contents (Elt F) → (⟨S33554432x1, .i32⟩ : BufTy).Contents (Elt F) → (⟨S33554432, .f32⟩ : BufTy).Contents (Elt F) → (⟨S1024, .f32⟩ : BufTy).Contents (Elt F)),
    reshape main_v34 main_v35 rfl shapeCasts_S1024_S32x32 ]

/-- Operations 54 … 60: the row sum, the division and the two joins. -/
abbrev opsB : List (HloOp τ sig (Elt F)) :=
  [
    nullary main_cst_10 (constant S_ .f32 0x00000000#32),
    binary main_v35 main_cst_10 main_v36 ((fun x v => Host.reduceAdd x v reducesTo_S32x32_S32_d1 h_S_) : (⟨S32x32, .f32⟩ : BufTy).Contents (Elt F) → (⟨S_, .f32⟩ : BufTy).Contents (Elt F) → (⟨S32, .f32⟩ : BufTy).Contents (Elt F)),
    unary main_v36 main_v37 (broadcastInDim S32x1 ![0] bcast_S32_S32x1_0 : (⟨S32, .f32⟩ : BufTy).Contents (Elt F) → (⟨S32x1, .f32⟩ : BufTy).Contents (Elt F)),
    unary main_v37 main_v38 (broadcastInDim S32x32 ![0, 1] bcast_S32x1_S32x32_0_1 : (⟨S32x1, .f32⟩ : BufTy).Contents (Elt F) → (⟨S32x32, .f32⟩ : BufTy).Contents (Elt F)),
    binary main_v35 main_v38 main_v39 (Host.divf : (⟨S32x32, .f32⟩ : BufTy).Contents (Elt F) → (⟨S32x32, .f32⟩ : BufTy).Contents (Elt F) → (⟨S32x32, .f32⟩ : BufTy).Contents (Elt F)),
    nary ![main_v39, main_v2, main_v4] main_v40 (fun u => concatenate S32x34 1 [⟨S32x32, u 0⟩, ⟨S32x1, u 1⟩, ⟨S32x1, u 2⟩] concatenates_S32x32_S32x1_S32x1_S32x34_d1),
    binary main_v40 main_arg1 main_v41 ((fun a b => concatenate S32x35 1 [⟨S32x34, a⟩, ⟨S32x1, b⟩] concatenates_S32x34_S32x1_S32x35_d1) : (⟨S32x34, .f32⟩ : BufTy).Contents (Elt F) → (⟨S32x1, .f32⟩ : BufTy).Contents (Elt F) → (⟨S32x35, .f32⟩ : BufTy).Contents (Elt F)) ]

/-- Operations 61 … 121: the five layers. -/
abbrev opsC : List (HloOp τ sig (Elt F)) :=
  [
    binary main_v41 main_arg2 main_v42 ((fun l r => Host.dotGeneral dot_S32x35_S35x64_S32x64_1_0_0_1_n_n none l r) : (⟨S32x35, .f32⟩ : BufTy).Contents (Elt F) → (⟨S35x64, .f32⟩ : BufTy).Contents (Elt F) → (⟨S32x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S32x64 ![0, 1] bcast_S1x64_S32x64_0_1 : (⟨S1x64, .f32⟩ : BufTy).Contents (Elt F) → (⟨S32x64, .f32⟩ : BufTy).Contents (Elt F)),
    binary main_v42 main_v44 main_v45 (addf : (⟨S32x64, .f32⟩ : BufTy).Contents (Elt F) → (⟨S32x64, .f32⟩ : BufTy).Contents (Elt F) → (⟨S32x64, .f32⟩ : BufTy).Contents (Elt F)),
    nullary main_cst_11 (constant S_ .f32 0x3C23D70A#32),
    TRef.nullary main_call2.cst (constant S_ .f32 0x00000000#32),
    TRef.unary main_call2.cst main_call2.v0 (broadcastInDim S32x64 ![] bcast_S_S32x64),
    TRef.binary (.of main_v45 : TRef sig ⟨S32x64, .f32⟩) main_call2.v0 main_call2.v1 (cmpf .oge),
    TRef.unary (.of main_cst_11 : TRef sig ⟨S_, .f32⟩) main_call2.v2 id,
    TRef.unary main_call2.v2 main_call2.v3 (broadcastInDim S32x64 ![] bcast_S_S32x64),
    TRef.binary main_call2.v3 (.of main_v45 : TRef sig ⟨S32x64, .f32⟩) main_call2.v4 mulf,
    TRef.ternary main_call2.v1 (.of main_v45 : TRef sig ⟨S32x64, .f32⟩) main_call2.v4 main_call2.call0.v0 select,
    binary main_v46 main_arg4 main_v47 ((fun l r => Host.dotGeneral dot_S32x64_S64x64_S32x64_1_0_0_1_n_n none l r) : (⟨S32x64, .f32⟩ : BufTy).Contents (Elt F) → (⟨S64x64, .f32⟩ : BufTy).Contents (Elt F) → (⟨S32x64, .f32⟩ : BufTy).Contents (Elt F)),
    unary main_arg5 main_v48 (broadcastInDim S1x64 ![1] bcast_S64_S1x64_1 : (⟨S64, .f32⟩ : BufTy).Contents (Elt F) → (⟨S1x64, .f32⟩ : BufTy).Contents (Elt F)),
    unary main_v48 main_v49 (broadcastInDim S32x64 ![0, 1] bcast_S1x64_S32x64_0_1 : (⟨S1x64, .f32⟩ : BufTy).Contents (Elt F) → (⟨S32x64, .f32⟩ : BufTy).Contents (Elt F)),
    binary main_v47 main_v49 main_v50 (addf : (⟨S32x64, .f32⟩ : BufTy).Contents (Elt F) → (⟨S32x64, .f32⟩ : BufTy).Contents (Elt F) → (⟨S32x64, .f32⟩ : BufTy).Contents (Elt F)),
    nullary main_cst_12 (constant S_ .f32 0x3C23D70A#32),
    TRef.nullary main_call3.cst (constant S_ .f32 0x00000000#32),
    TRef.unary main_call3.cst main_call3.v0 (broadcastInDim S32x64 ![] bcast_S_S32x64),
    TRef.binary (.of main_v50 : TRef sig ⟨S32x64, .f32⟩) main_call3.v0 main_call3.v1 (cmpf .oge),
    TRef.unary (.of main_cst_12 : TRef sig ⟨S_, .f32⟩) main_call3.v2 id,
    TRef.unary main_call3.v2 main_call3.v3 (broadcastInDim S32x64 ![] bcast_S_S32x64),
    TRef.binary main_call3.v3 (.of main_v50 : TRef sig ⟨S32x64, .f32⟩) main_call3.v4 mulf,
    TRef.ternary main_call3.v1 (.of main_v50 : TRef sig ⟨S32x64, .f32⟩) main_call3.v4 main_call3.call0.v0 select,
    binary main_v51 main_v41 main_v52 ((fun a b => concatenate S32x99 1 [⟨S32x64, a⟩, ⟨S32x35, b⟩] concatenates_S32x64_S32x35_S32x99_d1) : (⟨S32x64, .f32⟩ : BufTy).Contents (Elt F) → (⟨S32x35, .f32⟩ : BufTy).Contents (Elt F) → (⟨S32x99, .f32⟩ : BufTy).Contents (Elt F)),
    binary main_v52 main_arg6 main_v53 ((fun l r => Host.dotGeneral dot_S32x99_S99x64_S32x64_1_0_0_1_n_n none l r) : (⟨S32x99, .f32⟩ : BufTy).Contents (Elt F) → (⟨S99x64, .f32⟩ : BufTy).Contents (Elt F) → (⟨S32x64, .f32⟩ : BufTy).Contents (Elt F)),
    unary main_arg7 main_v54 (broadcastInDim S1x64 ![1] bcast_S64_S1x64_1 : (⟨S64, .f32⟩ : BufTy).Contents (Elt F) → (⟨S1x64, .f32⟩ : BufTy).Contents (Elt F)),
    unary main_v54 main_v55 (broadcastInDim S32x64 ![0, 1] bcast_S1x64_S32x64_0_1 : (⟨S1x64, .f32⟩ : BufTy).Contents (Elt F) → (⟨S32x64, .f32⟩ : BufTy).Contents (Elt F)),
    binary main_v53 main_v55 main_v56 (addf : (⟨S32x64, .f32⟩ : BufTy).Contents (Elt F) → (⟨S32x64, .f32⟩ : BufTy).Contents (Elt F) → (⟨S32x64, .f32⟩ : BufTy).Contents (Elt F)),
    nullary main_cst_13 (constant S_ .f32 0x3C23D70A#32),
    TRef.nullary main_call4.cst (constant S_ .f32 0x00000000#32),
    TRef.unary main_call4.cst main_call4.v0 (broadcastInDim S32x64 ![] bcast_S_S32x64),
    TRef.binary (.of main_v56 : TRef sig ⟨S32x64, .f32⟩) main_call4.v0 main_call4.v1 (cmpf .oge),
    TRef.unary (.of main_cst_13 : TRef sig ⟨S_, .f32⟩) main_call4.v2 id,
    TRef.unary main_call4.v2 main_call4.v3 (broadcastInDim S32x64 ![] bcast_S_S32x64),
    TRef.binary main_call4.v3 (.of main_v56 : TRef sig ⟨S32x64, .f32⟩) main_call4.v4 mulf,
    TRef.ternary main_call4.v1 (.of main_v56 : TRef sig ⟨S32x64, .f32⟩) main_call4.v4 main_call4.call0.v0 select,
    binary main_v57 main_arg8 main_v58 ((fun l r => Host.dotGeneral dot_S32x64_S64x64_S32x64_1_0_0_1_n_n none l r) : (⟨S32x64, .f32⟩ : BufTy).Contents (Elt F) → (⟨S64x64, .f32⟩ : BufTy).Contents (Elt F) → (⟨S32x64, .f32⟩ : BufTy).Contents (Elt F)),
    unary main_arg9 main_v59 (broadcastInDim S1x64 ![1] bcast_S64_S1x64_1 : (⟨S64, .f32⟩ : BufTy).Contents (Elt F) → (⟨S1x64, .f32⟩ : BufTy).Contents (Elt F)),
    unary main_v59 main_v60 (broadcastInDim S32x64 ![0, 1] bcast_S1x64_S32x64_0_1 : (⟨S1x64, .f32⟩ : BufTy).Contents (Elt F) → (⟨S32x64, .f32⟩ : BufTy).Contents (Elt F)),
    binary main_v58 main_v60 main_v61 (addf : (⟨S32x64, .f32⟩ : BufTy).Contents (Elt F) → (⟨S32x64, .f32⟩ : BufTy).Contents (Elt F) → (⟨S32x64, .f32⟩ : BufTy).Contents (Elt F)),
    nullary main_cst_14 (constant S_ .f32 0x3C23D70A#32),
    TRef.nullary main_call5.cst (constant S_ .f32 0x00000000#32),
    TRef.unary main_call5.cst main_call5.v0 (broadcastInDim S32x64 ![] bcast_S_S32x64),
    TRef.binary (.of main_v61 : TRef sig ⟨S32x64, .f32⟩) main_call5.v0 main_call5.v1 (cmpf .oge),
    TRef.unary (.of main_cst_14 : TRef sig ⟨S_, .f32⟩) main_call5.v2 id,
    TRef.unary main_call5.v2 main_call5.v3 (broadcastInDim S32x64 ![] bcast_S_S32x64),
    TRef.binary main_call5.v3 (.of main_v61 : TRef sig ⟨S32x64, .f32⟩) main_call5.v4 mulf,
    TRef.ternary main_call5.v1 (.of main_v61 : TRef sig ⟨S32x64, .f32⟩) main_call5.v4 main_call5.call0.v0 select,
    binary main_v62 main_arg10 main_v63 ((fun l r => Host.dotGeneral dot_S32x64_S64x4_S32x4_1_0_0_1_n_n none l r) : (⟨S32x64, .f32⟩ : BufTy).Contents (Elt F) → (⟨S64x4, .f32⟩ : BufTy).Contents (Elt F) → (⟨S32x4, .f32⟩ : BufTy).Contents (Elt F)),
    unary main_arg11 main_v64 (broadcastInDim S1x4 ![1] bcast_S4_S1x4_1 : (⟨S4, .f32⟩ : BufTy).Contents (Elt F) → (⟨S1x4, .f32⟩ : BufTy).Contents (Elt F)),
    unary main_v64 main_v65 (broadcastInDim S32x4 ![0, 1] bcast_S1x4_S32x4_0_1 : (⟨S1x4, .f32⟩ : BufTy).Contents (Elt F) → (⟨S32x4, .f32⟩ : BufTy).Contents (Elt F)),
    binary main_v63 main_v65 main_v66 (addf : (⟨S32x4, .f32⟩ : BufTy).Contents (Elt F) → (⟨S32x4, .f32⟩ : BufTy).Contents (Elt F) → (⟨S32x4, .f32⟩ : BufTy).Contents (Elt F)),
    nullary main_cst_15 (constant S_ .f32 0x3C23D70A#32),
    TRef.nullary main_call6.cst (constant S_ .f32 0x00000000#32),
    TRef.unary main_call6.cst main_call6.v0 (broadcastInDim S32x4 ![] bcast_S_S32x4),
    TRef.binary (.of main_v66 : TRef sig ⟨S32x4, .f32⟩) main_call6.v0 main_call6.v1 (cmpf .oge),
    TRef.unary (.of main_cst_15 : TRef sig ⟨S_, .f32⟩) main_call6.v2 id,
    TRef.unary main_call6.v2 main_call6.v3 (broadcastInDim S32x4 ![] bcast_S_S32x4),
    TRef.binary main_call6.v3 (.of main_v66 : TRef sig ⟨S32x4, .f32⟩) main_call6.v4 mulf,
    TRef.ternary main_call6.v1 (.of main_v66 : TRef sig ⟨S32x4, .f32⟩) main_call6.v4 main_call6.call0.v0 select ]

/-- Operations 122 … 153: the four refinement steps. -/
abbrev opsD : List (HloOp τ sig (Elt F)) :=
  [
    unary main_v67 main_v68 ((extractStridedSlice S32x1 ![0, 0] · slices_S32x4_S32x1_0_0) : (⟨S32x4, .f32⟩ : BufTy).Contents (Elt F) → (⟨S32x1, .f32⟩ : BufTy).Contents (Elt F)),
    reshape main_v68 main_v69 rfl shapeCasts_S32x1_S32,
    unary main_v69 main_v70 (broadcastInDim S32x1x1x1 ![0] bcast_S32_S32x1x1x1_0 : (⟨S32, .f32⟩ : BufTy).Contents (Elt F) → (⟨S32x1x1x1, .f32⟩ : BufTy).Contents (Elt F)),
    binary main_arg0 main_arg0 main_v71 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_arg0 main_v71 main_v72 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v70 main_v73 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v73 main_v72 main_v74 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_arg0 main_v74 main_v75 (addf : (⟨S32x1x1024x1024, .f32⟩ : BufTy).Contents (Elt F) → (⟨S32x1x1024x1024, .f32⟩ : BufTy).Contents (Elt F) → (⟨S32x1x1024x1024, .f32⟩ : BufTy).Contents (Elt F)),
    unary main_v67 main_v76 ((extractStridedSlice S32x1 ![0, 1] · slices_S32x4_S32x1_0_1) : (⟨S32x4, .f32⟩ : BufTy).Contents (Elt F) → (⟨S32x1, .f32⟩ : BufTy).Contents (Elt F)),
    reshape main_v76 main_v77 rfl shapeCasts_S32x1_S32,
    unary main_v77 main_v78 (broadcastInDim S32x1x1x1 ![0] bcast_S32_S32x1x1x1_0 : (⟨S32, .f32⟩ : BufTy).Contents (Elt F) → (⟨S32x1x1x1, .f32⟩ : BufTy).Contents (Elt F)),
    binary main_v75 main_v75 main_v79 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v75 main_v79 main_v80 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v78 main_v81 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v81 main_v80 main_v82 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v75 main_v82 main_v83 (addf : (⟨S32x1x1024x1024, .f32⟩ : BufTy).Contents (Elt F) → (⟨S32x1x1024x1024, .f32⟩ : BufTy).Contents (Elt F) → (⟨S32x1x1024x1024, .f32⟩ : BufTy).Contents (Elt F)),
    unary main_v67 main_v84 ((extractStridedSlice S32x1 ![0, 2] · slices_S32x4_S32x1_0_2) : (⟨S32x4, .f32⟩ : BufTy).Contents (Elt F) → (⟨S32x1, .f32⟩ : BufTy).Contents (Elt F)),
    reshape main_v84 main_v85 rfl shapeCasts_S32x1_S32,
    unary main_v85 main_v86 (broadcastInDim S32x1x1x1 ![0] bcast_S32_S32x1x1x1_0 : (⟨S32, .f32⟩ : BufTy).Contents (Elt F) → (⟨S32x1x1x1, .f32⟩ : BufTy).Contents (Elt F)),
    binary main_v83 main_v83 main_v87 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v83 main_v87 main_v88 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v86 main_v89 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v89 main_v88 main_v90 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v83 main_v90 main_v91 (addf : (⟨S32x1x1024x1024, .f32⟩ : BufTy).Contents (Elt F) → (⟨S32x1x1024x1024, .f32⟩ : BufTy).Contents (Elt F) → (⟨S32x1x1024x1024, .f32⟩ : BufTy).Contents (Elt F)),
    unary main_v67 main_v92 ((extractStridedSlice S32x1 ![0, 3] · slices_S32x4_S32x1_0_3) : (⟨S32x4, .f32⟩ : BufTy).Contents (Elt F) → (⟨S32x1, .f32⟩ : BufTy).Contents (Elt F)),
    reshape main_v92 main_v93 rfl shapeCasts_S32x1_S32,
    unary main_v93 main_v94 (broadcastInDim S32x1x1x1 ![0] bcast_S32_S32x1x1x1_0 : (⟨S32, .f32⟩ : BufTy).Contents (Elt F) → (⟨S32x1x1x1, .f32⟩ : BufTy).Contents (Elt F)),
    binary main_v91 main_v91 main_v95 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v91 main_v95 main_v96 (subf : (⟨S32x1x1024x1024, .f32⟩ : BufTy).Contents (Elt F) → (⟨S32x1x1024x1024, .f32⟩ : BufTy).Contents (Elt F) → (⟨S32x1x1024x1024, .f32⟩ : BufTy).Contents (Elt F)),
    unary main_v94 main_v97 (broadcastInDim S32x1x1024x1024 ![0, 1, 2, 3] bcast_S32x1x1x1_S32x1x1024x1024_0_1_2_3 : (⟨S32x1x1x1, .f32⟩ : BufTy).Contents (Elt F) → (⟨S32x1x1024x1024, .f32⟩ : BufTy).Contents (Elt F)),
    binary main_v97 main_v96 main_v98 (mulf : (⟨S32x1x1024x1024, .f32⟩ : BufTy).Contents (Elt F) → (⟨S32x1x1024x1024, .f32⟩ : BufTy).Contents (Elt F) → (⟨S32x1x1024x1024, .f32⟩ : BufTy).Contents (Elt F)),
    binary main_v91 main_v98 main_v99 (addf : (⟨S32x1x1024x1024, .f32⟩ : BufTy).Contents (Elt F) → (⟨S32x1x1024x1024, .f32⟩ : BufTy).Contents (Elt F) → (⟨S32x1x1024x1024, .f32⟩ : BufTy).Contents (Elt F)) ]

theorem ops_split : (ops : List (HloOp τ sig (Elt F))) = opsA ++ (opsB ++ (opsC ++ opsD)) := rfl

/-- The fold over the line, part by part. -/
theorem after_ops (V : Valuation τ sig (Elt F)) :
    after ops V = after opsD (after opsC (after opsB (after opsA V))) := by
  rw [ops_split, after_append, after_append, after_append]

/-- The join of the histogram row with the two columns, with each operand's contents at its own reference. -/
theorem v40_result (V : Valuation τ sig (Elt F)) :
    (nary (τ := τ) ![main_v39, main_v2, main_v4] main_v40 (fun u => concatenate S32x34 1 [⟨S32x32, u 0⟩, ⟨S32x1, u 1⟩, ⟨S32x1, u 2⟩] concatenates_S32x32_S32x1_S32x1_S32x34_d1) : HloOp τ sig (Elt F)).result V (no_index (Proc.devRef .tc main_v40))
      = concatenate S32x34 1 [⟨S32x32, (V (Proc.devRef .tc main_v39) : FVec F S32x32 .f32)⟩, ⟨S32x1, (V (Proc.devRef .tc main_v2) : FVec F S32x1 .f32)⟩, ⟨S32x1, (V (Proc.devRef .tc main_v4) : FVec F S32x1 .f32)⟩] concatenates_S32x32_S32x1_S32x1_S32x34_d1 := by
  rw [nary_result]; rfl

/-- The fold of a literal line at a literal reference as one rewriting pass: the line unrolled, each operation's
    result at its own buffer its function of its operands' contents, and at any other buffer what was there. -/
macro "fold_results" : tactic =>
  `(tactic| (simp (disch := decide) only [after_cons, after_nil,
      nullary_result', unary_result', binary_result', ternary_result', reshape_result', v40_result,
      nullary_result_ne', unary_result_ne', binary_result_ne', ternary_result_ne', reshape_result_ne', nary_result_ne']))

end Cert.ReferenceIdeal.Hand

end
-- ==== Proof.RefStageA.lean ====
import proofs.«122725_j16939351016189_2_alg».proof.Proof.RefChunks
import proofs.«122725_j16939351016189_2_alg».proof.Proof.Spec

/-!
The first part of the line: the minima, the maxima and the histogram as the staged computation of `Cert.Spec`
applied to the image, and the arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 20000 in
set_option maxHeartbeats 4000000 in
/-- The minima. -/
theorem v2A (W : Valuation τ sig (Elt F)) :
    after opsA W (Proc.devRef .tc main_v2) = (Cert.Spec.mnOf (W (Proc.devRef .tc main_arg0))) := by
  fold_results
  rfl

set_option maxRecDepth 20000 in
set_option maxHeartbeats 4000000 in
/-- The maxima. -/
theorem v4A (W : Valuation τ sig (Elt F)) :
    after opsA W (Proc.devRef .tc main_v4) = (Cert.Spec.mxOf (W (Proc.devRef .tc main_arg0))) := by
  fold_results
  rfl

set_option maxRecDepth 20000 in
set_option maxHeartbeats 4000000 in
/-- The histograms. -/
theorem v35A (W : Valuation τ sig (Elt F)) :
    after opsA W (Proc.devRef .tc main_v35) = (Cert.Spec.cntOf (F := F) (Cert.Spec.idxOf (W (Proc.devRef .tc main_arg0)) (Cert.Spec.mnOf (W (Proc.devRef .tc main_arg0))) (Cert.Spec.mxOf (W (Proc.devRef .tc main_arg0))))) := by
  fold_results
  rfl

set_option maxRecDepth 20000 in
set_option maxHeartbeats 4000000 in
theorem arg0A (W : Valuation τ sig (Elt F)) :
    after opsA W (Proc.devRef .tc main_arg0) = W (Proc.devRef .tc main_arg0) := by
  fold_results

set_option maxRecDepth 20000 in
set_option maxHeartbeats 4000000 in
theorem arg1A (W : Valuation τ sig (Elt F)) :
    after opsA W (Proc.devRef .tc main_arg1) = W (Proc.devRef .tc main_arg1) := by
  fold_results

set_option maxRecDepth 20000 in
set_option maxHeartbeats 4000000 in
theorem arg2A (W : Valuation τ sig (Elt F)) :
    after opsA W (Proc.devRef .tc main_arg2) = W (Proc.devRef .tc main_arg2) := by
  fold_results

set_option maxRecDepth 20000 in
set_option maxHeartbeats 4000000 in
theorem arg3A (W : Valuation τ sig (Elt F)) :
    after opsA W (Proc.devRef .tc main_arg3) = W (Proc.devRef .tc main_arg3) := by
  fold_results

set_option maxRecDepth 20000 in
set_option maxHeartbeats 4000000 in
theorem arg4A (W : Valuation τ sig (Elt F)) :
    after opsA W (Proc.devRef .tc main_arg4) = W (Proc.devRef .tc main_arg4) := by
  fold_results

set_option maxRecDepth 20000 in
set_option maxHeartbeats 4000000 in
theorem arg5A (W : Valuation τ sig (Elt F)) :
    after opsA W (Proc.devRef .tc main_arg5) = W (Proc.devRef .tc main_arg5) := by
  fold_results

set_option maxRecDepth 20000 in
set_option maxHeartbeats 4000000 in
theorem arg6A (W : Valuation τ sig (Elt F)) :
    after opsA W (Proc.devRef .tc main_arg6) = W (Proc.devRef .tc main_arg6) := by
  fold_results

set_option maxRecDepth 20000 in
set_option maxHeartbeats 4000000 in
theorem arg7A (W : Valuation τ sig (Elt F)) :
    after opsA W (Proc.devRef .tc main_arg7) = W (Proc.devRef .tc main_arg7) := by
  fold_results

set_option maxRecDepth 20000 in
set_option maxHeartbeats 4000000 in
theorem arg8A (W : Valuation τ sig (Elt F)) :
    after opsA W (Proc.devRef .tc main_arg8) = W (Proc.devRef .tc main_arg8) := by
  fold_results

set_option maxRecDepth 20000 in
set_option maxHeartbeats 4000000 in
theorem arg9A (W : Valuation τ sig (Elt F)) :
    after opsA W (Proc.devRef .tc main_arg9) = W (Proc.devRef .tc main_arg9) := by
  fold_results

set_option maxRecDepth 20000 in
set_option maxHeartbeats 4000000 in
theorem arg10A (W : Valuation τ sig (Elt F)) :
    after opsA W (Proc.devRef .tc main_arg10) = W (Proc.devRef .tc main_arg10) := by
  fold_results

set_option maxRecDepth 20000 in
set_option maxHeartbeats 4000000 in
theorem arg11A (W : Valuation τ sig (Elt F)) :
    after opsA W (Proc.devRef .tc main_arg11) = W (Proc.devRef .tc main_arg11) := by
  fold_results

end Cert.ReferenceIdeal.Hand

end
-- ==== Proof.RefStageB.lean ====
import proofs.«122725_j16939351016189_2_alg».proof.Proof.RefChunks
import proofs.«122725_j16939351016189_2_alg».proof.Proof.Spec

/-!
The second part of the line: the network's input row from the histogram, the minima, the maxima and the given
column, and the other arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 20000 in
set_option maxHeartbeats 4000000 in
/-- The input row. -/
theorem v41B (W : Valuation τ sig (Elt F)) :
    after opsB W (Proc.devRef .tc main_v41)
      = Cert.Spec.vecOf (W (Proc.devRef .tc main_v35)) (W (Proc.devRef .tc main_v2)) (W (Proc.devRef .tc main_v4)) (W (Proc.devRef .tc main_arg1)) := by
  fold_results
  rfl

set_option maxRecDepth 20000 in
set_option maxHeartbeats 4000000 in
theorem arg0B (W : Valuation τ sig (Elt F)) :
    after opsB W (Proc.devRef .tc main_arg0) = W (Proc.devRef .tc main_arg0) := by
  fold_results

set_option maxRecDepth 20000 in
set_option maxHeartbeats 4000000 in
theorem arg2B (W : Valuation τ sig (Elt F)) :
    after opsB W (Proc.devRef .tc main_arg2) = W (Proc.devRef .tc main_arg2) := by
  fold_results

set_option maxRecDepth 20000 in
set_option maxHeartbeats 4000000 in
theorem arg3B (W : Valuation τ sig (Elt F)) :
    after opsB W (Proc.devRef .tc main_arg3) = W (Proc.devRef .tc main_arg3) := by
  fold_results

set_option maxRecDepth 20000 in
set_option maxHeartbeats 4000000 in
theorem arg4B (W : Valuation τ sig (Elt F)) :
    after opsB W (Proc.devRef .tc main_arg4) = W (Proc.devRef .tc main_arg4) := by
  fold_results

set_option maxRecDepth 20000 in
set_option maxHeartbeats 4000000 in
theorem arg5B (W : Valuation τ sig (Elt F)) :
    after opsB W (Proc.devRef .tc main_arg5) = W (Proc.devRef .tc main_arg5) := by
  fold_results

set_option maxRecDepth 20000 in
set_option maxHeartbeats 4000000 in
theorem arg6B (W : Valuation τ sig (Elt F)) :
    after opsB W (Proc.devRef .tc main_arg6) = W (Proc.devRef .tc main_arg6) := by
  fold_results

set_option maxRecDepth 20000 in
set_option maxHeartbeats 4000000 in
theorem arg7B (W : Valuation τ sig (Elt F)) :
    after opsB W (Proc.devRef .tc main_arg7) = W (Proc.devRef .tc main_arg7) := by
  fold_results

set_option maxRecDepth 20000 in
set_option maxHeartbeats 4000000 in
theorem arg8B (W : Valuation τ sig (Elt F)) :
    after opsB W (Proc.devRef .tc main_arg8) = W (Proc.devRef .tc main_arg8) := by
  fold_results

set_option maxRecDepth 20000 in
set_option maxHeartbeats 4000000 in
theorem arg9B (W : Valuation τ sig (Elt F)) :
    after opsB W (Proc.devRef .tc main_arg9) = W (Proc.devRef .tc main_arg9) := by
  fold_results

set_option maxRecDepth 20000 in
set_option maxHeartbeats 4000000 in
theorem arg10B (W : Valuation τ sig (Elt F)) :
    after opsB W (Proc.devRef .tc main_arg10) = W (Proc.devRef .tc main_arg10) := by
  fold_results

set_option maxRecDepth 20000 in
set_option maxHeartbeats 4000000 in
theorem arg11B (W : Valuation τ sig (Elt F)) :
    after opsB W (Proc.devRef .tc main_arg11) = W (Proc.devRef .tc main_arg11) := by
  fold_results

end Cert.ReferenceIdeal.Hand

end
-- ==== Proof.RefStageC.lean ====
import proofs.«122725_j16939351016189_2_alg».proof.Proof.RefChunks
import proofs.«122725_j16939351016189_2_alg».proof.Proof.Spec

/-!
The third part of the line: the five layers, from the input row and the weights to the four coefficients, and the
image unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 20000 in
set_option maxHeartbeats 8000000 in
/-- The coefficients. -/
theorem v67C (W : Valuation τ sig (Elt F)) :
    after opsC W (Proc.devRef .tc main_v67)
      = Cert.Spec.alphasOf (W (Proc.devRef .tc main_v41)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  fold_results
  rfl

set_option maxRecDepth 20000 in
set_option maxHeartbeats 4000000 in
theorem arg0C (W : Valuation τ sig (Elt F)) :
    after opsC W (Proc.devRef .tc main_arg0) = W (Proc.devRef .tc main_arg0) := by
  fold_results

end Cert.ReferenceIdeal.Hand

end
-- ==== Proof.RefStageD.lean ====
import proofs.«122725_j16939351016189_2_alg».proof.Proof.RefChunks
import proofs.«122725_j16939351016189_2_alg».proof.Proof.Spec

/-!
The last part of the line: the four refinement steps over the image with the coefficients' columns.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 20000 in
set_option maxHeartbeats 8000000 in
/-- The result. -/
theorem v99D (W : Valuation τ sig (Elt F)) :
    after opsD W (Proc.devRef .tc main_v99)
      = Cert.Spec.refineOf (W (Proc.devRef .tc main_arg0)) (W (Proc.devRef .tc main_v67)) := by
  fold_results
  rfl

end Cert.ReferenceIdeal.Hand

end
-- ==== Proof.RefArgsA.lean ====
import proofs.«122725_j16939351016189_2_alg».proof.Proof.RefRun
import proofs.«122725_j16939351016189_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! No operation of the line writes an argument's buffer: each argument is, after the line, what it was. -/

set_option maxRecDepth 100000 in
set_option maxHeartbeats 4000000 in
theorem arg0_eq (V : Valuation τ sig (Elt F)) :
    after ops V (Proc.devRef .tc main_arg0) = V (Proc.devRef .tc main_arg0) := by
  after_results_simp

set_option maxRecDepth 100000 in
set_option maxHeartbeats 4000000 in
theorem arg1_eq (V : Valuation τ sig (Elt F)) :
    after ops V (Proc.devRef .tc main_arg1) = V (Proc.devRef .tc main_arg1) := by
  after_results_simp

set_option maxRecDepth 100000 in
set_option maxHeartbeats 4000000 in
theorem arg2_eq (V : Valuation τ sig (Elt F)) :
    after ops V (Proc.devRef .tc main_arg2) = V (Proc.devRef .tc main_arg2) := by
  after_results_simp

set_option maxRecDepth 100000 in
set_option maxHeartbeats 4000000 in
theorem arg3_eq (V : Valuation τ sig (Elt F)) :
    after ops V (Proc.devRef .tc main_arg3) = V (Proc.devRef .tc main_arg3) := by
  after_results_simp

set_option maxRecDepth 100000 in
set_option maxHeartbeats 4000000 in
theorem arg4_eq (V : Valuation τ sig (Elt F)) :
    after ops V (Proc.devRef .tc main_arg4) = V (Proc.devRef .tc main_arg4) := by
  after_results_simp

set_option maxRecDepth 100000 in
set_option maxHeartbeats 4000000 in
theorem arg5_eq (V : Valuation τ sig (Elt F)) :
    after ops V (Proc.devRef .tc main_arg5) = V (Proc.devRef .tc main_arg5) := by
  after_results_simp

end Cert.ReferenceIdeal.Hand

end
-- ==== Proof.RefArgsB.lean ====
import proofs.«122725_j16939351016189_2_alg».proof.Proof.RefRun
import proofs.«122725_j16939351016189_2_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! No operation of the line writes an argument's buffer: each argument is, after the line, what it was. -/

set_option maxRecDepth 100000 in
set_option maxHeartbeats 4000000 in
theorem arg6_eq (V : Valuation τ sig (Elt F)) :
    after ops V (Proc.devRef .tc main_arg6) = V (Proc.devRef .tc main_arg6) := by
  after_results_simp

set_option maxRecDepth 100000 in
set_option maxHeartbeats 4000000 in
theorem arg7_eq (V : Valuation τ sig (Elt F)) :
    after ops V (Proc.devRef .tc main_arg7) = V (Proc.devRef .tc main_arg7) := by
  after_results_simp

set_option maxRecDepth 100000 in
set_option maxHeartbeats 4000000 in
theorem arg8_eq (V : Valuation τ sig (Elt F)) :
    after ops V (Proc.devRef .tc main_arg8) = V (Proc.devRef .tc main_arg8) := by
  after_results_simp

set_option maxRecDepth 100000 in
set_option maxHeartbeats 4000000 in
theorem arg9_eq (V : Valuation τ sig (Elt F)) :
    after ops V (Proc.devRef .tc main_arg9) = V (Proc.devRef .tc main_arg9) := by
  after_results_simp

set_option maxRecDepth 100000 in
set_option maxHeartbeats 4000000 in
theorem arg10_eq (V : Valuation τ sig (Elt F)) :
    after ops V (Proc.devRef .tc main_arg10) = V (Proc.devRef .tc main_arg10) := by
  after_results_simp

set_option maxRecDepth 100000 in
set_option maxHeartbeats 4000000 in
theorem arg11_eq (V : Valuation τ sig (Elt F)) :
    after ops V (Proc.devRef .tc main_arg11) = V (Proc.devRef .tc main_arg11) := by
  after_results_simp

end Cert.ReferenceIdeal.Hand

end
-- ==== Proof.RefValue.lean ====
import proofs.«122725_j16939351016189_2_alg».proof.Proof.RefStageA
import proofs.«122725_j16939351016189_2_alg».proof.Proof.RefStageB
import proofs.«122725_j16939351016189_2_alg».proof.Proof.RefStageC
import proofs.«122725_j16939351016189_2_alg».proof.Proof.RefStageD
import proofs.«122725_j16939351016189_2_alg».proof.Proof.RefArgsA
import proofs.«122725_j16939351016189_2_alg».proof.Proof.RefArgsB

/-!
The reference's result as a function of its arguments: after the line of operations the result buffer holds the
staged computation of `Cert.Spec` applied to the arguments' launch contents, and the arguments are unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold at the result buffer, part by part from the last: the refinement of the image by the coefficients, those
    from the input row and the weights, the row from the histogram, minima and maxima, and these from the image. -/
theorem v99_eq (V : Valuation τ sig (Elt F)) :
    after ops V (Proc.devRef .tc main_v99) = Cert.Spec.resultOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, v99D, v67C, arg0C, v41B, arg0B, arg2B, arg3B, arg4B, arg5B, arg6B, arg7B, arg8B, arg9B, arg10B, arg11B, v35A, v2A, v4A, arg0A, arg1A, arg2A, arg3A, arg4A, arg5A, arg6A, arg7A, arg8A, arg9A, arg10A, arg11A]
  rfl

/-- On every device, for any float values, from any memory with zero counters: every weakly fair execution of
    @main terminates with the result buffer at the staged computation of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = Cert.Spec.resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v99).trans (v99_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_after m ρ)

end Cert.ReferenceIdeal.Hand

end
-- ==== Proof.lean ====
/-
  The certificate of the histogram-branch kernel against its jnp reference.

  The kernel is three pallas regions with host operations between them: per-sample minima and maxima of a 32 × 1 × 1024 × 1024 image,
  accumulated over row tiles; a 32-bin histogram of the bin indices ⌊(v − mn) / safe · 32⌋ clipped to [0, 31], accumulated over row
  tiles; a small network on the host from the normalised histogram, the minima, the maxima and `mu` to four step sizes per sample;
  and four pointwise steps out ← out + a · (out − out²). The reference computes the minima and maxima by one reduction each, the
  histogram by a scatter-add of ones, and the rest by the same operations.

  Frames: each region's body is run once per case of its one branch (the first row tile of a batch half resets the running values),
  what its output buffers hold point by point is defined by recursion on the point, and @main is the chain of its sixteen items over the
  buffer contents at each boundary (Proof/Kernel/*, Proof/KernelIdeal/*: the same text at the two instances). The reference is a straight
  line of host operations (Proof/RefRun.lean).

  Values, over the extended reals: an infimum taken tile by tile is the infimum; a count taken tile by tile, bin by bin, is the count
  the scatter-add makes (an update lands on entry 32·sample + bin exactly when its index says so); the network and the refine steps are
  the same operations on both sides. No law that needs finiteness is used, so the precondition is never opened.
-/
import proofs.«122725_j16939351016189_2_alg».proof.Defs
import proofs.«122725_j16939351016189_2_alg».proof.Proof.Gen.Kernel
import proofs.«122725_j16939351016189_2_alg».proof.Proof.Gen.KernelIdeal
import proofs.«122725_j16939351016189_2_alg».proof.Proof.Gen.ReferenceIdeal
import proofs.«122725_j16939351016189_2_alg».proof.Proof.Gen.Pre_finite_inputs
import proofs.«122725_j16939351016189_2_alg».proof.Proof.Kernel.Run
import proofs.«122725_j16939351016189_2_alg».proof.Proof.KernelIdeal.Run
import proofs.«122725_j16939351016189_2_alg».proof.Proof.KernelIdeal.Legs
import proofs.«122725_j16939351016189_2_alg».proof.Proof.RefValue

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)
/-- The ideal pass rewrote nothing. -/
theorem preserves : Cert.preserves_Kernel_KernelIdeal := trivial

/-- Both programs end with the reference's function of the arguments in their result buffers: the kernel by `result_eq`, the reference
    by its run, at arguments that agree. -/
theorem algebraic : Cert.algebraic_KernelIdeal_ReferenceIdeal := by
  intro m ρ m' ρ' _ hagree
  refine ⟨fun c => Cert.Spec.resultOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono
      (fun _ h c => ⟨(h c).1.trans (Cert.KernelIdeal.Hand.result_eq (Cert.KernelIdeal.Hand.legs m ρ) c), (h c).2⟩)
      (Cert.KernelIdeal.Hand.run (F := Ideal) m ρ)
  · refine (θ_run (Cert.ReferenceIdeal.defs (F := Ideal)) _ _).mono (fun _ h c => ⟨(h c).1.trans ?_, (h c).2⟩)
      (Cert.ReferenceIdeal.Hand.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
